-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S698368x125 : Shape := ⟨2, ![698368, 125]⟩
abbrev S696320x12 : Shape := ⟨2, ![696320, 12]⟩
abbrev S177x125 : Shape := ⟨2, ![177, 125]⟩
abbrev S125 : Shape := ⟨1, ![125]⟩
abbrev S125x40 : Shape := ⟨2, ![125, 40]⟩
abbrev S40 : Shape := ⟨1, ![40]⟩
abbrev S_ : Shape := ⟨0, ![]⟩

class Facts : Prop where
  bcast_S_S698368x125 : S_.BroadcastsInDim S698368x125 (![] : Fin 0 → Fin S698368x125.rank)
  reducesTo_S698368x125_S_d0_1 : S698368x125.ReducesTo [0, 1] S_
  h_S_ : 0 < S_.numel
  bcast_S_S696320x12 : S_.BroadcastsInDim S696320x12 (![] : Fin 0 → Fin S696320x12.rank)
  reducesTo_S696320x12_S_d0_1 : S696320x12.ReducesTo [0, 1] S_
  bcast_S_S177x125 : S_.BroadcastsInDim S177x125 (![] : Fin 0 → Fin S177x125.rank)
  reducesTo_S177x125_S_d0_1 : S177x125.ReducesTo [0, 1] S_
  bcast_S_S125 : S_.BroadcastsInDim S125 (![] : Fin 0 → Fin S125.rank)
  reducesTo_S125_S_d0 : S125.ReducesTo [0] S_
  bcast_S_S125x40 : S_.BroadcastsInDim S125x40 (![] : Fin 0 → Fin S125x40.rank)
  reducesTo_S125x40_S_d0_1 : S125x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S125x40 .f32) (main_arg5 : FVec F S40 .f32) (main_v13 : IVec S_ 1) (main_v16 : IVec S125 1) : IVec S_ 1 :=
  let main_c_5 : IVec S_ 1 := constantI S_ 1 1#1
  let main_v17 : IVec S_ 1 := (fun x v => Host.reduce IntOp.andi x v reducesTo_S125_S_d0 h_S_) main_v16 main_c_5
  let main_v18 : IVec S_ 1 := andi main_v13 main_v17
  let main_v19 : FVec F S125x40 .f32 := Host.absf main_arg4
  let main_cst_6 : FVec F S_ .f32 := constant S_ .f32 0x7F800000#32
  let main_v20 : FVec F S125x40 .f32 := broadcastInDim S125x40 ![] bcast_S_S125x40 main_cst_6
  let main_v21 : IVec S125x40 1 := cmpf .olt main_v19 main_v20
  let main_c_7 : IVec S_ 1 := constantI S_ 1 1#1
  let main_v22 : IVec S_ 1 := (fun x v => Host.reduce IntOp.andi x v reducesTo_S125x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S698368x125 .f32) (main_arg1 : FVec F S696320x12 .f32) (main_arg2 : FVec F S177x125 .f32) (main_arg3 : FVec F S125 .f32) (main_arg4 : FVec F S125x40 .f32) (main_arg5 : FVec F S40 .f32) : IVec S_ 1 :=
  let main_v0 : FVec F S698368x125 .f32 := Host.absf main_arg0
  let main_cst : FVec F S_ .f32 := constant S_ .f32 0x7F800000#32
  let main_v1 : FVec F S698368x125 .f32 := broadcastInDim S698368x125 ![] bcast_S_S698368x125 main_cst
  let main_v2 : IVec S698368x125 1 := cmpf .olt main_v0 main_v1
  let main_c : IVec S_ 1 := constantI S_ 1 1#1
  let main_v3 : IVec S_ 1 := (fun x v => Host.reduce IntOp.andi x v reducesTo_S698368x125_S_d0_1 h_S_) main_v2 main_c
  let main_v4 : FVec F S696320x12 .f32 := Host.absf main_arg1
  let main_cst_0 : FVec F S_ .f32 := constant S_ .f32 0x7F800000#32
  let main_v5 : FVec F S696320x12 .f32 := broadcastInDim S696320x12 ![] bcast_S_S696320x12 main_cst_0
  let main_v6 : IVec S696320x12 1 := cmpf .olt main_v4 main_v5
  let main_c_1 : IVec S_ 1 := constantI S_ 1 1#1
  let main_v7 : IVec S_ 1 := (fun x v => Host.reduce IntOp.andi x v reducesTo_S696320x12_S_d0_1 h_S_) main_v6 main_c_1
  let main_v8 : IVec S_ 1 := andi main_v3 main_v7
  let main_v9 : FVec F S177x125 .f32 := Host.absf main_arg2
  let main_cst_2 : FVec F S_ .f32 := constant S_ .f32 0x7F800000#32
  let main_v10 : FVec F S177x125 .f32 := broadcastInDim S177x125 ![] bcast_S_S177x125 main_cst_2
  let main_v11 : IVec S177x125 1 := cmpf .olt main_v9 main_v10
  let main_c_3 : IVec S_ 1 := constantI S_ 1 1#1
  let main_v12 : IVec S_ 1 := (fun x v => Host.reduce IntOp.andi x v reducesTo_S177x125_S_d0_1 h_S_) main_v11 main_c_3
  let main_v13 : IVec S_ 1 := andi main_v8 main_v12
  let main_v14 : FVec F S125 .f32 := Host.absf main_arg3
  let main_cst_4 : FVec F S_ .f32 := constant S_ .f32 0x7F800000#32
  let main_v15 : FVec F S125 .f32 := broadcastInDim S125 ![] bcast_S_S125 main_cst_4
  let main_v16 : IVec S125 1 := cmpf .olt main_v14 main_v15
  fn_part1 (F := F) main_arg4 main_arg5 main_v13 main_v16
-- ==== Kernel.lean ====
abbrev S698368x125 : Shape := ⟨2, ![698368, 125]⟩
abbrev S696320x12 : Shape := ⟨2, ![696320, 12]⟩
abbrev S177x125 : Shape := ⟨2, ![177, 125]⟩
abbrev S125 : Shape := ⟨1, ![125]⟩
abbrev S125x40 : Shape := ⟨2, ![125, 40]⟩
abbrev S40 : Shape := ⟨1, ![40]⟩
abbrev S125x125 : Shape := ⟨2, ![125, 125]⟩
abbrev S12x125 : Shape := ⟨2, ![12, 125]⟩
abbrev S40x125 : Shape := ⟨2, ![40, 125]⟩
abbrev S1x125 : Shape := ⟨2, ![1, 125]⟩
abbrev S1x40 : Shape := ⟨2, ![1, 40]⟩
abbrev S524288x125 : Shape := ⟨2, ![524288, 125]⟩
abbrev S131072x125 : Shape := ⟨2, ![131072, 125]⟩
abbrev S524288x12 : Shape := ⟨2, ![524288, 12]⟩
abbrev S131072x40 : Shape := ⟨2, ![131072, 40]⟩
abbrev S4096x125 : Shape := ⟨2, ![4096, 125]⟩
abbrev S1024x125 : Shape := ⟨2, ![1024, 125]⟩
abbrev S4096x12 : Shape := ⟨2, ![4096, 12]⟩
abbrev S1024x40 : Shape := ⟨2, ![1024, 40]⟩
abbrev S4096x40 : Shape := ⟨2, ![4096, 40]⟩
abbrev S1024x1x125 : Shape := ⟨3, ![1024, 1, 125]⟩
abbrev S1024x4x125 : Shape := ⟨3, ![1024, 4, 125]⟩
abbrev S1024x4x40 : Shape := ⟨3, ![1024, 4, 40]⟩
abbrev S32768x125 : Shape := ⟨2, ![32768, 125]⟩
abbrev S131072x12 : Shape := ⟨2, ![131072, 12]⟩
abbrev S32768x40 : Shape := ⟨2, ![32768, 40]⟩
abbrev S8192x125 : Shape := ⟨2, ![8192, 125]⟩
abbrev S32768x12 : Shape := ⟨2, ![32768, 12]⟩
abbrev S8192x40 : Shape := ⟨2, ![8192, 40]⟩
abbrev S2048x125 : Shape := ⟨2, ![2048, 125]⟩
abbrev S8192x12 : Shape := ⟨2, ![8192, 12]⟩
abbrev S2048x40 : Shape := ⟨2, ![2048, 40]⟩

abbrev nBuf : Space → Nat
  | .hbm => 28
  | .vmem => 56
  | .smem => 0
  | _ => 0

abbrev bufTy : (tb : Table) → Fin (tcTables nBuf tb) → BufTy
  | .hbm, ⟨0, _⟩ => ⟨S698368x125, .f32⟩
  | .hbm, ⟨1, _⟩ => ⟨S696320x12, .f32⟩
  | .hbm, ⟨2, _⟩ => ⟨S177x125, .f32⟩
  | .hbm, ⟨3, _⟩ => ⟨S125, .f32⟩
  | .hbm, ⟨4, _⟩ => ⟨S125x40, .f32⟩
  | .hbm, ⟨5, _⟩ => ⟨S40, .f32⟩
  | .hbm, ⟨6, _⟩ => ⟨S125x125, .f32⟩
  | .hbm, ⟨7, _⟩ => ⟨S125x125, .bf16⟩
  | .hbm, ⟨8, _⟩ => ⟨S12x125, .f32⟩
  | .hbm, ⟨9, _⟩ => ⟨S12x125, .bf16⟩
  | .hbm, ⟨10, _⟩ => ⟨S40x125, .f32⟩
  | .hbm, ⟨11, _⟩ => ⟨S40x125, .bf16⟩
  | .hbm, ⟨12, _⟩ => ⟨S125x40, .bf16⟩
  | .hbm, ⟨13, _⟩ => ⟨S1x125, .f32⟩
  | .hbm, ⟨14, _⟩ => ⟨S1x40, .f32⟩
  | .hbm, ⟨15, _⟩ => ⟨S524288x125, .f32⟩
  | .hbm, ⟨16, _⟩ => ⟨S131072x125, .f32⟩
  | .hbm, ⟨17, _⟩ => ⟨S524288x12, .f32⟩
  | .hbm, ⟨18, _⟩ => ⟨S131072x40, .f32⟩
  | .hbm, ⟨19, _⟩ => ⟨S32768x125, .f32⟩
  | .hbm, ⟨20, _⟩ => ⟨S131072x12, .f32⟩
  | .hbm, ⟨21, _⟩ => ⟨S32768x40, .f32⟩
  | .hbm, ⟨22, _⟩ => ⟨S8192x125, .f32⟩
  | .hbm, ⟨23, _⟩ => ⟨S32768x12, .f32⟩
  | .hbm, ⟨24, _⟩ => ⟨S8192x40, .f32⟩
  | .hbm, ⟨25, _⟩ => ⟨S2048x125, .f32⟩
  | .hbm, ⟨26, _⟩ => ⟨S8192x12, .f32⟩
  | .hbm, ⟨27, _⟩ => ⟨S2048x40, .f32⟩
  | .local _ .vmem, ⟨0, _⟩ => ⟨S4096x125, .f32⟩
  | .local _ .vmem, ⟨1, _⟩ => ⟨S4096x125, .f32⟩
  | .local _ .vmem, ⟨2, _⟩ => ⟨S1024x125, .f32⟩
  | .local _ .vmem, ⟨3, _⟩ => ⟨S1024x125, .f32⟩
  | .local _ .vmem, ⟨4, _⟩ => ⟨S4096x12, .f32⟩
  | .local _ .vmem, ⟨5, _⟩ => ⟨S4096x12, .f32⟩
  | .local _ .vmem, ⟨6, _⟩ => ⟨S125x125, .bf16⟩
  | .local _ .vmem, ⟨7, _⟩ => ⟨S12x125, .bf16⟩
  | .local _ .vmem, ⟨8, _⟩ => ⟨S40x125, .bf16⟩
  | .local _ .vmem, ⟨9, _⟩ => ⟨S125x40, .bf16⟩
  | .local _ .vmem, ⟨10, _⟩ => ⟨S1x125, .f32⟩
  | .local _ .vmem, ⟨11, _⟩ => ⟨S1x40, .f32⟩
  | .local _ .vmem, ⟨12, _⟩ => ⟨S1024x40, .f32⟩
  | .local _ .vmem, ⟨13, _⟩ => ⟨S1024x40, .f32⟩
  | .local _ .vmem, ⟨14, _⟩ => ⟨S1024x125, .f32⟩
  | .local _ .vmem, ⟨15, _⟩ => ⟨S1024x125, .f32⟩
  | .local _ .vmem, ⟨16, _⟩ => ⟨S4096x12, .f32⟩
  | .local _ .vmem, ⟨17, _⟩ => ⟨S4096x12, .f32⟩
  | .local _ .vmem, ⟨18, _⟩ => ⟨S4096x40, .f32⟩
  | .local _ .vmem, ⟨19, _⟩ => ⟨S4096x40, .f32⟩
  | .local _ .vmem, ⟨20, _⟩ => ⟨S125x125, .bf16⟩
  | .local _ .vmem, ⟨21, _⟩ => ⟨S12x125, .bf16⟩
  | .local _ .vmem, ⟨22, _⟩ => ⟨S40x125, .bf16⟩
  | .local _ .vmem, ⟨23, _⟩ => ⟨S125x40, .bf16⟩
  | .local _ .vmem, ⟨24, _⟩ => ⟨S1x125, .f32⟩
  | .local _ .vmem, ⟨25, _⟩ => ⟨S1x40, .f32⟩
  | .local _ .vmem, ⟨26, _⟩ => ⟨S1024x40, .f32⟩
  | .local _ .vmem, ⟨27, _⟩ => ⟨S1024x40, .f32⟩
  | .local _ .vmem, ⟨28, _⟩ => ⟨S1024x125, .f32⟩
  | .local _ .vmem, ⟨29, _⟩ => ⟨S1024x125, .f32⟩
  | .local _ .vmem, ⟨30, _⟩ => ⟨S4096x12, .f32⟩
  | .local _ .vmem, ⟨31, _⟩ => ⟨S4096x12, .f32⟩
  | .local _ .vmem, ⟨32, _⟩ => ⟨S4096x40, .f32⟩
  | .local _ .vmem, ⟨33, _⟩ => ⟨S4096x40, .f32⟩
  | .local _ .vmem, ⟨34, _⟩ => ⟨S125x125, .bf16⟩
  | .local _ .vmem, ⟨35, _⟩ => ⟨S12x125, .bf16⟩
  | .local _ .vmem, ⟨36, _⟩ => ⟨S40x125, .bf16⟩
  | .local _ .vmem, ⟨37, _⟩ => ⟨S125x40, .bf16⟩
  | .local _ .vmem, ⟨38, _⟩ => ⟨S1x125, .f32⟩
  | .local _ .vmem, ⟨39, _⟩ => ⟨S1x40, .f32⟩
  | .local _ .vmem, ⟨40, _⟩ => ⟨S1024x40, .f32⟩
  | .local _ .vmem, ⟨41, _⟩ => ⟨S1024x40, .f32⟩
  | .local _ .vmem, ⟨42, _⟩ => ⟨S1024x125, .f32⟩
  | .local _ .vmem, ⟨43, _⟩ => ⟨S1024x125, .f32⟩
  | .local _ .vmem, ⟨44, _⟩ => ⟨S4096x12, .f32⟩
  | .local _ .vmem, ⟨45, _⟩ => ⟨S4096x12, .f32⟩
  | .local _ .vmem, ⟨46, _⟩ => ⟨S4096x40, .f32⟩
  | .local _ .vmem, ⟨47, _⟩ => ⟨S4096x40, .f32⟩
  | .local _ .vmem, ⟨48, _⟩ => ⟨S125x125, .bf16⟩
  | .local _ .vmem, ⟨49, _⟩ => ⟨S12x125, .bf16⟩
  | .local _ .vmem, ⟨50, _⟩ => ⟨S40x125, .bf16⟩
  | .local _ .vmem, ⟨51, _⟩ => ⟨S125x40, .bf16⟩
  | .local _ .vmem, ⟨52, _⟩ => ⟨S1x125, .f32⟩
  | .local _ .vmem, ⟨53, _⟩ => ⟨S1x40, .f32⟩
  | .local _ .vmem, ⟨54, _⟩ => ⟨S1024x40, .f32⟩
  | .local _ .vmem, ⟨55, _⟩ => ⟨S1024x40, .f32⟩
  | _, _ => ⟨S698368x125, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg9_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem9_1 : DmaSem sig := 55

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x125 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x125 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S125x125 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x125 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x125 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S125x40 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x125 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x125 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S125x125 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S12x125 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40x125 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S125x40 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x125 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x40 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x40 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x125 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x12 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S125x125 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S12x125 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S40x125 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S125x40 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x125 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x40 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1024x40 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x125 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x12 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S125x125 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S12x125 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S40x125 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S125x40 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x125 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x40 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1024x40 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S177x125_S125x125_0_0 : S177x125.Slices ![0, 0] S125x125
  bitsLt_bf16_f32 : FTy.bits .bf16 < FTy.bits .f32
  slices_S177x125_S12x125_125_0 : S177x125.Slices ![125, 0] S12x125
  slices_S177x125_S40x125_137_0 : S177x125.Slices ![137, 0] S40x125
  shapeCasts_S125_S1x125 : S125.ShapeCasts S1x125
  shapeCasts_S40_S1x40 : S40.ShapeCasts S1x40
  slices_S698368x125_S524288x125_174080_0 : S698368x125.Slices ![174080, 0] S524288x125
  slices_S698368x125_S131072x125_43008_0 : S698368x125.Slices ![43008, 0] S131072x125
  slices_S696320x12_S524288x12_172032_0 : S696320x12.Slices ![172032, 0] S524288x12
  inb_S125x125_S125x125_0_0 : ∀ a, (![0, 0] : Fin 2 → Nat) a + S125x125.size a ≤ S125x125.size a
  h_S125x125 : 0 < S125x125.numel
  shapeCasts_S125x125_S125x125 : S125x125.ShapeCasts S125x125
  inb_S125x40_S125x40_0_0 : ∀ a, (![0, 0] : Fin 2 → Nat) a + S125x40.size a ≤ S125x40.size a
  h_S125x40 : 0 < S125x40.numel
  shapeCasts_S125x40_S125x40 : S125x40.ShapeCasts S125x40
  inb_S4096x125_S4096x125_0_0 : ∀ a, (![0, 0] : Fin 2 → Nat) a + S4096x125.size a ≤ S4096x125.size a
  h_S4096x125 : 0 < S4096x125.numel
  shapeCasts_S4096x125_S4096x125 : S4096x125.ShapeCasts S4096x125
  inb_S1x125_S1x125_0_0 : ∀ a, (![0, 0] : Fin 2 → Nat) a + S1x125.size a ≤ S1x125.size a
  h_S1x125 : 0 < S1x125.numel
  shapeCasts_S1x125_S1x125 : S1x125.ShapeCasts S1x125
  broadcasts_S1x125_S4096x125 : S1x125.Broadcasts S4096x125
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4096x40 : S1x40.Broadcasts S4096x40
  inb_S1024x125_S1024x125_0_0 : ∀ a, (![0, 0] : Fin 2 → Nat) a + S1024x125.size a ≤ S1024x125.size a
  h_S1024x125 : 0 < S1024x125.numel
  shapeCasts_S1024x125_S1024x125 : S1024x125.ShapeCasts S1024x125
  inb_S4096x12_S4096x12_0_0 : ∀ a, (![0, 0] : Fin 2 → Nat) a + S4096x12.size a ≤ S4096x12.size a
  h_S4096x12 : 0 < S4096x12.numel
  shapeCasts_S4096x12_S4096x12 : S4096x12.ShapeCasts S4096x12
  shapeCasts_S1024x125_S1024x1x125 : S1024x125.ShapeCasts S1024x1x125
  broadcasts_S1024x1x125_S1024x4x125 : S1024x1x125.Broadcasts S1024x4x125
  shapeCasts_S1024x4x125_S4096x125 : S1024x4x125.ShapeCasts S4096x125
  inb_S12x125_S12x125_0_0 : ∀ a, (![0, 0] : Fin 2 → Nat) a + S12x125.size a ≤ S12x125.size a
  h_S12x125 : 0 < S12x125.numel
  shapeCasts_S12x125_S12x125 : S12x125.ShapeCasts S12x125
  inb_S40x125_S40x125_0_0 : ∀ a, (![0, 0] : Fin 2 → Nat) a + S40x125.size a ≤ S40x125.size a
  h_S40x125 : 0 < S40x125.numel
  shapeCasts_S40x125_S40x125 : S40x125.ShapeCasts S40x125
  shapeCasts_S4096x40_S1024x4x40 : S4096x40.ShapeCasts S1024x4x40
  reduces_S1024x4x40_S1024x40 : S1024x4x40.Reduces [1] S1024x40
  inb_S1024x40_S1024x40_0_0 : ∀ a, (![0, 0] : Fin 2 → Nat) a + S1024x40.size a ≤ S1024x40.size a
  h_S1024x40 : 0 < S1024x40.numel
  slices_S698368x125_S32768x125_10240_0 : S698368x125.Slices ![10240, 0] S32768x125
  slices_S696320x12_S131072x12_40960_0 : S696320x12.Slices ![40960, 0] S131072x12
  inb_S4096x40_S4096x40_0_0 : ∀ a, (![0, 0] : Fin 2 → Nat) a + S4096x40.size a ≤ S4096x40.size a
  h_S4096x40 : 0 < S4096x40.numel
  shapeCasts_S4096x40_S4096x40 : S4096x40.ShapeCasts S4096x40
  slices_S698368x125_S8192x125_2048_0 : S698368x125.Slices ![2048, 0] S8192x125
  slices_S696320x12_S32768x12_8192_0 : S696320x12.Slices ![8192, 0] S32768x12
  slices_S698368x125_S2048x125_0_0 : S698368x125.Slices ![0, 0] S2048x125
  slices_S696320x12_S8192x12_0_0 : S696320x12.Slices ![0, 0] S8192x12
  dot_S4096x125_S125x125_S4096x125_1_0_0_1_n_n_wf : DotDims.WF S4096x125 S125x125 S4096x125 [1] [0] [0] [1] [] []
  dot_S4096x125_S125x40_S4096x40_1_0_0_1_n_n_wf : DotDims.WF S4096x125 S125x40 S4096x40 [1] [0] [0] [1] [] []
  dot_S1024x125_S125x125_S1024x125_1_0_0_1_n_n_wf : DotDims.WF S1024x125 S125x125 S1024x125 [1] [0] [0] [1] [] []
  dot_S4096x12_S12x125_S4096x125_1_0_0_1_n_n_wf : DotDims.WF S4096x12 S12x125 S4096x125 [1] [0] [0] [1] [] []
  dot_S4096x40_S40x125_S4096x125_1_0_0_1_n_n_wf : DotDims.WF S4096x40 S40x125 S4096x125 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x125.size a ≤ S524288x125.size a
  hwx0_0 : ∀ i : grid0.Coords, EltTy.bits .f32 = 32 ∨ (Rect.block (s := S524288x125) S4096x125.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x125.size a ≤ S131072x125.size a
  hwx0_1 : ∀ i : grid0.Coords, EltTy.bits .f32 = 32 ∨ (Rect.block (s := S131072x125) S1024x125.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x12.size a ≤ S524288x12.size a
  hwx0_2 : ∀ i : grid0.Coords, EltTy.bits .f32 = 32 ∨ (Rect.block (s := S524288x12) S4096x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S125x125.size a ≤ S125x125.size a
  hwx0_3 : ∀ i : grid0.Coords, EltTy.bits .bf16 = 32 ∨ (Rect.block (s := S125x125) S125x125.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x125.size a ≤ S12x125.size a
  hwx0_4 : ∀ i : grid0.Coords, EltTy.bits .bf16 = 32 ∨ (Rect.block (s := S12x125) S12x125.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x125.size a ≤ S40x125.size a
  hwx0_5 : ∀ i : grid0.Coords, EltTy.bits .bf16 = 32 ∨ (Rect.block (s := S40x125) S40x125.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S125x40.size a ≤ S125x40.size a
  hwx0_6 : ∀ i : grid0.Coords, EltTy.bits .bf16 = 32 ∨ (Rect.block (s := S125x40) S125x40.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x125.size a ≤ S1x125.size a
  hwx0_7 : ∀ i : grid0.Coords, EltTy.bits .f32 = 32 ∨ (Rect.block (s := S1x125) S1x125.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x40.size a ≤ S131072x40.size a
  hwx0_9 : ∀ i : grid0.Coords, EltTy.bits .f32 = 32 ∨ (Rect.block (s := S131072x40) S1024x40.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x125.size a ≤ S32768x125.size a
  hwx1_0 : ∀ i : grid1.Coords, EltTy.bits .f32 = 32 ∨ (Rect.block (s := S32768x125) S1024x125.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x12.size a ≤ S131072x12.size a
  hwx1_1 : ∀ i : grid1.Coords, EltTy.bits .f32 = 32 ∨ (Rect.block (s := S131072x12) S4096x12.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x40.size a ≤ S131072x40.size a
  hwx1_2 : ∀ i : grid1.Coords, EltTy.bits .f32 = 32 ∨ (Rect.block (s := S131072x40) S4096x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S125x125.size a ≤ S125x125.size a
  hwx1_3 : ∀ i : grid1.Coords, EltTy.bits .bf16 = 32 ∨ (Rect.block (s := S125x125) S125x125.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S12x125.size a ≤ S12x125.size a
  hwx1_4 : ∀ i : grid1.Coords, EltTy.bits .bf16 = 32 ∨ (Rect.block (s := S12x125) S12x125.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40x125.size a ≤ S40x125.size a
  hwx1_5 : ∀ i : grid1.Coords, EltTy.bits .bf16 = 32 ∨ (Rect.block (s := S40x125) S40x125.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S125x40.size a ≤ S125x40.size a
  hwx1_6 : ∀ i : grid1.Coords, EltTy.bits .bf16 = 32 ∨ (Rect.block (s := S125x40) S125x40.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x125.size a ≤ S1x125.size a
  hwx1_7 : ∀ i : grid1.Coords, EltTy.bits .f32 = 32 ∨ (Rect.block (s := S1x125) S1x125.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x40.size a ≤ S1x40.size a
  hwx1_8 : ∀ i : grid1.Coords, EltTy.bits .f32 = 32 ∨ (Rect.block (s := S1x40) S1x40.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x40.size a ≤ S32768x40.size a
  hwx1_9 : ∀ i : grid1.Coords, EltTy.bits .f32 = 32 ∨ (Rect.block (s := S32768x40) S1024x40.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x125.size a ≤ S8192x125.size a
  hwx2_0 : ∀ i : grid2.Coords, EltTy.bits .f32 = 32 ∨ (Rect.block (s := S8192x125) S1024x125.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x12.size a ≤ S32768x12.size a
  hwx2_1 : ∀ i : grid2.Coords, EltTy.bits .f32 = 32 ∨ (Rect.block (s := S32768x12) S4096x12.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x40.size a ≤ S32768x40.size a
  hwx2_2 : ∀ i : grid2.Coords, EltTy.bits .f32 = 32 ∨ (Rect.block (s := S32768x40) S4096x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S125x125.size a ≤ S125x125.size a
  hwx2_3 : ∀ i : grid2.Coords, EltTy.bits .bf16 = 32 ∨ (Rect.block (s := S125x125) S125x125.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S12x125.size a ≤ S12x125.size a
  hwx2_4 : ∀ i : grid2.Coords, EltTy.bits .bf16 = 32 ∨ (Rect.block (s := S12x125) S12x125.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S40x125.size a ≤ S40x125.size a
  hwx2_5 : ∀ i : grid2.Coords, EltTy.bits .bf16 = 32 ∨ (Rect.block (s := S40x125) S40x125.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S125x40.size a ≤ S125x40.size a
  hwx2_6 : ∀ i : grid2.Coords, EltTy.bits .bf16 = 32 ∨ (Rect.block (s := S125x40) S125x40.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x125.size a ≤ S1x125.size a
  hwx2_7 : ∀ i : grid2.Coords, EltTy.bits .f32 = 32 ∨ (Rect.block (s := S1x125) S1x125.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x40.size a ≤ S1x40.size a
  hwx2_8 : ∀ i : grid2.Coords, EltTy.bits .f32 = 32 ∨ (Rect.block (s := S1x40) S1x40.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x40.size a ≤ S8192x40.size a
  hwx2_9 : ∀ i : grid2.Coords, EltTy.bits .f32 = 32 ∨ (Rect.block (s := S8192x40) S1024x40.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x125.size a ≤ S2048x125.size a
  hwx3_0 : ∀ i : grid3.Coords, EltTy.bits .f32 = 32 ∨ (Rect.block (s := S2048x125) S1024x125.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x12.size a ≤ S8192x12.size a
  hwx3_1 : ∀ i : grid3.Coords, EltTy.bits .f32 = 32 ∨ (Rect.block (s := S8192x12) S4096x12.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x40.size a ≤ S8192x40.size a
  hwx3_2 : ∀ i : grid3.Coords, EltTy.bits .f32 = 32 ∨ (Rect.block (s := S8192x40) S4096x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S125x125.size a ≤ S125x125.size a
  hwx3_3 : ∀ i : grid3.Coords, EltTy.bits .bf16 = 32 ∨ (Rect.block (s := S125x125) S125x125.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S12x125.size a ≤ S12x125.size a
  hwx3_4 : ∀ i : grid3.Coords, EltTy.bits .bf16 = 32 ∨ (Rect.block (s := S12x125) S12x125.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S40x125.size a ≤ S40x125.size a
  hwx3_5 : ∀ i : grid3.Coords, EltTy.bits .bf16 = 32 ∨ (Rect.block (s := S40x125) S40x125.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S125x40.size a ≤ S125x40.size a
  hwx3_6 : ∀ i : grid3.Coords, EltTy.bits .bf16 = 32 ∨ (Rect.block (s := S125x40) S125x40.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x125.size a ≤ S1x125.size a
  hwx3_7 : ∀ i : grid3.Coords, EltTy.bits .f32 = 32 ∨ (Rect.block (s := S1x125) S1x125.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x40.size a ≤ S1x40.size a
  hwx3_8 : ∀ i : grid3.Coords, EltTy.bits .f32 = 32 ∨ (Rect.block (s := S1x40) S1x40.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x40.size a ≤ S2048x40.size a
  hwx3_9 : ∀ i : grid3.Coords, EltTy.bits .f32 = 32 ∨ (Rect.block (s := S2048x40) S1024x40.size (cc3_transform_9 i) (hinb3_9 i)).WholeWords (EltTy.packing .f32)

variable [Facts₀]

def dot_S4096x125_S125x125_S4096x125_1_0_0_1_n_n : DotDims S4096x125 S125x125 S4096x125 where
  lhsContracting := [1]
  rhsContracting := [0]
  lhsNonContracting := [0]
  rhsNonContracting := [1]
  lhsBatch := []
  rhsBatch := []
  wf := dot_S4096x125_S125x125_S4096x125_1_0_0_1_n_n_wf
def dot_S4096x125_S125x40_S4096x40_1_0_0_1_n_n : DotDims S4096x125 S125x40 S4096x40 where
  lhsContracting := [1]
  rhsContracting := [0]
  lhsNonContracting := [0]
  rhsNonContracting := [1]
  lhsBatch := []
  rhsBatch := []
  wf := dot_S4096x125_S125x40_S4096x40_1_0_0_1_n_n_wf
def dot_S1024x125_S125x125_S1024x125_1_0_0_1_n_n : DotDims S1024x125 S125x125 S1024x125 where
  lhsContracting := [1]
  rhsContracting := [0]
  lhsNonContracting := [0]
  rhsNonContracting := [1]
  lhsBatch := []
  rhsBatch := []
  wf := dot_S1024x125_S125x125_S1024x125_1_0_0_1_n_n_wf
def dot_S4096x12_S12x125_S4096x125_1_0_0_1_n_n : DotDims S4096x12 S12x125 S4096x125 where
  lhsContracting := [1]
  rhsContracting := [0]
  lhsNonContracting := [0]
  rhsNonContracting := [1]
  lhsBatch := []
  rhsBatch := []
  wf := dot_S4096x12_S12x125_S4096x125_1_0_0_1_n_n_wf
def dot_S4096x40_S40x125_S4096x125_1_0_0_1_n_n : DotDims S4096x40 S40x125 S4096x125 where
  lhsContracting := [1]
  rhsContracting := [0]
  lhsNonContracting := [0]
  rhsNonContracting := [1]
  lhsBatch := []
  rhsBatch := []
  wf := dot_S4096x40_S40x125_S4096x125_1_0_0_1_n_n_wf

abbrev win0_0 : Pipeline.Window sig grid0 :=
  Pipeline.Window.ofSpec (Memref.whole main_v9) S4096x125.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x125.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S125x125.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S12x125.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S40x125.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S125x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x125.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1024x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13) S1024x125.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4096x12.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4096x40.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S125x125.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S12x125.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S40x125.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S125x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x125.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x40.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1024x40.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v16) S1024x125.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4096x12.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S4096x40.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S125x125.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S12x125.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S40x125.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S125x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S1x125.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8) S1x40.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v18) S1024x40.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v19) S1024x125.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S4096x12.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S4096x40.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v1) S125x125.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S12x125.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S40x125.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S125x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v7) S1x125.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v8) S1x40.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v21) S1024x40.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S698368x125 : Shape := ⟨2, ![698368, 125]⟩
abbrev S696320x12 : Shape := ⟨2, ![696320, 12]⟩
abbrev S177x125 : Shape := ⟨2, ![177, 125]⟩
abbrev S125 : Shape := ⟨1, ![125]⟩
abbrev S125x40 : Shape := ⟨2, ![125, 40]⟩
abbrev S40 : Shape := ⟨1, ![40]⟩
abbrev S524288x125 : Shape := ⟨2, ![524288, 125]⟩
abbrev S_ : Shape := ⟨0, ![]⟩
abbrev S524288x52 : Shape := ⟨2, ![524288, 52]⟩
abbrev S524288x177 : Shape := ⟨2, ![524288, 177]⟩
abbrev S1x125 : Shape := ⟨2, ![1, 125]⟩
abbrev S524288x40 : Shape := ⟨2, ![524288, 40]⟩
abbrev S1x40 : Shape := ⟨2, ![1, 40]⟩
abbrev S131072x125 : Shape := ⟨2, ![131072, 125]⟩
abbrev S524288x12 : Shape := ⟨2, ![524288, 12]⟩
abbrev S131072x4x125 : Shape := ⟨3, ![131072, 4, 125]⟩
abbrev S131072x4x40 : Shape := ⟨3, ![131072, 4, 40]⟩
abbrev S131072x40 : Shape := ⟨2, ![131072, 40]⟩
abbrev S32768x125 : Shape := ⟨2, ![32768, 125]⟩
abbrev S131072x12 : Shape := ⟨2, ![131072, 12]⟩
abbrev S32768x4x125 : Shape := ⟨3, ![32768, 4, 125]⟩
abbrev S131072x177 : Shape := ⟨2, ![131072, 177]⟩
abbrev S32768x4x40 : Shape := ⟨3, ![32768, 4, 40]⟩
abbrev S32768x40 : Shape := ⟨2, ![32768, 40]⟩
abbrev S8192x125 : Shape := ⟨2, ![8192, 125]⟩
abbrev S32768x12 : Shape := ⟨2, ![32768, 12]⟩
abbrev S8192x4x125 : Shape := ⟨3, ![8192, 4, 125]⟩
abbrev S32768x177 : Shape := ⟨2, ![32768, 177]⟩
abbrev S8192x4x40 : Shape := ⟨3, ![8192, 4, 40]⟩
abbrev S8192x40 : Shape := ⟨2, ![8192, 40]⟩
abbrev S2048x125 : Shape := ⟨2, ![2048, 125]⟩
abbrev S8192x12 : Shape := ⟨2, ![8192, 12]⟩
abbrev S2048x4x125 : Shape := ⟨3, ![2048, 4, 125]⟩
abbrev S8192x177 : Shape := ⟨2, ![8192, 177]⟩
abbrev S2048x4x40 : Shape := ⟨3, ![2048, 4, 40]⟩
abbrev S2048x40 : Shape := ⟨2, ![2048, 40]⟩

abbrev nBuf : Space → Nat
  | .hbm => 162
  | .vmem => 0
  | .smem => 0
  | _ => 0

abbrev hbmTy0_0 (i : Nat) : BufTy := match i % 128 with
  | 0 => ⟨S698368x125, .f32⟩
  | 1 => ⟨S696320x12, .f32⟩
  | 2 => ⟨S177x125, .f32⟩
  | 3 => ⟨S125, .f32⟩
  | 4 => ⟨S125x40, .f32⟩
  | 5 => ⟨S40, .f32⟩
  | 6 => ⟨S524288x125, .f32⟩
  | 7 => ⟨S_, .f32⟩
  | 8 => ⟨S524288x52, .f32⟩
  | 9 => ⟨S524288x177, .f32⟩
  | 10 => ⟨S524288x125, .f32⟩
  | 11 => ⟨S1x125, .f32⟩
  | 12 => ⟨S524288x125, .f32⟩
  | 13 => ⟨S524288x125, .f32⟩
  | 14 => ⟨S_, .f32⟩
  | 15 => ⟨S_, .f32⟩
  | 16 => ⟨S524288x125, .f32⟩
  | 17 => ⟨S524288x125, .i1⟩
  | 18 => ⟨S_, .f32⟩
  | 19 => ⟨S524288x125, .f32⟩
  | 20 => ⟨S524288x125, .f32⟩
  | 21 => ⟨S524288x125, .f32⟩
  | 22 => ⟨S524288x40, .f32⟩
  | 23 => ⟨S1x40, .f32⟩
  | 24 => ⟨S524288x40, .f32⟩
  | 25 => ⟨S524288x40, .f32⟩
  | 26 => ⟨S_, .f32⟩
  | 27 => ⟨S_, .f32⟩
  | 28 => ⟨S524288x40, .f32⟩
  | 29 => ⟨S524288x40, .i1⟩
  | 30 => ⟨S_, .f32⟩
  | 31 => ⟨S524288x40, .f32⟩
  | 32 => ⟨S524288x40, .f32⟩
  | 33 => ⟨S524288x40, .f32⟩
  | 34 => ⟨S131072x125, .f32⟩
  | 35 => ⟨S524288x12, .f32⟩
  | 36 => ⟨S131072x4x125, .f32⟩
  | 37 => ⟨S524288x125, .f32⟩
  | 38 => ⟨S524288x177, .f32⟩
  | 39 => ⟨S524288x125, .f32⟩
  | 40 => ⟨S1x125, .f32⟩
  | 41 => ⟨S524288x125, .f32⟩
  | 42 => ⟨S524288x125, .f32⟩
  | 43 => ⟨S_, .f32⟩
  | 44 => ⟨S_, .f32⟩
  | 45 => ⟨S524288x125, .f32⟩
  | 46 => ⟨S524288x125, .i1⟩
  | 47 => ⟨S_, .f32⟩
  | 48 => ⟨S524288x125, .f32⟩
  | 49 => ⟨S524288x125, .f32⟩
  | 50 => ⟨S524288x125, .f32⟩
  | 51 => ⟨S524288x40, .f32⟩
  | 52 => ⟨S1x40, .f32⟩
  | 53 => ⟨S524288x40, .f32⟩
  | 54 => ⟨S524288x40, .f32⟩
  | 55 => ⟨S_, .f32⟩
  | 56 => ⟨S_, .f32⟩
  | 57 => ⟨S524288x40, .f32⟩
  | 58 => ⟨S524288x40, .i1⟩
  | 59 => ⟨S_, .f32⟩
  | 60 => ⟨S524288x40, .f32⟩
  | 61 => ⟨S524288x40, .f32⟩
  | 62 => ⟨S524288x40, .f32⟩
  | 63 => ⟨S131072x4x40, .f32⟩
  | 64 => ⟨S_, .f32⟩
  | 65 => ⟨S131072x40, .f32⟩
  | 66 => ⟨S32768x125, .f32⟩
  | 67 => ⟨S131072x12, .f32⟩
  | 68 => ⟨S32768x4x125, .f32⟩
  | 69 => ⟨S131072x125, .f32⟩
  | 70 => ⟨S131072x177, .f32⟩
  | 71 => ⟨S131072x125, .f32⟩
  | 72 => ⟨S1x125, .f32⟩
  | 73 => ⟨S131072x125, .f32⟩
  | 74 => ⟨S131072x125, .f32⟩
  | 75 => ⟨S_, .f32⟩
  | 76 => ⟨S_, .f32⟩
  | 77 => ⟨S131072x125, .f32⟩
  | 78 => ⟨S131072x125, .i1⟩
  | 79 => ⟨S_, .f32⟩
  | 80 => ⟨S131072x125, .f32⟩
  | 81 => ⟨S131072x125, .f32⟩
  | 82 => ⟨S131072x125, .f32⟩
  | 83 => ⟨S131072x40, .f32⟩
  | 84 => ⟨S1x40, .f32⟩
  | 85 => ⟨S131072x40, .f32⟩
  | 86 => ⟨S131072x40, .f32⟩
  | 87 => ⟨S_, .f32⟩
  | 88 => ⟨S_, .f32⟩
  | 89 => ⟨S131072x40, .f32⟩
  | 90 => ⟨S131072x40, .i1⟩
  | 91 => ⟨S_, .f32⟩
  | 92 => ⟨S131072x40, .f32⟩
  | 93 => ⟨S131072x40, .f32⟩
  | 94 => ⟨S131072x40, .f32⟩
  | 95 => ⟨S32768x4x40, .f32⟩
  | 96 => ⟨S_, .f32⟩
  | 97 => ⟨S32768x40, .f32⟩
  | 98 => ⟨S8192x125, .f32⟩
  | 99 => ⟨S32768x12, .f32⟩
  | 100 => ⟨S8192x4x125, .f32⟩
  | 101 => ⟨S32768x125, .f32⟩
  | 102 => ⟨S32768x177, .f32⟩
  | 103 => ⟨S32768x125, .f32⟩
  | 104 => ⟨S1x125, .f32⟩
  | 105 => ⟨S32768x125, .f32⟩
  | 106 => ⟨S32768x125, .f32⟩
  | 107 => ⟨S_, .f32⟩
  | 108 => ⟨S_, .f32⟩
  | 109 => ⟨S32768x125, .f32⟩
  | 110 => ⟨S32768x125, .i1⟩
  | 111 => ⟨S_, .f32⟩
  | 112 => ⟨S32768x125, .f32⟩
  | 113 => ⟨S32768x125, .f32⟩
  | 114 => ⟨S32768x125, .f32⟩
  | 115 => ⟨S32768x40, .f32⟩
  | 116 => ⟨S1x40, .f32⟩
  | 117 => ⟨S32768x40, .f32⟩
  | 118 => ⟨S32768x40, .f32⟩
  | 119 => ⟨S_, .f32⟩
  | 120 => ⟨S_, .f32⟩
  | 121 => ⟨S32768x40, .f32⟩
  | 122 => ⟨S32768x40, .i1⟩
  | 123 => ⟨S_, .f32⟩
  | 124 => ⟨S32768x40, .f32⟩
  | 125 => ⟨S32768x40, .f32⟩
  | 126 => ⟨S32768x40, .f32⟩
  | 127 => ⟨S8192x4x40, .f32⟩
  | _ => ⟨S698368x125, .f32⟩

abbrev hbmTy0_1 (i : Nat) : BufTy := match i % 128 with
  | 0 => ⟨S_, .f32⟩
  | 1 => ⟨S8192x40, .f32⟩
  | 2 => ⟨S2048x125, .f32⟩
  | 3 => ⟨S8192x12, .f32⟩
  | 4 => ⟨S2048x4x125, .f32⟩
  | 5 => ⟨S8192x125, .f32⟩
  | 6 => ⟨S8192x177, .f32⟩
  | 7 => ⟨S8192x125, .f32⟩
  | 8 => ⟨S1x125, .f32⟩
  | 9 => ⟨S8192x125, .f32⟩
  | 10 => ⟨S8192x125, .f32⟩
  | 11 => ⟨S_, .f32⟩
  | 12 => ⟨S_, .f32⟩
  | 13 => ⟨S8192x125, .f32⟩
  | 14 => ⟨S8192x125, .i1⟩
  | 15 => ⟨S_, .f32⟩
  | 16 => ⟨S8192x125, .f32⟩
  | 17 => ⟨S8192x125, .f32⟩
  | 18 => ⟨S8192x125, .f32⟩
  | 19 => ⟨S8192x40, .f32⟩
  | 20 => ⟨S1x40, .f32⟩
  | 21 => ⟨S8192x40, .f32⟩
  | 22 => ⟨S8192x40, .f32⟩
  | 23 => ⟨S_, .f32⟩
  | 24 => ⟨S_, .f32⟩
  | 25 => ⟨S8192x40, .f32⟩
  | 26 => ⟨S8192x40, .i1⟩
  | 27 => ⟨S_, .f32⟩
  | 28 => ⟨S8192x40, .f32⟩
  | 29 => ⟨S8192x40, .f32⟩
  | 30 => ⟨S8192x40, .f32⟩
  | 31 => ⟨S2048x4x40, .f32⟩
  | 32 => ⟨S_, .f32⟩
  | 33 => ⟨S2048x40, .f32⟩
  | _ => ⟨S698368x125, .f32⟩

abbrev hbmTy (i : Nat) : BufTy := match i / 128 with
  | 0 => hbmTy0_0 i
  | 1 => hbmTy0_1 i
  | _ => ⟨S698368x125, .f32⟩

abbrev bufTy : (tb : Table) → Fin (tcTables nBuf tb) → BufTy
  | .hbm, ⟨i, _⟩ => hbmTy i
  | _, _ => ⟨S698368x125, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_5 : Ref sig .tc := ⟨.hbm, 75, rfl⟩
abbrev main_call4_cst : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_6 : Ref sig .tc := ⟨.hbm, 87, rfl⟩
abbrev main_call5_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v44 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_8 : Ref sig .tc := ⟨.hbm, 107, rfl⟩
abbrev main_call6_cst : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_9 : Ref sig .tc := ⟨.hbm, 119, rfl⟩
abbrev main_call7_cst : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_v61 : Ref sig .tc := ⟨.hbm, 126, rfl⟩
abbrev main_v62 : Ref sig .tc := ⟨.hbm, 127, rfl⟩
abbrev main_cst_10 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_11 : Ref sig .tc := ⟨.hbm, 139, rfl⟩
abbrev main_call8_cst : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_cst_12 : Ref sig .tc := ⟨.hbm, 151, rfl⟩
abbrev main_call9_cst : Ref sig .tc := ⟨.hbm, 152, rfl⟩
abbrev main_call9_v0 : Ref sig .tc := ⟨.hbm, 153, rfl⟩
abbrev main_call9_v1 : Ref sig .tc := ⟨.hbm, 154, rfl⟩
abbrev main_call9_v2 : Ref sig .tc := ⟨.hbm, 155, rfl⟩
abbrev main_call9_v3 : Ref sig .tc := ⟨.hbm, 156, rfl⟩
abbrev main_call9_v4 : Ref sig .tc := ⟨.hbm, 157, rfl⟩
abbrev main_v78 : Ref sig .tc := ⟨.hbm, 158, rfl⟩
abbrev main_v79 : Ref sig .tc := ⟨.hbm, 159, rfl⟩
abbrev main_cst_13 : Ref sig .tc := ⟨.hbm, 160, rfl⟩
abbrev main_v80 : Ref sig .tc := ⟨.hbm, 161, rfl⟩

abbrev nD : Nat := 1
abbrev τ : Topo := Topo.v7x

variable {F : FTy → Type} [FloatOps F]

class Facts₀ : Prop where
  slices_S698368x125_S524288x125_174080_0 : S698368x125.Slices ![174080, 0] S524288x125
  bcast_S_S524288x52 : S_.BroadcastsInDim S524288x52 (![] : Fin 0 → Fin S524288x52.rank)
  concatenates_S524288x125_S524288x52_S524288x177_d1 : Shape.Concatenates [S524288x125, S524288x52] S524288x177 1
  bcast_S125_S1x125_1 : S125.BroadcastsInDim S1x125 (![1] : Fin 1 → Fin S1x125.rank)
  bcast_S1x125_S524288x125_0_1 : S1x125.BroadcastsInDim S524288x125 (![0, 1] : Fin 2 → Fin S524288x125.rank)
  bcast_S_S524288x125 : S_.BroadcastsInDim S524288x125 (![] : Fin 0 → Fin S524288x125.rank)
  bcast_S40_S1x40_1 : S40.BroadcastsInDim S1x40 (![1] : Fin 1 → Fin S1x40.rank)
  bcast_S1x40_S524288x40_0_1 : S1x40.BroadcastsInDim S524288x40 (![0, 1] : Fin 2 → Fin S524288x40.rank)
  bcast_S_S524288x40 : S_.BroadcastsInDim S524288x40 (![] : Fin 0 → Fin S524288x40.rank)
  slices_S698368x125_S131072x125_43008_0 : S698368x125.Slices ![43008, 0] S131072x125
  slices_S696320x12_S524288x12_172032_0 : S696320x12.Slices ![172032, 0] S524288x12
  bcast_S131072x125_S131072x4x125_0_2 : S131072x125.BroadcastsInDim S131072x4x125 (![0, 2] : Fin 2 → Fin S131072x4x125.rank)
  shapeCasts_S131072x4x125_S524288x125 : S131072x4x125.ShapeCasts S524288x125
  concatenates_S524288x125_S524288x12_S524288x40_S524288x177_d1 : Shape.Concatenates [S524288x125, S524288x12, S524288x40] S524288x177 1
  shapeCasts_S524288x40_S131072x4x40 : S524288x40.ShapeCasts S131072x4x40
  reducesTo_S131072x4x40_S131072x40_d1 : S131072x4x40.ReducesTo [1] S131072x40
  h_S_ : 0 < S_.numel
  slices_S698368x125_S32768x125_10240_0 : S698368x125.Slices ![10240, 0] S32768x125
  slices_S696320x12_S131072x12_40960_0 : S696320x12.Slices ![40960, 0] S131072x12
  bcast_S32768x125_S32768x4x125_0_2 : S32768x125.BroadcastsInDim S32768x4x125 (![0, 2] : Fin 2 → Fin S32768x4x125.rank)
  shapeCasts_S32768x4x125_S131072x125 : S32768x4x125.ShapeCasts S131072x125
  concatenates_S131072x125_S131072x12_S131072x40_S131072x177_d1 : Shape.Concatenates [S131072x125, S131072x12, S131072x40] S131072x177 1
  bcast_S1x125_S131072x125_0_1 : S1x125.BroadcastsInDim S131072x125 (![0, 1] : Fin 2 → Fin S131072x125.rank)
  bcast_S_S131072x125 : S_.BroadcastsInDim S131072x125 (![] : Fin 0 → Fin S131072x125.rank)
  bcast_S1x40_S131072x40_0_1 : S1x40.BroadcastsInDim S131072x40 (![0, 1] : Fin 2 → Fin S131072x40.rank)
  bcast_S_S131072x40 : S_.BroadcastsInDim S131072x40 (![] : Fin 0 → Fin S131072x40.rank)
  shapeCasts_S131072x40_S32768x4x40 : S131072x40.ShapeCasts S32768x4x40
  reducesTo_S32768x4x40_S32768x40_d1 : S32768x4x40.ReducesTo [1] S32768x40
  slices_S698368x125_S8192x125_2048_0 : S698368x125.Slices ![2048, 0] S8192x125
  slices_S696320x12_S32768x12_8192_0 : S696320x12.Slices ![8192, 0] S32768x12
  bcast_S8192x125_S8192x4x125_0_2 : S8192x125.BroadcastsInDim S8192x4x125 (![0, 2] : Fin 2 → Fin S8192x4x125.rank)
  shapeCasts_S8192x4x125_S32768x125 : S8192x4x125.ShapeCasts S32768x125
  concatenates_S32768x125_S32768x12_S32768x40_S32768x177_d1 : Shape.Concatenates [S32768x125, S32768x12, S32768x40] S32768x177 1
  bcast_S1x125_S32768x125_0_1 : S1x125.BroadcastsInDim S32768x125 (![0, 1] : Fin 2 → Fin S32768x125.rank)
  bcast_S_S32768x125 : S_.BroadcastsInDim S32768x125 (![] : Fin 0 → Fin S32768x125.rank)
  bcast_S1x40_S32768x40_0_1 : S1x40.BroadcastsInDim S32768x40 (![0, 1] : Fin 2 → Fin S32768x40.rank)
  bcast_S_S32768x40 : S_.BroadcastsInDim S32768x40 (![] : Fin 0 → Fin S32768x40.rank)
  shapeCasts_S32768x40_S8192x4x40 : S32768x40.ShapeCasts S8192x4x40
  reducesTo_S8192x4x40_S8192x40_d1 : S8192x4x40.ReducesTo [1] S8192x40
  slices_S698368x125_S2048x125_0_0 : S698368x125.Slices ![0, 0] S2048x125
  slices_S696320x12_S8192x12_0_0 : S696320x12.Slices ![0, 0] S8192x12
  bcast_S2048x125_S2048x4x125_0_2 : S2048x125.BroadcastsInDim S2048x4x125 (![0, 2] : Fin 2 → Fin S2048x4x125.rank)
  shapeCasts_S2048x4x125_S8192x125 : S2048x4x125.ShapeCasts S8192x125
  concatenates_S8192x125_S8192x12_S8192x40_S8192x177_d1 : Shape.Concatenates [S8192x125, S8192x12, S8192x40] S8192x177 1
  bcast_S1x125_S8192x125_0_1 : S1x125.BroadcastsInDim S8192x125 (![0, 1] : Fin 2 → Fin S8192x125.rank)
  bcast_S_S8192x125 : S_.BroadcastsInDim S8192x125 (![] : Fin 0 → Fin S8192x125.rank)
  bcast_S1x40_S8192x40_0_1 : S1x40.BroadcastsInDim S8192x40 (![0, 1] : Fin 2 → Fin S8192x40.rank)
  bcast_S_S8192x40 : S_.BroadcastsInDim S8192x40 (![] : Fin 0 → Fin S8192x40.rank)
  shapeCasts_S8192x40_S2048x4x40 : S8192x40.ShapeCasts S2048x4x40
  reducesTo_S2048x4x40_S2048x40_d1 : S2048x4x40.ReducesTo [1] S2048x40
  dot_S524288x177_S177x125_S524288x125_1_0_0_1_n_n_wf : DotDims.WF S524288x177 S177x125 S524288x125 [1] [0] [0] [1] [] []
  dot_S524288x125_S125x40_S524288x40_1_0_0_1_n_n_wf : DotDims.WF S524288x125 S125x40 S524288x40 [1] [0] [0] [1] [] []
  dot_S131072x177_S177x125_S131072x125_1_0_0_1_n_n_wf : DotDims.WF S131072x177 S177x125 S131072x125 [1] [0] [0] [1] [] []
  dot_S131072x125_S125x40_S131072x40_1_0_0_1_n_n_wf : DotDims.WF S131072x125 S125x40 S131072x40 [1] [0] [0] [1] [] []
  dot_S32768x177_S177x125_S32768x125_1_0_0_1_n_n_wf : DotDims.WF S32768x177 S177x125 S32768x125 [1] [0] [0] [1] [] []
  dot_S32768x125_S125x40_S32768x40_1_0_0_1_n_n_wf : DotDims.WF S32768x125 S125x40 S32768x40 [1] [0] [0] [1] [] []
  dot_S8192x177_S177x125_S8192x125_1_0_0_1_n_n_wf : DotDims.WF S8192x177 S177x125 S8192x125 [1] [0] [0] [1] [] []
  dot_S8192x125_S125x40_S8192x40_1_0_0_1_n_n_wf : DotDims.WF S8192x125 S125x40 S8192x40 [1] [0] [0] [1] [] []

variable [Facts₀]

def dot_S524288x177_S177x125_S524288x125_1_0_0_1_n_n : DotDims S524288x177 S177x125 S524288x125 where
  lhsContracting := [1]
  rhsContracting := [0]
  lhsNonContracting := [0]
  rhsNonContracting := [1]
  lhsBatch := []
  rhsBatch := []
  wf := dot_S524288x177_S177x125_S524288x125_1_0_0_1_n_n_wf
def dot_S524288x125_S125x40_S524288x40_1_0_0_1_n_n : DotDims S524288x125 S125x40 S524288x40 where
  lhsContracting := [1]
  rhsContracting := [0]
  lhsNonContracting := [0]
  rhsNonContracting := [1]
  lhsBatch := []
  rhsBatch := []
  wf := dot_S524288x125_S125x40_S524288x40_1_0_0_1_n_n_wf
def dot_S131072x177_S177x125_S131072x125_1_0_0_1_n_n : DotDims S131072x177 S177x125 S131072x125 where
  lhsContracting := [1]
  rhsContracting := [0]
  lhsNonContracting := [0]
  rhsNonContracting := [1]
  lhsBatch := []
  rhsBatch := []
  wf := dot_S131072x177_S177x125_S131072x125_1_0_0_1_n_n_wf
def dot_S131072x125_S125x40_S131072x40_1_0_0_1_n_n : DotDims S131072x125 S125x40 S131072x40 where
  lhsContracting := [1]
  rhsContracting := [0]
  lhsNonContracting := [0]
  rhsNonContracting := [1]
  lhsBatch := []
  rhsBatch := []
  wf := dot_S131072x125_S125x40_S131072x40_1_0_0_1_n_n_wf
def dot_S32768x177_S177x125_S32768x125_1_0_0_1_n_n : DotDims S32768x177 S177x125 S32768x125 where
  lhsContracting := [1]
  rhsContracting := [0]
  lhsNonContracting := [0]
  rhsNonContracting := [1]
  lhsBatch := []
  rhsBatch := []
  wf := dot_S32768x177_S177x125_S32768x125_1_0_0_1_n_n_wf
def dot_S32768x125_S125x40_S32768x40_1_0_0_1_n_n : DotDims S32768x125 S125x40 S32768x40 where
  lhsContracting := [1]
  rhsContracting := [0]
  lhsNonContracting := [0]
  rhsNonContracting := [1]
  lhsBatch := []
  rhsBatch := []
  wf := dot_S32768x125_S125x40_S32768x40_1_0_0_1_n_n_wf
def dot_S8192x177_S177x125_S8192x125_1_0_0_1_n_n : DotDims S8192x177 S177x125 S8192x125 where
  lhsContracting := [1]
  rhsContracting := [0]
  lhsNonContracting := [0]
  rhsNonContracting := [1]
  lhsBatch := []
  rhsBatch := []
  wf := dot_S8192x177_S177x125_S8192x125_1_0_0_1_n_n_wf
def dot_S8192x125_S125x40_S8192x40_1_0_0_1_n_n : DotDims S8192x125 S125x40 S8192x40 where
  lhsContracting := [1]
  rhsContracting := [0]
  lhsNonContracting := [0]
  rhsNonContracting := [1]
  lhsBatch := []
  rhsBatch := []
  wf := dot_S8192x125_S125x40_S8192x40_1_0_0_1_n_n_wf

class Facts : Prop extends Facts₀ where

variable [Facts]
-- ==== Proof.TreeNet.lean ====
/-
  The mathematics both programs compute, stated once over the extended reals and free of either program.

  A forest of 2048 perfect 4-ary trees of depth 5 is stored level by level: the rows of `node` are the nodes'
  feature vectors (125 numbers), the rows of `bonds` the edge features (12 numbers) of every non-root node. One
  two-layer network with a leaky activation (slope the f32 nearest 1/100) maps a node's 177 inputs
  — its own features, the features of the edge to it, and the 40 outputs already computed for it — to 40 outputs;
  a parent's value is the sum of the network's outputs over its four children, each child presented with the PARENT's
  features, the child's edge and the child's own value (zero edge and zero value at a leaf).

  `leafArr` is the network on the leaves, `levelArr` one upward step, `forest` the five levels composed. The first
  layer's product with the 177×125 weight matrix is written as three separate sums over its three row blocks
  (125 + 12 + 40), in the order ((a + b) + c) + bias.
-/
import Idealize.ShloMosaic.PureOps.Ideal
import Idealize.ShloMosaic.PureOps.Ideal.Laws
import Idealize.ShloMosaic.Lib.ValueIdx

noncomputable section

namespace Cert.TreeNet

open Idealize.ShloMosaic Idealize.ShloMosaic.ValueIdx

/-- A real matrix of `a` rows and `b` columns, as the programs index one. -/
abbrev Mat (a b : ℕ) := (⟨2, ![a, b]⟩ : Shape).Idx → EReal

/-- The activation's slope below zero: the f32 nearest 1/100. -/
def slope : EReal := Ideal.ofBits .f32 0x3C23D70A#32

/-- The leaky activation: the identity above zero, multiplication by the slope elsewhere. -/
def act (x : EReal) : EReal := if 0 < x then x else slope * x

/-- Splitting at `0 ≤ x` instead of `0 < x` gives the same function: at `x = 0` both branches are `0`. -/
theorem act_of_le (x : EReal) : (if 0 ≤ x then x else slope * x) = act x := by
  unfold act
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- The second layer at output `o`, from the first layer's values before activation. -/
def outRow (pre : Fin 125 → EReal) (w2 : Mat 125 40) (b2 : Mat 1 40) (o : Fin 40) : EReal :=
  act ((∑ h : Fin 125, act (pre h) * w2 (ix2 h o)) + b2 (ix2 0 o))

/-- The first layer at hidden unit `h` on a leaf: only the node's own 125 features enter. -/
def leafPre (x : Fin 125 → EReal) (wa : Mat 125 125) (b1 : Mat 1 125) (h : Fin 125) : EReal :=
  (∑ k : Fin 125, x k * wa (ix2 k h)) + b1 (ix2 0 h)

/-- The first layer at hidden unit `h` on an inner step: the parent's features against the first 125 rows of the
    weights, the child's edge against the next 12, the child's value against the last 40. -/
def nodePre (msg : Fin 125 → EReal) (bond : Fin 12 → EReal) (prev : Fin 40 → EReal)
    (wa : Mat 125 125) (wb : Mat 12 125) (wc : Mat 40 125) (b1 : Mat 1 125) (h : Fin 125) : EReal :=
  (((∑ k : Fin 125, msg k * wa (ix2 k h)) + ∑ k : Fin 12, bond k * wb (ix2 k h)) + ∑ k : Fin 40, prev k * wc (ix2 k h))
    + b1 (ix2 0 h)

/-- The network on `n` leaves, row by row. -/
def leafAt (n : ℕ) (x : Mat n 125) (wa : Mat 125 125) (b1 : Mat 1 125) (w2 : Mat 125 40) (b2 : Mat 1 40)
    (p : Fin n) (o : Fin 40) : EReal :=
  outRow (leafPre (fun k => x (ix2 p k)) wa b1) w2 b2 o

def leafArr (n : ℕ) (x : Mat n 125) (wa : Mat 125 125) (b1 : Mat 1 125) (w2 : Mat 125 40) (b2 : Mat 1 40) : Mat n 40 :=
  fun i => leafAt n x wa b1 w2 b2 (i 0) (i 1)

/-- Child `j` of parent `p`: row `4 p + j` of the level below. -/
def child {n c : ℕ} (hc : c = 4 * n) (p : Fin n) (j : Fin 4) : Fin c := ⟨4 * p.val + j.val, by omega⟩

/-- One upward step at parent `p`, output `o`: the sum over the four children of the network's output. -/
def levelAt (n c : ℕ) (hc : c = 4 * n) (msg : Mat n 125) (bond : Mat c 12) (prev : Mat c 40)
    (wa : Mat 125 125) (wb : Mat 12 125) (wc : Mat 40 125) (b1 : Mat 1 125) (w2 : Mat 125 40) (b2 : Mat 1 40)
    (p : Fin n) (o : Fin 40) : EReal :=
  ∑ j : Fin 4, outRow (nodePre (fun k => msg (ix2 p k)) (fun k => bond (ix2 (child hc p j) k))
    (fun k => prev (ix2 (child hc p j) k)) wa wb wc b1) w2 b2 o

def levelArr (n c : ℕ) (hc : c = 4 * n) (msg : Mat n 125) (bond : Mat c 12) (prev : Mat c 40)
    (wa : Mat 125 125) (wb : Mat 12 125) (wc : Mat 40 125) (b1 : Mat 1 125) (w2 : Mat 125 40) (b2 : Mat 1 40) : Mat n 40 :=
  fun i => levelAt n c hc msg bond prev wa wb wc b1 w2 b2 (i 0) (i 1)

theorem leafArr_apply (n : ℕ) (x : Mat n 125) (wa : Mat 125 125) (b1 : Mat 1 125) (w2 : Mat 125 40) (b2 : Mat 1 40)
    (p : Fin n) (o : Fin 40) : leafArr n x wa b1 w2 b2 (ix2 p o) = leafAt n x wa b1 w2 b2 p o := rfl

theorem levelArr_apply (n c : ℕ) (hc : c = 4 * n) (msg : Mat n 125) (bond : Mat c 12) (prev : Mat c 40)
    (wa : Mat 125 125) (wb : Mat 12 125) (wc : Mat 40 125) (b1 : Mat 1 125) (w2 : Mat 125 40) (b2 : Mat 1 40)
    (p : Fin n) (o : Fin 40) :
    levelArr n c hc msg bond prev wa wb wc b1 w2 b2 (ix2 p o) = levelAt n c hc msg bond prev wa wb wc b1 w2 b2 p o := rfl

/-- Rows `off … off + n − 1` of a matrix. -/
def rows {N b : ℕ} (off n : ℕ) (h : off + n ≤ N) (A : Mat N b) : Mat n b :=
  fun i => A (ix2 (⟨off + (i 0).val, by have := (i 0).isLt; simp only [Matrix.cons_val_zero] at this; omega⟩ : Fin N) (i 1))

theorem rows_apply {N b : ℕ} (off n : ℕ) (h : off + n ≤ N) (A : Mat N b) (r : Fin n) (k : Fin b) :
    rows off n h A (ix2 r k) = A (ix2 ⟨off + r.val, by omega⟩ k) := rfl

/-! ## A step is local to its rows

The value of a step at parent `off + r` reads only that parent's row and its children's rows `4·off + (4r + j)`: so a
block of `n'` consecutive parents together with the block of their `4n'` children determines the block of values. -/

theorem leafArr_block (N n' off : ℕ) (hN : off + n' ≤ N) (x : Mat N 125) (xb : Mat n' 125)
    (wa : Mat 125 125) (b1 : Mat 1 125) (w2 : Mat 125 40) (b2 : Mat 1 40)
    (hx : ∀ (r : Fin n') (k : Fin 125), xb (ix2 r k) = x (ix2 ⟨off + r.val, by omega⟩ k))
    (r : Fin n') (o : Fin 40) :
    leafArr n' xb wa b1 w2 b2 (ix2 r o) = leafArr N x wa b1 w2 b2 (ix2 ⟨off + r.val, by omega⟩ o) := by
  rw [leafArr_apply, leafArr_apply]
  unfold leafAt
  exact congrArg (fun f => outRow (leafPre f wa b1) w2 b2 o) (funext fun k => hx r k)

theorem levelArr_block (N C : ℕ) (hC : C = 4 * N) (n' c' : ℕ) (hc' : c' = 4 * n') (off : ℕ) (hN : off + n' ≤ N)
    (msg : Mat N 125) (bond : Mat C 12) (prev : Mat C 40) (mb : Mat n' 125) (bb : Mat c' 12) (pb : Mat c' 40)
    (wa : Mat 125 125) (wb : Mat 12 125) (wc : Mat 40 125) (b1 : Mat 1 125) (w2 : Mat 125 40) (b2 : Mat 1 40)
    (hm : ∀ (r : Fin n') (k : Fin 125), mb (ix2 r k) = msg (ix2 ⟨off + r.val, by omega⟩ k))
    (hb : ∀ (s : Fin c') (k : Fin 12), bb (ix2 s k) = bond (ix2 ⟨4 * off + s.val, by omega⟩ k))
    (hp : ∀ (s : Fin c') (k : Fin 40), pb (ix2 s k) = prev (ix2 ⟨4 * off + s.val, by omega⟩ k))
    (r : Fin n') (o : Fin 40) :
    levelArr n' c' hc' mb bb pb wa wb wc b1 w2 b2 (ix2 r o)
      = levelArr N C hC msg bond prev wa wb wc b1 w2 b2 (ix2 ⟨off + r.val, by omega⟩ o) := by
  rw [levelArr_apply, levelArr_apply]
  unfold levelAt
  refine Finset.sum_congr rfl fun j _ => ?_
  have hch : (⟨4 * off + (child hc' r j).val, by have := (child hc' r j).isLt; omega⟩ : Fin C)
      = child hC (⟨off + r.val, by omega⟩ : Fin N) j := Fin.ext (by simp only [child]; omega)
  have e1 : (fun k => mb (ix2 r k)) = fun k => msg (ix2 (⟨off + r.val, by omega⟩ : Fin N) k) := funext fun k => hm r k
  have e2 : (fun k => bb (ix2 (child hc' r j) k)) = fun k => bond (ix2 (child hC (⟨off + r.val, by omega⟩ : Fin N) j) k) :=
    funext fun k => by rw [hb (child hc' r j) k, hch]
  have e3 : (fun k => pb (ix2 (child hc' r j) k)) = fun k => prev (ix2 (child hC (⟨off + r.val, by omega⟩ : Fin N) j) k) :=
    funext fun k => by rw [hp (child hc' r j) k, hch]
  rw [e1, e2, e3]

/-! ## The whole forest -/

/-- A vector of length `b` as the one-row matrix both programs add to every row. -/
def rowOf {b : ℕ} (v : (⟨1, ![b]⟩ : Shape).Idx → EReal) : Mat 1 b := fun i => v (ix1 (i 1))

/-- The value at the 2048 roots: the leaves' network, then four upward steps, each level's parents, edges and
    children read from their rows of `node` and `bonds`. -/
def forest (node : Mat 698368 125) (bonds : Mat 696320 12) (W1 : Mat 177 125) (b1 : (⟨1, ![125]⟩ : Shape).Idx → EReal)
    (W2 : Mat 125 40) (b2 : (⟨1, ![40]⟩ : Shape).Idx → EReal) : Mat 2048 40 :=
  let wa : Mat 125 125 := rows 0 125 (by norm_num) W1
  let wb : Mat 12 125 := rows 125 12 (by norm_num) W1
  let wc : Mat 40 125 := rows 137 40 (by norm_num) W1
  let c1 := rowOf b1
  let c2 := rowOf b2
  let L4 := leafArr 524288 (rows 174080 524288 (by norm_num) node) wa c1 W2 c2
  let L3 := levelArr 131072 524288 (by norm_num) (rows 43008 131072 (by norm_num) node) (rows 172032 524288 (by norm_num) bonds) L4 wa wb wc c1 W2 c2
  let L2 := levelArr 32768 131072 (by norm_num) (rows 10240 32768 (by norm_num) node) (rows 40960 131072 (by norm_num) bonds) L3 wa wb wc c1 W2 c2
  let L1 := levelArr 8192 32768 (by norm_num) (rows 2048 8192 (by norm_num) node) (rows 8192 32768 (by norm_num) bonds) L2 wa wb wc c1 W2 c2
  levelArr 2048 8192 (by norm_num) (rows 0 2048 (by norm_num) node) (rows 0 8192 (by norm_num) bonds) L1 wa wb wc c1 W2 c2

end Cert.TreeNet

end
-- ==== Proof.KernelRun.lean ====
/-
  The idealized kernel's run with its RESULT named. The program is four grid kernels among short stretches of host
  operations; its buffers' contents at each boundary are a fold from the launch memory (a stretch applies its
  operations, a kernel replaces its arrays by what its grid leaves), and every weakly fair execution ends with each
  unscoped buffer at the last boundary's contents. Here the result buffer is read there beside the six arguments.
-/
import proofs.«141253_j53970559042267_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the six arguments as launched. -/
theorem run : θ_run defs (onTc (τ := τ) (main (F := F))) ⟨m, fun _ => 0, ρ⟩ (fun r => ∀ c : Dev nD,
      r.2.mem ((c.tc : Thread nD τ).loc main_v21) = W8 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v21 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.KernelOps.lean ====
/-
  The vector operations the four kernel bodies are built from, each read at one index of its result, at the
  extended reals: the regrouping of 4096 rows as 1024 groups of 4 (row 4 r + j is member j of group r), the sum over a
  group's four members, a row repeated over a group or over all rows, and a matrix product as the sum over the one
  contracted index.
-/
import proofs.«141253_j53970559042267_2_alg».proof.KernelIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal

/-- Member `j` of group `r`: row `4 r + j` of the 4096. -/
def member (r : Fin 1024) (j : Fin 4) : Fin 4096 := ⟨4 * r.val + j.val, by omega⟩

/-! ## Regrouping rows -/

/-- 4096 rows of 40 regrouped as 1024 × 4 rows: member `j` of group `r` is row `4 r + j`. -/
theorem regroup40_apply {α : Type} (v : S4096x40.Idx → α) (h : S4096x40.ShapeCasts S1024x4x40)
    (r : Fin 1024) (j : Fin 4) (o : Fin 40) :
    shapeCast S1024x4x40 v h (ix3 r j o) = v (ix2 (member r j) o) :=
  shapeCast_apply v h _ _ (by
    rw [Shape.rowMajor_val_three, Shape.rowMajor_val_two]
    show (4 * r.val + j.val) * 40 + o.val = (r.val * 4 + j.val) * 40 + o.val
    omega)

/-- 1024 × 4 rows of 125 flattened to 4096 rows: row `4 r + j` is member `j` of group `r`. -/
theorem flatten125_apply {α : Type} (v : S1024x4x125.Idx → α) (h : S1024x4x125.ShapeCasts S4096x125)
    (r : Fin 1024) (j : Fin 4) (c : Fin 125) :
    shapeCast S4096x125 v h (ix2 (member r j) c) = v (ix3 r j c) :=
  shapeCast_apply v h _ _ (by
    rw [Shape.rowMajor_val_three, Shape.rowMajor_val_two]
    show (r.val * 4 + j.val) * 125 + c.val = (4 * r.val + j.val) * 125 + c.val
    omega)

/-- A unit axis inserted between rows and columns. -/
theorem addMiddle125_apply {α : Type} (v : S1024x125.Idx → α) (h : S1024x125.ShapeCasts S1024x1x125)
    (r : Fin 1024) (u : Fin 1) (c : Fin 125) :
    shapeCast S1024x1x125 v h (ix3 r u c) = v (ix2 r c) :=
  shapeCast_apply v h _ _ (by
    have hu : u.val = 0 := by omega
    rw [Shape.rowMajor_val_three, Shape.rowMajor_val_two]
    show r.val * 125 + c.val = (r.val * 1 + u.val) * 125 + c.val
    rw [hu]; omega)

/-- A group's one row repeated over its four members. -/
theorem repeat4_apply {α : Type} (v : S1024x1x125.Idx → α) (h : S1024x1x125.Broadcasts S1024x4x125)
    (r : Fin 1024) (j : Fin 4) (c : Fin 125) :
    broadcastTo S1024x4x125 v h (ix3 r j c) = v (ix3 r (0 : Fin 1) c) := by
  refine broadcastTo_apply v h (ix3 r j c) (ix3 r (0 : Fin 1) c) fun ax => ?_
  match ax with
  | ⟨0, _⟩ => rfl
  | ⟨1, _⟩ => rfl
  | ⟨2, _⟩ => rfl

/-! ## The sum over a group's four members -/

theorem groupSum_apply (v : FVec Ideal S1024x4x40 .f32) (h : S1024x4x40.Reduces [1] S1024x40)
    (hφ : FKind.Formats .f32) (hacc : (0x00000000#32 : BitVec 32) = 0x00000000#32) (r : Fin 1024) (o : Fin 40) :
    multiReduction (F := Ideal) .add [1] S1024x40 v 0x00000000#32 h hφ hacc (ix2 r o) = ∑ j : Fin 4, v (ix3 r j o) := by
  refine (Ideal.multiReduction_add_single v 0x00000000#32 h hφ hacc (ix2 r o)).trans ?_
  refine Finset.sum_congr rfl fun j _ => congrArg v (funext fun ax => Fin.ext ?_)
  match ax with
  | ⟨0, _⟩ => rfl
  | ⟨1, _⟩ => rfl
  | ⟨2, _⟩ => rfl

end Cert.KernelIdeal.Body

end
-- ==== Proof.KernelProducts.lean ====
/-
  Each of the five matrix products of the kernel bodies, into a zero accumulator, read at one entry of its result at
  the extended reals: the sum, over the one contracted position, of the left operand's row entry times the right
  operand's column entry.
-/
import proofs.«141253_j53970559042267_2_alg».proof.Proof.Gen.KernelIdeal
import Idealize.ShloMosaic.PureOps.Ideal
import Idealize.ShloMosaic.PureOps.Ideal.Laws
import Idealize.ShloMosaic.Lib.ValueIdx

noncomputable section

namespace Cert.KernelIdeal.Body

open Idealize.ShloMosaic Idealize.ShloMosaic.ValueIdx Cert.KernelIdeal Cert.KernelIdeal.Gen

/-! ## The parents' features against the first row block of the first layer's weights. -/

theorem parentProd_lhs0 (i : S1024x125.Idx) (q : dot_S1024x125_S125x125_S1024x125_1_0_0_1_n_n.contr.Idx) : (dot_S1024x125_S125x125_S1024x125_1_0_0_1_n_n.lhsIdx i q 0).val = (i 0).val := by
  unfold DotDims.lhsIdx
  rw [dif_neg (show ¬(0 : Fin S1024x125.rank) ∈ dot_S1024x125_S125x125_S1024x125_1_0_0_1_n_n.lhsBatch by decide), dif_pos (show (0 : Fin S1024x125.rank) ∈ dot_S1024x125_S125x125_S1024x125_1_0_0_1_n_n.lhsNonContracting by decide)]
  rfl

theorem parentProd_lhs1 (i : S1024x125.Idx) (q : dot_S1024x125_S125x125_S1024x125_1_0_0_1_n_n.contr.Idx) : (dot_S1024x125_S125x125_S1024x125_1_0_0_1_n_n.lhsIdx i q 1).val = (q ⟨0, by decide⟩).val :=
  dot_S1024x125_S125x125_S1024x125_1_0_0_1_n_n.lhsIdx_val_of_single rfl i q

theorem parentProd_rhs0 (i : S1024x125.Idx) (q : dot_S1024x125_S125x125_S1024x125_1_0_0_1_n_n.contr.Idx) : (dot_S1024x125_S125x125_S1024x125_1_0_0_1_n_n.rhsIdx i q 0).val = (q ⟨0, by decide⟩).val :=
  dot_S1024x125_S125x125_S1024x125_1_0_0_1_n_n.rhsIdx_val_of_single rfl i q

theorem parentProd_rhs1 (i : S1024x125.Idx) (q : dot_S1024x125_S125x125_S1024x125_1_0_0_1_n_n.contr.Idx) : (dot_S1024x125_S125x125_S1024x125_1_0_0_1_n_n.rhsIdx i q 1).val = (i 1).val := by
  unfold DotDims.rhsIdx
  rw [dif_neg (show ¬(1 : Fin S125x125.rank) ∈ dot_S1024x125_S125x125_S1024x125_1_0_0_1_n_n.rhsBatch by decide), dif_pos (show (1 : Fin S125x125.rank) ∈ dot_S1024x125_S125x125_S1024x125_1_0_0_1_n_n.rhsNonContracting by decide)]
  rfl

/-- The product into the zero accumulator, at row `p` and column `c`: the sum over the 125 contracted positions. -/
theorem parentProd_apply (l : FVec Ideal S1024x125 .bf16) (r : FVec Ideal S125x125 .bf16) (p : Fin 1024) (c : Fin 125) :
    matmul (F := Ideal) dot_S1024x125_S125x125_S1024x125_1_0_0_1_n_n none l r (constant S1024x125 .f32 0x00000000#32) (ix2 p c)
      = ∑ k : Fin 125, l (ix2 p k) * r (ix2 k c) := by
  refine (Ideal.matmul_constant_zero_apply dot_S1024x125_S125x125_S1024x125_1_0_0_1_n_n none l r (ix2 p c)).trans ?_
  rw [← Equiv.sum_comp (contrEquiv1 dot_S1024x125_S125x125_S1024x125_1_0_0_1_n_n 125 rfl rfl).symm]
  refine Finset.sum_congr rfl fun k _ => ?_
  have hk := contrEquiv1_symm_val dot_S1024x125_S125x125_S1024x125_1_0_0_1_n_n 125 rfl rfl k
  have el : dot_S1024x125_S125x125_S1024x125_1_0_0_1_n_n.lhsIdx (ix2 p c) ((contrEquiv1 dot_S1024x125_S125x125_S1024x125_1_0_0_1_n_n 125 rfl rfl).symm k) = ix2 p k :=
    funext fun ax => Fin.ext (by
      match ax with
      | ⟨0, _⟩ => exact parentProd_lhs0 _ _
      | ⟨1, _⟩ => exact (parentProd_lhs1 _ _).trans hk)
  have er : dot_S1024x125_S125x125_S1024x125_1_0_0_1_n_n.rhsIdx (ix2 p c) ((contrEquiv1 dot_S1024x125_S125x125_S1024x125_1_0_0_1_n_n 125 rfl rfl).symm k) = ix2 k c :=
    funext fun ax => Fin.ext (by
      match ax with
      | ⟨0, _⟩ => exact (parentProd_rhs0 _ _).trans hk
      | ⟨1, _⟩ => exact parentProd_rhs1 _ _)
  rw [el, er]

/-! ## The children's edge features against the second row block. -/

theorem edgeProd_lhs0 (i : S4096x125.Idx) (q : dot_S4096x12_S12x125_S4096x125_1_0_0_1_n_n.contr.Idx) : (dot_S4096x12_S12x125_S4096x125_1_0_0_1_n_n.lhsIdx i q 0).val = (i 0).val := by
  unfold DotDims.lhsIdx
  rw [dif_neg (show ¬(0 : Fin S4096x12.rank) ∈ dot_S4096x12_S12x125_S4096x125_1_0_0_1_n_n.lhsBatch by decide), dif_pos (show (0 : Fin S4096x12.rank) ∈ dot_S4096x12_S12x125_S4096x125_1_0_0_1_n_n.lhsNonContracting by decide)]
  rfl

theorem edgeProd_lhs1 (i : S4096x125.Idx) (q : dot_S4096x12_S12x125_S4096x125_1_0_0_1_n_n.contr.Idx) : (dot_S4096x12_S12x125_S4096x125_1_0_0_1_n_n.lhsIdx i q 1).val = (q ⟨0, by decide⟩).val :=
  dot_S4096x12_S12x125_S4096x125_1_0_0_1_n_n.lhsIdx_val_of_single rfl i q

theorem edgeProd_rhs0 (i : S4096x125.Idx) (q : dot_S4096x12_S12x125_S4096x125_1_0_0_1_n_n.contr.Idx) : (dot_S4096x12_S12x125_S4096x125_1_0_0_1_n_n.rhsIdx i q 0).val = (q ⟨0, by decide⟩).val :=
  dot_S4096x12_S12x125_S4096x125_1_0_0_1_n_n.rhsIdx_val_of_single rfl i q

theorem edgeProd_rhs1 (i : S4096x125.Idx) (q : dot_S4096x12_S12x125_S4096x125_1_0_0_1_n_n.contr.Idx) : (dot_S4096x12_S12x125_S4096x125_1_0_0_1_n_n.rhsIdx i q 1).val = (i 1).val := by
  unfold DotDims.rhsIdx
  rw [dif_neg (show ¬(1 : Fin S12x125.rank) ∈ dot_S4096x12_S12x125_S4096x125_1_0_0_1_n_n.rhsBatch by decide), dif_pos (show (1 : Fin S12x125.rank) ∈ dot_S4096x12_S12x125_S4096x125_1_0_0_1_n_n.rhsNonContracting by decide)]
  rfl

/-- The product into the zero accumulator, at row `p` and column `c`: the sum over the 12 contracted positions. -/
theorem edgeProd_apply (l : FVec Ideal S4096x12 .bf16) (r : FVec Ideal S12x125 .bf16) (p : Fin 4096) (c : Fin 125) :
    matmul (F := Ideal) dot_S4096x12_S12x125_S4096x125_1_0_0_1_n_n none l r (constant S4096x125 .f32 0x00000000#32) (ix2 p c)
      = ∑ k : Fin 12, l (ix2 p k) * r (ix2 k c) := by
  refine (Ideal.matmul_constant_zero_apply dot_S4096x12_S12x125_S4096x125_1_0_0_1_n_n none l r (ix2 p c)).trans ?_
  rw [← Equiv.sum_comp (contrEquiv1 dot_S4096x12_S12x125_S4096x125_1_0_0_1_n_n 12 rfl rfl).symm]
  refine Finset.sum_congr rfl fun k _ => ?_
  have hk := contrEquiv1_symm_val dot_S4096x12_S12x125_S4096x125_1_0_0_1_n_n 12 rfl rfl k
  have el : dot_S4096x12_S12x125_S4096x125_1_0_0_1_n_n.lhsIdx (ix2 p c) ((contrEquiv1 dot_S4096x12_S12x125_S4096x125_1_0_0_1_n_n 12 rfl rfl).symm k) = ix2 p k :=
    funext fun ax => Fin.ext (by
      match ax with
      | ⟨0, _⟩ => exact edgeProd_lhs0 _ _
      | ⟨1, _⟩ => exact (edgeProd_lhs1 _ _).trans hk)
  have er : dot_S4096x12_S12x125_S4096x125_1_0_0_1_n_n.rhsIdx (ix2 p c) ((contrEquiv1 dot_S4096x12_S12x125_S4096x125_1_0_0_1_n_n 12 rfl rfl).symm k) = ix2 k c :=
    funext fun ax => Fin.ext (by
      match ax with
      | ⟨0, _⟩ => exact (edgeProd_rhs0 _ _).trans hk
      | ⟨1, _⟩ => exact edgeProd_rhs1 _ _)
  rw [el, er]

/-! ## The children's values against the third row block. -/

theorem valueProd_lhs0 (i : S4096x125.Idx) (q : dot_S4096x40_S40x125_S4096x125_1_0_0_1_n_n.contr.Idx) : (dot_S4096x40_S40x125_S4096x125_1_0_0_1_n_n.lhsIdx i q 0).val = (i 0).val := by
  unfold DotDims.lhsIdx
  rw [dif_neg (show ¬(0 : Fin S4096x40.rank) ∈ dot_S4096x40_S40x125_S4096x125_1_0_0_1_n_n.lhsBatch by decide), dif_pos (show (0 : Fin S4096x40.rank) ∈ dot_S4096x40_S40x125_S4096x125_1_0_0_1_n_n.lhsNonContracting by decide)]
  rfl

theorem valueProd_lhs1 (i : S4096x125.Idx) (q : dot_S4096x40_S40x125_S4096x125_1_0_0_1_n_n.contr.Idx) : (dot_S4096x40_S40x125_S4096x125_1_0_0_1_n_n.lhsIdx i q 1).val = (q ⟨0, by decide⟩).val :=
  dot_S4096x40_S40x125_S4096x125_1_0_0_1_n_n.lhsIdx_val_of_single rfl i q

theorem valueProd_rhs0 (i : S4096x125.Idx) (q : dot_S4096x40_S40x125_S4096x125_1_0_0_1_n_n.contr.Idx) : (dot_S4096x40_S40x125_S4096x125_1_0_0_1_n_n.rhsIdx i q 0).val = (q ⟨0, by decide⟩).val :=
  dot_S4096x40_S40x125_S4096x125_1_0_0_1_n_n.rhsIdx_val_of_single rfl i q

theorem valueProd_rhs1 (i : S4096x125.Idx) (q : dot_S4096x40_S40x125_S4096x125_1_0_0_1_n_n.contr.Idx) : (dot_S4096x40_S40x125_S4096x125_1_0_0_1_n_n.rhsIdx i q 1).val = (i 1).val := by
  unfold DotDims.rhsIdx
  rw [dif_neg (show ¬(1 : Fin S40x125.rank) ∈ dot_S4096x40_S40x125_S4096x125_1_0_0_1_n_n.rhsBatch by decide), dif_pos (show (1 : Fin S40x125.rank) ∈ dot_S4096x40_S40x125_S4096x125_1_0_0_1_n_n.rhsNonContracting by decide)]
  rfl

/-- The product into the zero accumulator, at row `p` and column `c`: the sum over the 40 contracted positions. -/
theorem valueProd_apply (l : FVec Ideal S4096x40 .bf16) (r : FVec Ideal S40x125 .bf16) (p : Fin 4096) (c : Fin 125) :
    matmul (F := Ideal) dot_S4096x40_S40x125_S4096x125_1_0_0_1_n_n none l r (constant S4096x125 .f32 0x00000000#32) (ix2 p c)
      = ∑ k : Fin 40, l (ix2 p k) * r (ix2 k c) := by
  refine (Ideal.matmul_constant_zero_apply dot_S4096x40_S40x125_S4096x125_1_0_0_1_n_n none l r (ix2 p c)).trans ?_
  rw [← Equiv.sum_comp (contrEquiv1 dot_S4096x40_S40x125_S4096x125_1_0_0_1_n_n 40 rfl rfl).symm]
  refine Finset.sum_congr rfl fun k _ => ?_
  have hk := contrEquiv1_symm_val dot_S4096x40_S40x125_S4096x125_1_0_0_1_n_n 40 rfl rfl k
  have el : dot_S4096x40_S40x125_S4096x125_1_0_0_1_n_n.lhsIdx (ix2 p c) ((contrEquiv1 dot_S4096x40_S40x125_S4096x125_1_0_0_1_n_n 40 rfl rfl).symm k) = ix2 p k :=
    funext fun ax => Fin.ext (by
      match ax with
      | ⟨0, _⟩ => exact valueProd_lhs0 _ _
      | ⟨1, _⟩ => exact (valueProd_lhs1 _ _).trans hk)
  have er : dot_S4096x40_S40x125_S4096x125_1_0_0_1_n_n.rhsIdx (ix2 p c) ((contrEquiv1 dot_S4096x40_S40x125_S4096x125_1_0_0_1_n_n 40 rfl rfl).symm k) = ix2 k c :=
    funext fun ax => Fin.ext (by
      match ax with
      | ⟨0, _⟩ => exact (valueProd_rhs0 _ _).trans hk
      | ⟨1, _⟩ => exact valueProd_rhs1 _ _)
  rw [el, er]

/-! ## The activated first layer against the second layer's weights. -/

theorem outProd_lhs0 (i : S4096x40.Idx) (q : dot_S4096x125_S125x40_S4096x40_1_0_0_1_n_n.contr.Idx) : (dot_S4096x125_S125x40_S4096x40_1_0_0_1_n_n.lhsIdx i q 0).val = (i 0).val := by
  unfold DotDims.lhsIdx
  rw [dif_neg (show ¬(0 : Fin S4096x125.rank) ∈ dot_S4096x125_S125x40_S4096x40_1_0_0_1_n_n.lhsBatch by decide), dif_pos (show (0 : Fin S4096x125.rank) ∈ dot_S4096x125_S125x40_S4096x40_1_0_0_1_n_n.lhsNonContracting by decide)]
  rfl

theorem outProd_lhs1 (i : S4096x40.Idx) (q : dot_S4096x125_S125x40_S4096x40_1_0_0_1_n_n.contr.Idx) : (dot_S4096x125_S125x40_S4096x40_1_0_0_1_n_n.lhsIdx i q 1).val = (q ⟨0, by decide⟩).val :=
  dot_S4096x125_S125x40_S4096x40_1_0_0_1_n_n.lhsIdx_val_of_single rfl i q

theorem outProd_rhs0 (i : S4096x40.Idx) (q : dot_S4096x125_S125x40_S4096x40_1_0_0_1_n_n.contr.Idx) : (dot_S4096x125_S125x40_S4096x40_1_0_0_1_n_n.rhsIdx i q 0).val = (q ⟨0, by decide⟩).val :=
  dot_S4096x125_S125x40_S4096x40_1_0_0_1_n_n.rhsIdx_val_of_single rfl i q

theorem outProd_rhs1 (i : S4096x40.Idx) (q : dot_S4096x125_S125x40_S4096x40_1_0_0_1_n_n.contr.Idx) : (dot_S4096x125_S125x40_S4096x40_1_0_0_1_n_n.rhsIdx i q 1).val = (i 1).val := by
  unfold DotDims.rhsIdx
  rw [dif_neg (show ¬(1 : Fin S125x40.rank) ∈ dot_S4096x125_S125x40_S4096x40_1_0_0_1_n_n.rhsBatch by decide), dif_pos (show (1 : Fin S125x40.rank) ∈ dot_S4096x125_S125x40_S4096x40_1_0_0_1_n_n.rhsNonContracting by decide)]
  rfl

/-- The product into the zero accumulator, at row `p` and column `c`: the sum over the 125 contracted positions. -/
theorem outProd_apply (l : FVec Ideal S4096x125 .bf16) (r : FVec Ideal S125x40 .bf16) (p : Fin 4096) (c : Fin 40) :
    matmul (F := Ideal) dot_S4096x125_S125x40_S4096x40_1_0_0_1_n_n none l r (constant S4096x40 .f32 0x00000000#32) (ix2 p c)
      = ∑ k : Fin 125, l (ix2 p k) * r (ix2 k c) := by
  refine (Ideal.matmul_constant_zero_apply dot_S4096x125_S125x40_S4096x40_1_0_0_1_n_n none l r (ix2 p c)).trans ?_
  rw [← Equiv.sum_comp (contrEquiv1 dot_S4096x125_S125x40_S4096x40_1_0_0_1_n_n 125 rfl rfl).symm]
  refine Finset.sum_congr rfl fun k _ => ?_
  have hk := contrEquiv1_symm_val dot_S4096x125_S125x40_S4096x40_1_0_0_1_n_n 125 rfl rfl k
  have el : dot_S4096x125_S125x40_S4096x40_1_0_0_1_n_n.lhsIdx (ix2 p c) ((contrEquiv1 dot_S4096x125_S125x40_S4096x40_1_0_0_1_n_n 125 rfl rfl).symm k) = ix2 p k :=
    funext fun ax => Fin.ext (by
      match ax with
      | ⟨0, _⟩ => exact outProd_lhs0 _ _
      | ⟨1, _⟩ => exact (outProd_lhs1 _ _).trans hk)
  have er : dot_S4096x125_S125x40_S4096x40_1_0_0_1_n_n.rhsIdx (ix2 p c) ((contrEquiv1 dot_S4096x125_S125x40_S4096x40_1_0_0_1_n_n 125 rfl rfl).symm k) = ix2 k c :=
    funext fun ax => Fin.ext (by
      match ax with
      | ⟨0, _⟩ => exact (outProd_rhs0 _ _).trans hk
      | ⟨1, _⟩ => exact outProd_rhs1 _ _)
  rw [el, er]

/-! ## The leaves' features against the first row block. -/

theorem leafProd_lhs0 (i : S4096x125.Idx) (q : dot_S4096x125_S125x125_S4096x125_1_0_0_1_n_n.contr.Idx) : (dot_S4096x125_S125x125_S4096x125_1_0_0_1_n_n.lhsIdx i q 0).val = (i 0).val := by
  unfold DotDims.lhsIdx
  rw [dif_neg (show ¬(0 : Fin S4096x125.rank) ∈ dot_S4096x125_S125x125_S4096x125_1_0_0_1_n_n.lhsBatch by decide), dif_pos (show (0 : Fin S4096x125.rank) ∈ dot_S4096x125_S125x125_S4096x125_1_0_0_1_n_n.lhsNonContracting by decide)]
  rfl

theorem leafProd_lhs1 (i : S4096x125.Idx) (q : dot_S4096x125_S125x125_S4096x125_1_0_0_1_n_n.contr.Idx) : (dot_S4096x125_S125x125_S4096x125_1_0_0_1_n_n.lhsIdx i q 1).val = (q ⟨0, by decide⟩).val :=
  dot_S4096x125_S125x125_S4096x125_1_0_0_1_n_n.lhsIdx_val_of_single rfl i q

theorem leafProd_rhs0 (i : S4096x125.Idx) (q : dot_S4096x125_S125x125_S4096x125_1_0_0_1_n_n.contr.Idx) : (dot_S4096x125_S125x125_S4096x125_1_0_0_1_n_n.rhsIdx i q 0).val = (q ⟨0, by decide⟩).val :=
  dot_S4096x125_S125x125_S4096x125_1_0_0_1_n_n.rhsIdx_val_of_single rfl i q

theorem leafProd_rhs1 (i : S4096x125.Idx) (q : dot_S4096x125_S125x125_S4096x125_1_0_0_1_n_n.contr.Idx) : (dot_S4096x125_S125x125_S4096x125_1_0_0_1_n_n.rhsIdx i q 1).val = (i 1).val := by
  unfold DotDims.rhsIdx
  rw [dif_neg (show ¬(1 : Fin S125x125.rank) ∈ dot_S4096x125_S125x125_S4096x125_1_0_0_1_n_n.rhsBatch by decide), dif_pos (show (1 : Fin S125x125.rank) ∈ dot_S4096x125_S125x125_S4096x125_1_0_0_1_n_n.rhsNonContracting by decide)]
  rfl

/-- The product into the zero accumulator, at row `p` and column `c`: the sum over the 125 contracted positions. -/
theorem leafProd_apply (l : FVec Ideal S4096x125 .bf16) (r : FVec Ideal S125x125 .bf16) (p : Fin 4096) (c : Fin 125) :
    matmul (F := Ideal) dot_S4096x125_S125x125_S4096x125_1_0_0_1_n_n none l r (constant S4096x125 .f32 0x00000000#32) (ix2 p c)
      = ∑ k : Fin 125, l (ix2 p k) * r (ix2 k c) := by
  refine (Ideal.matmul_constant_zero_apply dot_S4096x125_S125x125_S4096x125_1_0_0_1_n_n none l r (ix2 p c)).trans ?_
  rw [← Equiv.sum_comp (contrEquiv1 dot_S4096x125_S125x125_S4096x125_1_0_0_1_n_n 125 rfl rfl).symm]
  refine Finset.sum_congr rfl fun k _ => ?_
  have hk := contrEquiv1_symm_val dot_S4096x125_S125x125_S4096x125_1_0_0_1_n_n 125 rfl rfl k
  have el : dot_S4096x125_S125x125_S4096x125_1_0_0_1_n_n.lhsIdx (ix2 p c) ((contrEquiv1 dot_S4096x125_S125x125_S4096x125_1_0_0_1_n_n 125 rfl rfl).symm k) = ix2 p k :=
    funext fun ax => Fin.ext (by
      match ax with
      | ⟨0, _⟩ => exact leafProd_lhs0 _ _
      | ⟨1, _⟩ => exact (leafProd_lhs1 _ _).trans hk)
  have er : dot_S4096x125_S125x125_S4096x125_1_0_0_1_n_n.rhsIdx (ix2 p c) ((contrEquiv1 dot_S4096x125_S125x125_S4096x125_1_0_0_1_n_n 125 rfl rfl).symm k) = ix2 k c :=
    funext fun ax => Fin.ext (by
      match ax with
      | ⟨0, _⟩ => exact (leafProd_rhs0 _ _).trans hk
      | ⟨1, _⟩ => exact leafProd_rhs1 _ _)
  rw [el, er]

end Cert.KernelIdeal.Body

end
-- ==== Proof.KernelLayer.lean ====
/-
  The pieces of one network layer as the kernel bodies spell them, each read at one index at the extended reals: the
  leaky activation as a comparison, a product and a selection; a bias row added to every row; the second layer on one
  row; the sum of the second layer over a group's four members.
-/
import proofs.«141253_j53970559042267_2_alg».proof.Proof.KernelOps
import proofs.«141253_j53970559042267_2_alg».proof.Proof.KernelProducts
import proofs.«141253_j53970559042267_2_alg».proof.Proof.TreeNet

noncomputable section

namespace Cert.KernelIdeal.Body

open Idealize.ShloMosaic Idealize.ShloMosaic.ValueIdx Cert.KernelIdeal Cert.KernelIdeal.Gen Cert.TreeNet

/-- The activation on one number: "greater than zero" selects the number itself, otherwise the slope times it. -/
theorem leaky_eq (x : EReal) :
    Scalar.select (FloatOps.cmpf (F := Ideal) (φ := .f32) .ogt x (Scalar.ofBits (F := Ideal) .f32 0x00000000#32)) x
      ((Scalar.ofBits (F := Ideal) .f32 0x3C23D70A#32 : EReal) * x) = act x := by
  unfold TreeNet.act TreeNet.slope
  rw [Ideal.cmpf_def]
  show Scalar.select (Ideal.cmp .ogt x (Ideal.ofBits .f32 0x00000000#32)) x (Ideal.ofBits .f32 0x3C23D70A#32 * x) = _
  rw [Ideal.ofBits_zero_f32]
  unfold Ideal.cmp Scalar.select
  by_cases h : 0 < x
  · simp [h]
  · simp [h]

/-- The activation on a vector, read at an index. -/
theorem leakyVec_apply {s : Shape} (v : FVec Ideal s .f32) (i : s.Idx) :
    select (cmpf .ogt v (broadcast s (Scalar.ofBits (F := Ideal) .f32 0x00000000#32))) v
      (mulf (broadcast s (Scalar.ofBits (F := Ideal) .f32 0x3C23D70A#32)) v) i = act (v i) :=
  leaky_eq (v i)

/-- A row of a group is the group's child of that number. -/
theorem member_eq_child (hc : 4096 = 4 * 1024) (r : Fin 1024) (j : Fin 4) : member r j = child hc r j := rfl

/-- The second layer's product on one row: the activated first layer against the second layer's weights. -/
theorem hiddenProd_apply (hid : FVec Ideal S4096x125 .f32) (w2 : FVec Ideal S125x40 .bf16)
    (hb : FTy.bits .bf16 < FTy.bits .f32) (s : Fin 4096) (o : Fin 40) :
    matmul (F := Ideal) dot_S4096x125_S125x40_S4096x40_1_0_0_1_n_n none
        (truncf .bf16 (select (cmpf .ogt hid (broadcast S4096x125 (Scalar.ofBits (F := Ideal) .f32 0x00000000#32))) hid
          (mulf (broadcast S4096x125 (Scalar.ofBits (F := Ideal) .f32 0x3C23D70A#32)) hid)) hb)
        w2 (constant S4096x40 .f32 0x00000000#32) (ix2 s o)
      = ∑ h : Fin 125, act (hid (ix2 s h)) * w2 (ix2 h o) :=
  (outProd_apply _ w2 s o).trans
    (Finset.sum_congr rfl fun h _ => congrArg (· * w2 (ix2 h o)) (leakyVec_apply hid (ix2 s h)))

/-- The second layer's bias added to a row and the activation applied. -/
theorem biasLeaky_apply (v : FVec Ideal S4096x40 .f32) (b2 : Vec Ideal S1x40 .f32)
    (h1 : S1x40.ShapeCasts S1x40) (h2 : S1x40.Broadcasts S4096x40) (s : Fin 4096) (o : Fin 40) :
    select (cmpf .ogt (addf v (broadcastTo S4096x40 (shapeCast S1x40 b2 h1) h2))
          (broadcast S4096x40 (Scalar.ofBits (F := Ideal) .f32 0x00000000#32)))
        (addf v (broadcastTo S4096x40 (shapeCast S1x40 b2 h1) h2))
        (mulf (broadcast S4096x40 (Scalar.ofBits (F := Ideal) .f32 0x3C23D70A#32))
          (addf v (broadcastTo S4096x40 (shapeCast S1x40 b2 h1) h2))) (ix2 s o)
      = act (v (ix2 s o) + b2 (ix2 0 o)) :=
  (leakyVec_apply _ (ix2 s o)).trans (congrArg act (congrArg (v (ix2 s o) + ·)
    ((broadcastTo_1b_ab_apply _ h2 s o).trans (congrFun (shapeCast_self b2 h1) (ix2 0 o)))))

/-- The stored value: the activated second layer summed over a group's four members. -/
theorem groupLeaky_apply (v : FVec Ideal S4096x40 .f32) (b2 : Vec Ideal S1x40 .f32)
    (h1 : S1x40.ShapeCasts S1x40) (h2 : S1x40.Broadcasts S4096x40) (h3 : S4096x40.ShapeCasts S1024x4x40)
    (h4 : S1024x4x40.Reduces [1] S1024x40) (hφ : FKind.Formats .f32)
    (hacc : (0x00000000#32 : BitVec 32) = 0x00000000#32) (r : Fin 1024) (o : Fin 40) :
    multiReduction (F := Ideal) .add [1] S1024x40
        (shapeCast S1024x4x40
          (select (cmpf .ogt (addf v (broadcastTo S4096x40 (shapeCast S1x40 b2 h1) h2))
              (broadcast S4096x40 (Scalar.ofBits (F := Ideal) .f32 0x00000000#32)))
            (addf v (broadcastTo S4096x40 (shapeCast S1x40 b2 h1) h2))
            (mulf (broadcast S4096x40 (Scalar.ofBits (F := Ideal) .f32 0x3C23D70A#32))
              (addf v (broadcastTo S4096x40 (shapeCast S1x40 b2 h1) h2)))) h3)
        0x00000000#32 h4 hφ hacc (ix2 r o)
      = ∑ j : Fin 4, act (v (ix2 (member r j) o) + b2 (ix2 0 o)) :=
  (groupSum_apply _ h4 hφ hacc r o).trans
    (Finset.sum_congr rfl fun j _ => (regroup40_apply _ h3 r j o).trans (biasLeaky_apply v b2 h1 h2 (member r j) o))

/-- The first layer's bias repeated over all rows. -/
theorem bias125_apply (b1 : Vec Ideal S1x125 .f32) (h1 : S1x125.ShapeCasts S1x125) (h2 : S1x125.Broadcasts S4096x125)
    (s : Fin 4096) (h : Fin 125) :
    broadcastTo S4096x125 (shapeCast S1x125 b1 h1) h2 (ix2 s h) = b1 (ix2 0 h) :=
  (broadcastTo_1b_ab_apply _ h2 s h).trans (congrFun (shapeCast_self b1 h1) (ix2 0 h))

/-- A group's product row repeated over its members and laid out as rows again. -/
theorem repeated_apply (p : FVec Ideal S1024x125 .f32) (h1 : S1024x125.ShapeCasts S1024x1x125)
    (h2 : S1024x1x125.Broadcasts S1024x4x125) (h3 : S1024x4x125.ShapeCasts S4096x125)
    (r : Fin 1024) (j : Fin 4) (h : Fin 125) :
    shapeCast S4096x125 (broadcastTo S1024x4x125 (shapeCast S1024x1x125 p h1) h2) h3 (ix2 (member r j) h) = p (ix2 r h) :=
  (flatten125_apply _ h3 r j h).trans ((repeat4_apply _ h2 r j h).trans (addMiddle125_apply p h1 r 0 h))

end Cert.KernelIdeal.Body

end
-- ==== Proof.KernelBody.lean ====
/-
  The body of each of the four kernels, read at the extended reals: the 1024×40 block a grid point stores is one
  upward step of the tree network on the point's 1024 parent rows and 4096 child rows (for the first kernel the
  children's values are themselves the leaf network of the point's 4096 leaf rows).
-/
import proofs.«141253_j53970559042267_2_alg».proof.Proof.Gen.KernelIdeal.Frame
import proofs.«141253_j53970559042267_2_alg».proof.Proof.TreeNet
import proofs.«141253_j53970559042267_2_alg».proof.Proof.KernelLayer

noncomputable section

namespace Cert.KernelIdeal.Body

open Idealize.ShloMosaic Idealize.ShloMosaic.ValueIdx Cert.KernelIdeal Cert.KernelIdeal.Gen Cert.TreeNet

/-- The zero offsets of a whole-block load or store. -/
theorem zeroOffsets : (![0, 0] : Fin 2 → Nat) = fun _ => 0 := funext fun a => by fin_cases a <;> rfl

/-! ## A level kernel -/

/-- The second layer's product of a level kernel at member `j` of group `r`: the first layer there is the network's
    first layer on the group's parent row, the member's edge row and the member's value row. -/
theorem level_pay2_apply (x0 : Vec Ideal S1024x125 .f32) (x1 : Vec Ideal S4096x12 .f32) (x2 : Vec Ideal S4096x40 .f32)
    (x3 : Vec Ideal S125x125 .bf16) (x4 : Vec Ideal S12x125 .bf16) (x5 : Vec Ideal S40x125 .bf16) (x7 : Vec Ideal S1x125 .f32)
    (x6 : Vec Ideal S125x40 .bf16) (r : Fin 1024) (j : Fin 4) (o : Fin 40) :
    k1_pay2 (F := Ideal) x0 x1 x2 x3 x4 x5 x7 x6 (ix2 (member r j) o)
      = ∑ h : Fin 125, act (nodePre (fun k => x0 (ix2 r k)) (fun k => x1 (ix2 (member r j) k))
          (fun k => x2 (ix2 (member r j) k)) x3 x4 x5 x7 h) * x6 (ix2 h o) := by
  unfold k1_pay2
  refine (hiddenProd_apply _ _ _ (member r j) o).trans ?_
  refine Finset.sum_congr rfl fun h _ => ?_
  refine congrArg₂ (· * ·) (congrArg act ?_) (congrFun (shapeCast_self x6 _) (ix2 h o))
  unfold nodePre
  simp only [addf_apply]
  refine congrArg₂ (· + ·) (congrArg₂ (· + ·) (congrArg₂ (· + ·) ?_ ?_) ?_) ?_
  · refine (repeated_apply _ _ _ _ r j h).trans ((parentProd_apply _ _ r h).trans ?_)
    exact Finset.sum_congr rfl fun k _ =>
      congrArg₂ (· * ·) (congrFun (shapeCast_self x0 _) (ix2 r k)) (congrFun (shapeCast_self x3 _) (ix2 k h))
  · refine (edgeProd_apply _ _ (member r j) h).trans ?_
    exact Finset.sum_congr rfl fun k _ =>
      congrArg₂ (· * ·) (congrFun (shapeCast_self x1 _) (ix2 (member r j) k)) (congrFun (shapeCast_self x4 _) (ix2 k h))
  · refine (valueProd_apply _ _ (member r j) h).trans ?_
    exact Finset.sum_congr rfl fun k _ =>
      congrArg₂ (· * ·) (congrFun (shapeCast_self x2 _) (ix2 (member r j) k)) (congrFun (shapeCast_self x5 _) (ix2 k h))
  · exact bias125_apply x7 _ _ (member r j) h

/-! ## The fused kernel: the leaf network on the point's 4096 leaf rows, then one level -/

/-- The leaf values the fused kernel keeps for its level step (rounded on the way to the product, which changes
    nothing here) are the leaf network on the 4096 leaf rows. -/
theorem fused_leaf_apply (x3 : Vec Ideal S125x125 .bf16) (x6 : Vec Ideal S125x40 .bf16) (x0 : Vec Ideal S4096x125 .f32)
    (x7 : Vec Ideal S1x125 .f32) (x8 : Vec Ideal S1x40 .f32) (s : Fin 4096) (o : Fin 40) :
    k0_pay5 (F := Ideal) x3 x6 x0 x7 x8 (ix2 s o) = leafArr 4096 x0 x3 x7 x6 x8 (ix2 s o) := by
  rw [leafArr_apply]
  unfold leafAt outRow
  unfold k0_pay5 k0_pay3 k0_pay2
  refine (truncf_apply (φ := .f32) (ψ := .bf16) _ _ (ix2 s o)).trans ?_
  refine (biasLeaky_apply _ x8 _ _ s o).trans ?_
  refine congrArg act (congrArg (· + x8 (ix2 0 o)) ?_)
  refine (hiddenProd_apply _ _ _ s o).trans ?_
  refine Finset.sum_congr rfl fun h _ => ?_
  refine congrArg₂ (· * ·) (congrArg act ?_) (congrFun (shapeCast_self x6 _) (ix2 h o))
  unfold leafPre
  simp only [addf_apply]
  refine congrArg₂ (· + ·) ?_ (bias125_apply x7 _ _ s h)
  refine (leafProd_apply _ _ s h).trans ?_
  exact Finset.sum_congr rfl fun k _ =>
    congrArg₂ (· * ·) (congrFun (shapeCast_self x0 _) (ix2 s k)) (congrFun (shapeCast_self x3 _) (ix2 k h))

theorem out0_9_eq (x0 : Vec Ideal S4096x125 .f32) (x1 : Vec Ideal S1024x125 .f32) (x2 : Vec Ideal S4096x12 .f32)
    (x3 : Vec Ideal S125x125 .bf16) (x4 : Vec Ideal S12x125 .bf16) (x5 : Vec Ideal S40x125 .bf16) (x6 : Vec Ideal S125x40 .bf16)
    (x7 : Vec Ideal S1x125 .f32) (x8 : Vec Ideal S1x40 .f32) :
    out0_9 (F := Ideal) x0 x1 x2 x3 x4 x5 x6 x7 x8
      = levelArr 1024 4096 (by norm_num) x1 x2 (leafArr 4096 x0 x3 x7 x6 x8) x3 x4 x5 x7 x6 x8 := by
  unfold out0_9
  rw [View.canon_unit_zero zeroOffsets]
  simp only [View.ld_unit_zero (S := S1024x125) zeroOffsets, View.ld_unit_zero (S := S4096x12) zeroOffsets,
    View.ld_unit_zero (S := S4096x125) zeroOffsets, View.ld_unit_zero (S := S125x125) zeroOffsets,
    View.ld_unit_zero (S := S12x125) zeroOffsets, View.ld_unit_zero (S := S40x125) zeroOffsets,
    View.ld_unit_zero (S := S125x40) zeroOffsets, View.ld_unit_zero (S := S1x125) zeroOffsets,
    View.ld_unit_zero (S := S1x40) zeroOffsets]
  funext i
  obtain ⟨r, o, rfl⟩ : ∃ (r : Fin 1024) (o : Fin 40), i = ix2 r o := ⟨i 0, i 1, eq_ix2 i⟩
  rw [levelArr_apply]
  unfold k0_pay1 k0_pay6 k0_pay4 k0_pay3 k0_pay2
  refine (groupLeaky_apply _ x8 _ _ _ _ _ _ r o).trans ?_
  unfold levelAt
  refine Finset.sum_congr rfl fun j _ => ?_
  unfold outRow
  refine congrArg act (congrArg (· + x8 (ix2 0 o)) ?_)
  refine (hiddenProd_apply _ _ _ (member r j) o).trans ?_
  refine Finset.sum_congr rfl fun h _ => ?_
  refine congrArg₂ (· * ·) (congrArg act ?_) (congrFun (shapeCast_self x6 _) (ix2 h o))
  unfold nodePre
  simp only [addf_apply]
  refine congrArg₂ (· + ·) (congrArg₂ (· + ·) (congrArg₂ (· + ·) ?_ ?_) ?_) ?_
  · refine (repeated_apply _ _ _ _ r j h).trans ((parentProd_apply _ _ r h).trans ?_)
    exact Finset.sum_congr rfl fun k _ =>
      congrArg₂ (· * ·) (congrFun (shapeCast_self x1 _) (ix2 r k)) (congrFun (shapeCast_self x3 _) (ix2 k h))
  · refine (edgeProd_apply _ _ (member r j) h).trans ?_
    exact Finset.sum_congr rfl fun k _ =>
      congrArg₂ (· * ·) (congrFun (shapeCast_self x2 _) (ix2 (member r j) k)) (congrFun (shapeCast_self x4 _) (ix2 k h))
  · refine (valueProd_apply _ _ (member r j) h).trans ?_
    exact Finset.sum_congr rfl fun k _ =>
      congrArg₂ (· * ·) (fused_leaf_apply x3 x6 x0 x7 x8 (member r j) k) (congrFun (shapeCast_self x5 _) (ix2 k h))
  · exact bias125_apply x7 _ _ (member r j) h

theorem out1_9_eq (x0 : Vec Ideal S1024x125 .f32) (x1 : Vec Ideal S4096x12 .f32) (x2 : Vec Ideal S4096x40 .f32)
    (x3 : Vec Ideal S125x125 .bf16) (x4 : Vec Ideal S12x125 .bf16) (x5 : Vec Ideal S40x125 .bf16) (x6 : Vec Ideal S125x40 .bf16)
    (x7 : Vec Ideal S1x125 .f32) (x8 : Vec Ideal S1x40 .f32) :
    out1_9 (F := Ideal) x0 x1 x2 x3 x4 x5 x6 x7 x8
      = levelArr 1024 4096 (by norm_num) x0 x1 x2 x3 x4 x5 x7 x6 x8 := by
  unfold out1_9
  rw [View.canon_unit_zero zeroOffsets]
  simp only [View.ld_unit_zero (S := S1024x125) zeroOffsets, View.ld_unit_zero (S := S4096x12) zeroOffsets,
    View.ld_unit_zero (S := S4096x40) zeroOffsets, View.ld_unit_zero (S := S125x125) zeroOffsets,
    View.ld_unit_zero (S := S12x125) zeroOffsets, View.ld_unit_zero (S := S40x125) zeroOffsets,
    View.ld_unit_zero (S := S125x40) zeroOffsets, View.ld_unit_zero (S := S1x125) zeroOffsets,
    View.ld_unit_zero (S := S1x40) zeroOffsets]
  funext i
  obtain ⟨r, o, rfl⟩ : ∃ (r : Fin 1024) (o : Fin 40), i = ix2 r o := ⟨i 0, i 1, eq_ix2 i⟩
  rw [levelArr_apply]
  unfold k1_pay1
  dsimp only
  refine (groupLeaky_apply _ x8 _ _ _ _ _ _ r o).trans ?_
  unfold levelAt
  refine Finset.sum_congr rfl fun j _ => ?_
  unfold outRow
  exact congrArg act (congrArg (· + x8 (ix2 0 o)) (level_pay2_apply x0 x1 x2 x3 x4 x5 x7 x6 r j o))

theorem out2_9_eq (x0 : Vec Ideal S1024x125 .f32) (x1 : Vec Ideal S4096x12 .f32) (x2 : Vec Ideal S4096x40 .f32)
    (x3 : Vec Ideal S125x125 .bf16) (x4 : Vec Ideal S12x125 .bf16) (x5 : Vec Ideal S40x125 .bf16) (x6 : Vec Ideal S125x40 .bf16)
    (x7 : Vec Ideal S1x125 .f32) (x8 : Vec Ideal S1x40 .f32) :
    out2_9 (F := Ideal) x0 x1 x2 x3 x4 x5 x6 x7 x8
      = levelArr 1024 4096 (by norm_num) x0 x1 x2 x3 x4 x5 x7 x6 x8 := by
  exact (show out2_9 (F := Ideal) x0 x1 x2 x3 x4 x5 x6 x7 x8 = out1_9 (F := Ideal) x0 x1 x2 x3 x4 x5 x6 x7 x8 from rfl).trans
    (out1_9_eq x0 x1 x2 x3 x4 x5 x6 x7 x8)

theorem out3_9_eq (x0 : Vec Ideal S1024x125 .f32) (x1 : Vec Ideal S4096x12 .f32) (x2 : Vec Ideal S4096x40 .f32)
    (x3 : Vec Ideal S125x125 .bf16) (x4 : Vec Ideal S12x125 .bf16) (x5 : Vec Ideal S40x125 .bf16) (x6 : Vec Ideal S125x40 .bf16)
    (x7 : Vec Ideal S1x125 .f32) (x8 : Vec Ideal S1x40 .f32) :
    out3_9 (F := Ideal) x0 x1 x2 x3 x4 x5 x6 x7 x8
      = levelArr 1024 4096 (by norm_num) x0 x1 x2 x3 x4 x5 x7 x6 x8 := by
  exact (show out3_9 (F := Ideal) x0 x1 x2 x3 x4 x5 x6 x7 x8 = out1_9 (F := Ideal) x0 x1 x2 x3 x4 x5 x6 x7 x8 from rfl).trans
    (out1_9_eq x0 x1 x2 x3 x4 x5 x6 x7 x8)

end Cert.KernelIdeal.Body

end
-- ==== Proof.ArraysFused.lean ====
/-
  The first kernel (128 grid points) on whole arrays: point t writes parents 1024·t … 1024·t + 1023 of the output,
  reading the same rows of the parents' features and rows 4096·t … 4096·t + 4095 of the children's edges and of the
  leaves' features (the children are leaves: their values are the leaf network of those rows); the 128 blocks tile
  the 131072 rows, so the output array is one upward step of the tree network on the whole arrays, taken from the
  leaf network of the whole leaf array.
-/
import proofs.«141253_j53970559042267_2_alg».proof.Proof.Gen.KernelIdeal.Frame
import proofs.«141253_j53970559042267_2_alg».proof.Proof.TreeNet
import proofs.«141253_j53970559042267_2_alg».proof.Proof.KernelBody
import Idealize.ShloMosaic.Lib.Pipeline.Value

noncomputable section

namespace Cert.KernelIdeal.Arr.Fused

open Idealize.ShloMosaic Idealize.ShloMosaic.TcCoe Idealize.ShloMosaic.ValueIdx Idealize.SL.Sem
open Cert.KernelIdeal Cert.KernelIdeal.Gen Cert.TreeNet

variable (V : (c : Dev nD) → (b : Ref sig .tc) → Buf (Elt Ideal) ((c : Thread nD τ).loc b))

/-- The index maps over the grid: the three row-blocked inputs and the output move with the point along the rows,
    the six weight windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The leaves' block at point t is rows 4·(1024·t) … of the leaves' features. -/
theorem leaf_block (c : Dev nD) (t : Fin cfg0.N) (s : Fin 4096) (k : Fin 125)
    (h : 4 * (1024 * t.val) + s.val < 524288) :
    (iblk0 (F := Ideal) V c 0 t : Mat 4096 125) (ix2 s k) = (V c main_v9 : Mat 524288 125) (ix2 ⟨4 * (1024 * t.val) + s.val, h⟩ k) := by
  obtain ⟨e0, e1, -⟩ := idx_facts t
  show V c main_v9 (((cfg0.win 0).blk t).view.emb (ix2 s k)) = V c main_v9 (ix2 ⟨4 * (1024 * t.val) + s.val, h⟩ k)
  refine congrArg _ ?_
  funext a; apply Fin.ext
  match a with
  | ⟨0, _⟩ => show win0_0.index t (0 : Fin 2) * 4096 + 1 * s.val = 4 * (1024 * t.val) + s.val; omega
  | ⟨1, _⟩ => show win0_0.index t (1 : Fin 2) * 125 + 1 * k.val = k.val; omega

/-- The parents' block at point t is rows 1024·t … of the parents' features. -/
theorem msg_block (c : Dev nD) (t : Fin cfg0.N) (r : Fin 1024) (k : Fin 125)
    (h : 1024 * t.val + r.val < 131072) :
    (iblk0 (F := Ideal) V c 1 t : Mat 1024 125) (ix2 r k) = (V c main_v10 : Mat 131072 125) (ix2 ⟨1024 * t.val + r.val, h⟩ k) := by
  obtain ⟨-, -, e0, e1, -⟩ := idx_facts t
  show V c main_v10 (((cfg0.win 1).blk t).view.emb (ix2 r k)) = V c main_v10 (ix2 ⟨1024 * t.val + r.val, h⟩ k)
  refine congrArg _ ?_
  funext a; apply Fin.ext
  match a with
  | ⟨0, _⟩ => show win0_1.index t (0 : Fin 2) * 1024 + 1 * r.val = 1024 * t.val + r.val; omega
  | ⟨1, _⟩ => show win0_1.index t (1 : Fin 2) * 125 + 1 * k.val = k.val; omega

/-- The children's edge block at point t is rows 4·(1024·t) … of the edges. -/
theorem bond_block (c : Dev nD) (t : Fin cfg0.N) (s : Fin 4096) (k : Fin 12)
    (h : 4 * (1024 * t.val) + s.val < 524288) :
    (iblk0 (F := Ideal) V c 2 t : Mat 4096 12) (ix2 s k) = (V c main_v11 : Mat 524288 12) (ix2 ⟨4 * (1024 * t.val) + s.val, h⟩ k) := by
  obtain ⟨-, -, -, -, e0, e1, -⟩ := idx_facts t
  show V c main_v11 (((cfg0.win 2).blk t).view.emb (ix2 s k)) = V c main_v11 (ix2 ⟨4 * (1024 * t.val) + s.val, h⟩ k)
  refine congrArg _ ?_
  funext a; apply Fin.ext
  match a with
  | ⟨0, _⟩ => show win0_2.index t (0 : Fin 2) * 4096 + 1 * s.val = 4 * (1024 * t.val) + s.val; omega
  | ⟨1, _⟩ => show win0_2.index t (1 : Fin 2) * 12 + 1 * k.val = k.val; omega

/-- Each weight window's one block is its whole array. -/
theorem wa_block (c : Dev nD) (t : Fin cfg0.N) : (iblk0 (F := Ideal) V c 3 t : Mat 125 125) = V c main_v1 := by
  obtain ⟨-, -, -, -, -, -, -, -, e0, e1, -⟩ := idx_facts t
  funext y
  show V c main_v1 (((cfg0.win 3).blk t).view.emb y) = V c main_v1 y
  refine congrArg _ ?_
  funext a; apply Fin.ext
  match a with
  | ⟨0, _⟩ => show win0_3.index t (0 : Fin 2) * 125 + 1 * (y 0).val = (y 0).val; omega
  | ⟨1, _⟩ => show win0_3.index t (1 : Fin 2) * 125 + 1 * (y 1).val = (y 1).val; omega

theorem wb_block (c : Dev nD) (t : Fin cfg0.N) : (iblk0 (F := Ideal) V c 4 t : Mat 12 125) = V c main_v3 := by
  obtain ⟨-, -, -, -, -, -, -, -, -, -, e0, e1, -⟩ := idx_facts t
  funext y
  show V c main_v3 (((cfg0.win 4).blk t).view.emb y) = V c main_v3 y
  refine congrArg _ ?_
  funext a; apply Fin.ext
  match a with
  | ⟨0, _⟩ => show win0_4.index t (0 : Fin 2) * 12 + 1 * (y 0).val = (y 0).val; omega
  | ⟨1, _⟩ => show win0_4.index t (1 : Fin 2) * 125 + 1 * (y 1).val = (y 1).val; omega

theorem wc_block (c : Dev nD) (t : Fin cfg0.N) : (iblk0 (F := Ideal) V c 5 t : Mat 40 125) = V c main_v5 := by
  obtain ⟨-, -, -, -, -, -, -, -, -, -, -, -, e0, e1, -⟩ := idx_facts t
  funext y
  show V c main_v5 (((cfg0.win 5).blk t).view.emb y) = V c main_v5 y
  refine congrArg _ ?_
  funext a; apply Fin.ext
  match a with
  | ⟨0, _⟩ => show win0_5.index t (0 : Fin 2) * 40 + 1 * (y 0).val = (y 0).val; omega
  | ⟨1, _⟩ => show win0_5.index t (1 : Fin 2) * 125 + 1 * (y 1).val = (y 1).val; omega

theorem w2_block (c : Dev nD) (t : Fin cfg0.N) : (iblk0 (F := Ideal) V c 6 t : Mat 125 40) = V c main_v6 := by
  obtain ⟨-, -, -, -, -, -, -, -, -, -, -, -, -, -, e0, e1, -⟩ := idx_facts t
  funext y
  show V c main_v6 (((cfg0.win 6).blk t).view.emb y) = V c main_v6 y
  refine congrArg _ ?_
  funext a; apply Fin.ext
  match a with
  | ⟨0, _⟩ => show win0_6.index t (0 : Fin 2) * 125 + 1 * (y 0).val = (y 0).val; omega
  | ⟨1, _⟩ => show win0_6.index t (1 : Fin 2) * 40 + 1 * (y 1).val = (y 1).val; omega

theorem b1_block (c : Dev nD) (t : Fin cfg0.N) : (iblk0 (F := Ideal) V c 7 t : Mat 1 125) = V c main_v7 := by
  obtain ⟨-, -, -, -, -, -, -, -, -, -, -, -, -, -, -, -, e0, e1, -⟩ := idx_facts t
  funext y
  show V c main_v7 (((cfg0.win 7).blk t).view.emb y) = V c main_v7 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 125 + 1 * (y 1).val = (y 1).val; omega

theorem b2_block (c : Dev nD) (t : Fin cfg0.N) : (iblk0 (F := Ideal) V c 8 t : Mat 1 40) = V c main_v8 := by
  obtain ⟨-, -, -, -, -, -, -, -, -, -, -, -, -, -, -, -, -, -, e0, e1⟩ := idx_facts t
  funext y
  show V c main_v8 (((cfg0.win 8).blk t).view.emb y) = V c main_v8 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 40 + 1 * (y 1).val = (y 1).val; omega

/-- Where the output's block at point t sits in the output array. -/
theorem out_emb (t : Fin cfg0.N) (r : Fin 1024) (o : Fin 40) (h : 1024 * t.val + r.val < 131072) :
    ((cfg0.win 9).blk t).view.emb (ix2 r o) = (ix2 ⟨1024 * t.val + r.val, h⟩ o : S131072x40.Idx) := by
  obtain ⟨-, -, -, -, -, -, e0, e1, -⟩ := idx_facts t
  funext a; apply Fin.ext
  match a with
  | ⟨0, _⟩ => show win0_9.index t (0 : Fin 2) * 1024 + 1 * r.val = 1024 * t.val + r.val; omega
  | ⟨1, _⟩ => show win0_9.index t (1 : Fin 2) * 40 + 1 * o.val = o.val; omega

/-- What point t writes back is block t of one upward step on the whole arrays, the children's values being the leaf
    network of the whole leaf array. -/
theorem flushed_eq (c : Dev nD) (t : Fin cfg0.N) :
    (dat0 (F := Ideal) V c).flushed 9 t = ((cfg0.win 9).blk t).view.read (Elt Ideal)
      (levelArr 131072 524288 (by norm_num) (V c main_v10) (V c main_v11)
        (leafArr 524288 (V c main_v9) (V c main_v1) (V c main_v7) (V c main_v6) (V c main_v8))
        (V c main_v1) (V c main_v3) (V c main_v5) (V c main_v7) (V c main_v6) (V c main_v8)) := by
  have hN : cfg0.N = 128 := N_0
  have ht : t.val < 128 := hN ▸ t.isLt
  show (cfg0.win 9).cut (grid0.coords t) ((dat0 V c).after 9 t) = _
  rw [after0_9, Body.out0_9_eq, wa_block, wb_block, wc_block, w2_block, b1_block, b2_block]
  funext y
  obtain ⟨r, o, rfl⟩ : ∃ (r : Fin 1024) (o : Fin 40), y = ix2 r o := ⟨y 0, y 1, eq_ix2 y⟩
  have hr : 1024 * t.val + r.val < 131072 := by have := r.isLt; omega
  show levelArr 1024 4096 _ (iblk0 V c 1 t) (iblk0 V c 2 t)
      (leafArr 4096 (iblk0 V c 0 t) (V c main_v1) (V c main_v7) (V c main_v6) (V c main_v8))
      (V c main_v1) (V c main_v3) (V c main_v5) (V c main_v7) (V c main_v6) (V c main_v8) (ix2 r o)
    = levelArr 131072 524288 _ (V c main_v10) (V c main_v11)
      (leafArr 524288 (V c main_v9) (V c main_v1) (V c main_v7) (V c main_v6) (V c main_v8))
      (V c main_v1) (V c main_v3) (V c main_v5) (V c main_v7) (V c main_v6) (V c main_v8) (((cfg0.win 9).blk t).view.emb (ix2 r o))
  rw [out_emb t r o hr]
  exact levelArr_block 131072 524288 (by norm_num) 1024 4096 (by norm_num) (1024 * t.val) (by omega)
    (V c main_v10) (V c main_v11) (leafArr 524288 (V c main_v9) (V c main_v1) (V c main_v7) (V c main_v6) (V c main_v8))
    (iblk0 V c 1 t) (iblk0 V c 2 t) (leafArr 4096 (iblk0 V c 0 t) (V c main_v1) (V c main_v7) (V c main_v6) (V c main_v8))
    (V c main_v1) (V c main_v3) (V c main_v5) (V c main_v7) (V c main_v6) (V c main_v8)
    (fun r k => msg_block V c t r k _) (fun s k => bond_block V c t s k _)
    (fun s k => leafArr_block 524288 4096 (4 * (1024 * t.val)) (by omega) (V c main_v9) (iblk0 V c 0 t)
      (V c main_v1) (V c main_v7) (V c main_v6) (V c main_v8) (fun r k => leaf_block V c t r k _) s k) r o

/-- An index of the output array is in point t's block iff each coordinate is in the block's range on its axis. -/
theorem mem_blk (t : Fin cfg0.N) (i : S131072x40.Idx) :
    i ∈ ((cfg0.win 9).blk t).view.set ↔ ∀ a : Fin 2, win0_9.index t a * S1024x40.size a ≤ (i a).val ∧ (i a).val < win0_9.index t a * S1024x40.size a + S1024x40.size a := by
  show i ∈ ((View.whole main_v12).slice (win0_9.rect t)).set ↔ _
  rw [View.set_slice_whole, Rect.mem_set_unit]
  exact Iff.rfl

/-- Every row of the output is written: row i belongs to the block of point i / 1024. -/
theorem cover (i : S131072x40.Idx) :
    ∃ t : Fin cfg0.N, (cfg0.win 9).flush t = true ∧ i ∈ ((cfg0.win 9).blk t).view.set := by
  have hN : cfg0.N = 128 := N_0
  have hi0 : (i 0).val < 131072 := (i 0).isLt
  have hi1 : (i 1).val < 40 := (i 1).isLt
  obtain ⟨t, ht⟩ : ∃ t : Fin cfg0.N, t.val = (i 0).val / 1024 := ⟨⟨(i 0).val / 1024, by rw [hN]; omega⟩, rfl⟩
  obtain ⟨-, -, -, -, -, -, e0, e1, -⟩ := idx_facts t
  refine ⟨t, flush0_9 t, ?_⟩
  rw [mem_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 40 ≤ (i 1).val ∧ (i 1).val < win0_9.index t (1 : Fin 2) * 40 + 40; omega

/-- The output array after the grid has run: one upward step of the tree network on the whole arrays, from the leaf
    network of the whole leaf array. -/
theorem final (c : Dev nD) :
    (dat0 (F := Ideal) V c).arrAt 9 cfg0.N
      = levelArr 131072 524288 (by norm_num) (V c main_v10) (V c main_v11)
          (leafArr 524288 (V c main_v9) (V c main_v1) (V c main_v7) (V c main_v6) (V c main_v8))
          (V c main_v1) (V c main_v3) (V c main_v5) (V c main_v7) (V c main_v6) (V c main_v8) :=
  (dat0 (F := Ideal) V c).arrAt_eq_of_cover 9 _ (fun t _ => flushed_eq V c t) cover

end Cert.KernelIdeal.Arr.Fused

end
-- ==== Proof.ArraysLevel1.lean ====
/-
  The second kernel (32 grid points) on whole arrays: point t writes parents 1024·t … 1024·t + 1023 of the output,
  reading the same rows of the parents' features and rows 4096·t … 4096·t + 4095 of the children's edges and values;
  the 32 blocks tile the 32768 rows, so the output array is one upward step of the tree network on the whole arrays.
-/
import proofs.«141253_j53970559042267_2_alg».proof.Proof.Gen.KernelIdeal.Frame
import proofs.«141253_j53970559042267_2_alg».proof.Proof.TreeNet
import proofs.«141253_j53970559042267_2_alg».proof.Proof.KernelBody
import Idealize.ShloMosaic.Lib.Pipeline.Value

noncomputable section

namespace Cert.KernelIdeal.Arr.Level1

open Idealize.ShloMosaic Idealize.ShloMosaic.TcCoe Idealize.ShloMosaic.ValueIdx Idealize.SL.Sem
open Cert.KernelIdeal Cert.KernelIdeal.Gen Cert.TreeNet

variable (V : (c : Dev nD) → (b : Ref sig .tc) → Buf (Elt Ideal) ((c : Thread nD τ).loc b))

/-- The index maps over the grid: the three row-blocked inputs and the output move with the point along the rows,
    the six weight windows stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The parents' block at point t is rows 1024·t … of the parents' features. -/
theorem msg_block (c : Dev nD) (t : Fin cfg1.N) (r : Fin 1024) (k : Fin 125)
    (h : 1024 * t.val + r.val < 32768) :
    (iblk1 (F := Ideal) V c 0 t : Mat 1024 125) (ix2 r k) = (V c main_v13 : Mat 32768 125) (ix2 ⟨1024 * t.val + r.val, h⟩ k) := by
  obtain ⟨e0, e1, -⟩ := idx_facts t
  show V c main_v13 (((cfg1.win 0).blk t).view.emb (ix2 r k)) = V c main_v13 (ix2 ⟨1024 * t.val + r.val, h⟩ k)
  refine congrArg _ ?_
  funext a; apply Fin.ext
  match a with
  | ⟨0, _⟩ => show win1_0.index t (0 : Fin 2) * 1024 + 1 * r.val = 1024 * t.val + r.val; omega
  | ⟨1, _⟩ => show win1_0.index t (1 : Fin 2) * 125 + 1 * k.val = k.val; omega

/-- The children's edge block at point t is rows 4·(1024·t) … of the edges. -/
theorem bond_block (c : Dev nD) (t : Fin cfg1.N) (s : Fin 4096) (k : Fin 12)
    (h : 4 * (1024 * t.val) + s.val < 131072) :
    (iblk1 (F := Ideal) V c 1 t : Mat 4096 12) (ix2 s k) = (V c main_v14 : Mat 131072 12) (ix2 ⟨4 * (1024 * t.val) + s.val, h⟩ k) := by
  obtain ⟨-, -, e0, e1, -⟩ := idx_facts t
  show V c main_v14 (((cfg1.win 1).blk t).view.emb (ix2 s k)) = V c main_v14 (ix2 ⟨4 * (1024 * t.val) + s.val, h⟩ k)
  refine congrArg _ ?_
  funext a; apply Fin.ext
  match a with
  | ⟨0, _⟩ => show win1_1.index t (0 : Fin 2) * 4096 + 1 * s.val = 4 * (1024 * t.val) + s.val; omega
  | ⟨1, _⟩ => show win1_1.index t (1 : Fin 2) * 12 + 1 * k.val = k.val; omega

/-- The children's value block at point t is rows 4·(1024·t) … of the level below. -/
theorem prev_block (c : Dev nD) (t : Fin cfg1.N) (s : Fin 4096) (k : Fin 40)
    (h : 4 * (1024 * t.val) + s.val < 131072) :
    (iblk1 (F := Ideal) V c 2 t : Mat 4096 40) (ix2 s k) = (V c main_v12 : Mat 131072 40) (ix2 ⟨4 * (1024 * t.val) + s.val, h⟩ k) := by
  obtain ⟨-, -, -, -, e0, e1, -⟩ := idx_facts t
  show V c main_v12 (((cfg1.win 2).blk t).view.emb (ix2 s k)) = V c main_v12 (ix2 ⟨4 * (1024 * t.val) + s.val, h⟩ k)
  refine congrArg _ ?_
  funext a; apply Fin.ext
  match a with
  | ⟨0, _⟩ => show win1_2.index t (0 : Fin 2) * 4096 + 1 * s.val = 4 * (1024 * t.val) + s.val; omega
  | ⟨1, _⟩ => show win1_2.index t (1 : Fin 2) * 40 + 1 * k.val = k.val; omega

/-- Each weight window's one block is its whole array. -/
theorem wa_block (c : Dev nD) (t : Fin cfg1.N) : (iblk1 (F := Ideal) V c 3 t : Mat 125 125) = V c main_v1 := by
  obtain ⟨-, -, -, -, -, -, -, -, e0, e1, -⟩ := idx_facts t
  funext y
  show V c main_v1 (((cfg1.win 3).blk t).view.emb y) = V c main_v1 y
  refine congrArg _ ?_
  funext a; apply Fin.ext
  match a with
  | ⟨0, _⟩ => show win1_3.index t (0 : Fin 2) * 125 + 1 * (y 0).val = (y 0).val; omega
  | ⟨1, _⟩ => show win1_3.index t (1 : Fin 2) * 125 + 1 * (y 1).val = (y 1).val; omega

theorem wb_block (c : Dev nD) (t : Fin cfg1.N) : (iblk1 (F := Ideal) V c 4 t : Mat 12 125) = V c main_v3 := by
  obtain ⟨-, -, -, -, -, -, -, -, -, -, e0, e1, -⟩ := idx_facts t
  funext y
  show V c main_v3 (((cfg1.win 4).blk t).view.emb y) = V c main_v3 y
  refine congrArg _ ?_
  funext a; apply Fin.ext
  match a with
  | ⟨0, _⟩ => show win1_4.index t (0 : Fin 2) * 12 + 1 * (y 0).val = (y 0).val; omega
  | ⟨1, _⟩ => show win1_4.index t (1 : Fin 2) * 125 + 1 * (y 1).val = (y 1).val; omega

theorem wc_block (c : Dev nD) (t : Fin cfg1.N) : (iblk1 (F := Ideal) V c 5 t : Mat 40 125) = V c main_v5 := by
  obtain ⟨-, -, -, -, -, -, -, -, -, -, -, -, e0, e1, -⟩ := idx_facts t
  funext y
  show V c main_v5 (((cfg1.win 5).blk t).view.emb y) = V c main_v5 y
  refine congrArg _ ?_
  funext a; apply Fin.ext
  match a with
  | ⟨0, _⟩ => show win1_5.index t (0 : Fin 2) * 40 + 1 * (y 0).val = (y 0).val; omega
  | ⟨1, _⟩ => show win1_5.index t (1 : Fin 2) * 125 + 1 * (y 1).val = (y 1).val; omega

theorem w2_block (c : Dev nD) (t : Fin cfg1.N) : (iblk1 (F := Ideal) V c 6 t : Mat 125 40) = V c main_v6 := by
  obtain ⟨-, -, -, -, -, -, -, -, -, -, -, -, -, -, e0, e1, -⟩ := idx_facts t
  funext y
  show V c main_v6 (((cfg1.win 6).blk t).view.emb y) = V c main_v6 y
  refine congrArg _ ?_
  funext a; apply Fin.ext
  match a with
  | ⟨0, _⟩ => show win1_6.index t (0 : Fin 2) * 125 + 1 * (y 0).val = (y 0).val; omega
  | ⟨1, _⟩ => show win1_6.index t (1 : Fin 2) * 40 + 1 * (y 1).val = (y 1).val; omega

theorem b1_block (c : Dev nD) (t : Fin cfg1.N) : (iblk1 (F := Ideal) V c 7 t : Mat 1 125) = V c main_v7 := by
  obtain ⟨-, -, -, -, -, -, -, -, -, -, -, -, -, -, -, -, e0, e1, -⟩ := idx_facts t
  funext y
  show V c main_v7 (((cfg1.win 7).blk t).view.emb y) = V c main_v7 y
  refine congrArg _ ?_
  funext a; apply Fin.ext
  match a with
  | ⟨0, _⟩ => show win1_7.index t (0 : Fin 2) * 1 + 1 * (y 0).val = (y 0).val; omega
  | ⟨1, _⟩ => show win1_7.index t (1 : Fin 2) * 125 + 1 * (y 1).val = (y 1).val; omega

theorem b2_block (c : Dev nD) (t : Fin cfg1.N) : (iblk1 (F := Ideal) V c 8 t : Mat 1 40) = V c main_v8 := by
  obtain ⟨-, -, -, -, -, -, -, -, -, -, -, -, -, -, -, -, -, -, e0, e1⟩ := idx_facts t
  funext y
  show V c main_v8 (((cfg1.win 8).blk t).view.emb y) = V c main_v8 y
  refine congrArg _ ?_
  funext a; apply Fin.ext
  match a with
  | ⟨0, _⟩ => show win1_8.index t (0 : Fin 2) * 1 + 1 * (y 0).val = (y 0).val; omega
  | ⟨1, _⟩ => show win1_8.index t (1 : Fin 2) * 40 + 1 * (y 1).val = (y 1).val; omega

/-- Where the output's block at point t sits in the output array. -/
theorem out_emb (t : Fin cfg1.N) (r : Fin 1024) (o : Fin 40) (h : 1024 * t.val + r.val < 32768) :
    ((cfg1.win 9).blk t).view.emb (ix2 r o) = (ix2 ⟨1024 * t.val + r.val, h⟩ o : S32768x40.Idx) := by
  obtain ⟨-, -, -, -, -, -, e0, e1, -⟩ := idx_facts t
  funext a; apply Fin.ext
  match a with
  | ⟨0, _⟩ => show win1_9.index t (0 : Fin 2) * 1024 + 1 * r.val = 1024 * t.val + r.val; omega
  | ⟨1, _⟩ => show win1_9.index t (1 : Fin 2) * 40 + 1 * o.val = o.val; omega

/-- What point t writes back is block t of one upward step on the whole arrays. -/
theorem flushed_eq (c : Dev nD) (t : Fin cfg1.N) :
    (dat1 (F := Ideal) V c).flushed 9 t = ((cfg1.win 9).blk t).view.read (Elt Ideal)
      (levelArr 32768 131072 (by norm_num) (V c main_v13) (V c main_v14) (V c main_v12)
        (V c main_v1) (V c main_v3) (V c main_v5) (V c main_v7) (V c main_v6) (V c main_v8)) := by
  have hN : cfg1.N = 32 := N_1
  have ht : t.val < 32 := hN ▸ t.isLt
  show (cfg1.win 9).cut (grid1.coords t) ((dat1 V c).after 9 t) = _
  rw [after1_9, Body.out1_9_eq, wa_block, wb_block, wc_block, w2_block, b1_block, b2_block]
  funext y
  obtain ⟨r, o, rfl⟩ : ∃ (r : Fin 1024) (o : Fin 40), y = ix2 r o := ⟨y 0, y 1, eq_ix2 y⟩
  have hr : 1024 * t.val + r.val < 32768 := by have := r.isLt; omega
  show levelArr 1024 4096 _ (iblk1 V c 0 t) (iblk1 V c 1 t) (iblk1 V c 2 t) (V c main_v1) (V c main_v3) (V c main_v5) (V c main_v7) (V c main_v6) (V c main_v8) (ix2 r o)
    = levelArr 32768 131072 _ (V c main_v13) (V c main_v14) (V c main_v12) (V c main_v1) (V c main_v3) (V c main_v5) (V c main_v7) (V c main_v6) (V c main_v8) (((cfg1.win 9).blk t).view.emb (ix2 r o))
  rw [out_emb t r o hr]
  exact levelArr_block 32768 131072 (by norm_num) 1024 4096 (by norm_num) (1024 * t.val) (by omega)
    (V c main_v13) (V c main_v14) (V c main_v12) (iblk1 V c 0 t) (iblk1 V c 1 t) (iblk1 V c 2 t)
    (V c main_v1) (V c main_v3) (V c main_v5) (V c main_v7) (V c main_v6) (V c main_v8)
    (fun r k => msg_block V c t r k _) (fun s k => bond_block V c t s k _) (fun s k => prev_block V c t s k _) r o

/-- An index of the output array is in point t's block iff each coordinate is in the block's range on its axis. -/
theorem mem_blk (t : Fin cfg1.N) (i : S32768x40.Idx) :
    i ∈ ((cfg1.win 9).blk t).view.set ↔ ∀ a : Fin 2, win1_9.index t a * S1024x40.size a ≤ (i a).val ∧ (i a).val < win1_9.index t a * S1024x40.size a + S1024x40.size a := by
  show i ∈ ((View.whole main_v15).slice (win1_9.rect t)).set ↔ _
  rw [View.set_slice_whole, Rect.mem_set_unit]
  exact Iff.rfl

/-- Every row of the output is written: row i belongs to the block of point i / 1024. -/
theorem cover (i : S32768x40.Idx) :
    ∃ t : Fin cfg1.N, (cfg1.win 9).flush t = true ∧ i ∈ ((cfg1.win 9).blk t).view.set := by
  have hN : cfg1.N = 32 := N_1
  have hi0 : (i 0).val < 32768 := (i 0).isLt
  have hi1 : (i 1).val < 40 := (i 1).isLt
  obtain ⟨t, ht⟩ : ∃ t : Fin cfg1.N, t.val = (i 0).val / 1024 := ⟨⟨(i 0).val / 1024, by rw [hN]; omega⟩, rfl⟩
  obtain ⟨-, -, -, -, -, -, e0, e1, -⟩ := idx_facts t
  refine ⟨t, flush1_9 t, ?_⟩
  rw [mem_blk]
  intro a
  match a with
  | ⟨0, _⟩ => show win1_9.index t (0 : Fin 2) * 1024 ≤ (i 0).val ∧ (i 0).val < win1_9.index t (0 : Fin 2) * 1024 + 1024; omega
  | ⟨1, _⟩ => show win1_9.index t (1 : Fin 2) * 40 ≤ (i 1).val ∧ (i 1).val < win1_9.index t (1 : Fin 2) * 40 + 40; omega

/-- The output array after the grid has run: one upward step of the tree network on the whole arrays. -/
theorem final (c : Dev nD) :
    (dat1 (F := Ideal) V c).arrAt 9 cfg1.N
      = levelArr 32768 131072 (by norm_num) (V c main_v13) (V c main_v14) (V c main_v12)
          (V c main_v1) (V c main_v3) (V c main_v5) (V c main_v7) (V c main_v6) (V c main_v8) :=
  (dat1 (F := Ideal) V c).arrAt_eq_of_cover 9 _ (fun t _ => flushed_eq V c t) cover

end Cert.KernelIdeal.Arr.Level1

end
-- ==== Proof.ArraysLevel2.lean ====
/-
  The third kernel (8 grid points) on whole arrays: point t writes parents 1024·t … 1024·t + 1023 of the output,
  reading the same rows of the parents' features and rows 4096·t … 4096·t + 4095 of the children's edges and values;
  the 8 blocks tile the 8192 rows, so the output array is one upward step of the tree network on the whole arrays.
-/
import proofs.«141253_j53970559042267_2_alg».proof.Proof.Gen.KernelIdeal.Frame
import proofs.«141253_j53970559042267_2_alg».proof.Proof.TreeNet
import proofs.«141253_j53970559042267_2_alg».proof.Proof.KernelBody
import Idealize.ShloMosaic.Lib.Pipeline.Value

noncomputable section

namespace Cert.KernelIdeal.Arr.Level2

open Idealize.ShloMosaic Idealize.ShloMosaic.TcCoe Idealize.ShloMosaic.ValueIdx Idealize.SL.Sem
open Cert.KernelIdeal Cert.KernelIdeal.Gen Cert.TreeNet

variable (V : (c : Dev nD) → (b : Ref sig .tc) → Buf (Elt Ideal) ((c : Thread nD τ).loc b))

/-- The index maps over the grid: the three row-blocked inputs and the output move with the point along the rows,
    the six weight windows stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The parents' block at point t is rows 1024·t … of the parents' features. -/
theorem msg_block (c : Dev nD) (t : Fin cfg2.N) (r : Fin 1024) (k : Fin 125)
    (h : 1024 * t.val + r.val < 8192) :
    (iblk2 (F := Ideal) V c 0 t : Mat 1024 125) (ix2 r k) = (V c main_v16 : Mat 8192 125) (ix2 ⟨1024 * t.val + r.val, h⟩ k) := by
  obtain ⟨e0, e1, -⟩ := idx_facts t
  show V c main_v16 (((cfg2.win 0).blk t).view.emb (ix2 r k)) = V c main_v16 (ix2 ⟨1024 * t.val + r.val, h⟩ k)
  refine congrArg _ ?_
  funext a; apply Fin.ext
  match a with
  | ⟨0, _⟩ => show win2_0.index t (0 : Fin 2) * 1024 + 1 * r.val = 1024 * t.val + r.val; omega
  | ⟨1, _⟩ => show win2_0.index t (1 : Fin 2) * 125 + 1 * k.val = k.val; omega

/-- The children's edge block at point t is rows 4·(1024·t) … of the edges. -/
theorem bond_block (c : Dev nD) (t : Fin cfg2.N) (s : Fin 4096) (k : Fin 12)
    (h : 4 * (1024 * t.val) + s.val < 32768) :
    (iblk2 (F := Ideal) V c 1 t : Mat 4096 12) (ix2 s k) = (V c main_v17 : Mat 32768 12) (ix2 ⟨4 * (1024 * t.val) + s.val, h⟩ k) := by
  obtain ⟨-, -, e0, e1, -⟩ := idx_facts t
  show V c main_v17 (((cfg2.win 1).blk t).view.emb (ix2 s k)) = V c main_v17 (ix2 ⟨4 * (1024 * t.val) + s.val, h⟩ k)
  refine congrArg _ ?_
  funext a; apply Fin.ext
  match a with
  | ⟨0, _⟩ => show win2_1.index t (0 : Fin 2) * 4096 + 1 * s.val = 4 * (1024 * t.val) + s.val; omega
  | ⟨1, _⟩ => show win2_1.index t (1 : Fin 2) * 12 + 1 * k.val = k.val; omega

/-- The children's value block at point t is rows 4·(1024·t) … of the level below. -/
theorem prev_block (c : Dev nD) (t : Fin cfg2.N) (s : Fin 4096) (k : Fin 40)
    (h : 4 * (1024 * t.val) + s.val < 32768) :
    (iblk2 (F := Ideal) V c 2 t : Mat 4096 40) (ix2 s k) = (V c main_v15 : Mat 32768 40) (ix2 ⟨4 * (1024 * t.val) + s.val, h⟩ k) := by
  obtain ⟨-, -, -, -, e0, e1, -⟩ := idx_facts t
  show V c main_v15 (((cfg2.win 2).blk t).view.emb (ix2 s k)) = V c main_v15 (ix2 ⟨4 * (1024 * t.val) + s.val, h⟩ k)
  refine congrArg _ ?_
  funext a; apply Fin.ext
  match a with
  | ⟨0, _⟩ => show win2_2.index t (0 : Fin 2) * 4096 + 1 * s.val = 4 * (1024 * t.val) + s.val; omega
  | ⟨1, _⟩ => show win2_2.index t (1 : Fin 2) * 40 + 1 * k.val = k.val; omega

/-- Each weight window's one block is its whole array. -/
theorem wa_block (c : Dev nD) (t : Fin cfg2.N) : (iblk2 (F := Ideal) V c 3 t : Mat 125 125) = V c main_v1 := by
  obtain ⟨-, -, -, -, -, -, -, -, e0, e1, -⟩ := idx_facts t
  funext y
  show V c main_v1 (((cfg2.win 3).blk t).view.emb y) = V c main_v1 y
  refine congrArg _ ?_
  funext a; apply Fin.ext
  match a with
  | ⟨0, _⟩ => show win2_3.index t (0 : Fin 2) * 125 + 1 * (y 0).val = (y 0).val; omega
  | ⟨1, _⟩ => show win2_3.index t (1 : Fin 2) * 125 + 1 * (y 1).val = (y 1).val; omega

theorem wb_block (c : Dev nD) (t : Fin cfg2.N) : (iblk2 (F := Ideal) V c 4 t : Mat 12 125) = V c main_v3 := by
  obtain ⟨-, -, -, -, -, -, -, -, -, -, e0, e1, -⟩ := idx_facts t
  funext y
  show V c main_v3 (((cfg2.win 4).blk t).view.emb y) = V c main_v3 y
  refine congrArg _ ?_
  funext a; apply Fin.ext
  match a with
  | ⟨0, _⟩ => show win2_4.index t (0 : Fin 2) * 12 + 1 * (y 0).val = (y 0).val; omega
  | ⟨1, _⟩ => show win2_4.index t (1 : Fin 2) * 125 + 1 * (y 1).val = (y 1).val; omega

theorem wc_block (c : Dev nD) (t : Fin cfg2.N) : (iblk2 (F := Ideal) V c 5 t : Mat 40 125) = V c main_v5 := by
  obtain ⟨-, -, -, -, -, -, -, -, -, -, -, -, e0, e1, -⟩ := idx_facts t
  funext y
  show V c main_v5 (((cfg2.win 5).blk t).view.emb y) = V c main_v5 y
  refine congrArg _ ?_
  funext a; apply Fin.ext
  match a with
  | ⟨0, _⟩ => show win2_5.index t (0 : Fin 2) * 40 + 1 * (y 0).val = (y 0).val; omega
  | ⟨1, _⟩ => show win2_5.index t (1 : Fin 2) * 125 + 1 * (y 1).val = (y 1).val; omega

theorem w2_block (c : Dev nD) (t : Fin cfg2.N) : (iblk2 (F := Ideal) V c 6 t : Mat 125 40) = V c main_v6 := by
  obtain ⟨-, -, -, -, -, -, -, -, -, -, -, -, -, -, e0, e1, -⟩ := idx_facts t
  funext y
  show V c main_v6 (((cfg2.win 6).blk t).view.emb y) = V c main_v6 y
  refine congrArg _ ?_
  funext a; apply Fin.ext
  match a with
  | ⟨0, _⟩ => show win2_6.index t (0 : Fin 2) * 125 + 1 * (y 0).val = (y 0).val; omega
  | ⟨1, _⟩ => show win2_6.index t (1 : Fin 2) * 40 + 1 * (y 1).val = (y 1).val; omega

theorem b1_block (c : Dev nD) (t : Fin cfg2.N) : (iblk2 (F := Ideal) V c 7 t : Mat 1 125) = V c main_v7 := by
  obtain ⟨-, -, -, -, -, -, -, -, -, -, -, -, -, -, -, -, e0, e1, -⟩ := idx_facts t
  funext y
  show V c main_v7 (((cfg2.win 7).blk t).view.emb y) = V c main_v7 y
  refine congrArg _ ?_
  funext a; apply Fin.ext
  match a with
  | ⟨0, _⟩ => show win2_7.index t (0 : Fin 2) * 1 + 1 * (y 0).val = (y 0).val; omega
  | ⟨1, _⟩ => show win2_7.index t (1 : Fin 2) * 125 + 1 * (y 1).val = (y 1).val; omega

theorem b2_block (c : Dev nD) (t : Fin cfg2.N) : (iblk2 (F := Ideal) V c 8 t : Mat 1 40) = V c main_v8 := by
  obtain ⟨-, -, -, -, -, -, -, -, -, -, -, -, -, -, -, -, -, -, e0, e1⟩ := idx_facts t
  funext y
  show V c main_v8 (((cfg2.win 8).blk t).view.emb y) = V c main_v8 y
  refine congrArg _ ?_
  funext a; apply Fin.ext
  match a with
  | ⟨0, _⟩ => show win2_8.index t (0 : Fin 2) * 1 + 1 * (y 0).val = (y 0).val; omega
  | ⟨1, _⟩ => show win2_8.index t (1 : Fin 2) * 40 + 1 * (y 1).val = (y 1).val; omega

/-- Where the output's block at point t sits in the output array. -/
theorem out_emb (t : Fin cfg2.N) (r : Fin 1024) (o : Fin 40) (h : 1024 * t.val + r.val < 8192) :
    ((cfg2.win 9).blk t).view.emb (ix2 r o) = (ix2 ⟨1024 * t.val + r.val, h⟩ o : S8192x40.Idx) := by
  obtain ⟨-, -, -, -, -, -, e0, e1, -⟩ := idx_facts t
  funext a; apply Fin.ext
  match a with
  | ⟨0, _⟩ => show win2_9.index t (0 : Fin 2) * 1024 + 1 * r.val = 1024 * t.val + r.val; omega
  | ⟨1, _⟩ => show win2_9.index t (1 : Fin 2) * 40 + 1 * o.val = o.val; omega

/-- What point t writes back is block t of one upward step on the whole arrays. -/
theorem flushed_eq (c : Dev nD) (t : Fin cfg2.N) :
    (dat2 (F := Ideal) V c).flushed 9 t = ((cfg2.win 9).blk t).view.read (Elt Ideal)
      (levelArr 8192 32768 (by norm_num) (V c main_v16) (V c main_v17) (V c main_v15)
        (V c main_v1) (V c main_v3) (V c main_v5) (V c main_v7) (V c main_v6) (V c main_v8)) := by
  have hN : cfg2.N = 8 := N_2
  have ht : t.val < 8 := hN ▸ t.isLt
  show (cfg2.win 9).cut (grid2.coords t) ((dat2 V c).after 9 t) = _
  rw [after2_9, Body.out2_9_eq, wa_block, wb_block, wc_block, w2_block, b1_block, b2_block]
  funext y
  obtain ⟨r, o, rfl⟩ : ∃ (r : Fin 1024) (o : Fin 40), y = ix2 r o := ⟨y 0, y 1, eq_ix2 y⟩
  have hr : 1024 * t.val + r.val < 8192 := by have := r.isLt; omega
  show levelArr 1024 4096 _ (iblk2 V c 0 t) (iblk2 V c 1 t) (iblk2 V c 2 t) (V c main_v1) (V c main_v3) (V c main_v5) (V c main_v7) (V c main_v6) (V c main_v8) (ix2 r o)
    = levelArr 8192 32768 _ (V c main_v16) (V c main_v17) (V c main_v15) (V c main_v1) (V c main_v3) (V c main_v5) (V c main_v7) (V c main_v6) (V c main_v8) (((cfg2.win 9).blk t).view.emb (ix2 r o))
  rw [out_emb t r o hr]
  exact levelArr_block 8192 32768 (by norm_num) 1024 4096 (by norm_num) (1024 * t.val) (by omega)
    (V c main_v16) (V c main_v17) (V c main_v15) (iblk2 V c 0 t) (iblk2 V c 1 t) (iblk2 V c 2 t)
    (V c main_v1) (V c main_v3) (V c main_v5) (V c main_v7) (V c main_v6) (V c main_v8)
    (fun r k => msg_block V c t r k _) (fun s k => bond_block V c t s k _) (fun s k => prev_block V c t s k _) r o

/-- An index of the output array is in point t's block iff each coordinate is in the block's range on its axis. -/
theorem mem_blk (t : Fin cfg2.N) (i : S8192x40.Idx) :
    i ∈ ((cfg2.win 9).blk t).view.set ↔ ∀ a : Fin 2, win2_9.index t a * S1024x40.size a ≤ (i a).val ∧ (i a).val < win2_9.index t a * S1024x40.size a + S1024x40.size a := by
  show i ∈ ((View.whole main_v18).slice (win2_9.rect t)).set ↔ _
  rw [View.set_slice_whole, Rect.mem_set_unit]
  exact Iff.rfl

/-- Every row of the output is written: row i belongs to the block of point i / 1024. -/
theorem cover (i : S8192x40.Idx) :
    ∃ t : Fin cfg2.N, (cfg2.win 9).flush t = true ∧ i ∈ ((cfg2.win 9).blk t).view.set := by
  have hN : cfg2.N = 8 := N_2
  have hi0 : (i 0).val < 8192 := (i 0).isLt
  have hi1 : (i 1).val < 40 := (i 1).isLt
  obtain ⟨t, ht⟩ : ∃ t : Fin cfg2.N, t.val = (i 0).val / 1024 := ⟨⟨(i 0).val / 1024, by rw [hN]; omega⟩, rfl⟩
  obtain ⟨-, -, -, -, -, -, e0, e1, -⟩ := idx_facts t
  refine ⟨t, flush2_9 t, ?_⟩
  rw [mem_blk]
  intro a
  match a with
  | ⟨0, _⟩ => show win2_9.index t (0 : Fin 2) * 1024 ≤ (i 0).val ∧ (i 0).val < win2_9.index t (0 : Fin 2) * 1024 + 1024; omega
  | ⟨1, _⟩ => show win2_9.index t (1 : Fin 2) * 40 ≤ (i 1).val ∧ (i 1).val < win2_9.index t (1 : Fin 2) * 40 + 40; omega

/-- The output array after the grid has run: one upward step of the tree network on the whole arrays. -/
theorem final (c : Dev nD) :
    (dat2 (F := Ideal) V c).arrAt 9 cfg2.N
      = levelArr 8192 32768 (by norm_num) (V c main_v16) (V c main_v17) (V c main_v15)
          (V c main_v1) (V c main_v3) (V c main_v5) (V c main_v7) (V c main_v6) (V c main_v8) :=
  (dat2 (F := Ideal) V c).arrAt_eq_of_cover 9 _ (fun t _ => flushed_eq V c t) cover

end Cert.KernelIdeal.Arr.Level2

end
-- ==== Proof.ArraysLevel3.lean ====
/-
  The fourth kernel (2 grid points) on whole arrays: point t writes parents 1024·t … 1024·t + 1023 of the output,
  reading the same rows of the parents' features and rows 4096·t … 4096·t + 4095 of the children's edges and values;
  the 2 blocks tile the 2048 rows, so the output array is one upward step of the tree network on the whole arrays.
-/
import proofs.«141253_j53970559042267_2_alg».proof.Proof.Gen.KernelIdeal.Frame
import proofs.«141253_j53970559042267_2_alg».proof.Proof.TreeNet
import proofs.«141253_j53970559042267_2_alg».proof.Proof.KernelBody
import Idealize.ShloMosaic.Lib.Pipeline.Value

noncomputable section

namespace Cert.KernelIdeal.Arr.Level3

open Idealize.ShloMosaic Idealize.ShloMosaic.TcCoe Idealize.ShloMosaic.ValueIdx Idealize.SL.Sem
open Cert.KernelIdeal Cert.KernelIdeal.Gen Cert.TreeNet

variable (V : (c : Dev nD) → (b : Ref sig .tc) → Buf (Elt Ideal) ((c : Thread nD τ).loc b))

/-- The index maps over the grid: the three row-blocked inputs and the output move with the point along the rows,
    the six weight windows stay at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_9.index t (0 : Fin 2) = t.val ∧ win3_9.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- The parents' block at point t is rows 1024·t … of the parents' features. -/
theorem msg_block (c : Dev nD) (t : Fin cfg3.N) (r : Fin 1024) (k : Fin 125)
    (h : 1024 * t.val + r.val < 2048) :
    (iblk3 (F := Ideal) V c 0 t : Mat 1024 125) (ix2 r k) = (V c main_v19 : Mat 2048 125) (ix2 ⟨1024 * t.val + r.val, h⟩ k) := by
  obtain ⟨e0, e1, -⟩ := idx_facts t
  show V c main_v19 (((cfg3.win 0).blk t).view.emb (ix2 r k)) = V c main_v19 (ix2 ⟨1024 * t.val + r.val, h⟩ k)
  refine congrArg _ ?_
  funext a; apply Fin.ext
  match a with
  | ⟨0, _⟩ => show win3_0.index t (0 : Fin 2) * 1024 + 1 * r.val = 1024 * t.val + r.val; omega
  | ⟨1, _⟩ => show win3_0.index t (1 : Fin 2) * 125 + 1 * k.val = k.val; omega

/-- The children's edge block at point t is rows 4·(1024·t) … of the edges. -/
theorem bond_block (c : Dev nD) (t : Fin cfg3.N) (s : Fin 4096) (k : Fin 12)
    (h : 4 * (1024 * t.val) + s.val < 8192) :
    (iblk3 (F := Ideal) V c 1 t : Mat 4096 12) (ix2 s k) = (V c main_v20 : Mat 8192 12) (ix2 ⟨4 * (1024 * t.val) + s.val, h⟩ k) := by
  obtain ⟨-, -, e0, e1, -⟩ := idx_facts t
  show V c main_v20 (((cfg3.win 1).blk t).view.emb (ix2 s k)) = V c main_v20 (ix2 ⟨4 * (1024 * t.val) + s.val, h⟩ k)
  refine congrArg _ ?_
  funext a; apply Fin.ext
  match a with
  | ⟨0, _⟩ => show win3_1.index t (0 : Fin 2) * 4096 + 1 * s.val = 4 * (1024 * t.val) + s.val; omega
  | ⟨1, _⟩ => show win3_1.index t (1 : Fin 2) * 12 + 1 * k.val = k.val; omega

/-- The children's value block at point t is rows 4·(1024·t) … of the level below. -/
theorem prev_block (c : Dev nD) (t : Fin cfg3.N) (s : Fin 4096) (k : Fin 40)
    (h : 4 * (1024 * t.val) + s.val < 8192) :
    (iblk3 (F := Ideal) V c 2 t : Mat 4096 40) (ix2 s k) = (V c main_v18 : Mat 8192 40) (ix2 ⟨4 * (1024 * t.val) + s.val, h⟩ k) := by
  obtain ⟨-, -, -, -, e0, e1, -⟩ := idx_facts t
  show V c main_v18 (((cfg3.win 2).blk t).view.emb (ix2 s k)) = V c main_v18 (ix2 ⟨4 * (1024 * t.val) + s.val, h⟩ k)
  refine congrArg _ ?_
  funext a; apply Fin.ext
  match a with
  | ⟨0, _⟩ => show win3_2.index t (0 : Fin 2) * 4096 + 1 * s.val = 4 * (1024 * t.val) + s.val; omega
  | ⟨1, _⟩ => show win3_2.index t (1 : Fin 2) * 40 + 1 * k.val = k.val; omega

/-- Each weight window's one block is its whole array. -/
theorem wa_block (c : Dev nD) (t : Fin cfg3.N) : (iblk3 (F := Ideal) V c 3 t : Mat 125 125) = V c main_v1 := by
  obtain ⟨-, -, -, -, -, -, -, -, e0, e1, -⟩ := idx_facts t
  funext y
  show V c main_v1 (((cfg3.win 3).blk t).view.emb y) = V c main_v1 y
  refine congrArg _ ?_
  funext a; apply Fin.ext
  match a with
  | ⟨0, _⟩ => show win3_3.index t (0 : Fin 2) * 125 + 1 * (y 0).val = (y 0).val; omega
  | ⟨1, _⟩ => show win3_3.index t (1 : Fin 2) * 125 + 1 * (y 1).val = (y 1).val; omega

theorem wb_block (c : Dev nD) (t : Fin cfg3.N) : (iblk3 (F := Ideal) V c 4 t : Mat 12 125) = V c main_v3 := by
  obtain ⟨-, -, -, -, -, -, -, -, -, -, e0, e1, -⟩ := idx_facts t
  funext y
  show V c main_v3 (((cfg3.win 4).blk t).view.emb y) = V c main_v3 y
  refine congrArg _ ?_
  funext a; apply Fin.ext
  match a with
  | ⟨0, _⟩ => show win3_4.index t (0 : Fin 2) * 12 + 1 * (y 0).val = (y 0).val; omega
  | ⟨1, _⟩ => show win3_4.index t (1 : Fin 2) * 125 + 1 * (y 1).val = (y 1).val; omega

theorem wc_block (c : Dev nD) (t : Fin cfg3.N) : (iblk3 (F := Ideal) V c 5 t : Mat 40 125) = V c main_v5 := by
  obtain ⟨-, -, -, -, -, -, -, -, -, -, -, -, e0, e1, -⟩ := idx_facts t
  funext y
  show V c main_v5 (((cfg3.win 5).blk t).view.emb y) = V c main_v5 y
  refine congrArg _ ?_
  funext a; apply Fin.ext
  match a with
  | ⟨0, _⟩ => show win3_5.index t (0 : Fin 2) * 40 + 1 * (y 0).val = (y 0).val; omega
  | ⟨1, _⟩ => show win3_5.index t (1 : Fin 2) * 125 + 1 * (y 1).val = (y 1).val; omega

theorem w2_block (c : Dev nD) (t : Fin cfg3.N) : (iblk3 (F := Ideal) V c 6 t : Mat 125 40) = V c main_v6 := by
  obtain ⟨-, -, -, -, -, -, -, -, -, -, -, -, -, -, e0, e1, -⟩ := idx_facts t
  funext y
  show V c main_v6 (((cfg3.win 6).blk t).view.emb y) = V c main_v6 y
  refine congrArg _ ?_
  funext a; apply Fin.ext
  match a with
  | ⟨0, _⟩ => show win3_6.index t (0 : Fin 2) * 125 + 1 * (y 0).val = (y 0).val; omega
  | ⟨1, _⟩ => show win3_6.index t (1 : Fin 2) * 40 + 1 * (y 1).val = (y 1).val; omega

theorem b1_block (c : Dev nD) (t : Fin cfg3.N) : (iblk3 (F := Ideal) V c 7 t : Mat 1 125) = V c main_v7 := by
  obtain ⟨-, -, -, -, -, -, -, -, -, -, -, -, -, -, -, -, e0, e1, -⟩ := idx_facts t
  funext y
  show V c main_v7 (((cfg3.win 7).blk t).view.emb y) = V c main_v7 y
  refine congrArg _ ?_
  funext a; apply Fin.ext
  match a with
  | ⟨0, _⟩ => show win3_7.index t (0 : Fin 2) * 1 + 1 * (y 0).val = (y 0).val; omega
  | ⟨1, _⟩ => show win3_7.index t (1 : Fin 2) * 125 + 1 * (y 1).val = (y 1).val; omega

theorem b2_block (c : Dev nD) (t : Fin cfg3.N) : (iblk3 (F := Ideal) V c 8 t : Mat 1 40) = V c main_v8 := by
  obtain ⟨-, -, -, -, -, -, -, -, -, -, -, -, -, -, -, -, -, -, e0, e1⟩ := idx_facts t
  funext y
  show V c main_v8 (((cfg3.win 8).blk t).view.emb y) = V c main_v8 y
  refine congrArg _ ?_
  funext a; apply Fin.ext
  match a with
  | ⟨0, _⟩ => show win3_8.index t (0 : Fin 2) * 1 + 1 * (y 0).val = (y 0).val; omega
  | ⟨1, _⟩ => show win3_8.index t (1 : Fin 2) * 40 + 1 * (y 1).val = (y 1).val; omega

/-- Where the output's block at point t sits in the output array. -/
theorem out_emb (t : Fin cfg3.N) (r : Fin 1024) (o : Fin 40) (h : 1024 * t.val + r.val < 2048) :
    ((cfg3.win 9).blk t).view.emb (ix2 r o) = (ix2 ⟨1024 * t.val + r.val, h⟩ o : S2048x40.Idx) := by
  obtain ⟨-, -, -, -, -, -, e0, e1, -⟩ := idx_facts t
  funext a; apply Fin.ext
  match a with
  | ⟨0, _⟩ => show win3_9.index t (0 : Fin 2) * 1024 + 1 * r.val = 1024 * t.val + r.val; omega
  | ⟨1, _⟩ => show win3_9.index t (1 : Fin 2) * 40 + 1 * o.val = o.val; omega

/-- What point t writes back is block t of one upward step on the whole arrays. -/
theorem flushed_eq (c : Dev nD) (t : Fin cfg3.N) :
    (dat3 (F := Ideal) V c).flushed 9 t = ((cfg3.win 9).blk t).view.read (Elt Ideal)
      (levelArr 2048 8192 (by norm_num) (V c main_v19) (V c main_v20) (V c main_v18)
        (V c main_v1) (V c main_v3) (V c main_v5) (V c main_v7) (V c main_v6) (V c main_v8)) := by
  have hN : cfg3.N = 2 := N_3
  have ht : t.val < 2 := hN ▸ t.isLt
  show (cfg3.win 9).cut (grid3.coords t) ((dat3 V c).after 9 t) = _
  rw [after3_9, Body.out3_9_eq, wa_block, wb_block, wc_block, w2_block, b1_block, b2_block]
  funext y
  obtain ⟨r, o, rfl⟩ : ∃ (r : Fin 1024) (o : Fin 40), y = ix2 r o := ⟨y 0, y 1, eq_ix2 y⟩
  have hr : 1024 * t.val + r.val < 2048 := by have := r.isLt; omega
  show levelArr 1024 4096 _ (iblk3 V c 0 t) (iblk3 V c 1 t) (iblk3 V c 2 t) (V c main_v1) (V c main_v3) (V c main_v5) (V c main_v7) (V c main_v6) (V c main_v8) (ix2 r o)
    = levelArr 2048 8192 _ (V c main_v19) (V c main_v20) (V c main_v18) (V c main_v1) (V c main_v3) (V c main_v5) (V c main_v7) (V c main_v6) (V c main_v8) (((cfg3.win 9).blk t).view.emb (ix2 r o))
  rw [out_emb t r o hr]
  exact levelArr_block 2048 8192 (by norm_num) 1024 4096 (by norm_num) (1024 * t.val) (by omega)
    (V c main_v19) (V c main_v20) (V c main_v18) (iblk3 V c 0 t) (iblk3 V c 1 t) (iblk3 V c 2 t)
    (V c main_v1) (V c main_v3) (V c main_v5) (V c main_v7) (V c main_v6) (V c main_v8)
    (fun r k => msg_block V c t r k _) (fun s k => bond_block V c t s k _) (fun s k => prev_block V c t s k _) r o

/-- An index of the output array is in point t's block iff each coordinate is in the block's range on its axis. -/
theorem mem_blk (t : Fin cfg3.N) (i : S2048x40.Idx) :
    i ∈ ((cfg3.win 9).blk t).view.set ↔ ∀ a : Fin 2, win3_9.index t a * S1024x40.size a ≤ (i a).val ∧ (i a).val < win3_9.index t a * S1024x40.size a + S1024x40.size a := by
  show i ∈ ((View.whole main_v21).slice (win3_9.rect t)).set ↔ _
  rw [View.set_slice_whole, Rect.mem_set_unit]
  exact Iff.rfl

/-- Every row of the output is written: row i belongs to the block of point i / 1024. -/
theorem cover (i : S2048x40.Idx) :
    ∃ t : Fin cfg3.N, (cfg3.win 9).flush t = true ∧ i ∈ ((cfg3.win 9).blk t).view.set := by
  have hN : cfg3.N = 2 := N_3
  have hi0 : (i 0).val < 2048 := (i 0).isLt
  have hi1 : (i 1).val < 40 := (i 1).isLt
  obtain ⟨t, ht⟩ : ∃ t : Fin cfg3.N, t.val = (i 0).val / 1024 := ⟨⟨(i 0).val / 1024, by rw [hN]; omega⟩, rfl⟩
  obtain ⟨-, -, -, -, -, -, e0, e1, -⟩ := idx_facts t
  refine ⟨t, flush3_9 t, ?_⟩
  rw [mem_blk]
  intro a
  match a with
  | ⟨0, _⟩ => show win3_9.index t (0 : Fin 2) * 1024 ≤ (i 0).val ∧ (i 0).val < win3_9.index t (0 : Fin 2) * 1024 + 1024; omega
  | ⟨1, _⟩ => show win3_9.index t (1 : Fin 2) * 40 ≤ (i 1).val ∧ (i 1).val < win3_9.index t (1 : Fin 2) * 40 + 40; omega

/-- The output array after the grid has run: one upward step of the tree network on the whole arrays. -/
theorem final (c : Dev nD) :
    (dat3 (F := Ideal) V c).arrAt 9 cfg3.N
      = levelArr 2048 8192 (by norm_num) (V c main_v19) (V c main_v20) (V c main_v18)
          (V c main_v1) (V c main_v3) (V c main_v5) (V c main_v7) (V c main_v6) (V c main_v8) :=
  (dat3 (F := Ideal) V c).arrAt_eq_of_cover 9 _ (fun t _ => flushed_eq V c t) cover

end Cert.KernelIdeal.Arr.Level3

end
-- ==== Proof.KernelArrays.lean ====
/-
  From blocks to arrays: each kernel's output array after its grid has run is one upward step of the tree network on
  the WHOLE arrays the kernel was given — grid point t writes parents 1024·t … 1024·t + 1023, which read children
  4096·t … 4096·t + 4095, and the points' blocks tile the output.
-/
import proofs.«141253_j53970559042267_2_alg».proof.Proof.Gen.KernelIdeal.Frame
import proofs.«141253_j53970559042267_2_alg».proof.Proof.TreeNet
import proofs.«141253_j53970559042267_2_alg».proof.Proof.KernelBody
import proofs.«141253_j53970559042267_2_alg».proof.Proof.ArraysFused
import proofs.«141253_j53970559042267_2_alg».proof.Proof.ArraysLevel1
import proofs.«141253_j53970559042267_2_alg».proof.Proof.ArraysLevel2
import proofs.«141253_j53970559042267_2_alg».proof.Proof.ArraysLevel3

noncomputable section

namespace Cert.KernelIdeal.Arr

open Idealize.ShloMosaic Idealize.ShloMosaic.TcCoe Idealize.ShloMosaic.ValueIdx Idealize.SL.Sem
open Cert.KernelIdeal Cert.KernelIdeal.Gen Cert.TreeNet

variable (V : (c : Dev nD) → (b : Ref sig .tc) → Buf (Elt Ideal) ((c : Thread nD τ).loc b))

theorem final0 (c : Dev nD) :
    (dat0 (F := Ideal) V c).arrAt 9 cfg0.N
      = levelArr 131072 524288 (by norm_num) (V c main_v10) (V c main_v11)
          (leafArr 524288 (V c main_v9) (V c main_v1) (V c main_v7) (V c main_v6) (V c main_v8))
          (V c main_v1) (V c main_v3) (V c main_v5) (V c main_v7) (V c main_v6) (V c main_v8) :=
  Fused.final V c

theorem final1 (c : Dev nD) :
    (dat1 (F := Ideal) V c).arrAt 9 cfg1.N
      = levelArr 32768 131072 (by norm_num) (V c main_v13) (V c main_v14) (V c main_v12)
          (V c main_v1) (V c main_v3) (V c main_v5) (V c main_v7) (V c main_v6) (V c main_v8) :=
  Level1.final V c

theorem final2 (c : Dev nD) :
    (dat2 (F := Ideal) V c).arrAt 9 cfg2.N
      = levelArr 8192 32768 (by norm_num) (V c main_v16) (V c main_v17) (V c main_v15)
          (V c main_v1) (V c main_v3) (V c main_v5) (V c main_v7) (V c main_v6) (V c main_v8) :=
  Level2.final V c

theorem final3 (c : Dev nD) :
    (dat3 (F := Ideal) V c).arrAt 9 cfg3.N
      = levelArr 2048 8192 (by norm_num) (V c main_v19) (V c main_v20) (V c main_v18)
          (V c main_v1) (V c main_v3) (V c main_v5) (V c main_v7) (V c main_v6) (V c main_v8) :=
  Level3.final V c

end Cert.KernelIdeal.Arr

end
-- ==== Proof.LibSsa.lean ====
import Idealize.ShloMosaic.Lib.StableHlo.Run

/-!
# Reading a straight line of host operations one operation at a time

A line of host operations in which every operation writes one buffer, no buffer is written twice and no
operation reads a buffer written at or after its own place, leaves contents that satisfy every operation's own
equation: the result buffer of operation `k` holds the operation's function of what the line leaves in its
operand buffers. `Writes ops W` records which buffer each operation writes (operation `k` at most the `k`-th
reference of `W`); the lemmas `read_nullary` … `read_reshape` read one operation, given its place `k`, that its
result is not written later (`∉ W.drop (k + 1)`) and that its operands are not written at or after `k`
(`∉ W.drop k`) — both decided on the list of references.
-/

namespace Cert.Ssa

open Idealize.ShloMosaic Idealize.ShloMosaic.TcCoe Idealize.ShloMosaic.StableHlo

variable {τ : Topo} {sig : RefSig} {Val : EltTy → Type}

/-- The fold over two lines one after the other is the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation `k` of the line writes at most the `k`-th reference of the list, and the two have one length. -/
def Writes : List (HloOp τ sig Val) → List (Ref sig .tc) → Prop
  | [], [] => True
  | op :: ops, w :: W => op.writes ⊆ {Proc.devRef .tc w} ∧ Writes ops W
  | [], _ :: _ => False
  | _ :: _, [] => False

theorem Writes.append {l₁ l₂ : List (HloOp τ sig Val)} {W₁ W₂ : List (Ref sig .tc)}
    (h₁ : Writes l₁ W₁) (h₂ : Writes l₂ W₂) : Writes (l₁ ++ l₂) (W₁ ++ W₂) := by
  induction l₁ generalizing W₁ with
  | nil =>
    cases W₁ with
    | nil => exact h₂
    | cons w W => exact False.elim h₁
  | cons op l ih =>
    cases W₁ with
    | nil => exact False.elim h₁
    | cons w W => exact ⟨h₁.1, ih h₁.2⟩

theorem Writes.drop {ops : List (HloOp τ sig Val)} {W : List (Ref sig .tc)} (h : Writes ops W) (n : Nat) :
    Writes (ops.drop n) (W.drop n) := by
  induction n generalizing ops W with
  | zero => exact h
  | succ n ih =>
    cases ops with
    | nil =>
      cases W with
      | nil => exact h
      | cons w W => exact False.elim h
    | cons op l =>
      cases W with
      | nil => exact False.elim h
      | cons w W => exact ih h.2

/-- A buffer outside the list keeps its contents through the line. -/
theorem Writes.keep {ops : List (HloOp τ sig Val)} {W : List (Ref sig .tc)} (h : Writes ops W)
    {r : Ref sig .tc} (hr : r ∉ W) (V : Valuation τ sig Val) :
    after ops V (Proc.devRef .tc r) = V (Proc.devRef .tc r) := by
  induction ops generalizing W V with
  | nil => rfl
  | cons op l ih =>
    cases W with
    | nil => exact False.elim h
    | cons w W =>
      have hw : Proc.devRef (τ := τ) .tc r ∉ op.writes := fun hm =>
        hr (List.mem_cons.mpr (Or.inl (Proc.devRef_injective _ (Finset.mem_singleton.mp (h.1 hm)))))
      rw [after_cons, ih h.2 (fun hm => hr (List.mem_cons_of_mem _ hm)), op.result_of_not_mem V hw]

/-- The line's contents at a buffer not written after place `k`: operation `k`'s result over the contents
    the operations before it leave. -/
theorem read_at {ops : List (HloOp τ sig Val)} {W : List (Ref sig .tc)} (h : Writes ops W) (k : Nat)
    {op : HloOp τ sig Val} (hop : ops[k]? = some op) (V : Valuation τ sig Val) {r : Ref sig .tc}
    (hr : r ∉ W.drop (k + 1)) :
    after ops V (Proc.devRef .tc r) = op.result (after (ops.take k) V) (Proc.devRef .tc r) := by
  obtain ⟨hk, rfl⟩ := List.getElem?_eq_some_iff.mp hop
  have hsplit : ops.take k ++ ops[k] :: ops.drop (k + 1) = ops := by
    rw [List.getElem_cons_drop]; exact List.take_append_drop k ops
  refine (congrArg (fun l => after l V (Proc.devRef .tc r)) hsplit.symm).trans ?_
  show after (ops.take k ++ ops[k] :: ops.drop (k + 1)) V (Proc.devRef .tc r) = _
  rw [after_append, after_cons, (h.drop (k + 1)).keep hr]

/-- The line's contents at a buffer not written at or after place `k`: what the operations before `k` leave. -/
theorem read_before {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  refine (congrArg (fun l => after l V (Proc.devRef .tc r)) (List.take_append_drop k ops).symm).trans ?_
  show after (ops.take k ++ ops.drop k) V (Proc.devRef .tc r) = _
  rw [after_append, (h.drop k).keep hr]

section Builders

variable {ops : List (HloOp τ sig Val)} {W : List (Ref sig .tc)} (h : Writes ops W) (k : Nat)
include h

theorem read_nullary (y : Ref sig .tc) (v : y.ty.Contents Val) (hy)
    (hop : ops[k]? = some (nullary (τ := τ) y v hy)) (V : Valuation τ sig Val) (hy' : y ∉ W.drop (k + 1)) :
    after ops V (Proc.devRef .tc y) = v := by
  rw [read_at h k hop V hy', nullary_result]

theorem read_unary (x y : Ref sig .tc) (f : x.ty.Contents Val → y.ty.Contents Val) (hx hy)
    (hop : ops[k]? = some (unary (τ := τ) x y f hx hy)) (V : Valuation τ sig Val)
    (hy' : y ∉ W.drop (k + 1)) (hx' : x ∉ W.drop k) :
    after ops V (Proc.devRef .tc y) = f (after ops V (Proc.devRef .tc x)) := by
  rw [read_at h k hop V hy', unary_result, read_before h k V hx']

theorem read_binary (a b y : Ref sig .tc) (f : a.ty.Contents Val → b.ty.Contents Val → y.ty.Contents Val) (ha hb hy)
    (hop : ops[k]? = some (binary (τ := τ) a b y f ha hb hy)) (V : Valuation τ sig Val)
    (hy' : y ∉ W.drop (k + 1)) (ha' : a ∉ W.drop k) (hb' : b ∉ W.drop k) :
    after ops V (Proc.devRef .tc y) = f (after ops V (Proc.devRef .tc a)) (after ops V (Proc.devRef .tc b)) := by
  rw [read_at h k hop V hy', binary_result, read_before h k V ha', read_before h k V hb']

theorem read_ternary (c a b y : Ref sig .tc)
    (f : c.ty.Contents Val → a.ty.Contents Val → b.ty.Contents Val → y.ty.Contents Val) (hc ha hb hy)
    (hop : ops[k]? = some (ternary (τ := τ) c a b y f hc ha hb hy)) (V : Valuation τ sig Val)
    (hy' : y ∉ W.drop (k + 1)) (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [read_at h k hop V hy', ternary_result, read_before h k V hc', read_before h k V ha', read_before h k V hb']

theorem read_reshape (x y : Ref sig .tc) (he : x.ty.elt = y.ty.elt) (hn : x.ty.shape.ShapeCasts y.ty.shape) (hx hy)
    (hop : ops[k]? = some (reshape (τ := τ) (Val := Val) x y he hn hx hy)) (V : Valuation τ sig Val)
    (hy' : y ∉ W.drop (k + 1)) (hx' : x ∉ W.drop k) :
    after ops V (Proc.devRef .tc y) = fun i => he ▸ shapeCast y.ty.shape (after ops V (Proc.devRef .tc x)) hn i := by
  rw [read_at h k hop V hy', reshape_result, read_before h k V hx']

end Builders

end Cert.Ssa
-- ==== Proof.KernelFold.lean ====
/-
  The idealized kernel's buffers at the boundaries between its host stretches and its four grid kernels, and from
  them the value of its result.

  A host stretch only slices rows out of the arguments, re-types the weight blocks (a change of float format: the
  identity on the extended reals) and reshapes the two bias vectors to one-row matrices; a grid kernel replaces its
  output array and leaves every other buffer as it found it. So at every kernel's entry the three weight blocks, the
  second layer's weights and the bias rows are the rows 0…124, 125…136, 137…176 of the first layer's weight matrix and
  so on, the level's parents and edges are their rows of the arguments, and the children's values are what the kernel
  before left. Each kernel's output array is one upward step of the tree network on those (the first kernel's: one
  step on the leaves' network), hence the last kernel's output is the whole forest's value.
-/
import proofs.«141253_j53970559042267_2_alg».proof.Proof.Gen.KernelIdeal.Frame
import proofs.«141253_j53970559042267_2_alg».proof.Proof.TreeNet
import proofs.«141253_j53970559042267_2_alg».proof.Proof.KernelArrays
import proofs.«141253_j53970559042267_2_alg».proof.Proof.LibSsa
import Idealize.ShloMosaic.Lib.ValueLayout
import Idealize.ShloMosaic.Lib.Pipeline.Value

noncomputable section

namespace Cert.KernelIdeal.Fold

open Idealize.ShloMosaic Idealize.ShloMosaic.TcCoe Idealize.ShloMosaic.ValueIdx Idealize.SL.Sem
open Idealize.ShloMosaic.Pipeline (Dat)
open Cert.KernelIdeal Cert.KernelIdeal.Gen Cert.TreeNet

variable (m : (ℓ : Loc nD τ sig) → Buf (Elt Ideal) ℓ) (ρ : Dev nD → PrngReg)

/-! ## Two layout operations as functions -/

/-- Cutting `n` rows out of a matrix from row `off` is `rows off n`. -/
theorem slice_rows {N b n : ℕ} (off : ℕ) (hle : off + n ≤ N) (A : Mat N b)
    (h : (⟨2, ![N, b]⟩ : Shape).Slices ![off, 0] ⟨2, ![n, b]⟩) :
    extractStridedSlice ⟨2, ![n, b]⟩ ![off, 0] A h = rows off n hle A := by
  funext i
  obtain ⟨r, k, rfl⟩ : ∃ (r : Fin n) (k : Fin b), i = ix2 r k := ⟨i 0, i 1, eq_ix2 i⟩
  exact slice2_axis0_eq off A h r k

/-- A vector reshaped to a one-row matrix is `rowOf` of it. -/
theorem reshape_rowOf {b : ℕ} (v : (⟨1, ![b]⟩ : Shape).Idx → EReal) (h : (⟨1, ![b]⟩ : Shape).ShapeCasts ⟨2, ![1, b]⟩) :
    shapeCast ⟨2, ![1, b]⟩ v h = rowOf v := by
  funext i
  obtain ⟨u, k, rfl⟩ : ∃ (u : Fin 1) (k : Fin b), i = ix2 u k := ⟨i 0, i 1, eq_ix2 i⟩
  exact shapeCast_a_1a_apply v h u k

/-! ## The buffers each host stretch writes -/

theorem writes0 : Cert.Ssa.Writes (hostOps0 (F := Ideal))
    [main_v0, main_v1, main_v2, main_v3, main_v4, main_v5, main_v6, main_v7, main_v8, main_v9, main_v10, main_v11] := by
  simp only [Cert.Ssa.Writes, hostOps0, StableHlo.unary_writes, StableHlo.reshape_writes, Finset.Subset.refl, and_self]

theorem writes1 : Cert.Ssa.Writes (hostOps1 (F := Ideal)) [main_v13, main_v14] := by
  simp only [Cert.Ssa.Writes, hostOps1, StableHlo.unary_writes, Finset.Subset.refl, and_self]

theorem writes2 : Cert.Ssa.Writes (hostOps2 (F := Ideal)) [main_v16, main_v17] := by
  simp only [Cert.Ssa.Writes, hostOps2, StableHlo.unary_writes, Finset.Subset.refl, and_self]

theorem writes3 : Cert.Ssa.Writes (hostOps3 (F := Ideal)) [main_v19, main_v20] := by
  simp only [Cert.Ssa.Writes, hostOps3, StableHlo.unary_writes, Finset.Subset.refl, and_self]

/-! ## A grid kernel leaves every buffer but its output array as it found it -/

theorem W2_keep (c : Dev nD) (b : Ref sig .tc) (hb : b ≠ main_v12) :
    W2 m ρ c (Proc.devRef .tc b) = W1 m ρ c (Proc.devRef .tc b) := by
  by_cases h : ∃ w, Pipeline.arrRef spec0 w = b
  · obtain ⟨w, rfl⟩ := h
    rw [W2_arr]
    have hin : (cfg0.win w).isOut = false := by
      fin_cases w <;> first | rfl | exact absurd rfl hb
    exact ((dat0 (V1 m ρ) c).arrAt_in w hin _).trans (A_eq0 (V1 m ρ) c w)
  · exact W2_of_ne m ρ c b (fun w e => h ⟨w, e⟩)

theorem W4_keep (c : Dev nD) (b : Ref sig .tc) (hb : b ≠ main_v15) :
    W4 m ρ c (Proc.devRef .tc b) = W3 m ρ c (Proc.devRef .tc b) := by
  by_cases h : ∃ w, Pipeline.arrRef spec1 w = b
  · obtain ⟨w, rfl⟩ := h
    rw [W4_arr]
    have hin : (cfg1.win w).isOut = false := by
      fin_cases w <;> first | rfl | exact absurd rfl hb
    exact ((dat1 (V3 m ρ) c).arrAt_in w hin _).trans (A_eq1 (V3 m ρ) c w)
  · exact W4_of_ne m ρ c b (fun w e => h ⟨w, e⟩)

theorem W6_keep (c : Dev nD) (b : Ref sig .tc) (hb : b ≠ main_v18) :
    W6 m ρ c (Proc.devRef .tc b) = W5 m ρ c (Proc.devRef .tc b) := by
  by_cases h : ∃ w, Pipeline.arrRef spec2 w = b
  · obtain ⟨w, rfl⟩ := h
    rw [W6_arr]
    have hin : (cfg2.win w).isOut = false := by
      fin_cases w <;> first | rfl | exact absurd rfl hb
    exact ((dat2 (V5 m ρ) c).arrAt_in w hin _).trans (A_eq2 (V5 m ρ) c w)
  · exact W6_of_ne m ρ c b (fun w e => h ⟨w, e⟩)

/-! ## A buffer nothing writes after the first stretch holds, at every later boundary, what that stretch left -/

/-- The buffers written after the first host stretch: the kernels' outputs and the later stretches' slices. -/
abbrev late : List (Ref sig .tc) :=
  [main_v12, main_v13, main_v14, main_v15, main_v16, main_v17, main_v18, main_v19, main_v20, main_v21]

theorem W3_early (c : Dev nD) (b : Ref sig .tc) (hb : b ∉ late) :
    W3 m ρ c (Proc.devRef .tc b) = W1 m ρ c (Proc.devRef .tc b) :=
  (writes1.keep (fun e => hb (by revert e; simp only [late, List.mem_cons, List.not_mem_nil, or_false]; tauto)) _).trans
    (W2_keep m ρ c b (fun e => hb (by rw [e]; decide)))

theorem W5_early (c : Dev nD) (b : Ref sig .tc) (hb : b ∉ late) :
    W5 m ρ c (Proc.devRef .tc b) = W1 m ρ c (Proc.devRef .tc b) :=
  (writes2.keep (fun e => hb (by revert e; simp only [late, List.mem_cons, List.not_mem_nil, or_false]; tauto)) _).trans
    ((W4_keep m ρ c b (fun e => hb (by rw [e]; decide))).trans (W3_early m ρ c b hb))

theorem W7_early (c : Dev nD) (b : Ref sig .tc) (hb : b ∉ late) :
    W7 m ρ c (Proc.devRef .tc b) = W1 m ρ c (Proc.devRef .tc b) :=
  (writes3.keep (fun e => hb (by revert e; simp only [late, List.mem_cons, List.not_mem_nil, or_false]; tauto)) _).trans
    ((W6_keep m ρ c b (fun e => hb (by rw [e]; decide))).trans (W5_early m ρ c b hb))

/-- An argument is written by nothing at all. -/
theorem W1_arg (c : Dev nD) (b : Ref sig .tc)
    (hb : b ∉ [main_v0, main_v1, main_v2, main_v3, main_v4, main_v5, main_v6, main_v7, main_v8, main_v9, main_v10, main_v11]) :
    W1 m ρ c (Proc.devRef .tc b) = m ((c.tc : Thread nD τ).loc b) :=
  writes0.keep hb _

/-! ## What the first stretch leaves: the weight blocks, the bias rows and the first kernel's rows -/

section Values

variable (c : Dev nD)

theorem V1_v1 : V1 m ρ c main_v1 = rows 0 125 (by norm_num) (m ((c.tc : Thread nD τ).loc main_arg2)) := by
  show StableHlo.after hostOps0 (W0 m ρ c) (Proc.devRef .tc main_v1) = _
  after_results
  exact slice_rows 0 (by norm_num) (m ((c.tc : Thread nD τ).loc main_arg2)) slices_S177x125_S125x125_0_0

theorem V1_v3 : V1 m ρ c main_v3 = rows 125 12 (by norm_num) (m ((c.tc : Thread nD τ).loc main_arg2)) := by
  show StableHlo.after hostOps0 (W0 m ρ c) (Proc.devRef .tc main_v3) = _
  after_results
  exact slice_rows 125 (by norm_num) (m ((c.tc : Thread nD τ).loc main_arg2)) slices_S177x125_S12x125_125_0

theorem V1_v5 : V1 m ρ c main_v5 = rows 137 40 (by norm_num) (m ((c.tc : Thread nD τ).loc main_arg2)) := by
  show StableHlo.after hostOps0 (W0 m ρ c) (Proc.devRef .tc main_v5) = _
  after_results
  exact slice_rows 137 (by norm_num) (m ((c.tc : Thread nD τ).loc main_arg2)) slices_S177x125_S40x125_137_0

theorem V1_v6 : V1 m ρ c main_v6 = (m ((c.tc : Thread nD τ).loc main_arg4)) := by
  show StableHlo.after hostOps0 (W0 m ρ c) (Proc.devRef .tc main_v6) = _
  after_results
  rfl

theorem V1_v7 : V1 m ρ c main_v7 = rowOf (m ((c.tc : Thread nD τ).loc main_arg3)) := by
  show StableHlo.after hostOps0 (W0 m ρ c) (Proc.devRef .tc main_v7) = _
  after_results
  exact reshape_rowOf (m ((c.tc : Thread nD τ).loc main_arg3)) shapeCasts_S125_S1x125

theorem V1_v8 : V1 m ρ c main_v8 = rowOf (m ((c.tc : Thread nD τ).loc main_arg5)) := by
  show StableHlo.after hostOps0 (W0 m ρ c) (Proc.devRef .tc main_v8) = _
  after_results
  exact reshape_rowOf (m ((c.tc : Thread nD τ).loc main_arg5)) shapeCasts_S40_S1x40

theorem V1_v9 : V1 m ρ c main_v9 = rows 174080 524288 (by norm_num) (m ((c.tc : Thread nD τ).loc main_arg0)) := by
  show StableHlo.after hostOps0 (W0 m ρ c) (Proc.devRef .tc main_v9) = _
  after_results
  exact slice_rows 174080 (by norm_num) (m ((c.tc : Thread nD τ).loc main_arg0)) slices_S698368x125_S524288x125_174080_0

theorem V1_v10 : V1 m ρ c main_v10 = rows 43008 131072 (by norm_num) (m ((c.tc : Thread nD τ).loc main_arg0)) := by
  show StableHlo.after hostOps0 (W0 m ρ c) (Proc.devRef .tc main_v10) = _
  after_results
  exact slice_rows 43008 (by norm_num) (m ((c.tc : Thread nD τ).loc main_arg0)) slices_S698368x125_S131072x125_43008_0

theorem V1_v11 : V1 m ρ c main_v11 = rows 172032 524288 (by norm_num) (m ((c.tc : Thread nD τ).loc main_arg1)) := by
  show StableHlo.after hostOps0 (W0 m ρ c) (Proc.devRef .tc main_v11) = _
  after_results
  exact slice_rows 172032 (by norm_num) (m ((c.tc : Thread nD τ).loc main_arg1)) slices_S696320x12_S524288x12_172032_0

end Values

/-! ## The later boundaries, and each kernel's output -/

section Later

variable (c : Dev nD)

/-- The buffers the first host stretch writes. -/
abbrev early : List (Ref sig .tc) :=
  [main_v0, main_v1, main_v2, main_v3, main_v4, main_v5, main_v6, main_v7, main_v8, main_v9, main_v10, main_v11]

theorem W2_arg (b : Ref sig .tc) (h0 : b ∉ early) (hb : b ∉ late) :
    W2 m ρ c (Proc.devRef .tc b) = m ((c.tc : Thread nD τ).loc b) :=
  (W2_keep m ρ c b (fun e => hb (by rw [e]; decide))).trans (W1_arg m ρ c b h0)

theorem W4_arg (b : Ref sig .tc) (h0 : b ∉ early) (hb : b ∉ late) :
    W4 m ρ c (Proc.devRef .tc b) = m ((c.tc : Thread nD τ).loc b) :=
  (W4_keep m ρ c b (fun e => hb (by rw [e]; decide))).trans ((W3_early m ρ c b hb).trans (W1_arg m ρ c b h0))

theorem W6_arg (b : Ref sig .tc) (h0 : b ∉ early) (hb : b ∉ late) :
    W6 m ρ c (Proc.devRef .tc b) = m ((c.tc : Thread nD τ).loc b) :=
  (W6_keep m ρ c b (fun e => hb (by rw [e]; decide))).trans ((W5_early m ρ c b hb).trans (W1_arg m ρ c b h0))

theorem V3_w (b : Ref sig .tc) (hb : b ∉ late) : V3 m ρ c b = V1 m ρ c b := W3_early m ρ c b hb
theorem V5_w (b : Ref sig .tc) (hb : b ∉ late) : V5 m ρ c b = V1 m ρ c b := W5_early m ρ c b hb
theorem V7_w (b : Ref sig .tc) (hb : b ∉ late) : V7 m ρ c b = V1 m ρ c b := W7_early m ρ c b hb

/-- The first kernel's output: one upward step on the leaves' network. -/
theorem out0 : W2 m ρ c (Proc.devRef .tc main_v12) = (levelArr 131072 524288 (by norm_num) (rows 43008 131072 (by norm_num) (m ((c.tc : Thread nD τ).loc main_arg0))) (rows 172032 524288 (by norm_num) (m ((c.tc : Thread nD τ).loc main_arg1))) (leafArr 524288 (rows 174080 524288 (by norm_num) (m ((c.tc : Thread nD τ).loc main_arg0))) (rows 0 125 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) := by
  refine (W2_arr m ρ c 9).trans ?_
  rw [Arr.final0 (V1 m ρ) c, V1_v10, V1_v11, V1_v9, V1_v1, V1_v3, V1_v5, V1_v7, V1_v6, V1_v8]

theorem V3_v13 : V3 m ρ c main_v13 = rows 10240 32768 (by norm_num) (m ((c.tc : Thread nD τ).loc main_arg0)) := by
  show StableHlo.after hostOps1 (W2 m ρ c) (Proc.devRef .tc main_v13) = _
  after_results
  rw [W2_arg m ρ c main_arg0 (by decide) (by decide)]
  exact slice_rows 10240 (by norm_num) (m ((c.tc : Thread nD τ).loc main_arg0)) slices_S698368x125_S32768x125_10240_0

theorem V3_v14 : V3 m ρ c main_v14 = rows 40960 131072 (by norm_num) (m ((c.tc : Thread nD τ).loc main_arg1)) := by
  show StableHlo.after hostOps1 (W2 m ρ c) (Proc.devRef .tc main_v14) = _
  after_results
  rw [W2_arg m ρ c main_arg1 (by decide) (by decide)]
  exact slice_rows 40960 (by norm_num) (m ((c.tc : Thread nD τ).loc main_arg1)) slices_S696320x12_S131072x12_40960_0

theorem V3_v12 : V3 m ρ c main_v12 = (levelArr 131072 524288 (by norm_num) (rows 43008 131072 (by norm_num) (m ((c.tc : Thread nD τ).loc main_arg0))) (rows 172032 524288 (by norm_num) (m ((c.tc : Thread nD τ).loc main_arg1))) (leafArr 524288 (rows 174080 524288 (by norm_num) (m ((c.tc : Thread nD τ).loc main_arg0))) (rows 0 125 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) :=
  (writes1.keep (by decide) _).trans (out0 m ρ c)

/-- The second kernel's output. -/
theorem out1 : W4 m ρ c (Proc.devRef .tc main_v15) = (levelArr 32768 131072 (by norm_num) (rows 10240 32768 (by norm_num) (m ((c.tc : Thread nD τ).loc main_arg0))) (rows 40960 131072 (by norm_num) (m ((c.tc : Thread nD τ).loc main_arg1))) (levelArr 131072 524288 (by norm_num) (rows 43008 131072 (by norm_num) (m ((c.tc : Thread nD τ).loc main_arg0))) (rows 172032 524288 (by norm_num) (m ((c.tc : Thread nD τ).loc main_arg1))) (leafArr 524288 (rows 174080 524288 (by norm_num) (m ((c.tc : Thread nD τ).loc main_arg0))) (rows 0 125 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) := by
  refine (W4_arr m ρ c 9).trans ?_
  rw [Arr.final1 (V3 m ρ) c, V3_v13, V3_v14, V3_v12, V3_w m ρ c main_v1 (by decide), V3_w m ρ c main_v3 (by decide), V3_w m ρ c main_v5 (by decide), V3_w m ρ c main_v7 (by decide), V3_w m ρ c main_v6 (by decide), V3_w m ρ c main_v8 (by decide), V1_v1, V1_v3, V1_v5, V1_v7, V1_v6, V1_v8]

theorem V5_v16 : V5 m ρ c main_v16 = rows 2048 8192 (by norm_num) (m ((c.tc : Thread nD τ).loc main_arg0)) := by
  show StableHlo.after hostOps2 (W4 m ρ c) (Proc.devRef .tc main_v16) = _
  after_results
  rw [W4_arg m ρ c main_arg0 (by decide) (by decide)]
  exact slice_rows 2048 (by norm_num) (m ((c.tc : Thread nD τ).loc main_arg0)) slices_S698368x125_S8192x125_2048_0

theorem V5_v17 : V5 m ρ c main_v17 = rows 8192 32768 (by norm_num) (m ((c.tc : Thread nD τ).loc main_arg1)) := by
  show StableHlo.after hostOps2 (W4 m ρ c) (Proc.devRef .tc main_v17) = _
  after_results
  rw [W4_arg m ρ c main_arg1 (by decide) (by decide)]
  exact slice_rows 8192 (by norm_num) (m ((c.tc : Thread nD τ).loc main_arg1)) slices_S696320x12_S32768x12_8192_0

theorem V5_v15 : V5 m ρ c main_v15 = (levelArr 32768 131072 (by norm_num) (rows 10240 32768 (by norm_num) (m ((c.tc : Thread nD τ).loc main_arg0))) (rows 40960 131072 (by norm_num) (m ((c.tc : Thread nD τ).loc main_arg1))) (levelArr 131072 524288 (by norm_num) (rows 43008 131072 (by norm_num) (m ((c.tc : Thread nD τ).loc main_arg0))) (rows 172032 524288 (by norm_num) (m ((c.tc : Thread nD τ).loc main_arg1))) (leafArr 524288 (rows 174080 524288 (by norm_num) (m ((c.tc : Thread nD τ).loc main_arg0))) (rows 0 125 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) :=
  (writes2.keep (by decide) _).trans (out1 m ρ c)

/-- The third kernel's output. -/
theorem out2 : W6 m ρ c (Proc.devRef .tc main_v18) = (levelArr 8192 32768 (by norm_num) (rows 2048 8192 (by norm_num) (m ((c.tc : Thread nD τ).loc main_arg0))) (rows 8192 32768 (by norm_num) (m ((c.tc : Thread nD τ).loc main_arg1))) (levelArr 32768 131072 (by norm_num) (rows 10240 32768 (by norm_num) (m ((c.tc : Thread nD τ).loc main_arg0))) (rows 40960 131072 (by norm_num) (m ((c.tc : Thread nD τ).loc main_arg1))) (levelArr 131072 524288 (by norm_num) (rows 43008 131072 (by norm_num) (m ((c.tc : Thread nD τ).loc main_arg0))) (rows 172032 524288 (by norm_num) (m ((c.tc : Thread nD τ).loc main_arg1))) (leafArr 524288 (rows 174080 524288 (by norm_num) (m ((c.tc : Thread nD τ).loc main_arg0))) (rows 0 125 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) := by
  refine (W6_arr m ρ c 9).trans ?_
  rw [Arr.final2 (V5 m ρ) c, V5_v16, V5_v17, V5_v15, V5_w m ρ c main_v1 (by decide), V5_w m ρ c main_v3 (by decide), V5_w m ρ c main_v5 (by decide), V5_w m ρ c main_v7 (by decide), V5_w m ρ c main_v6 (by decide), V5_w m ρ c main_v8 (by decide), V1_v1, V1_v3, V1_v5, V1_v7, V1_v6, V1_v8]

theorem V7_v19 : V7 m ρ c main_v19 = rows 0 2048 (by norm_num) (m ((c.tc : Thread nD τ).loc main_arg0)) := by
  show StableHlo.after hostOps3 (W6 m ρ c) (Proc.devRef .tc main_v19) = _
  after_results
  rw [W6_arg m ρ c main_arg0 (by decide) (by decide)]
  exact slice_rows 0 (by norm_num) (m ((c.tc : Thread nD τ).loc main_arg0)) slices_S698368x125_S2048x125_0_0

theorem V7_v20 : V7 m ρ c main_v20 = rows 0 8192 (by norm_num) (m ((c.tc : Thread nD τ).loc main_arg1)) := by
  show StableHlo.after hostOps3 (W6 m ρ c) (Proc.devRef .tc main_v20) = _
  after_results
  rw [W6_arg m ρ c main_arg1 (by decide) (by decide)]
  exact slice_rows 0 (by norm_num) (m ((c.tc : Thread nD τ).loc main_arg1)) slices_S696320x12_S8192x12_0_0

theorem V7_v18 : V7 m ρ c main_v18 = (levelArr 8192 32768 (by norm_num) (rows 2048 8192 (by norm_num) (m ((c.tc : Thread nD τ).loc main_arg0))) (rows 8192 32768 (by norm_num) (m ((c.tc : Thread nD τ).loc main_arg1))) (levelArr 32768 131072 (by norm_num) (rows 10240 32768 (by norm_num) (m ((c.tc : Thread nD τ).loc main_arg0))) (rows 40960 131072 (by norm_num) (m ((c.tc : Thread nD τ).loc main_arg1))) (levelArr 131072 524288 (by norm_num) (rows 43008 131072 (by norm_num) (m ((c.tc : Thread nD τ).loc main_arg0))) (rows 172032 524288 (by norm_num) (m ((c.tc : Thread nD τ).loc main_arg1))) (leafArr 524288 (rows 174080 524288 (by norm_num) (m ((c.tc : Thread nD τ).loc main_arg0))) (rows 0 125 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) (rows 0 125 (by norm_num) (m ((c.tc : Thread nD τ).loc main_arg2))) (rows 125 12 (by norm_num) (m ((c.tc : Thread nD τ).loc main_arg2))) (rows 137 40 (by norm_num) (m ((c.tc : Thread nD τ).loc main_arg2))) (rowOf (m ((c.tc : Thread nD τ).loc main_arg3))) (m ((c.tc : Thread nD τ).loc main_arg4)) (rowOf (m ((c.tc : Thread nD τ).loc main_arg5)))) :=
  (writes3.keep (by decide) _).trans (out2 m ρ c)

/-- THE RESULT: the last kernel's output array is the forest's value at the roots. -/
theorem result_eq : W8 m ρ c (Proc.devRef .tc main_v21) = forest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 9).trans ?_
  rw [Arr.final3 (V7 m ρ) c, V7_v19, V7_v20, V7_v18, V7_w m ρ c main_v1 (by decide), V7_w m ρ c main_v3 (by decide), V7_w m ρ c main_v5 (by decide), V7_w m ρ c main_v7 (by decide), V7_w m ρ c main_v6 (by decide), V7_w m ρ c main_v8 (by decide), V1_v1, V1_v3, V1_v5, V1_v7, V1_v6, V1_v8]
  rfl

end Later

end Cert.KernelIdeal.Fold

end
-- ==== Proof.RefRun.lean ====
import proofs.«141253_j53970559042267_2_alg».proof.Proof.Gen.ReferenceIdeal
import Idealize.ShloMosaic.Lib.StableHlo.Run

/-!
# The reference's run as a straight line of operations

The reference computes the forest bottom-up: a leaf level, then four inner levels, each level one
matrix product of the node's own features, its edge features and the summed child messages against the
node weights, a bias, a leaky activation, and a second product, bias and activation giving the message
sent upward; the root level's messages summed over each node's four children are the result.

Its program calls the activation as a function, and that function calls the element-wise selection as
another function. Running a call is running the callee's operations on the call's buffers, so the whole
program is one straight line of 156 operations: each activation is a zero constant, its broadcast,
the comparison `x ≥ 0`, a copy of the slope, its broadcast, the product `slope * x`, and the selection
between `x` and that product. This module lists the line, shows that the program IS the line, and
concludes that every execution ends with each buffer at the fold of the operations' results over the
contents the run started from.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first sixty statements of the program as operations: the leaf level, the first inner level and
    the second inner level up to its node features repeated once per child. -/
abbrev ops0 : List (HloOp τ sig (Elt F)) :=
  [ StableHlo.unary main_arg0 main_v0 ((extractStridedSlice S524288x125 ![174080, 0] · slices_S698368x125_S524288x125_174080_0) : (⟨S698368x125, .f32⟩ : BufTy).Contents (Elt F) → (⟨S524288x125, .f32⟩ : BufTy).Contents (Elt F)),
    StableHlo.nullary main_cst (constant S_ .f32 0x00000000#32),
    StableHlo.unary main_cst main_v1 (broadcastInDim S524288x52 ![] bcast_S_S524288x52 : (⟨S_, .f32⟩ : BufTy).Contents (Elt F) → (⟨S524288x52, .f32⟩ : BufTy).Contents (Elt F)),
    StableHlo.binary main_v0 main_v1 main_v2 ((fun a b => concatenate S524288x177 1 [⟨S524288x125, a⟩, ⟨S524288x52, b⟩] concatenates_S524288x125_S524288x52_S524288x177_d1) : (⟨S524288x125, .f32⟩ : BufTy).Contents (Elt F) → (⟨S524288x52, .f32⟩ : BufTy).Contents (Elt F) → (⟨S524288x177, .f32⟩ : BufTy).Contents (Elt F)),
    StableHlo.binary main_v2 main_arg2 main_v3 ((fun l r => Host.dotGeneral dot_S524288x177_S177x125_S524288x125_1_0_0_1_n_n none l r) : (⟨S524288x177, .f32⟩ : BufTy).Contents (Elt F) → (⟨S177x125, .f32⟩ : BufTy).Contents (Elt F) → (⟨S524288x125, .f32⟩ : BufTy).Contents (Elt F)),
    StableHlo.unary main_arg3 main_v4 (broadcastInDim S1x125 ![1] bcast_S125_S1x125_1 : (⟨S125, .f32⟩ : BufTy).Contents (Elt F) → (⟨S1x125, .f32⟩ : BufTy).Contents (Elt F)),
    StableHlo.unary main_v4 main_v5 (broadcastInDim S524288x125 ![0, 1] bcast_S1x125_S524288x125_0_1 : (⟨S1x125, .f32⟩ : BufTy).Contents (Elt F) → (⟨S524288x125, .f32⟩ : BufTy).Contents (Elt F)),
    StableHlo.binary main_v3 main_v5 main_v6 (addf : (⟨S524288x125, .f32⟩ : BufTy).Contents (Elt F) → (⟨S524288x125, .f32⟩ : BufTy).Contents (Elt F) → (⟨S524288x125, .f32⟩ : BufTy).Contents (Elt F)),
    StableHlo.nullary main_cst_0 (constant S_ .f32 0x3C23D70A#32),
    StableHlo.TRef.nullary main_call0.cst (constant S_ .f32 0x00000000#32),
    StableHlo.TRef.unary main_call0.cst main_call0.v0 (broadcastInDim S524288x125 ![] bcast_S_S524288x125),
    StableHlo.TRef.binary (.of main_v6) main_call0.v0 main_call0.v1 (cmpf .oge),
    StableHlo.TRef.unary (.of main_cst_0) main_call0.v2 id,
    StableHlo.TRef.unary main_call0.v2 main_call0.v3 (broadcastInDim S524288x125 ![] bcast_S_S524288x125),
    StableHlo.TRef.binary main_call0.v3 (.of main_v6) main_call0.v4 mulf,
    StableHlo.TRef.ternary main_call0.v1 (.of main_v6) main_call0.v4 main_call0.call0.v0 select,
    StableHlo.binary main_v7 main_arg4 main_v8 ((fun l r => Host.dotGeneral dot_S524288x125_S125x40_S524288x40_1_0_0_1_n_n none l r) : (⟨S524288x125, .f32⟩ : BufTy).Contents (Elt F) → (⟨S125x40, .f32⟩ : BufTy).Contents (Elt F) → (⟨S524288x40, .f32⟩ : BufTy).Contents (Elt F)),
    StableHlo.unary main_arg5 main_v9 (broadcastInDim S1x40 ![1] bcast_S40_S1x40_1 : (⟨S40, .f32⟩ : BufTy).Contents (Elt F) → (⟨S1x40, .f32⟩ : BufTy).Contents (Elt F)),
    StableHlo.unary main_v9 main_v10 (broadcastInDim S524288x40 ![0, 1] bcast_S1x40_S524288x40_0_1 : (⟨S1x40, .f32⟩ : BufTy).Contents (Elt F) → (⟨S524288x40, .f32⟩ : BufTy).Contents (Elt F)),
    StableHlo.binary main_v8 main_v10 main_v11 (addf : (⟨S524288x40, .f32⟩ : BufTy).Contents (Elt F) → (⟨S524288x40, .f32⟩ : BufTy).Contents (Elt F) → (⟨S524288x40, .f32⟩ : BufTy).Contents (Elt F)),
    StableHlo.nullary main_cst_1 (constant S_ .f32 0x3C23D70A#32),
    StableHlo.TRef.nullary main_call1.cst (constant S_ .f32 0x00000000#32),
    StableHlo.TRef.unary main_call1.cst main_call1.v0 (broadcastInDim S524288x40 ![] bcast_S_S524288x40),
    StableHlo.TRef.binary (.of main_v11) main_call1.v0 main_call1.v1 (cmpf .oge),
    StableHlo.TRef.unary (.of main_cst_1) main_call1.v2 id,
    StableHlo.TRef.unary main_call1.v2 main_call1.v3 (broadcastInDim S524288x40 ![] bcast_S_S524288x40),
    StableHlo.TRef.binary main_call1.v3 (.of main_v11) main_call1.v4 mulf,
    StableHlo.TRef.ternary main_call1.v1 (.of main_v11) main_call1.v4 main_call1.call0.v0 select,
    StableHlo.unary main_arg0 main_v13 ((extractStridedSlice S131072x125 ![43008, 0] · slices_S698368x125_S131072x125_43008_0) : (⟨S698368x125, .f32⟩ : BufTy).Contents (Elt F) → (⟨S131072x125, .f32⟩ : BufTy).Contents (Elt F)),
    StableHlo.unary main_arg1 main_v14 ((extractStridedSlice S524288x12 ![172032, 0] · slices_S696320x12_S524288x12_172032_0) : (⟨S696320x12, .f32⟩ : BufTy).Contents (Elt F) → (⟨S524288x12, .f32⟩ : BufTy).Contents (Elt F)),
    StableHlo.unary main_v13 main_v15 (broadcastInDim S131072x4x125 ![0, 2] bcast_S131072x125_S131072x4x125_0_2 : (⟨S131072x125, .f32⟩ : BufTy).Contents (Elt F) → (⟨S131072x4x125, .f32⟩ : BufTy).Contents (Elt F)),
    StableHlo.reshape main_v15 main_v16 rfl shapeCasts_S131072x4x125_S524288x125,
    StableHlo.nary ![main_v16, main_v14, main_v12] main_v17 (fun u => concatenate S524288x177 1 [⟨S524288x125, u 0⟩, ⟨S524288x12, u 1⟩, ⟨S524288x40, u 2⟩] concatenates_S524288x125_S524288x12_S524288x40_S524288x177_d1),
    StableHlo.binary main_v17 main_arg2 main_v18 ((fun l r => Host.dotGeneral dot_S524288x177_S177x125_S524288x125_1_0_0_1_n_n none l r) : (⟨S524288x177, .f32⟩ : BufTy).Contents (Elt F) → (⟨S177x125, .f32⟩ : BufTy).Contents (Elt F) → (⟨S524288x125, .f32⟩ : BufTy).Contents (Elt F)),
    StableHlo.unary main_arg3 main_v19 (broadcastInDim S1x125 ![1] bcast_S125_S1x125_1 : (⟨S125, .f32⟩ : BufTy).Contents (Elt F) → (⟨S1x125, .f32⟩ : BufTy).Contents (Elt F)),
    StableHlo.unary main_v19 main_v20 (broadcastInDim S524288x125 ![0, 1] bcast_S1x125_S524288x125_0_1 : (⟨S1x125, .f32⟩ : BufTy).Contents (Elt F) → (⟨S524288x125, .f32⟩ : BufTy).Contents (Elt F)),
    StableHlo.binary main_v18 main_v20 main_v21 (addf : (⟨S524288x125, .f32⟩ : BufTy).Contents (Elt F) → (⟨S524288x125, .f32⟩ : BufTy).Contents (Elt F) → (⟨S524288x125, .f32⟩ : BufTy).Contents (Elt F)),
    StableHlo.nullary main_cst_2 (constant S_ .f32 0x3C23D70A#32),
    StableHlo.TRef.nullary main_call2.cst (constant S_ .f32 0x00000000#32),
    StableHlo.TRef.unary main_call2.cst main_call2.v0 (broadcastInDim S524288x125 ![] bcast_S_S524288x125),
    StableHlo.TRef.binary (.of main_v21) main_call2.v0 main_call2.v1 (cmpf .oge),
    StableHlo.TRef.unary (.of main_cst_2) main_call2.v2 id,
    StableHlo.TRef.unary main_call2.v2 main_call2.v3 (broadcastInDim S524288x125 ![] bcast_S_S524288x125),
    StableHlo.TRef.binary main_call2.v3 (.of main_v21) main_call2.v4 mulf,
    StableHlo.TRef.ternary main_call2.v1 (.of main_v21) main_call2.v4 main_call2.call0.v0 select,
    StableHlo.binary main_v22 main_arg4 main_v23 ((fun l r => Host.dotGeneral dot_S524288x125_S125x40_S524288x40_1_0_0_1_n_n none l r) : (⟨S524288x125, .f32⟩ : BufTy).Contents (Elt F) → (⟨S125x40, .f32⟩ : BufTy).Contents (Elt F) → (⟨S524288x40, .f32⟩ : BufTy).Contents (Elt F)),
    StableHlo.unary main_arg5 main_v24 (broadcastInDim S1x40 ![1] bcast_S40_S1x40_1 : (⟨S40, .f32⟩ : BufTy).Contents (Elt F) → (⟨S1x40, .f32⟩ : BufTy).Contents (Elt F)),
    StableHlo.unary main_v24 main_v25 (broadcastInDim S524288x40 ![0, 1] bcast_S1x40_S524288x40_0_1 : (⟨S1x40, .f32⟩ : BufTy).Contents (Elt F) → (⟨S524288x40, .f32⟩ : BufTy).Contents (Elt F)),
    StableHlo.binary main_v23 main_v25 main_v26 (addf : (⟨S524288x40, .f32⟩ : BufTy).Contents (Elt F) → (⟨S524288x40, .f32⟩ : BufTy).Contents (Elt F) → (⟨S524288x40, .f32⟩ : BufTy).Contents (Elt F)),
    StableHlo.nullary main_cst_3 (constant S_ .f32 0x3C23D70A#32),
    StableHlo.TRef.nullary main_call3.cst (constant S_ .f32 0x00000000#32),
    StableHlo.TRef.unary main_call3.cst main_call3.v0 (broadcastInDim S524288x40 ![] bcast_S_S524288x40),
    StableHlo.TRef.binary (.of main_v26) main_call3.v0 main_call3.v1 (cmpf .oge),
    StableHlo.TRef.unary (.of main_cst_3) main_call3.v2 id,
    StableHlo.TRef.unary main_call3.v2 main_call3.v3 (broadcastInDim S524288x40 ![] bcast_S_S524288x40),
    StableHlo.TRef.binary main_call3.v3 (.of main_v26) main_call3.v4 mulf,
    StableHlo.TRef.ternary main_call3.v1 (.of main_v26) main_call3.v4 main_call3.call0.v0 select,
    StableHlo.reshape main_v27 main_v28 rfl shapeCasts_S524288x40_S131072x4x40,
    StableHlo.nullary main_cst_4 (constant S_ .f32 0x00000000#32),
    StableHlo.binary main_v28 main_cst_4 main_v29 ((fun x v => Host.reduceAdd x v reducesTo_S131072x4x40_S131072x40_d1 h_S_) : (⟨S131072x4x40, .f32⟩ : BufTy).Contents (Elt F) → (⟨S_, .f32⟩ : BufTy).Contents (Elt F) → (⟨S131072x40, .f32⟩ : BufTy).Contents (Elt F)),
    StableHlo.unary main_arg0 main_v30 ((extractStridedSlice S32768x125 ![10240, 0] · slices_S698368x125_S32768x125_10240_0) : (⟨S698368x125, .f32⟩ : BufTy).Contents (Elt F) → (⟨S32768x125, .f32⟩ : BufTy).Contents (Elt F)),
    StableHlo.unary main_arg1 main_v31 ((extractStridedSlice S131072x12 ![40960, 0] · slices_S696320x12_S131072x12_40960_0) : (⟨S696320x12, .f32⟩ : BufTy).Contents (Elt F) → (⟨S131072x12, .f32⟩ : BufTy).Contents (Elt F)),
    StableHlo.unary main_v30 main_v32 (broadcastInDim S32768x4x125 ![0, 2] bcast_S32768x125_S32768x4x125_0_2 : (⟨S32768x125, .f32⟩ : BufTy).Contents (Elt F) → (⟨S32768x4x125, .f32⟩ : BufTy).Contents (Elt F)),
    StableHlo.reshape main_v32 main_v33 rfl shapeCasts_S32768x4x125_S131072x125,
    StableHlo.nary ![main_v33, main_v31, main_v29] main_v34 (fun u => concatenate S131072x177 1 [⟨S131072x125, u 0⟩, ⟨S131072x12, u 1⟩, ⟨S131072x40, u 2⟩] concatenates_S131072x125_S131072x12_S131072x40_S131072x177_d1),
    StableHlo.binary main_v34 main_arg2 main_v35 ((fun l r => Host.dotGeneral dot_S131072x177_S177x125_S131072x125_1_0_0_1_n_n none l r) : (⟨S131072x177, .f32⟩ : BufTy).Contents (Elt F) → (⟨S177x125, .f32⟩ : BufTy).Contents (Elt F) → (⟨S131072x125, .f32⟩ : BufTy).Contents (Elt F)),
    StableHlo.unary main_arg3 main_v36 (broadcastInDim S1x125 ![1] bcast_S125_S1x125_1 : (⟨S125, .f32⟩ : BufTy).Contents (Elt F) → (⟨S1x125, .f32⟩ : BufTy).Contents (Elt F)),
    StableHlo.unary main_v36 main_v37 (broadcastInDim S131072x125 ![0, 1] bcast_S1x125_S131072x125_0_1 : (⟨S1x125, .f32⟩ : BufTy).Contents (Elt F) → (⟨S131072x125, .f32⟩ : BufTy).Contents (Elt F)),
    StableHlo.binary main_v35 main_v37 main_v38 (addf : (⟨S131072x125, .f32⟩ : BufTy).Contents (Elt F) → (⟨S131072x125, .f32⟩ : BufTy).Contents (Elt F) → (⟨S131072x125, .f32⟩ : BufTy).Contents (Elt F)),
    StableHlo.nullary main_cst_5 (constant S_ .f32 0x3C23D70A#32),
    StableHlo.TRef.nullary main_call4.cst (constant S_ .f32 0x00000000#32),
    StableHlo.TRef.unary main_call4.cst main_call4.v0 (broadcastInDim S131072x125 ![] bcast_S_S131072x125),
    StableHlo.TRef.binary (.of main_v38) main_call4.v0 main_call4.v1 (cmpf .oge),
    StableHlo.TRef.unary (.of main_cst_5) main_call4.v2 id,
    StableHlo.TRef.unary main_call4.v2 main_call4.v3 (broadcastInDim S131072x125 ![] bcast_S_S131072x125),
    StableHlo.TRef.binary main_call4.v3 (.of main_v38) main_call4.v4 mulf,
    StableHlo.TRef.ternary main_call4.v1 (.of main_v38) main_call4.v4 main_call4.call0.v0 select,
    StableHlo.binary main_v39 main_arg4 main_v40 ((fun l r => Host.dotGeneral dot_S131072x125_S125x40_S131072x40_1_0_0_1_n_n none l r) : (⟨S131072x125, .f32⟩ : BufTy).Contents (Elt F) → (⟨S125x40, .f32⟩ : BufTy).Contents (Elt F) → (⟨S131072x40, .f32⟩ : BufTy).Contents (Elt F)),
    StableHlo.unary main_arg5 main_v41 (broadcastInDim S1x40 ![1] bcast_S40_S1x40_1 : (⟨S40, .f32⟩ : BufTy).Contents (Elt F) → (⟨S1x40, .f32⟩ : BufTy).Contents (Elt F)),
    StableHlo.unary main_v41 main_v42 (broadcastInDim S131072x40 ![0, 1] bcast_S1x40_S131072x40_0_1 : (⟨S1x40, .f32⟩ : BufTy).Contents (Elt F) → (⟨S131072x40, .f32⟩ : BufTy).Contents (Elt F)),
    StableHlo.binary main_v40 main_v42 main_v43 (addf : (⟨S131072x40, .f32⟩ : BufTy).Contents (Elt F) → (⟨S131072x40, .f32⟩ : BufTy).Contents (Elt F) → (⟨S131072x40, .f32⟩ : BufTy).Contents (Elt F)),
    StableHlo.nullary main_cst_6 (constant S_ .f32 0x3C23D70A#32),
    StableHlo.TRef.nullary main_call5.cst (constant S_ .f32 0x00000000#32),
    StableHlo.TRef.unary main_call5.cst main_call5.v0 (broadcastInDim S131072x40 ![] bcast_S_S131072x40),
    StableHlo.TRef.binary (.of main_v43) main_call5.v0 main_call5.v1 (cmpf .oge),
    StableHlo.TRef.unary (.of main_cst_6) main_call5.v2 id,
    StableHlo.TRef.unary main_call5.v2 main_call5.v3 (broadcastInDim S131072x40 ![] bcast_S_S131072x40),
    StableHlo.TRef.binary main_call5.v3 (.of main_v43) main_call5.v4 mulf,
    StableHlo.TRef.ternary main_call5.v1 (.of main_v43) main_call5.v4 main_call5.call0.v0 select,
    StableHlo.reshape main_v44 main_v45 rfl shapeCasts_S131072x40_S32768x4x40,
    StableHlo.nullary main_cst_7 (constant S_ .f32 0x00000000#32),
    StableHlo.binary main_v45 main_cst_7 main_v46 ((fun x v => Host.reduceAdd x v reducesTo_S32768x4x40_S32768x40_d1 h_S_) : (⟨S32768x4x40, .f32⟩ : BufTy).Contents (Elt F) → (⟨S_, .f32⟩ : BufTy).Contents (Elt F) → (⟨S32768x40, .f32⟩ : BufTy).Contents (Elt F)),
    StableHlo.unary main_arg0 main_v47 ((extractStridedSlice S8192x125 ![2048, 0] · slices_S698368x125_S8192x125_2048_0) : (⟨S698368x125, .f32⟩ : BufTy).Contents (Elt F) → (⟨S8192x125, .f32⟩ : BufTy).Contents (Elt F)),
    StableHlo.unary main_arg1 main_v48 ((extractStridedSlice S32768x12 ![8192, 0] · slices_S696320x12_S32768x12_8192_0) : (⟨S696320x12, .f32⟩ : BufTy).Contents (Elt F) → (⟨S32768x12, .f32⟩ : BufTy).Contents (Elt F)),
    StableHlo.unary main_v47 main_v49 (broadcastInDim S8192x4x125 ![0, 2] bcast_S8192x125_S8192x4x125_0_2 : (⟨S8192x125, .f32⟩ : BufTy).Contents (Elt F) → (⟨S8192x4x125, .f32⟩ : BufTy).Contents (Elt F)),
    StableHlo.reshape main_v49 main_v50 rfl shapeCasts_S8192x4x125_S32768x125 ]

/-- The remaining statements as operations: the rest of the second inner level, the third, and the root level
    with the final sum over each root's children. -/
abbrev ops1 : List (HloOp τ sig (Elt F)) :=
  [ StableHlo.nary ![main_v50, main_v48, main_v46] main_v51 (fun u => concatenate S32768x177 1 [⟨S32768x125, u 0⟩, ⟨S32768x12, u 1⟩, ⟨S32768x40, u 2⟩] concatenates_S32768x125_S32768x12_S32768x40_S32768x177_d1),
    StableHlo.binary main_v51 main_arg2 main_v52 ((fun l r => Host.dotGeneral dot_S32768x177_S177x125_S32768x125_1_0_0_1_n_n none l r) : (⟨S32768x177, .f32⟩ : BufTy).Contents (Elt F) → (⟨S177x125, .f32⟩ : BufTy).Contents (Elt F) → (⟨S32768x125, .f32⟩ : BufTy).Contents (Elt F)),
    StableHlo.unary main_arg3 main_v53 (broadcastInDim S1x125 ![1] bcast_S125_S1x125_1 : (⟨S125, .f32⟩ : BufTy).Contents (Elt F) → (⟨S1x125, .f32⟩ : BufTy).Contents (Elt F)),
    StableHlo.unary main_v53 main_v54 (broadcastInDim S32768x125 ![0, 1] bcast_S1x125_S32768x125_0_1 : (⟨S1x125, .f32⟩ : BufTy).Contents (Elt F) → (⟨S32768x125, .f32⟩ : BufTy).Contents (Elt F)),
    StableHlo.binary main_v52 main_v54 main_v55 (addf : (⟨S32768x125, .f32⟩ : BufTy).Contents (Elt F) → (⟨S32768x125, .f32⟩ : BufTy).Contents (Elt F) → (⟨S32768x125, .f32⟩ : BufTy).Contents (Elt F)),
    StableHlo.nullary main_cst_8 (constant S_ .f32 0x3C23D70A#32),
    StableHlo.TRef.nullary main_call6.cst (constant S_ .f32 0x00000000#32),
    StableHlo.TRef.unary main_call6.cst main_call6.v0 (broadcastInDim S32768x125 ![] bcast_S_S32768x125),
    StableHlo.TRef.binary (.of main_v55) main_call6.v0 main_call6.v1 (cmpf .oge),
    StableHlo.TRef.unary (.of main_cst_8) main_call6.v2 id,
    StableHlo.TRef.unary main_call6.v2 main_call6.v3 (broadcastInDim S32768x125 ![] bcast_S_S32768x125),
    StableHlo.TRef.binary main_call6.v3 (.of main_v55) main_call6.v4 mulf,
    StableHlo.TRef.ternary main_call6.v1 (.of main_v55) main_call6.v4 main_call6.call0.v0 select,
    StableHlo.binary main_v56 main_arg4 main_v57 ((fun l r => Host.dotGeneral dot_S32768x125_S125x40_S32768x40_1_0_0_1_n_n none l r) : (⟨S32768x125, .f32⟩ : BufTy).Contents (Elt F) → (⟨S125x40, .f32⟩ : BufTy).Contents (Elt F) → (⟨S32768x40, .f32⟩ : BufTy).Contents (Elt F)),
    StableHlo.unary main_arg5 main_v58 (broadcastInDim S1x40 ![1] bcast_S40_S1x40_1 : (⟨S40, .f32⟩ : BufTy).Contents (Elt F) → (⟨S1x40, .f32⟩ : BufTy).Contents (Elt F)),
    StableHlo.unary main_v58 main_v59 (broadcastInDim S32768x40 ![0, 1] bcast_S1x40_S32768x40_0_1 : (⟨S1x40, .f32⟩ : BufTy).Contents (Elt F) → (⟨S32768x40, .f32⟩ : BufTy).Contents (Elt F)),
    StableHlo.binary main_v57 main_v59 main_v60 (addf : (⟨S32768x40, .f32⟩ : BufTy).Contents (Elt F) → (⟨S32768x40, .f32⟩ : BufTy).Contents (Elt F) → (⟨S32768x40, .f32⟩ : BufTy).Contents (Elt F)),
    StableHlo.nullary main_cst_9 (constant S_ .f32 0x3C23D70A#32),
    StableHlo.TRef.nullary main_call7.cst (constant S_ .f32 0x00000000#32),
    StableHlo.TRef.unary main_call7.cst main_call7.v0 (broadcastInDim S32768x40 ![] bcast_S_S32768x40),
    StableHlo.TRef.binary (.of main_v60) main_call7.v0 main_call7.v1 (cmpf .oge),
    StableHlo.TRef.unary (.of main_cst_9) main_call7.v2 id,
    StableHlo.TRef.unary main_call7.v2 main_call7.v3 (broadcastInDim S32768x40 ![] bcast_S_S32768x40),
    StableHlo.TRef.binary main_call7.v3 (.of main_v60) main_call7.v4 mulf,
    StableHlo.TRef.ternary main_call7.v1 (.of main_v60) main_call7.v4 main_call7.call0.v0 select,
    StableHlo.reshape main_v61 main_v62 rfl shapeCasts_S32768x40_S8192x4x40,
    StableHlo.nullary main_cst_10 (constant S_ .f32 0x00000000#32),
    StableHlo.binary main_v62 main_cst_10 main_v63 ((fun x v => Host.reduceAdd x v reducesTo_S8192x4x40_S8192x40_d1 h_S_) : (⟨S8192x4x40, .f32⟩ : BufTy).Contents (Elt F) → (⟨S_, .f32⟩ : BufTy).Contents (Elt F) → (⟨S8192x40, .f32⟩ : BufTy).Contents (Elt F)),
    StableHlo.unary main_arg0 main_v64 ((extractStridedSlice S2048x125 ![0, 0] · slices_S698368x125_S2048x125_0_0) : (⟨S698368x125, .f32⟩ : BufTy).Contents (Elt F) → (⟨S2048x125, .f32⟩ : BufTy).Contents (Elt F)),
    StableHlo.unary main_arg1 main_v65 ((extractStridedSlice S8192x12 ![0, 0] · slices_S696320x12_S8192x12_0_0) : (⟨S696320x12, .f32⟩ : BufTy).Contents (Elt F) → (⟨S8192x12, .f32⟩ : BufTy).Contents (Elt F)),
    StableHlo.unary main_v64 main_v66 (broadcastInDim S2048x4x125 ![0, 2] bcast_S2048x125_S2048x4x125_0_2 : (⟨S2048x125, .f32⟩ : BufTy).Contents (Elt F) → (⟨S2048x4x125, .f32⟩ : BufTy).Contents (Elt F)),
    StableHlo.reshape main_v66 main_v67 rfl shapeCasts_S2048x4x125_S8192x125,
    StableHlo.nary ![main_v67, main_v65, main_v63] main_v68 (fun u => concatenate S8192x177 1 [⟨S8192x125, u 0⟩, ⟨S8192x12, u 1⟩, ⟨S8192x40, u 2⟩] concatenates_S8192x125_S8192x12_S8192x40_S8192x177_d1),
    StableHlo.binary main_v68 main_arg2 main_v69 ((fun l r => Host.dotGeneral dot_S8192x177_S177x125_S8192x125_1_0_0_1_n_n none l r) : (⟨S8192x177, .f32⟩ : BufTy).Contents (Elt F) → (⟨S177x125, .f32⟩ : BufTy).Contents (Elt F) → (⟨S8192x125, .f32⟩ : BufTy).Contents (Elt F)),
    StableHlo.unary main_arg3 main_v70 (broadcastInDim S1x125 ![1] bcast_S125_S1x125_1 : (⟨S125, .f32⟩ : BufTy).Contents (Elt F) → (⟨S1x125, .f32⟩ : BufTy).Contents (Elt F)),
    StableHlo.unary main_v70 main_v71 (broadcastInDim S8192x125 ![0, 1] bcast_S1x125_S8192x125_0_1 : (⟨S1x125, .f32⟩ : BufTy).Contents (Elt F) → (⟨S8192x125, .f32⟩ : BufTy).Contents (Elt F)),
    StableHlo.binary main_v69 main_v71 main_v72 (addf : (⟨S8192x125, .f32⟩ : BufTy).Contents (Elt F) → (⟨S8192x125, .f32⟩ : BufTy).Contents (Elt F) → (⟨S8192x125, .f32⟩ : BufTy).Contents (Elt F)),
    StableHlo.nullary main_cst_11 (constant S_ .f32 0x3C23D70A#32),
    StableHlo.TRef.nullary main_call8.cst (constant S_ .f32 0x00000000#32),
    StableHlo.TRef.unary main_call8.cst main_call8.v0 (broadcastInDim S8192x125 ![] bcast_S_S8192x125),
    StableHlo.TRef.binary (.of main_v72) main_call8.v0 main_call8.v1 (cmpf .oge),
    StableHlo.TRef.unary (.of main_cst_11) main_call8.v2 id,
    StableHlo.TRef.unary main_call8.v2 main_call8.v3 (broadcastInDim S8192x125 ![] bcast_S_S8192x125),
    StableHlo.TRef.binary main_call8.v3 (.of main_v72) main_call8.v4 mulf,
    StableHlo.TRef.ternary main_call8.v1 (.of main_v72) main_call8.v4 main_call8.call0.v0 select,
    StableHlo.binary main_v73 main_arg4 main_v74 ((fun l r => Host.dotGeneral dot_S8192x125_S125x40_S8192x40_1_0_0_1_n_n none l r) : (⟨S8192x125, .f32⟩ : BufTy).Contents (Elt F) → (⟨S125x40, .f32⟩ : BufTy).Contents (Elt F) → (⟨S8192x40, .f32⟩ : BufTy).Contents (Elt F)),
    StableHlo.unary main_arg5 main_v75 (broadcastInDim S1x40 ![1] bcast_S40_S1x40_1 : (⟨S40, .f32⟩ : BufTy).Contents (Elt F) → (⟨S1x40, .f32⟩ : BufTy).Contents (Elt F)),
    StableHlo.unary main_v75 main_v76 (broadcastInDim S8192x40 ![0, 1] bcast_S1x40_S8192x40_0_1 : (⟨S1x40, .f32⟩ : BufTy).Contents (Elt F) → (⟨S8192x40, .f32⟩ : BufTy).Contents (Elt F)),
    StableHlo.binary main_v74 main_v76 main_v77 (addf : (⟨S8192x40, .f32⟩ : BufTy).Contents (Elt F) → (⟨S8192x40, .f32⟩ : BufTy).Contents (Elt F) → (⟨S8192x40, .f32⟩ : BufTy).Contents (Elt F)),
    StableHlo.nullary main_cst_12 (constant S_ .f32 0x3C23D70A#32),
    StableHlo.TRef.nullary main_call9.cst (constant S_ .f32 0x00000000#32),
    StableHlo.TRef.unary main_call9.cst main_call9.v0 (broadcastInDim S8192x40 ![] bcast_S_S8192x40),
    StableHlo.TRef.binary (.of main_v77) main_call9.v0 main_call9.v1 (cmpf .oge),
    StableHlo.TRef.unary (.of main_cst_12) main_call9.v2 id,
    StableHlo.TRef.unary main_call9.v2 main_call9.v3 (broadcastInDim S8192x40 ![] bcast_S_S8192x40),
    StableHlo.TRef.binary main_call9.v3 (.of main_v77) main_call9.v4 mulf,
    StableHlo.TRef.ternary main_call9.v1 (.of main_v77) main_call9.v4 main_call9.call0.v0 select,
    StableHlo.reshape main_v78 main_v79 rfl shapeCasts_S8192x40_S2048x4x40,
    StableHlo.nullary main_cst_13 (constant S_ .f32 0x00000000#32),
    StableHlo.binary main_v79 main_cst_13 main_v80 ((fun x v => Host.reduceAdd x v reducesTo_S2048x4x40_S2048x40_d1 h_S_) : (⟨S2048x4x40, .f32⟩ : BufTy).Contents (Elt F) → (⟨S_, .f32⟩ : BufTy).Contents (Elt F) → (⟨S2048x40, .f32⟩ : BufTy).Contents (Elt F)) ]

/-- The program's 156 operations, in order. -/
abbrev ops : List (HloOp τ sig (Elt F)) := ops0 ++ ops1

set_option maxRecDepth 16384 in
/-- The first sixty statements are the first part of the line: the activation functions and the selection
    unfolded at their calls, both sides are one chain of steps once sequencing is re-associated. -/
theorem part0_eq (c : Dev nD) : main_part0 (F := F) c = seq ops0 := by
  simp only [main_part0, fn_where.body, fn_leaky_relu.body, fn_where_1.body, fn_leaky_relu_0.body, fn_where_3.body, fn_leaky_relu_2.body, fn_where_5.body, fn_leaky_relu_4.body, fn_where_7.body, fn_leaky_relu_6.body, fn_where_9.body, fn_leaky_relu_8.body, fn_where_11.body, fn_leaky_relu_10.body, fn_where_13.body, fn_leaky_relu_12.body, seq, bind_assoc, pure_bind]
  rfl

set_option maxRecDepth 16384 in
/-- The remaining statements are the second part of the line. -/
theorem part1_eq (c : Dev nD) : main_part1 (F := F) c = seq ops1 := by
  simp only [main_part1, fn_where.body, fn_leaky_relu.body, fn_where_1.body, fn_leaky_relu_0.body, fn_where_3.body, fn_leaky_relu_2.body, fn_where_5.body, fn_leaky_relu_4.body, fn_where_7.body, fn_leaky_relu_6.body, fn_where_9.body, fn_leaky_relu_8.body, fn_where_11.body, fn_leaky_relu_10.body, fn_where_13.body, fn_leaky_relu_12.body, seq, bind_assoc, pure_bind]

/-- The program is the line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., unary_bufs_sub .., reshape_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., reshape_bufs_sub .., nullary_bufs_sub .., binary_bufs_sub .., unary_bufs_sub .., unary_bufs_sub .., unary_bufs_sub .., reshape_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., reshape_bufs_sub .., nullary_bufs_sub .., binary_bufs_sub .., unary_bufs_sub .., unary_bufs_sub .., unary_bufs_sub .., reshape_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., reshape_bufs_sub .., nullary_bufs_sub .., binary_bufs_sub .., unary_bufs_sub .., unary_bufs_sub .., unary_bufs_sub .., reshape_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., reshape_bufs_sub .., nullary_bufs_sub .., binary_bufs_sub ..⟩

theorem ops0_fresh : (ops0 : List (HloOp τ sig (Elt F))).Forall fun op => op.fresh = ∅ := by
  simp only [List.Forall]
  repeat' constructor

theorem ops1_fresh : (ops1 : List (HloOp τ sig (Elt F))).Forall fun op => op.fresh = ∅ := by
  simp only [List.Forall]
  repeat' constructor

/-- Every operation of the line determines its result: none leaves a buffer with arbitrary contents. -/
theorem ops_fresh : ∀ op ∈ (ops : List (HloOp τ sig (Elt F))), op.fresh = ∅ := fun op h =>
  (List.mem_append.mp h).elim (List.forall_iff_forall_mem.mp ops0_fresh op) (List.forall_iff_forall_mem.mp ops1_fresh op)

/-- On every device, for any float values, from any memory with zero counters: every weakly fair execution of
    the reference terminates, and every final state has each buffer at the fold of the line's results over the
    contents the run started from. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (hfresh := fun _ => ops_fresh)

end Cert.ReferenceIdeal.Hand

end
-- ==== Proof.RefNet.lean ====
/-
  The reference program's five levels as pure functions of arrays over the extended reals, each the literal
  composition of the program's operations in the program's order. That together they are the forest of `TreeNet`
  is proved in the module beside this one, from the operations read one index at a time.

  A leaf row is padded with 52 zero columns before it meets the 177×125 weight matrix, so only the first 125 rows of
  the weights contribute: the other 52 terms of every sum are `0 * w = 0`. On an inner step a parent's row is
  repeated four times (a broadcast to [n, 4, 125] reshaped to [4n, 125]: row 4p + j is parent p), joined with the
  child's 12 edge features and 40 values; the sum over the 177 joined columns splits as 125 + 12 + 40 against the
  three row blocks of the weights. The activation compares with `0 ≤ x` where the specification compares with
  `0 < x`; at `x = 0` both branches are `0`. The sum over the four children is the reduction of the
  [n, 4, 40] reshape along its middle axis, started from `0`.
-/
import proofs.«141253_j53970559042267_2_alg».proof.Proof.Gen.ReferenceIdeal
import proofs.«141253_j53970559042267_2_alg».proof.Proof.TreeNet
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Net

open Idealize.ShloMosaic Idealize.ShloMosaic.ValueIdx Cert.ReferenceIdeal Cert.ReferenceIdeal.Facts₀ Cert.TreeNet

/-! ## The reference's operations, composed -/

/-- The reference's activation on a 524288×125 array, as its six operations compose: compare with the zero
    array, multiply by the slope array, select. -/
def refAct_524288x125 (x : FVec Ideal S524288x125 .f32) : FVec Ideal S524288x125 .f32 :=
  select (cmpf .oge x (broadcastInDim S524288x125 ![] bcast_S_S524288x125 (constant (F := Ideal) S_ .f32 0x00000000#32))) x
    (mulf (broadcastInDim S524288x125 ![] bcast_S_S524288x125 (id (constant (F := Ideal) S_ .f32 0x3C23D70A#32))) x)

/-- The reference's activation on a 524288×40 array, as its six operations compose: compare with the zero
    array, multiply by the slope array, select. -/
def refAct_524288x40 (x : FVec Ideal S524288x40 .f32) : FVec Ideal S524288x40 .f32 :=
  select (cmpf .oge x (broadcastInDim S524288x40 ![] bcast_S_S524288x40 (constant (F := Ideal) S_ .f32 0x00000000#32))) x
    (mulf (broadcastInDim S524288x40 ![] bcast_S_S524288x40 (id (constant (F := Ideal) S_ .f32 0x3C23D70A#32))) x)

/-- The reference's activation on a 131072×125 array, as its six operations compose: compare with the zero
    array, multiply by the slope array, select. -/
def refAct_131072x125 (x : FVec Ideal S131072x125 .f32) : FVec Ideal S131072x125 .f32 :=
  select (cmpf .oge x (broadcastInDim S131072x125 ![] bcast_S_S131072x125 (constant (F := Ideal) S_ .f32 0x00000000#32))) x
    (mulf (broadcastInDim S131072x125 ![] bcast_S_S131072x125 (id (constant (F := Ideal) S_ .f32 0x3C23D70A#32))) x)

/-- The reference's activation on a 131072×40 array, as its six operations compose: compare with the zero
    array, multiply by the slope array, select. -/
def refAct_131072x40 (x : FVec Ideal S131072x40 .f32) : FVec Ideal S131072x40 .f32 :=
  select (cmpf .oge x (broadcastInDim S131072x40 ![] bcast_S_S131072x40 (constant (F := Ideal) S_ .f32 0x00000000#32))) x
    (mulf (broadcastInDim S131072x40 ![] bcast_S_S131072x40 (id (constant (F := Ideal) S_ .f32 0x3C23D70A#32))) x)

/-- The reference's activation on a 32768×125 array, as its six operations compose: compare with the zero
    array, multiply by the slope array, select. -/
def refAct_32768x125 (x : FVec Ideal S32768x125 .f32) : FVec Ideal S32768x125 .f32 :=
  select (cmpf .oge x (broadcastInDim S32768x125 ![] bcast_S_S32768x125 (constant (F := Ideal) S_ .f32 0x00000000#32))) x
    (mulf (broadcastInDim S32768x125 ![] bcast_S_S32768x125 (id (constant (F := Ideal) S_ .f32 0x3C23D70A#32))) x)

/-- The reference's activation on a 32768×40 array, as its six operations compose: compare with the zero
    array, multiply by the slope array, select. -/
def refAct_32768x40 (x : FVec Ideal S32768x40 .f32) : FVec Ideal S32768x40 .f32 :=
  select (cmpf .oge x (broadcastInDim S32768x40 ![] bcast_S_S32768x40 (constant (F := Ideal) S_ .f32 0x00000000#32))) x
    (mulf (broadcastInDim S32768x40 ![] bcast_S_S32768x40 (id (constant (F := Ideal) S_ .f32 0x3C23D70A#32))) x)

/-- The reference's activation on a 8192×125 array, as its six operations compose: compare with the zero
    array, multiply by the slope array, select. -/
def refAct_8192x125 (x : FVec Ideal S8192x125 .f32) : FVec Ideal S8192x125 .f32 :=
  select (cmpf .oge x (broadcastInDim S8192x125 ![] bcast_S_S8192x125 (constant (F := Ideal) S_ .f32 0x00000000#32))) x
    (mulf (broadcastInDim S8192x125 ![] bcast_S_S8192x125 (id (constant (F := Ideal) S_ .f32 0x3C23D70A#32))) x)

/-- The reference's activation on a 8192×40 array, as its six operations compose: compare with the zero
    array, multiply by the slope array, select. -/
def refAct_8192x40 (x : FVec Ideal S8192x40 .f32) : FVec Ideal S8192x40 .f32 :=
  select (cmpf .oge x (broadcastInDim S8192x40 ![] bcast_S_S8192x40 (constant (F := Ideal) S_ .f32 0x00000000#32))) x
    (mulf (broadcastInDim S8192x40 ![] bcast_S_S8192x40 (id (constant (F := Ideal) S_ .f32 0x3C23D70A#32))) x)

/-- The reference on the 524288 leaves: the node rows padded with 52 zero columns, then the two-layer network. -/
def refLeaf (x : FVec Ideal S524288x125 .f32) (W1 : FVec Ideal S177x125 .f32) (b1 : FVec Ideal S125 .f32)
    (W2 : FVec Ideal S125x40 .f32) (b2 : FVec Ideal S40 .f32) : FVec Ideal S524288x40 .f32 :=
  refAct_524288x40 (addf (Host.dotGeneral (F := Ideal) dot_S524288x125_S125x40_S524288x40_1_0_0_1_n_n none
    (refAct_524288x125 (addf (Host.dotGeneral (F := Ideal) dot_S524288x177_S177x125_S524288x125_1_0_0_1_n_n none
        (concatenate S524288x177 1 [⟨S524288x125, x⟩, ⟨S524288x52, broadcastInDim S524288x52 ![] bcast_S_S524288x52 (constant (F := Ideal) S_ .f32 0x00000000#32)⟩] concatenates_S524288x125_S524288x52_S524288x177_d1) W1)
      (broadcastInDim S524288x125 ![0, 1] bcast_S1x125_S524288x125_0_1 (broadcastInDim S1x125 ![1] bcast_S125_S1x125_1 b1)))) W2)
    (broadcastInDim S524288x40 ![0, 1] bcast_S1x40_S524288x40_0_1 (broadcastInDim S1x40 ![1] bcast_S40_S1x40_1 b2)))

/-- One upward step of the reference from 524288 children to 131072 parents: every parent's row repeated four
    times, joined column-wise with the children's edge rows and values, the two-layer network on each of the 524288
    rows, and the sum over each parent's four consecutive rows. -/
def refLevel_131072 (msg : FVec Ideal S131072x125 .f32) (bond : FVec Ideal S524288x12 .f32) (prev : FVec Ideal S524288x40 .f32)
    (W1 : FVec Ideal S177x125 .f32) (b1 : FVec Ideal S125 .f32) (W2 : FVec Ideal S125x40 .f32) (b2 : FVec Ideal S40 .f32) :
    FVec Ideal S131072x40 .f32 :=
  Host.reduceAdd (F := Ideal)
    (shapeCast S131072x4x40
      (refAct_524288x40 (addf (Host.dotGeneral (F := Ideal) dot_S524288x125_S125x40_S524288x40_1_0_0_1_n_n none
        (refAct_524288x125 (addf (Host.dotGeneral (F := Ideal) dot_S524288x177_S177x125_S524288x125_1_0_0_1_n_n none
            (concatenate S524288x177 1 [⟨S524288x125, shapeCast S524288x125 (broadcastInDim S131072x4x125 ![0, 2] bcast_S131072x125_S131072x4x125_0_2 msg) shapeCasts_S131072x4x125_S524288x125⟩, ⟨S524288x12, bond⟩, ⟨S524288x40, prev⟩] concatenates_S524288x125_S524288x12_S524288x40_S524288x177_d1) W1)
          (broadcastInDim S524288x125 ![0, 1] bcast_S1x125_S524288x125_0_1 (broadcastInDim S1x125 ![1] bcast_S125_S1x125_1 b1)))) W2)
        (broadcastInDim S524288x40 ![0, 1] bcast_S1x40_S524288x40_0_1 (broadcastInDim S1x40 ![1] bcast_S40_S1x40_1 b2))))
      shapeCasts_S524288x40_S131072x4x40)
    (constant (F := Ideal) S_ .f32 0x00000000#32) reducesTo_S131072x4x40_S131072x40_d1 h_S_

/-- One upward step of the reference from 131072 children to 32768 parents: every parent's row repeated four
    times, joined column-wise with the children's edge rows and values, the two-layer network on each of the 131072
    rows, and the sum over each parent's four consecutive rows. -/
def refLevel_32768 (msg : FVec Ideal S32768x125 .f32) (bond : FVec Ideal S131072x12 .f32) (prev : FVec Ideal S131072x40 .f32)
    (W1 : FVec Ideal S177x125 .f32) (b1 : FVec Ideal S125 .f32) (W2 : FVec Ideal S125x40 .f32) (b2 : FVec Ideal S40 .f32) :
    FVec Ideal S32768x40 .f32 :=
  Host.reduceAdd (F := Ideal)
    (shapeCast S32768x4x40
      (refAct_131072x40 (addf (Host.dotGeneral (F := Ideal) dot_S131072x125_S125x40_S131072x40_1_0_0_1_n_n none
        (refAct_131072x125 (addf (Host.dotGeneral (F := Ideal) dot_S131072x177_S177x125_S131072x125_1_0_0_1_n_n none
            (concatenate S131072x177 1 [⟨S131072x125, shapeCast S131072x125 (broadcastInDim S32768x4x125 ![0, 2] bcast_S32768x125_S32768x4x125_0_2 msg) shapeCasts_S32768x4x125_S131072x125⟩, ⟨S131072x12, bond⟩, ⟨S131072x40, prev⟩] concatenates_S131072x125_S131072x12_S131072x40_S131072x177_d1) W1)
          (broadcastInDim S131072x125 ![0, 1] bcast_S1x125_S131072x125_0_1 (broadcastInDim S1x125 ![1] bcast_S125_S1x125_1 b1)))) W2)
        (broadcastInDim S131072x40 ![0, 1] bcast_S1x40_S131072x40_0_1 (broadcastInDim S1x40 ![1] bcast_S40_S1x40_1 b2))))
      shapeCasts_S131072x40_S32768x4x40)
    (constant (F := Ideal) S_ .f32 0x00000000#32) reducesTo_S32768x4x40_S32768x40_d1 h_S_

/-- One upward step of the reference from 32768 children to 8192 parents: every parent's row repeated four
    times, joined column-wise with the children's edge rows and values, the two-layer network on each of the 32768
    rows, and the sum over each parent's four consecutive rows. -/
def refLevel_8192 (msg : FVec Ideal S8192x125 .f32) (bond : FVec Ideal S32768x12 .f32) (prev : FVec Ideal S32768x40 .f32)
    (W1 : FVec Ideal S177x125 .f32) (b1 : FVec Ideal S125 .f32) (W2 : FVec Ideal S125x40 .f32) (b2 : FVec Ideal S40 .f32) :
    FVec Ideal S8192x40 .f32 :=
  Host.reduceAdd (F := Ideal)
    (shapeCast S8192x4x40
      (refAct_32768x40 (addf (Host.dotGeneral (F := Ideal) dot_S32768x125_S125x40_S32768x40_1_0_0_1_n_n none
        (refAct_32768x125 (addf (Host.dotGeneral (F := Ideal) dot_S32768x177_S177x125_S32768x125_1_0_0_1_n_n none
            (concatenate S32768x177 1 [⟨S32768x125, shapeCast S32768x125 (broadcastInDim S8192x4x125 ![0, 2] bcast_S8192x125_S8192x4x125_0_2 msg) shapeCasts_S8192x4x125_S32768x125⟩, ⟨S32768x12, bond⟩, ⟨S32768x40, prev⟩] concatenates_S32768x125_S32768x12_S32768x40_S32768x177_d1) W1)
          (broadcastInDim S32768x125 ![0, 1] bcast_S1x125_S32768x125_0_1 (broadcastInDim S1x125 ![1] bcast_S125_S1x125_1 b1)))) W2)
        (broadcastInDim S32768x40 ![0, 1] bcast_S1x40_S32768x40_0_1 (broadcastInDim S1x40 ![1] bcast_S40_S1x40_1 b2))))
      shapeCasts_S32768x40_S8192x4x40)
    (constant (F := Ideal) S_ .f32 0x00000000#32) reducesTo_S8192x4x40_S8192x40_d1 h_S_

/-- One upward step of the reference from 8192 children to 2048 parents: every parent's row repeated four
    times, joined column-wise with the children's edge rows and values, the two-layer network on each of the 8192
    rows, and the sum over each parent's four consecutive rows. -/
def refLevel_2048 (msg : FVec Ideal S2048x125 .f32) (bond : FVec Ideal S8192x12 .f32) (prev : FVec Ideal S8192x40 .f32)
    (W1 : FVec Ideal S177x125 .f32) (b1 : FVec Ideal S125 .f32) (W2 : FVec Ideal S125x40 .f32) (b2 : FVec Ideal S40 .f32) :
    FVec Ideal S2048x40 .f32 :=
  Host.reduceAdd (F := Ideal)
    (shapeCast S2048x4x40
      (refAct_8192x40 (addf (Host.dotGeneral (F := Ideal) dot_S8192x125_S125x40_S8192x40_1_0_0_1_n_n none
        (refAct_8192x125 (addf (Host.dotGeneral (F := Ideal) dot_S8192x177_S177x125_S8192x125_1_0_0_1_n_n none
            (concatenate S8192x177 1 [⟨S8192x125, shapeCast S8192x125 (broadcastInDim S2048x4x125 ![0, 2] bcast_S2048x125_S2048x4x125_0_2 msg) shapeCasts_S2048x4x125_S8192x125⟩, ⟨S8192x12, bond⟩, ⟨S8192x40, prev⟩] concatenates_S8192x125_S8192x12_S8192x40_S8192x177_d1) W1)
          (broadcastInDim S8192x125 ![0, 1] bcast_S1x125_S8192x125_0_1 (broadcastInDim S1x125 ![1] bcast_S125_S1x125_1 b1)))) W2)
        (broadcastInDim S8192x40 ![0, 1] bcast_S1x40_S8192x40_0_1 (broadcastInDim S1x40 ![1] bcast_S40_S1x40_1 b2))))
      shapeCasts_S8192x40_S2048x4x40)
    (constant (F := Ideal) S_ .f32 0x00000000#32) reducesTo_S2048x4x40_S2048x40_d1 h_S_

/-- The whole reference: the leaves, then four upward steps, each level's rows sliced out of the two inputs. -/
def refForest (a0 : FVec Ideal S698368x125 .f32) (a1 : FVec Ideal S696320x12 .f32) (a2 : FVec Ideal S177x125 .f32)
    (a3 : FVec Ideal S125 .f32) (a4 : FVec Ideal S125x40 .f32) (a5 : FVec Ideal S40 .f32) : FVec Ideal S2048x40 .f32 :=
  refLevel_2048 (extractStridedSlice S2048x125 ![0, 0] a0 slices_S698368x125_S2048x125_0_0) (extractStridedSlice S8192x12 ![0, 0] a1 slices_S696320x12_S8192x12_0_0)
    (refLevel_8192 (extractStridedSlice S8192x125 ![2048, 0] a0 slices_S698368x125_S8192x125_2048_0) (extractStridedSlice S32768x12 ![8192, 0] a1 slices_S696320x12_S32768x12_8192_0)
      (refLevel_32768 (extractStridedSlice S32768x125 ![10240, 0] a0 slices_S698368x125_S32768x125_10240_0) (extractStridedSlice S131072x12 ![40960, 0] a1 slices_S696320x12_S131072x12_40960_0)
        (refLevel_131072 (extractStridedSlice S131072x125 ![43008, 0] a0 slices_S698368x125_S131072x125_43008_0) (extractStridedSlice S524288x12 ![172032, 0] a1 slices_S696320x12_S524288x12_172032_0)
          (refLeaf (extractStridedSlice S524288x125 ![174080, 0] a0 slices_S698368x125_S524288x125_174080_0) a2 a3 a4 a5) a2 a3 a4 a5) a2 a3 a4 a5) a2 a3 a4 a5) a2 a3 a4 a5

end Cert.ReferenceIdeal.Net

end
-- ==== Proof.LibSsaNary.lean ====
import proofs.«141253_j53970559042267_2_alg».proof.Proof.LibSsa

/-!
# Reading an operation with a family of operands

The companion of the one-, two- and three-operand readings of a straight line of host operations: an operation
that takes a whole family of operand buffers, each at its own type (a concatenation of several arrays), leaves in
its result buffer its function of what the line leaves in the operand buffers, provided the result is not
written later and no operand is written at or after the operation's place.
-/

namespace Cert.Ssa

open Idealize.ShloMosaic Idealize.ShloMosaic.TcCoe Idealize.ShloMosaic.StableHlo

variable {τ : Topo} {sig : RefSig} {Val : EltTy → Type}

theorem read_nary {ops : List (HloOp τ sig Val)} {W : List (Ref sig .tc)} (h : Writes ops W) (k : Nat)
    {n : Nat} (xs : Fin n → Ref sig .tc) (y : Ref sig .tc)
    (f : ((j : Fin n) → (xs j).ty.Contents Val) → y.ty.Contents Val) (hxs hy)
    (hop : ops[k]? = some (nary (τ := τ) xs y f hxs hy)) (V : Valuation τ sig Val)
    (hy' : y ∉ W.drop (k + 1)) (hxs' : ∀ j, xs j ∉ W.drop k) :
    after ops V (Proc.devRef .tc y) = f (fun j => after ops V (Proc.devRef .tc (xs j))) := by
  rw [read_at h k hop V hy', nary_result]
  exact congrArg f (funext fun j => (read_before h k V (hxs' j)).symm)

end Cert.Ssa
-- ==== Proof.RefRead.lean ====
import proofs.«141253_j53970559042267_2_alg».proof.Proof.RefRun
import proofs.«141253_j53970559042267_2_alg».proof.Proof.RefNet
import proofs.«141253_j53970559042267_2_alg».proof.Proof.LibSsaNary

/-!
# What the reference's line of operations leaves in each buffer

Every operation of the reference's line writes a buffer of its own, and reads only buffers written before it
(or the arguments, which nothing writes). So the contents the line leaves satisfy each operation's own
equation: the result buffer holds the operation's function of what the line leaves in the operand buffers.
Reading these equations from the result backwards — the sum over each root's children, the root level's two
layers, the level below it, … down to the leaves and the slices of the two inputs — the result buffer holds
the five levels of the reference composed, as a function of the six arguments' contents.

Each activation is read once as a whole (its seven operations: the zero, its broadcast, the comparison, the
copied slope, its broadcast, the product, the selection), then each level, then the forest.
-/

noncomputable section

namespace Cert.ReferenceIdeal.Hand

open Cert.ReferenceIdeal Cert.ReferenceIdeal.Gen Cert.ReferenceIdeal.Net Cert.Ssa
open Idealize.ShloMosaic Idealize.ShloMosaic.TcCoe Idealize.SL.Sem Idealize.ShloMosaic.StableHlo

/-- The buffer each operation of the first part of the line writes, in order. -/
abbrev W0 : List (Ref sig .tc) :=
  [ main_v0, main_cst, main_v1, main_v2, main_v3, main_v4, main_v5, main_v6,
    main_cst_0, main_call0_cst, main_call0_v0, main_call0_v1, main_call0_v2, main_call0_v3, main_call0_v4, main_v7,
    main_v8, main_v9, main_v10, main_v11, main_cst_1, main_call1_cst, main_call1_v0, main_call1_v1,
    main_call1_v2, main_call1_v3, main_call1_v4, main_v12, main_v13, main_v14, main_v15, main_v16,
    main_v17, main_v18, main_v19, main_v20, main_v21, main_cst_2, main_call2_cst, main_call2_v0,
    main_call2_v1, main_call2_v2, main_call2_v3, main_call2_v4, main_v22, main_v23, main_v24, main_v25,
    main_v26, main_cst_3, main_call3_cst, main_call3_v0, main_call3_v1, main_call3_v2, main_call3_v3, main_call3_v4,
    main_v27, main_v28, main_cst_4, main_v29, main_v30, main_v31, main_v32, main_v33,
    main_v34, main_v35, main_v36, main_v37, main_v38, main_cst_5, main_call4_cst, main_call4_v0,
    main_call4_v1, main_call4_v2, main_call4_v3, main_call4_v4, main_v39, main_v40, main_v41, main_v42,
    main_v43, main_cst_6, main_call5_cst, main_call5_v0, main_call5_v1, main_call5_v2, main_call5_v3, main_call5_v4,
    main_v44, main_v45, main_cst_7, main_v46, main_v47, main_v48, main_v49, main_v50 ]

/-- The buffer each operation of the second part of the line writes, in order. -/
abbrev W1 : List (Ref sig .tc) :=
  [ main_v51, main_v52, main_v53, main_v54, main_v55, main_cst_8, main_call6_cst, main_call6_v0,
    main_call6_v1, main_call6_v2, main_call6_v3, main_call6_v4, main_v56, main_v57, main_v58, main_v59,
    main_v60, main_cst_9, main_call7_cst, main_call7_v0, main_call7_v1, main_call7_v2, main_call7_v3, main_call7_v4,
    main_v61, main_v62, main_cst_10, main_v63, main_v64, main_v65, main_v66, main_v67,
    main_v68, main_v69, main_v70, main_v71, main_v72, main_cst_11, main_call8_cst, main_call8_v0,
    main_call8_v1, main_call8_v2, main_call8_v3, main_call8_v4, main_v73, main_v74, main_v75, main_v76,
    main_v77, main_cst_12, main_call9_cst, main_call9_v0, main_call9_v1, main_call9_v2, main_call9_v3, main_call9_v4,
    main_v78, main_v79, main_cst_13, main_v80 ]

/-- The buffer each operation of the line writes, in order: no buffer twice, and no argument. -/
abbrev W : List (Ref sig .tc) := W0 ++ W1

section
variable {F : FTy → Type} [FloatOps F]

theorem ops0_writes : Writes (ops0 (F := F)) W0 := by
  unfold ops0 W0
  repeat' (first | exact trivial | refine And.intro (Finset.Subset.refl _) ?_)

theorem ops1_writes : Writes (ops1 (F := F)) W1 := by
  unfold ops1 W1
  repeat' (first | exact trivial | refine And.intro (Finset.Subset.refl _) ?_)

/-- Operation `k` of the line writes the `k`-th buffer of the list. -/
theorem ops_writes : Writes (ops (F := F)) W := Writes.append ops0_writes ops1_writes
end

variable (V : Valuation τ sig (Elt Ideal))

/-! ## The arguments are not written -/

theorem arg0_kept : after (ops (F := Ideal)) V (Proc.devRef .tc main_arg0) = V (Proc.devRef .tc main_arg0) :=
  Writes.keep ops_writes (by decide) V
theorem arg1_kept : after (ops (F := Ideal)) V (Proc.devRef .tc main_arg1) = V (Proc.devRef .tc main_arg1) :=
  Writes.keep ops_writes (by decide) V
theorem arg2_kept : after (ops (F := Ideal)) V (Proc.devRef .tc main_arg2) = V (Proc.devRef .tc main_arg2) :=
  Writes.keep ops_writes (by decide) V
theorem arg3_kept : after (ops (F := Ideal)) V (Proc.devRef .tc main_arg3) = V (Proc.devRef .tc main_arg3) :=
  Writes.keep ops_writes (by decide) V
theorem arg4_kept : after (ops (F := Ideal)) V (Proc.devRef .tc main_arg4) = V (Proc.devRef .tc main_arg4) :=
  Writes.keep ops_writes (by decide) V
theorem arg5_kept : after (ops (F := Ideal)) V (Proc.devRef .tc main_arg5) = V (Proc.devRef .tc main_arg5) :=
  Writes.keep ops_writes (by decide) V

/-! ## Each operation's own equation -/

theorem at_v0 : after (ops (F := Ideal)) V (Proc.devRef .tc main_v0) = extractStridedSlice (s := S698368x125) (α := Ideal .f32) S524288x125 ![174080, 0] (after (ops (F := Ideal)) V (Proc.devRef .tc main_arg0) : FVec Ideal S698368x125 .f32) slices_S698368x125_S524288x125_174080_0 :=
  (read_unary ops_writes 0 main_arg0 main_v0 _ _ _ rfl V (by decide) (by decide)).trans rfl
theorem at_cst : after (ops (F := Ideal)) V (Proc.devRef .tc main_cst) = constant (F := Ideal) S_ .f32 0x00000000#32 :=
  (read_nullary ops_writes 1 main_cst _ _ rfl V (by decide)).trans rfl
theorem at_v1 : after (ops (F := Ideal)) V (Proc.devRef .tc main_v1) = broadcastInDim (s := S_) (α := Ideal .f32) S524288x52 ![] bcast_S_S524288x52 (after (ops (F := Ideal)) V (Proc.devRef .tc main_cst) : FVec Ideal S_ .f32) :=
  (read_unary ops_writes 2 main_cst main_v1 _ _ _ rfl V (by decide) (by decide)).trans rfl
theorem at_v2 : after (ops (F := Ideal)) V (Proc.devRef .tc main_v2) = concatenate (α := Ideal .f32) S524288x177 1 [⟨S524288x125, (after (ops (F := Ideal)) V (Proc.devRef .tc main_v0) : FVec Ideal S524288x125 .f32)⟩, ⟨S524288x52, (after (ops (F := Ideal)) V (Proc.devRef .tc main_v1) : FVec Ideal S524288x52 .f32)⟩] concatenates_S524288x125_S524288x52_S524288x177_d1 :=
  (read_binary ops_writes 3 main_v0 main_v1 main_v2 _ _ _ _ rfl V (by decide) (by decide) (by decide)).trans rfl
theorem at_v3 : after (ops (F := Ideal)) V (Proc.devRef .tc main_v3) = Host.dotGeneral (F := Ideal) (φ₁ := .f32) (φ₂ := .f32) dot_S524288x177_S177x125_S524288x125_1_0_0_1_n_n none (after (ops (F := Ideal)) V (Proc.devRef .tc main_v2) : FVec Ideal S524288x177 .f32) (after (ops (F := Ideal)) V (Proc.devRef .tc main_arg2) : FVec Ideal S177x125 .f32) :=
  (read_binary ops_writes 4 main_v2 main_arg2 main_v3 _ _ _ _ rfl V (by decide) (by decide) (by decide)).trans rfl
theorem at_v4 : after (ops (F := Ideal)) V (Proc.devRef .tc main_v4) = broadcastInDim (s := S125) (α := Ideal .f32) S1x125 ![1] bcast_S125_S1x125_1 (after (ops (F := Ideal)) V (Proc.devRef .tc main_arg3) : FVec Ideal S125 .f32) :=
  (read_unary ops_writes 5 main_arg3 main_v4 _ _ _ rfl V (by decide) (by decide)).trans rfl
theorem at_v5 : after (ops (F := Ideal)) V (Proc.devRef .tc main_v5) = broadcastInDim (s := S1x125) (α := Ideal .f32) S524288x125 ![0, 1] bcast_S1x125_S524288x125_0_1 (after (ops (F := Ideal)) V (Proc.devRef .tc main_v4) : FVec Ideal S1x125 .f32) :=
  (read_unary ops_writes 6 main_v4 main_v5 _ _ _ rfl V (by decide) (by decide)).trans rfl
theorem at_v6 : after (ops (F := Ideal)) V (Proc.devRef .tc main_v6) = addf (F := Ideal) (s := S524288x125) (φ := .f32) (after (ops (F := Ideal)) V (Proc.devRef .tc main_v3) : FVec Ideal S524288x125 .f32) (after (ops (F := Ideal)) V (Proc.devRef .tc main_v5) : FVec Ideal S524288x125 .f32) :=
  (read_binary ops_writes 7 main_v3 main_v5 main_v6 _ _ _ _ rfl V (by decide) (by decide) (by decide)).trans rfl
theorem at_cst_0 : after (ops (F := Ideal)) V (Proc.devRef .tc main_cst_0) = constant (F := Ideal) S_ .f32 0x3C23D70A#32 :=
  (read_nullary ops_writes 8 main_cst_0 _ _ rfl V (by decide)).trans rfl
theorem at_call0_cst : after (ops (F := Ideal)) V (Proc.devRef .tc main_call0_cst) = constant (F := Ideal) S_ .f32 0x00000000#32 :=
  (read_nullary ops_writes 9 main_call0_cst _ _ rfl V (by decide)).trans rfl
theorem at_call0_v0 : after (ops (F := Ideal)) V (Proc.devRef .tc main_call0_v0) = broadcastInDim (s := S_) (α := Ideal .f32) S524288x125 ![] bcast_S_S524288x125 (after (ops (F := Ideal)) V (Proc.devRef .tc main_call0_cst) : FVec Ideal S_ .f32) :=
  (read_unary ops_writes 10 main_call0_cst main_call0_v0 _ _ _ rfl V (by decide) (by decide)).trans rfl
theorem at_call0_v1 : after (ops (F := Ideal)) V (Proc.devRef .tc main_call0_v1) = cmpf (F := Ideal) (s := S524288x125) (φ := .f32) .oge (after (ops (F := Ideal)) V (Proc.devRef .tc main_v6) : FVec Ideal S524288x125 .f32) (after (ops (F := Ideal)) V (Proc.devRef .tc main_call0_v0) : FVec Ideal S524288x125 .f32) :=
  (read_binary ops_writes 11 main_v6 main_call0_v0 main_call0_v1 _ _ _ _ rfl V (by decide) (by decide) (by decide)).trans rfl
theorem at_call0_v2 : after (ops (F := Ideal)) V (Proc.devRef .tc main_call0_v2) = id (α := FVec Ideal S_ .f32) (after (ops (F := Ideal)) V (Proc.devRef .tc main_cst_0) : FVec Ideal S_ .f32) :=
  (read_unary ops_writes 12 main_cst_0 main_call0_v2 _ _ _ rfl V (by decide) (by decide)).trans rfl
theorem at_call0_v3 : after (ops (F := Ideal)) V (Proc.devRef .tc main_call0_v3) = broadcastInDim (s := S_) (α := Ideal .f32) S524288x125 ![] bcast_S_S524288x125 (after (ops (F := Ideal)) V (Proc.devRef .tc main_call0_v2) : FVec Ideal S_ .f32) :=
  (read_unary ops_writes 13 main_call0_v2 main_call0_v3 _ _ _ rfl V (by decide) (by decide)).trans rfl
theorem at_call0_v4 : after (ops (F := Ideal)) V (Proc.devRef .tc main_call0_v4) = mulf (F := Ideal) (s := S524288x125) (φ := .f32) (after (ops (F := Ideal)) V (Proc.devRef .tc main_call0_v3) : FVec Ideal S524288x125 .f32) (after (ops (F := Ideal)) V (Proc.devRef .tc main_v6) : FVec Ideal S524288x125 .f32) :=
  (read_binary ops_writes 14 main_call0_v3 main_v6 main_call0_v4 _ _ _ _ rfl V (by decide) (by decide) (by decide)).trans rfl
theorem at_v7 : after (ops (F := Ideal)) V (Proc.devRef .tc main_v7) = select (s := S524288x125) (α := Ideal .f32) (after (ops (F := Ideal)) V (Proc.devRef .tc main_call0_v1) : IVec S524288x125 1) (after (ops (F := Ideal)) V (Proc.devRef .tc main_v6) : FVec Ideal S524288x125 .f32) (after (ops (F := Ideal)) V (Proc.devRef .tc main_call0_v4) : FVec Ideal S524288x125 .f32) :=
  (read_ternary ops_writes 15 main_call0_v1 main_v6 main_call0_v4 main_v7 _ _ _ _ _ rfl V (by decide) (by decide) (by decide) (by decide)).trans rfl
theorem at_v8 : after (ops (F := Ideal)) V (Proc.devRef .tc main_v8) = Host.dotGeneral (F := Ideal) (φ₁ := .f32) (φ₂ := .f32) dot_S524288x125_S125x40_S524288x40_1_0_0_1_n_n none (after (ops (F := Ideal)) V (Proc.devRef .tc main_v7) : FVec Ideal S524288x125 .f32) (after (ops (F := Ideal)) V (Proc.devRef .tc main_arg4) : FVec Ideal S125x40 .f32) :=
  (read_binary ops_writes 16 main_v7 main_arg4 main_v8 _ _ _ _ rfl V (by decide) (by decide) (by decide)).trans rfl
theorem at_v9 : after (ops (F := Ideal)) V (Proc.devRef .tc main_v9) = broadcastInDim (s := S40) (α := Ideal .f32) S1x40 ![1] bcast_S40_S1x40_1 (after (ops (F := Ideal)) V (Proc.devRef .tc main_arg5) : FVec Ideal S40 .f32) :=
  (read_unary ops_writes 17 main_arg5 main_v9 _ _ _ rfl V (by decide) (by decide)).trans rfl
theorem at_v10 : after (ops (F := Ideal)) V (Proc.devRef .tc main_v10) = broadcastInDim (s := S1x40) (α := Ideal .f32) S524288x40 ![0, 1] bcast_S1x40_S524288x40_0_1 (after (ops (F := Ideal)) V (Proc.devRef .tc main_v9) : FVec Ideal S1x40 .f32) :=
  (read_unary ops_writes 18 main_v9 main_v10 _ _ _ rfl V (by decide) (by decide)).trans rfl
theorem at_v11 : after (ops (F := Ideal)) V (Proc.devRef .tc main_v11) = addf (F := Ideal) (s := S524288x40) (φ := .f32) (after (ops (F := Ideal)) V (Proc.devRef .tc main_v8) : FVec Ideal S524288x40 .f32) (after (ops (F := Ideal)) V (Proc.devRef .tc main_v10) : FVec Ideal S524288x40 .f32) :=
  (read_binary ops_writes 19 main_v8 main_v10 main_v11 _ _ _ _ rfl V (by decide) (by decide) (by decide)).trans rfl
theorem at_cst_1 : after (ops (F := Ideal)) V (Proc.devRef .tc main_cst_1) = constant (F := Ideal) S_ .f32 0x3C23D70A#32 :=
  (read_nullary ops_writes 20 main_cst_1 _ _ rfl V (by decide)).trans rfl
theorem at_call1_cst : after (ops (F := Ideal)) V (Proc.devRef .tc main_call1_cst) = constant (F := Ideal) S_ .f32 0x00000000#32 :=
  (read_nullary ops_writes 21 main_call1_cst _ _ rfl V (by decide)).trans rfl
theorem at_call1_v0 : after (ops (F := Ideal)) V (Proc.devRef .tc main_call1_v0) = broadcastInDim (s := S_) (α := Ideal .f32) S524288x40 ![] bcast_S_S524288x40 (after (ops (F := Ideal)) V (Proc.devRef .tc main_call1_cst) : FVec Ideal S_ .f32) :=
  (read_unary ops_writes 22 main_call1_cst main_call1_v0 _ _ _ rfl V (by decide) (by decide)).trans rfl
theorem at_call1_v1 : after (ops (F := Ideal)) V (Proc.devRef .tc main_call1_v1) = cmpf (F := Ideal) (s := S524288x40) (φ := .f32) .oge (after (ops (F := Ideal)) V (Proc.devRef .tc main_v11) : FVec Ideal S524288x40 .f32) (after (ops (F := Ideal)) V (Proc.devRef .tc main_call1_v0) : FVec Ideal S524288x40 .f32) :=
  (read_binary ops_writes 23 main_v11 main_call1_v0 main_call1_v1 _ _ _ _ rfl V (by decide) (by decide) (by decide)).trans rfl
theorem at_call1_v2 : after (ops (F := Ideal)) V (Proc.devRef .tc main_call1_v2) = id (α := FVec Ideal S_ .f32) (after (ops (F := Ideal)) V (Proc.devRef .tc main_cst_1) : FVec Ideal S_ .f32) :=
  (read_unary ops_writes 24 main_cst_1 main_call1_v2 _ _ _ rfl V (by decide) (by decide)).trans rfl
theorem at_call1_v3 : after (ops (F := Ideal)) V (Proc.devRef .tc main_call1_v3) = broadcastInDim (s := S_) (α := Ideal .f32) S524288x40 ![] bcast_S_S524288x40 (after (ops (F := Ideal)) V (Proc.devRef .tc main_call1_v2) : FVec Ideal S_ .f32) :=
  (read_unary ops_writes 25 main_call1_v2 main_call1_v3 _ _ _ rfl V (by decide) (by decide)).trans rfl
theorem at_call1_v4 : after (ops (F := Ideal)) V (Proc.devRef .tc main_call1_v4) = mulf (F := Ideal) (s := S524288x40) (φ := .f32) (after (ops (F := Ideal)) V (Proc.devRef .tc main_call1_v3) : FVec Ideal S524288x40 .f32) (after (ops (F := Ideal)) V (Proc.devRef .tc main_v11) : FVec Ideal S524288x40 .f32) :=
  (read_binary ops_writes 26 main_call1_v3 main_v11 main_call1_v4 _ _ _ _ rfl V (by decide) (by decide) (by decide)).trans rfl
theorem at_v12 : after (ops (F := Ideal)) V (Proc.devRef .tc main_v12) = select (s := S524288x40) (α := Ideal .f32) (after (ops (F := Ideal)) V (Proc.devRef .tc main_call1_v1) : IVec S524288x40 1) (after (ops (F := Ideal)) V (Proc.devRef .tc main_v11) : FVec Ideal S524288x40 .f32) (after (ops (F := Ideal)) V (Proc.devRef .tc main_call1_v4) : FVec Ideal S524288x40 .f32) :=
  (read_ternary ops_writes 27 main_call1_v1 main_v11 main_call1_v4 main_v12 _ _ _ _ _ rfl V (by decide) (by decide) (by decide) (by decide)).trans rfl
theorem at_v13 : after (ops (F := Ideal)) V (Proc.devRef .tc main_v13) = extractStridedSlice (s := S698368x125) (α := Ideal .f32) S131072x125 ![43008, 0] (after (ops (F := Ideal)) V (Proc.devRef .tc main_arg0) : FVec Ideal S698368x125 .f32) slices_S698368x125_S131072x125_43008_0 :=
  (read_unary ops_writes 28 main_arg0 main_v13 _ _ _ rfl V (by decide) (by decide)).trans rfl
theorem at_v14 : after (ops (F := Ideal)) V (Proc.devRef .tc main_v14) = extractStridedSlice (s := S696320x12) (α := Ideal .f32) S524288x12 ![172032, 0] (after (ops (F := Ideal)) V (Proc.devRef .tc main_arg1) : FVec Ideal S696320x12 .f32) slices_S696320x12_S524288x12_172032_0 :=
  (read_unary ops_writes 29 main_arg1 main_v14 _ _ _ rfl V (by decide) (by decide)).trans rfl
theorem at_v15 : after (ops (F := Ideal)) V (Proc.devRef .tc main_v15) = broadcastInDim (s := S131072x125) (α := Ideal .f32) S131072x4x125 ![0, 2] bcast_S131072x125_S131072x4x125_0_2 (after (ops (F := Ideal)) V (Proc.devRef .tc main_v13) : FVec Ideal S131072x125 .f32) :=
  (read_unary ops_writes 30 main_v13 main_v15 _ _ _ rfl V (by decide) (by decide)).trans rfl
theorem at_v16 : after (ops (F := Ideal)) V (Proc.devRef .tc main_v16) = shapeCast (s := S131072x4x125) (α := Ideal .f32) S524288x125 (after (ops (F := Ideal)) V (Proc.devRef .tc main_v15) : FVec Ideal S131072x4x125 .f32) shapeCasts_S131072x4x125_S524288x125 :=
  (read_reshape ops_writes 31 main_v15 main_v16 _ _ _ _ rfl V (by decide) (by decide)).trans rfl
theorem at_v17 : after (ops (F := Ideal)) V (Proc.devRef .tc main_v17) = concatenate (α := Ideal .f32) S524288x177 1 [⟨S524288x125, (after (ops (F := Ideal)) V (Proc.devRef .tc main_v16) : FVec Ideal S524288x125 .f32)⟩, ⟨S524288x12, (after (ops (F := Ideal)) V (Proc.devRef .tc main_v14) : FVec Ideal S524288x12 .f32)⟩, ⟨S524288x40, (after (ops (F := Ideal)) V (Proc.devRef .tc main_v12) : FVec Ideal S524288x40 .f32)⟩] concatenates_S524288x125_S524288x12_S524288x40_S524288x177_d1 :=
  (read_nary ops_writes 32 ![main_v16, main_v14, main_v12] main_v17 _ _ _ rfl V (by decide) (by decide)).trans rfl
theorem at_v18 : after (ops (F := Ideal)) V (Proc.devRef .tc main_v18) = Host.dotGeneral (F := Ideal) (φ₁ := .f32) (φ₂ := .f32) dot_S524288x177_S177x125_S524288x125_1_0_0_1_n_n none (after (ops (F := Ideal)) V (Proc.devRef .tc main_v17) : FVec Ideal S524288x177 .f32) (after (ops (F := Ideal)) V (Proc.devRef .tc main_arg2) : FVec Ideal S177x125 .f32) :=
  (read_binary ops_writes 33 main_v17 main_arg2 main_v18 _ _ _ _ rfl V (by decide) (by decide) (by decide)).trans rfl
theorem at_v19 : after (ops (F := Ideal)) V (Proc.devRef .tc main_v19) = broadcastInDim (s := S125) (α := Ideal .f32) S1x125 ![1] bcast_S125_S1x125_1 (after (ops (F := Ideal)) V (Proc.devRef .tc main_arg3) : FVec Ideal S125 .f32) :=
  (read_unary ops_writes 34 main_arg3 main_v19 _ _ _ rfl V (by decide) (by decide)).trans rfl
theorem at_v20 : after (ops (F := Ideal)) V (Proc.devRef .tc main_v20) = broadcastInDim (s := S1x125) (α := Ideal .f32) S524288x125 ![0, 1] bcast_S1x125_S524288x125_0_1 (after (ops (F := Ideal)) V (Proc.devRef .tc main_v19) : FVec Ideal S1x125 .f32) :=
  (read_unary ops_writes 35 main_v19 main_v20 _ _ _ rfl V (by decide) (by decide)).trans rfl
theorem at_v21 : after (ops (F := Ideal)) V (Proc.devRef .tc main_v21) = addf (F := Ideal) (s := S524288x125) (φ := .f32) (after (ops (F := Ideal)) V (Proc.devRef .tc main_v18) : FVec Ideal S524288x125 .f32) (after (ops (F := Ideal)) V (Proc.devRef .tc main_v20) : FVec Ideal S524288x125 .f32) :=
  (read_binary ops_writes 36 main_v18 main_v20 main_v21 _ _ _ _ rfl V (by decide) (by decide) (by decide)).trans rfl
theorem at_cst_2 : after (ops (F := Ideal)) V (Proc.devRef .tc main_cst_2) = constant (F := Ideal) S_ .f32 0x3C23D70A#32 :=
  (read_nullary ops_writes 37 main_cst_2 _ _ rfl V (by decide)).trans rfl
theorem at_call2_cst : after (ops (F := Ideal)) V (Proc.devRef .tc main_call2_cst) = constant (F := Ideal) S_ .f32 0x00000000#32 :=
  (read_nullary ops_writes 38 main_call2_cst _ _ rfl V (by decide)).trans rfl
theorem at_call2_v0 : after (ops (F := Ideal)) V (Proc.devRef .tc main_call2_v0) = broadcastInDim (s := S_) (α := Ideal .f32) S524288x125 ![] bcast_S_S524288x125 (after (ops (F := Ideal)) V (Proc.devRef .tc main_call2_cst) : FVec Ideal S_ .f32) :=
  (read_unary ops_writes 39 main_call2_cst main_call2_v0 _ _ _ rfl V (by decide) (by decide)).trans rfl
theorem at_call2_v1 : after (ops (F := Ideal)) V (Proc.devRef .tc main_call2_v1) = cmpf (F := Ideal) (s := S524288x125) (φ := .f32) .oge (after (ops (F := Ideal)) V (Proc.devRef .tc main_v21) : FVec Ideal S524288x125 .f32) (after (ops (F := Ideal)) V (Proc.devRef .tc main_call2_v0) : FVec Ideal S524288x125 .f32) :=
  (read_binary ops_writes 40 main_v21 main_call2_v0 main_call2_v1 _ _ _ _ rfl V (by decide) (by decide) (by decide)).trans rfl
theorem at_call2_v2 : after (ops (F := Ideal)) V (Proc.devRef .tc main_call2_v2) = id (α := FVec Ideal S_ .f32) (after (ops (F := Ideal)) V (Proc.devRef .tc main_cst_2) : FVec Ideal S_ .f32) :=
  (read_unary ops_writes 41 main_cst_2 main_call2_v2 _ _ _ rfl V (by decide) (by decide)).trans rfl
theorem at_call2_v3 : after (ops (F := Ideal)) V (Proc.devRef .tc main_call2_v3) = broadcastInDim (s := S_) (α := Ideal .f32) S524288x125 ![] bcast_S_S524288x125 (after (ops (F := Ideal)) V (Proc.devRef .tc main_call2_v2) : FVec Ideal S_ .f32) :=
  (read_unary ops_writes 42 main_call2_v2 main_call2_v3 _ _ _ rfl V (by decide) (by decide)).trans rfl
theorem at_call2_v4 : after (ops (F := Ideal)) V (Proc.devRef .tc main_call2_v4) = mulf (F := Ideal) (s := S524288x125) (φ := .f32) (after (ops (F := Ideal)) V (Proc.devRef .tc main_call2_v3) : FVec Ideal S524288x125 .f32) (after (ops (F := Ideal)) V (Proc.devRef .tc main_v21) : FVec Ideal S524288x125 .f32) :=
  (read_binary ops_writes 43 main_call2_v3 main_v21 main_call2_v4 _ _ _ _ rfl V (by decide) (by decide) (by decide)).trans rfl
theorem at_v22 : after (ops (F := Ideal)) V (Proc.devRef .tc main_v22) = select (s := S524288x125) (α := Ideal .f32) (after (ops (F := Ideal)) V (Proc.devRef .tc main_call2_v1) : IVec S524288x125 1) (after (ops (F := Ideal)) V (Proc.devRef .tc main_v21) : FVec Ideal S524288x125 .f32) (after (ops (F := Ideal)) V (Proc.devRef .tc main_call2_v4) : FVec Ideal S524288x125 .f32) :=
  (read_ternary ops_writes 44 main_call2_v1 main_v21 main_call2_v4 main_v22 _ _ _ _ _ rfl V (by decide) (by decide) (by decide) (by decide)).trans rfl
theorem at_v23 : after (ops (F := Ideal)) V (Proc.devRef .tc main_v23) = Host.dotGeneral (F := Ideal) (φ₁ := .f32) (φ₂ := .f32) dot_S524288x125_S125x40_S524288x40_1_0_0_1_n_n none (after (ops (F := Ideal)) V (Proc.devRef .tc main_v22) : FVec Ideal S524288x125 .f32) (after (ops (F := Ideal)) V (Proc.devRef .tc main_arg4) : FVec Ideal S125x40 .f32) :=
  (read_binary ops_writes 45 main_v22 main_arg4 main_v23 _ _ _ _ rfl V (by decide) (by decide) (by decide)).trans rfl
theorem at_v24 : after (ops (F := Ideal)) V (Proc.devRef .tc main_v24) = broadcastInDim (s := S40) (α := Ideal .f32) S1x40 ![1] bcast_S40_S1x40_1 (after (ops (F := Ideal)) V (Proc.devRef .tc main_arg5) : FVec Ideal S40 .f32) :=
  (read_unary ops_writes 46 main_arg5 main_v24 _ _ _ rfl V (by decide) (by decide)).trans rfl
theorem at_v25 : after (ops (F := Ideal)) V (Proc.devRef .tc main_v25) = broadcastInDim (s := S1x40) (α := Ideal .f32) S524288x40 ![0, 1] bcast_S1x40_S524288x40_0_1 (after (ops (F := Ideal)) V (Proc.devRef .tc main_v24) : FVec Ideal S1x40 .f32) :=
  (read_unary ops_writes 47 main_v24 main_v25 _ _ _ rfl V (by decide) (by decide)).trans rfl
theorem at_v26 : after (ops (F := Ideal)) V (Proc.devRef .tc main_v26) = addf (F := Ideal) (s := S524288x40) (φ := .f32) (after (ops (F := Ideal)) V (Proc.devRef .tc main_v23) : FVec Ideal S524288x40 .f32) (after (ops (F := Ideal)) V (Proc.devRef .tc main_v25) : FVec Ideal S524288x40 .f32) :=
  (read_binary ops_writes 48 main_v23 main_v25 main_v26 _ _ _ _ rfl V (by decide) (by decide) (by decide)).trans rfl
theorem at_cst_3 : after (ops (F := Ideal)) V (Proc.devRef .tc main_cst_3) = constant (F := Ideal) S_ .f32 0x3C23D70A#32 :=
  (read_nullary ops_writes 49 main_cst_3 _ _ rfl V (by decide)).trans rfl
theorem at_call3_cst : after (ops (F := Ideal)) V (Proc.devRef .tc main_call3_cst) = constant (F := Ideal) S_ .f32 0x00000000#32 :=
  (read_nullary ops_writes 50 main_call3_cst _ _ rfl V (by decide)).trans rfl
theorem at_call3_v0 : after (ops (F := Ideal)) V (Proc.devRef .tc main_call3_v0) = broadcastInDim (s := S_) (α := Ideal .f32) S524288x40 ![] bcast_S_S524288x40 (after (ops (F := Ideal)) V (Proc.devRef .tc main_call3_cst) : FVec Ideal S_ .f32) :=
  (read_unary ops_writes 51 main_call3_cst main_call3_v0 _ _ _ rfl V (by decide) (by decide)).trans rfl
theorem at_call3_v1 : after (ops (F := Ideal)) V (Proc.devRef .tc main_call3_v1) = cmpf (F := Ideal) (s := S524288x40) (φ := .f32) .oge (after (ops (F := Ideal)) V (Proc.devRef .tc main_v26) : FVec Ideal S524288x40 .f32) (after (ops (F := Ideal)) V (Proc.devRef .tc main_call3_v0) : FVec Ideal S524288x40 .f32) :=
  (read_binary ops_writes 52 main_v26 main_call3_v0 main_call3_v1 _ _ _ _ rfl V (by decide) (by decide) (by decide)).trans rfl
theorem at_call3_v2 : after (ops (F := Ideal)) V (Proc.devRef .tc main_call3_v2) = id (α := FVec Ideal S_ .f32) (after (ops (F := Ideal)) V (Proc.devRef .tc main_cst_3) : FVec Ideal S_ .f32) :=
  (read_unary ops_writes 53 main_cst_3 main_call3_v2 _ _ _ rfl V (by decide) (by decide)).trans rfl
theorem at_call3_v3 : after (ops (F := Ideal)) V (Proc.devRef .tc main_call3_v3) = broadcastInDim (s := S_) (α := Ideal .f32) S524288x40 ![] bcast_S_S524288x40 (after (ops (F := Ideal)) V (Proc.devRef .tc main_call3_v2) : FVec Ideal S_ .f32) :=
  (read_unary ops_writes 54 main_call3_v2 main_call3_v3 _ _ _ rfl V (by decide) (by decide)).trans rfl
theorem at_call3_v4 : after (ops (F := Ideal)) V (Proc.devRef .tc main_call3_v4) = mulf (F := Ideal) (s := S524288x40) (φ := .f32) (after (ops (F := Ideal)) V (Proc.devRef .tc main_call3_v3) : FVec Ideal S524288x40 .f32) (after (ops (F := Ideal)) V (Proc.devRef .tc main_v26) : FVec Ideal S524288x40 .f32) :=
  (read_binary ops_writes 55 main_call3_v3 main_v26 main_call3_v4 _ _ _ _ rfl V (by decide) (by decide) (by decide)).trans rfl
theorem at_v27 : after (ops (F := Ideal)) V (Proc.devRef .tc main_v27) = select (s := S524288x40) (α := Ideal .f32) (after (ops (F := Ideal)) V (Proc.devRef .tc main_call3_v1) : IVec S524288x40 1) (after (ops (F := Ideal)) V (Proc.devRef .tc main_v26) : FVec Ideal S524288x40 .f32) (after (ops (F := Ideal)) V (Proc.devRef .tc main_call3_v4) : FVec Ideal S524288x40 .f32) :=
  (read_ternary ops_writes 56 main_call3_v1 main_v26 main_call3_v4 main_v27 _ _ _ _ _ rfl V (by decide) (by decide) (by decide) (by decide)).trans rfl
theorem at_v28 : after (ops (F := Ideal)) V (Proc.devRef .tc main_v28) = shapeCast (s := S524288x40) (α := Ideal .f32) S131072x4x40 (after (ops (F := Ideal)) V (Proc.devRef .tc main_v27) : FVec Ideal S524288x40 .f32) shapeCasts_S524288x40_S131072x4x40 :=
  (read_reshape ops_writes 57 main_v27 main_v28 _ _ _ _ rfl V (by decide) (by decide)).trans rfl
theorem at_cst_4 : after (ops (F := Ideal)) V (Proc.devRef .tc main_cst_4) = constant (F := Ideal) S_ .f32 0x00000000#32 :=
  (read_nullary ops_writes 58 main_cst_4 _ _ rfl V (by decide)).trans rfl
theorem at_v29 : after (ops (F := Ideal)) V (Proc.devRef .tc main_v29) = Host.reduceAdd (F := Ideal) (s := S131072x4x40) (φ := .f32) (u := S_) (after (ops (F := Ideal)) V (Proc.devRef .tc main_v28) : FVec Ideal S131072x4x40 .f32) (after (ops (F := Ideal)) V (Proc.devRef .tc main_cst_4) : FVec Ideal S_ .f32) reducesTo_S131072x4x40_S131072x40_d1 h_S_ :=
  (read_binary ops_writes 59 main_v28 main_cst_4 main_v29 _ _ _ _ rfl V (by decide) (by decide) (by decide)).trans rfl
theorem at_v30 : after (ops (F := Ideal)) V (Proc.devRef .tc main_v30) = extractStridedSlice (s := S698368x125) (α := Ideal .f32) S32768x125 ![10240, 0] (after (ops (F := Ideal)) V (Proc.devRef .tc main_arg0) : FVec Ideal S698368x125 .f32) slices_S698368x125_S32768x125_10240_0 :=
  (read_unary ops_writes 60 main_arg0 main_v30 _ _ _ rfl V (by decide) (by decide)).trans rfl
theorem at_v31 : after (ops (F := Ideal)) V (Proc.devRef .tc main_v31) = extractStridedSlice (s := S696320x12) (α := Ideal .f32) S131072x12 ![40960, 0] (after (ops (F := Ideal)) V (Proc.devRef .tc main_arg1) : FVec Ideal S696320x12 .f32) slices_S696320x12_S131072x12_40960_0 :=
  (read_unary ops_writes 61 main_arg1 main_v31 _ _ _ rfl V (by decide) (by decide)).trans rfl
theorem at_v32 : after (ops (F := Ideal)) V (Proc.devRef .tc main_v32) = broadcastInDim (s := S32768x125) (α := Ideal .f32) S32768x4x125 ![0, 2] bcast_S32768x125_S32768x4x125_0_2 (after (ops (F := Ideal)) V (Proc.devRef .tc main_v30) : FVec Ideal S32768x125 .f32) :=
  (read_unary ops_writes 62 main_v30 main_v32 _ _ _ rfl V (by decide) (by decide)).trans rfl
theorem at_v33 : after (ops (F := Ideal)) V (Proc.devRef .tc main_v33) = shapeCast (s := S32768x4x125) (α := Ideal .f32) S131072x125 (after (ops (F := Ideal)) V (Proc.devRef .tc main_v32) : FVec Ideal S32768x4x125 .f32) shapeCasts_S32768x4x125_S131072x125 :=
  (read_reshape ops_writes 63 main_v32 main_v33 _ _ _ _ rfl V (by decide) (by decide)).trans rfl
theorem at_v34 : after (ops (F := Ideal)) V (Proc.devRef .tc main_v34) = concatenate (α := Ideal .f32) S131072x177 1 [⟨S131072x125, (after (ops (F := Ideal)) V (Proc.devRef .tc main_v33) : FVec Ideal S131072x125 .f32)⟩, ⟨S131072x12, (after (ops (F := Ideal)) V (Proc.devRef .tc main_v31) : FVec Ideal S131072x12 .f32)⟩, ⟨S131072x40, (after (ops (F := Ideal)) V (Proc.devRef .tc main_v29) : FVec Ideal S131072x40 .f32)⟩] concatenates_S131072x125_S131072x12_S131072x40_S131072x177_d1 :=
  (read_nary ops_writes 64 ![main_v33, main_v31, main_v29] main_v34 _ _ _ rfl V (by decide) (by decide)).trans rfl
theorem at_v35 : after (ops (F := Ideal)) V (Proc.devRef .tc main_v35) = Host.dotGeneral (F := Ideal) (φ₁ := .f32) (φ₂ := .f32) dot_S131072x177_S177x125_S131072x125_1_0_0_1_n_n none (after (ops (F := Ideal)) V (Proc.devRef .tc main_v34) : FVec Ideal S131072x177 .f32) (after (ops (F := Ideal)) V (Proc.devRef .tc main_arg2) : FVec Ideal S177x125 .f32) :=
  (read_binary ops_writes 65 main_v34 main_arg2 main_v35 _ _ _ _ rfl V (by decide) (by decide) (by decide)).trans rfl
theorem at_v36 : after (ops (F := Ideal)) V (Proc.devRef .tc main_v36) = broadcastInDim (s := S125) (α := Ideal .f32) S1x125 ![1] bcast_S125_S1x125_1 (after (ops (F := Ideal)) V (Proc.devRef .tc main_arg3) : FVec Ideal S125 .f32) :=
  (read_unary ops_writes 66 main_arg3 main_v36 _ _ _ rfl V (by decide) (by decide)).trans rfl
theorem at_v37 : after (ops (F := Ideal)) V (Proc.devRef .tc main_v37) = broadcastInDim (s := S1x125) (α := Ideal .f32) S131072x125 ![0, 1] bcast_S1x125_S131072x125_0_1 (after (ops (F := Ideal)) V (Proc.devRef .tc main_v36) : FVec Ideal S1x125 .f32) :=
  (read_unary ops_writes 67 main_v36 main_v37 _ _ _ rfl V (by decide) (by decide)).trans rfl
theorem at_v38 : after (ops (F := Ideal)) V (Proc.devRef .tc main_v38) = addf (F := Ideal) (s := S131072x125) (φ := .f32) (after (ops (F := Ideal)) V (Proc.devRef .tc main_v35) : FVec Ideal S131072x125 .f32) (after (ops (F := Ideal)) V (Proc.devRef .tc main_v37) : FVec Ideal S131072x125 .f32) :=
  (read_binary ops_writes 68 main_v35 main_v37 main_v38 _ _ _ _ rfl V (by decide) (by decide) (by decide)).trans rfl
theorem at_cst_5 : after (ops (F := Ideal)) V (Proc.devRef .tc main_cst_5) = constant (F := Ideal) S_ .f32 0x3C23D70A#32 :=
  (read_nullary ops_writes 69 main_cst_5 _ _ rfl V (by decide)).trans rfl
theorem at_call4_cst : after (ops (F := Ideal)) V (Proc.devRef .tc main_call4_cst) = constant (F := Ideal) S_ .f32 0x00000000#32 :=
  (read_nullary ops_writes 70 main_call4_cst _ _ rfl V (by decide)).trans rfl
theorem at_call4_v0 : after (ops (F := Ideal)) V (Proc.devRef .tc main_call4_v0) = broadcastInDim (s := S_) (α := Ideal .f32) S131072x125 ![] bcast_S_S131072x125 (after (ops (F := Ideal)) V (Proc.devRef .tc main_call4_cst) : FVec Ideal S_ .f32) :=
  (read_unary ops_writes 71 main_call4_cst main_call4_v0 _ _ _ rfl V (by decide) (by decide)).trans rfl
theorem at_call4_v1 : after (ops (F := Ideal)) V (Proc.devRef .tc main_call4_v1) = cmpf (F := Ideal) (s := S131072x125) (φ := .f32) .oge (after (ops (F := Ideal)) V (Proc.devRef .tc main_v38) : FVec Ideal S131072x125 .f32) (after (ops (F := Ideal)) V (Proc.devRef .tc main_call4_v0) : FVec Ideal S131072x125 .f32) :=
  (read_binary ops_writes 72 main_v38 main_call4_v0 main_call4_v1 _ _ _ _ rfl V (by decide) (by decide) (by decide)).trans rfl
theorem at_call4_v2 : after (ops (F := Ideal)) V (Proc.devRef .tc main_call4_v2) = id (α := FVec Ideal S_ .f32) (after (ops (F := Ideal)) V (Proc.devRef .tc main_cst_5) : FVec Ideal S_ .f32) :=
  (read_unary ops_writes 73 main_cst_5 main_call4_v2 _ _ _ rfl V (by decide) (by decide)).trans rfl
theorem at_call4_v3 : after (ops (F := Ideal)) V (Proc.devRef .tc main_call4_v3) = broadcastInDim (s := S_) (α := Ideal .f32) S131072x125 ![] bcast_S_S131072x125 (after (ops (F := Ideal)) V (Proc.devRef .tc main_call4_v2) : FVec Ideal S_ .f32) :=
  (read_unary ops_writes 74 main_call4_v2 main_call4_v3 _ _ _ rfl V (by decide) (by decide)).trans rfl
theorem at_call4_v4 : after (ops (F := Ideal)) V (Proc.devRef .tc main_call4_v4) = mulf (F := Ideal) (s := S131072x125) (φ := .f32) (after (ops (F := Ideal)) V (Proc.devRef .tc main_call4_v3) : FVec Ideal S131072x125 .f32) (after (ops (F := Ideal)) V (Proc.devRef .tc main_v38) : FVec Ideal S131072x125 .f32) :=
  (read_binary ops_writes 75 main_call4_v3 main_v38 main_call4_v4 _ _ _ _ rfl V (by decide) (by decide) (by decide)).trans rfl
theorem at_v39 : after (ops (F := Ideal)) V (Proc.devRef .tc main_v39) = select (s := S131072x125) (α := Ideal .f32) (after (ops (F := Ideal)) V (Proc.devRef .tc main_call4_v1) : IVec S131072x125 1) (after (ops (F := Ideal)) V (Proc.devRef .tc main_v38) : FVec Ideal S131072x125 .f32) (after (ops (F := Ideal)) V (Proc.devRef .tc main_call4_v4) : FVec Ideal S131072x125 .f32) :=
  (read_ternary ops_writes 76 main_call4_v1 main_v38 main_call4_v4 main_v39 _ _ _ _ _ rfl V (by decide) (by decide) (by decide) (by decide)).trans rfl
theorem at_v40 : after (ops (F := Ideal)) V (Proc.devRef .tc main_v40) = Host.dotGeneral (F := Ideal) (φ₁ := .f32) (φ₂ := .f32) dot_S131072x125_S125x40_S131072x40_1_0_0_1_n_n none (after (ops (F := Ideal)) V (Proc.devRef .tc main_v39) : FVec Ideal S131072x125 .f32) (after (ops (F := Ideal)) V (Proc.devRef .tc main_arg4) : FVec Ideal S125x40 .f32) :=
  (read_binary ops_writes 77 main_v39 main_arg4 main_v40 _ _ _ _ rfl V (by decide) (by decide) (by decide)).trans rfl
theorem at_v41 : after (ops (F := Ideal)) V (Proc.devRef .tc main_v41) = broadcastInDim (s := S40) (α := Ideal .f32) S1x40 ![1] bcast_S40_S1x40_1 (after (ops (F := Ideal)) V (Proc.devRef .tc main_arg5) : FVec Ideal S40 .f32) :=
  (read_unary ops_writes 78 main_arg5 main_v41 _ _ _ rfl V (by decide) (by decide)).trans rfl
theorem at_v42 : after (ops (F := Ideal)) V (Proc.devRef .tc main_v42) = broadcastInDim (s := S1x40) (α := Ideal .f32) S131072x40 ![0, 1] bcast_S1x40_S131072x40_0_1 (after (ops (F := Ideal)) V (Proc.devRef .tc main_v41) : FVec Ideal S1x40 .f32) :=
  (read_unary ops_writes 79 main_v41 main_v42 _ _ _ rfl V (by decide) (by decide)).trans rfl
theorem at_v43 : after (ops (F := Ideal)) V (Proc.devRef .tc main_v43) = addf (F := Ideal) (s := S131072x40) (φ := .f32) (after (ops (F := Ideal)) V (Proc.devRef .tc main_v40) : FVec Ideal S131072x40 .f32) (after (ops (F := Ideal)) V (Proc.devRef .tc main_v42) : FVec Ideal S131072x40 .f32) :=
  (read_binary ops_writes 80 main_v40 main_v42 main_v43 _ _ _ _ rfl V (by decide) (by decide) (by decide)).trans rfl
theorem at_cst_6 : after (ops (F := Ideal)) V (Proc.devRef .tc main_cst_6) = constant (F := Ideal) S_ .f32 0x3C23D70A#32 :=
  (read_nullary ops_writes 81 main_cst_6 _ _ rfl V (by decide)).trans rfl
theorem at_call5_cst : after (ops (F := Ideal)) V (Proc.devRef .tc main_call5_cst) = constant (F := Ideal) S_ .f32 0x00000000#32 :=
  (read_nullary ops_writes 82 main_call5_cst _ _ rfl V (by decide)).trans rfl
theorem at_call5_v0 : after (ops (F := Ideal)) V (Proc.devRef .tc main_call5_v0) = broadcastInDim (s := S_) (α := Ideal .f32) S131072x40 ![] bcast_S_S131072x40 (after (ops (F := Ideal)) V (Proc.devRef .tc main_call5_cst) : FVec Ideal S_ .f32) :=
  (read_unary ops_writes 83 main_call5_cst main_call5_v0 _ _ _ rfl V (by decide) (by decide)).trans rfl
theorem at_call5_v1 : after (ops (F := Ideal)) V (Proc.devRef .tc main_call5_v1) = cmpf (F := Ideal) (s := S131072x40) (φ := .f32) .oge (after (ops (F := Ideal)) V (Proc.devRef .tc main_v43) : FVec Ideal S131072x40 .f32) (after (ops (F := Ideal)) V (Proc.devRef .tc main_call5_v0) : FVec Ideal S131072x40 .f32) :=
  (read_binary ops_writes 84 main_v43 main_call5_v0 main_call5_v1 _ _ _ _ rfl V (by decide) (by decide) (by decide)).trans rfl
theorem at_call5_v2 : after (ops (F := Ideal)) V (Proc.devRef .tc main_call5_v2) = id (α := FVec Ideal S_ .f32) (after (ops (F := Ideal)) V (Proc.devRef .tc main_cst_6) : FVec Ideal S_ .f32) :=
  (read_unary ops_writes 85 main_cst_6 main_call5_v2 _ _ _ rfl V (by decide) (by decide)).trans rfl
theorem at_call5_v3 : after (ops (F := Ideal)) V (Proc.devRef .tc main_call5_v3) = broadcastInDim (s := S_) (α := Ideal .f32) S131072x40 ![] bcast_S_S131072x40 (after (ops (F := Ideal)) V (Proc.devRef .tc main_call5_v2) : FVec Ideal S_ .f32) :=
  (read_unary ops_writes 86 main_call5_v2 main_call5_v3 _ _ _ rfl V (by decide) (by decide)).trans rfl
theorem at_call5_v4 : after (ops (F := Ideal)) V (Proc.devRef .tc main_call5_v4) = mulf (F := Ideal) (s := S131072x40) (φ := .f32) (after (ops (F := Ideal)) V (Proc.devRef .tc main_call5_v3) : FVec Ideal S131072x40 .f32) (after (ops (F := Ideal)) V (Proc.devRef .tc main_v43) : FVec Ideal S131072x40 .f32) :=
  (read_binary ops_writes 87 main_call5_v3 main_v43 main_call5_v4 _ _ _ _ rfl V (by decide) (by decide) (by decide)).trans rfl
theorem at_v44 : after (ops (F := Ideal)) V (Proc.devRef .tc main_v44) = select (s := S131072x40) (α := Ideal .f32) (after (ops (F := Ideal)) V (Proc.devRef .tc main_call5_v1) : IVec S131072x40 1) (after (ops (F := Ideal)) V (Proc.devRef .tc main_v43) : FVec Ideal S131072x40 .f32) (after (ops (F := Ideal)) V (Proc.devRef .tc main_call5_v4) : FVec Ideal S131072x40 .f32) :=
  (read_ternary ops_writes 88 main_call5_v1 main_v43 main_call5_v4 main_v44 _ _ _ _ _ rfl V (by decide) (by decide) (by decide) (by decide)).trans rfl
theorem at_v45 : after (ops (F := Ideal)) V (Proc.devRef .tc main_v45) = shapeCast (s := S131072x40) (α := Ideal .f32) S32768x4x40 (after (ops (F := Ideal)) V (Proc.devRef .tc main_v44) : FVec Ideal S131072x40 .f32) shapeCasts_S131072x40_S32768x4x40 :=
  (read_reshape ops_writes 89 main_v44 main_v45 _ _ _ _ rfl V (by decide) (by decide)).trans rfl
theorem at_cst_7 : after (ops (F := Ideal)) V (Proc.devRef .tc main_cst_7) = constant (F := Ideal) S_ .f32 0x00000000#32 :=
  (read_nullary ops_writes 90 main_cst_7 _ _ rfl V (by decide)).trans rfl
theorem at_v46 : after (ops (F := Ideal)) V (Proc.devRef .tc main_v46) = Host.reduceAdd (F := Ideal) (s := S32768x4x40) (φ := .f32) (u := S_) (after (ops (F := Ideal)) V (Proc.devRef .tc main_v45) : FVec Ideal S32768x4x40 .f32) (after (ops (F := Ideal)) V (Proc.devRef .tc main_cst_7) : FVec Ideal S_ .f32) reducesTo_S32768x4x40_S32768x40_d1 h_S_ :=
  (read_binary ops_writes 91 main_v45 main_cst_7 main_v46 _ _ _ _ rfl V (by decide) (by decide) (by decide)).trans rfl
theorem at_v47 : after (ops (F := Ideal)) V (Proc.devRef .tc main_v47) = extractStridedSlice (s := S698368x125) (α := Ideal .f32) S8192x125 ![2048, 0] (after (ops (F := Ideal)) V (Proc.devRef .tc main_arg0) : FVec Ideal S698368x125 .f32) slices_S698368x125_S8192x125_2048_0 :=
  (read_unary ops_writes 92 main_arg0 main_v47 _ _ _ rfl V (by decide) (by decide)).trans rfl
theorem at_v48 : after (ops (F := Ideal)) V (Proc.devRef .tc main_v48) = extractStridedSlice (s := S696320x12) (α := Ideal .f32) S32768x12 ![8192, 0] (after (ops (F := Ideal)) V (Proc.devRef .tc main_arg1) : FVec Ideal S696320x12 .f32) slices_S696320x12_S32768x12_8192_0 :=
  (read_unary ops_writes 93 main_arg1 main_v48 _ _ _ rfl V (by decide) (by decide)).trans rfl
theorem at_v49 : after (ops (F := Ideal)) V (Proc.devRef .tc main_v49) = broadcastInDim (s := S8192x125) (α := Ideal .f32) S8192x4x125 ![0, 2] bcast_S8192x125_S8192x4x125_0_2 (after (ops (F := Ideal)) V (Proc.devRef .tc main_v47) : FVec Ideal S8192x125 .f32) :=
  (read_unary ops_writes 94 main_v47 main_v49 _ _ _ rfl V (by decide) (by decide)).trans rfl
theorem at_v50 : after (ops (F := Ideal)) V (Proc.devRef .tc main_v50) = shapeCast (s := S8192x4x125) (α := Ideal .f32) S32768x125 (after (ops (F := Ideal)) V (Proc.devRef .tc main_v49) : FVec Ideal S8192x4x125 .f32) shapeCasts_S8192x4x125_S32768x125 :=
  (read_reshape ops_writes 95 main_v49 main_v50 _ _ _ _ rfl V (by decide) (by decide)).trans rfl
theorem at_v51 : after (ops (F := Ideal)) V (Proc.devRef .tc main_v51) = concatenate (α := Ideal .f32) S32768x177 1 [⟨S32768x125, (after (ops (F := Ideal)) V (Proc.devRef .tc main_v50) : FVec Ideal S32768x125 .f32)⟩, ⟨S32768x12, (after (ops (F := Ideal)) V (Proc.devRef .tc main_v48) : FVec Ideal S32768x12 .f32)⟩, ⟨S32768x40, (after (ops (F := Ideal)) V (Proc.devRef .tc main_v46) : FVec Ideal S32768x40 .f32)⟩] concatenates_S32768x125_S32768x12_S32768x40_S32768x177_d1 :=
  (read_nary ops_writes 96 ![main_v50, main_v48, main_v46] main_v51 _ _ _ rfl V (by decide) (by decide)).trans rfl
theorem at_v52 : after (ops (F := Ideal)) V (Proc.devRef .tc main_v52) = Host.dotGeneral (F := Ideal) (φ₁ := .f32) (φ₂ := .f32) dot_S32768x177_S177x125_S32768x125_1_0_0_1_n_n none (after (ops (F := Ideal)) V (Proc.devRef .tc main_v51) : FVec Ideal S32768x177 .f32) (after (ops (F := Ideal)) V (Proc.devRef .tc main_arg2) : FVec Ideal S177x125 .f32) :=
  (read_binary ops_writes 97 main_v51 main_arg2 main_v52 _ _ _ _ rfl V (by decide) (by decide) (by decide)).trans rfl
theorem at_v53 : after (ops (F := Ideal)) V (Proc.devRef .tc main_v53) = broadcastInDim (s := S125) (α := Ideal .f32) S1x125 ![1] bcast_S125_S1x125_1 (after (ops (F := Ideal)) V (Proc.devRef .tc main_arg3) : FVec Ideal S125 .f32) :=
  (read_unary ops_writes 98 main_arg3 main_v53 _ _ _ rfl V (by decide) (by decide)).trans rfl
theorem at_v54 : after (ops (F := Ideal)) V (Proc.devRef .tc main_v54) = broadcastInDim (s := S1x125) (α := Ideal .f32) S32768x125 ![0, 1] bcast_S1x125_S32768x125_0_1 (after (ops (F := Ideal)) V (Proc.devRef .tc main_v53) : FVec Ideal S1x125 .f32) :=
  (read_unary ops_writes 99 main_v53 main_v54 _ _ _ rfl V (by decide) (by decide)).trans rfl
theorem at_v55 : after (ops (F := Ideal)) V (Proc.devRef .tc main_v55) = addf (F := Ideal) (s := S32768x125) (φ := .f32) (after (ops (F := Ideal)) V (Proc.devRef .tc main_v52) : FVec Ideal S32768x125 .f32) (after (ops (F := Ideal)) V (Proc.devRef .tc main_v54) : FVec Ideal S32768x125 .f32) :=
  (read_binary ops_writes 100 main_v52 main_v54 main_v55 _ _ _ _ rfl V (by decide) (by decide) (by decide)).trans rfl
theorem at_cst_8 : after (ops (F := Ideal)) V (Proc.devRef .tc main_cst_8) = constant (F := Ideal) S_ .f32 0x3C23D70A#32 :=
  (read_nullary ops_writes 101 main_cst_8 _ _ rfl V (by decide)).trans rfl
theorem at_call6_cst : after (ops (F := Ideal)) V (Proc.devRef .tc main_call6_cst) = constant (F := Ideal) S_ .f32 0x00000000#32 :=
  (read_nullary ops_writes 102 main_call6_cst _ _ rfl V (by decide)).trans rfl
theorem at_call6_v0 : after (ops (F := Ideal)) V (Proc.devRef .tc main_call6_v0) = broadcastInDim (s := S_) (α := Ideal .f32) S32768x125 ![] bcast_S_S32768x125 (after (ops (F := Ideal)) V (Proc.devRef .tc main_call6_cst) : FVec Ideal S_ .f32) :=
  (read_unary ops_writes 103 main_call6_cst main_call6_v0 _ _ _ rfl V (by decide) (by decide)).trans rfl
theorem at_call6_v1 : after (ops (F := Ideal)) V (Proc.devRef .tc main_call6_v1) = cmpf (F := Ideal) (s := S32768x125) (φ := .f32) .oge (after (ops (F := Ideal)) V (Proc.devRef .tc main_v55) : FVec Ideal S32768x125 .f32) (after (ops (F := Ideal)) V (Proc.devRef .tc main_call6_v0) : FVec Ideal S32768x125 .f32) :=
  (read_binary ops_writes 104 main_v55 main_call6_v0 main_call6_v1 _ _ _ _ rfl V (by decide) (by decide) (by decide)).trans rfl
theorem at_call6_v2 : after (ops (F := Ideal)) V (Proc.devRef .tc main_call6_v2) = id (α := FVec Ideal S_ .f32) (after (ops (F := Ideal)) V (Proc.devRef .tc main_cst_8) : FVec Ideal S_ .f32) :=
  (read_unary ops_writes 105 main_cst_8 main_call6_v2 _ _ _ rfl V (by decide) (by decide)).trans rfl
theorem at_call6_v3 : after (ops (F := Ideal)) V (Proc.devRef .tc main_call6_v3) = broadcastInDim (s := S_) (α := Ideal .f32) S32768x125 ![] bcast_S_S32768x125 (after (ops (F := Ideal)) V (Proc.devRef .tc main_call6_v2) : FVec Ideal S_ .f32) :=
  (read_unary ops_writes 106 main_call6_v2 main_call6_v3 _ _ _ rfl V (by decide) (by decide)).trans rfl
theorem at_call6_v4 : after (ops (F := Ideal)) V (Proc.devRef .tc main_call6_v4) = mulf (F := Ideal) (s := S32768x125) (φ := .f32) (after (ops (F := Ideal)) V (Proc.devRef .tc main_call6_v3) : FVec Ideal S32768x125 .f32) (after (ops (F := Ideal)) V (Proc.devRef .tc main_v55) : FVec Ideal S32768x125 .f32) :=
  (read_binary ops_writes 107 main_call6_v3 main_v55 main_call6_v4 _ _ _ _ rfl V (by decide) (by decide) (by decide)).trans rfl
theorem at_v56 : after (ops (F := Ideal)) V (Proc.devRef .tc main_v56) = select (s := S32768x125) (α := Ideal .f32) (after (ops (F := Ideal)) V (Proc.devRef .tc main_call6_v1) : IVec S32768x125 1) (after (ops (F := Ideal)) V (Proc.devRef .tc main_v55) : FVec Ideal S32768x125 .f32) (after (ops (F := Ideal)) V (Proc.devRef .tc main_call6_v4) : FVec Ideal S32768x125 .f32) :=
  (read_ternary ops_writes 108 main_call6_v1 main_v55 main_call6_v4 main_v56 _ _ _ _ _ rfl V (by decide) (by decide) (by decide) (by decide)).trans rfl
theorem at_v57 : after (ops (F := Ideal)) V (Proc.devRef .tc main_v57) = Host.dotGeneral (F := Ideal) (φ₁ := .f32) (φ₂ := .f32) dot_S32768x125_S125x40_S32768x40_1_0_0_1_n_n none (after (ops (F := Ideal)) V (Proc.devRef .tc main_v56) : FVec Ideal S32768x125 .f32) (after (ops (F := Ideal)) V (Proc.devRef .tc main_arg4) : FVec Ideal S125x40 .f32) :=
  (read_binary ops_writes 109 main_v56 main_arg4 main_v57 _ _ _ _ rfl V (by decide) (by decide) (by decide)).trans rfl
theorem at_v58 : after (ops (F := Ideal)) V (Proc.devRef .tc main_v58) = broadcastInDim (s := S40) (α := Ideal .f32) S1x40 ![1] bcast_S40_S1x40_1 (after (ops (F := Ideal)) V (Proc.devRef .tc main_arg5) : FVec Ideal S40 .f32) :=
  (read_unary ops_writes 110 main_arg5 main_v58 _ _ _ rfl V (by decide) (by decide)).trans rfl
theorem at_v59 : after (ops (F := Ideal)) V (Proc.devRef .tc main_v59) = broadcastInDim (s := S1x40) (α := Ideal .f32) S32768x40 ![0, 1] bcast_S1x40_S32768x40_0_1 (after (ops (F := Ideal)) V (Proc.devRef .tc main_v58) : FVec Ideal S1x40 .f32) :=
  (read_unary ops_writes 111 main_v58 main_v59 _ _ _ rfl V (by decide) (by decide)).trans rfl
theorem at_v60 : after (ops (F := Ideal)) V (Proc.devRef .tc main_v60) = addf (F := Ideal) (s := S32768x40) (φ := .f32) (after (ops (F := Ideal)) V (Proc.devRef .tc main_v57) : FVec Ideal S32768x40 .f32) (after (ops (F := Ideal)) V (Proc.devRef .tc main_v59) : FVec Ideal S32768x40 .f32) :=
  (read_binary ops_writes 112 main_v57 main_v59 main_v60 _ _ _ _ rfl V (by decide) (by decide) (by decide)).trans rfl
theorem at_cst_9 : after (ops (F := Ideal)) V (Proc.devRef .tc main_cst_9) = constant (F := Ideal) S_ .f32 0x3C23D70A#32 :=
  (read_nullary ops_writes 113 main_cst_9 _ _ rfl V (by decide)).trans rfl
theorem at_call7_cst : after (ops (F := Ideal)) V (Proc.devRef .tc main_call7_cst) = constant (F := Ideal) S_ .f32 0x00000000#32 :=
  (read_nullary ops_writes 114 main_call7_cst _ _ rfl V (by decide)).trans rfl
theorem at_call7_v0 : after (ops (F := Ideal)) V (Proc.devRef .tc main_call7_v0) = broadcastInDim (s := S_) (α := Ideal .f32) S32768x40 ![] bcast_S_S32768x40 (after (ops (F := Ideal)) V (Proc.devRef .tc main_call7_cst) : FVec Ideal S_ .f32) :=
  (read_unary ops_writes 115 main_call7_cst main_call7_v0 _ _ _ rfl V (by decide) (by decide)).trans rfl
theorem at_call7_v1 : after (ops (F := Ideal)) V (Proc.devRef .tc main_call7_v1) = cmpf (F := Ideal) (s := S32768x40) (φ := .f32) .oge (after (ops (F := Ideal)) V (Proc.devRef .tc main_v60) : FVec Ideal S32768x40 .f32) (after (ops (F := Ideal)) V (Proc.devRef .tc main_call7_v0) : FVec Ideal S32768x40 .f32) :=
  (read_binary ops_writes 116 main_v60 main_call7_v0 main_call7_v1 _ _ _ _ rfl V (by decide) (by decide) (by decide)).trans rfl
theorem at_call7_v2 : after (ops (F := Ideal)) V (Proc.devRef .tc main_call7_v2) = id (α := FVec Ideal S_ .f32) (after (ops (F := Ideal)) V (Proc.devRef .tc main_cst_9) : FVec Ideal S_ .f32) :=
  (read_unary ops_writes 117 main_cst_9 main_call7_v2 _ _ _ rfl V (by decide) (by decide)).trans rfl
theorem at_call7_v3 : after (ops (F := Ideal)) V (Proc.devRef .tc main_call7_v3) = broadcastInDim (s := S_) (α := Ideal .f32) S32768x40 ![] bcast_S_S32768x40 (after (ops (F := Ideal)) V (Proc.devRef .tc main_call7_v2) : FVec Ideal S_ .f32) :=
  (read_unary ops_writes 118 main_call7_v2 main_call7_v3 _ _ _ rfl V (by decide) (by decide)).trans rfl
theorem at_call7_v4 : after (ops (F := Ideal)) V (Proc.devRef .tc main_call7_v4) = mulf (F := Ideal) (s := S32768x40) (φ := .f32) (after (ops (F := Ideal)) V (Proc.devRef .tc main_call7_v3) : FVec Ideal S32768x40 .f32) (after (ops (F := Ideal)) V (Proc.devRef .tc main_v60) : FVec Ideal S32768x40 .f32) :=
  (read_binary ops_writes 119 main_call7_v3 main_v60 main_call7_v4 _ _ _ _ rfl V (by decide) (by decide) (by decide)).trans rfl
theorem at_v61 : after (ops (F := Ideal)) V (Proc.devRef .tc main_v61) = select (s := S32768x40) (α := Ideal .f32) (after (ops (F := Ideal)) V (Proc.devRef .tc main_call7_v1) : IVec S32768x40 1) (after (ops (F := Ideal)) V (Proc.devRef .tc main_v60) : FVec Ideal S32768x40 .f32) (after (ops (F := Ideal)) V (Proc.devRef .tc main_call7_v4) : FVec Ideal S32768x40 .f32) :=
  (read_ternary ops_writes 120 main_call7_v1 main_v60 main_call7_v4 main_v61 _ _ _ _ _ rfl V (by decide) (by decide) (by decide) (by decide)).trans rfl
theorem at_v62 : after (ops (F := Ideal)) V (Proc.devRef .tc main_v62) = shapeCast (s := S32768x40) (α := Ideal .f32) S8192x4x40 (after (ops (F := Ideal)) V (Proc.devRef .tc main_v61) : FVec Ideal S32768x40 .f32) shapeCasts_S32768x40_S8192x4x40 :=
  (read_reshape ops_writes 121 main_v61 main_v62 _ _ _ _ rfl V (by decide) (by decide)).trans rfl
theorem at_cst_10 : after (ops (F := Ideal)) V (Proc.devRef .tc main_cst_10) = constant (F := Ideal) S_ .f32 0x00000000#32 :=
  (read_nullary ops_writes 122 main_cst_10 _ _ rfl V (by decide)).trans rfl
theorem at_v63 : after (ops (F := Ideal)) V (Proc.devRef .tc main_v63) = Host.reduceAdd (F := Ideal) (s := S8192x4x40) (φ := .f32) (u := S_) (after (ops (F := Ideal)) V (Proc.devRef .tc main_v62) : FVec Ideal S8192x4x40 .f32) (after (ops (F := Ideal)) V (Proc.devRef .tc main_cst_10) : FVec Ideal S_ .f32) reducesTo_S8192x4x40_S8192x40_d1 h_S_ :=
  (read_binary ops_writes 123 main_v62 main_cst_10 main_v63 _ _ _ _ rfl V (by decide) (by decide) (by decide)).trans rfl
theorem at_v64 : after (ops (F := Ideal)) V (Proc.devRef .tc main_v64) = extractStridedSlice (s := S698368x125) (α := Ideal .f32) S2048x125 ![0, 0] (after (ops (F := Ideal)) V (Proc.devRef .tc main_arg0) : FVec Ideal S698368x125 .f32) slices_S698368x125_S2048x125_0_0 :=
  (read_unary ops_writes 124 main_arg0 main_v64 _ _ _ rfl V (by decide) (by decide)).trans rfl
theorem at_v65 : after (ops (F := Ideal)) V (Proc.devRef .tc main_v65) = extractStridedSlice (s := S696320x12) (α := Ideal .f32) S8192x12 ![0, 0] (after (ops (F := Ideal)) V (Proc.devRef .tc main_arg1) : FVec Ideal S696320x12 .f32) slices_S696320x12_S8192x12_0_0 :=
  (read_unary ops_writes 125 main_arg1 main_v65 _ _ _ rfl V (by decide) (by decide)).trans rfl
theorem at_v66 : after (ops (F := Ideal)) V (Proc.devRef .tc main_v66) = broadcastInDim (s := S2048x125) (α := Ideal .f32) S2048x4x125 ![0, 2] bcast_S2048x125_S2048x4x125_0_2 (after (ops (F := Ideal)) V (Proc.devRef .tc main_v64) : FVec Ideal S2048x125 .f32) :=
  (read_unary ops_writes 126 main_v64 main_v66 _ _ _ rfl V (by decide) (by decide)).trans rfl
theorem at_v67 : after (ops (F := Ideal)) V (Proc.devRef .tc main_v67) = shapeCast (s := S2048x4x125) (α := Ideal .f32) S8192x125 (after (ops (F := Ideal)) V (Proc.devRef .tc main_v66) : FVec Ideal S2048x4x125 .f32) shapeCasts_S2048x4x125_S8192x125 :=
  (read_reshape ops_writes 127 main_v66 main_v67 _ _ _ _ rfl V (by decide) (by decide)).trans rfl
theorem at_v68 : after (ops (F := Ideal)) V (Proc.devRef .tc main_v68) = concatenate (α := Ideal .f32) S8192x177 1 [⟨S8192x125, (after (ops (F := Ideal)) V (Proc.devRef .tc main_v67) : FVec Ideal S8192x125 .f32)⟩, ⟨S8192x12, (after (ops (F := Ideal)) V (Proc.devRef .tc main_v65) : FVec Ideal S8192x12 .f32)⟩, ⟨S8192x40, (after (ops (F := Ideal)) V (Proc.devRef .tc main_v63) : FVec Ideal S8192x40 .f32)⟩] concatenates_S8192x125_S8192x12_S8192x40_S8192x177_d1 :=
  (read_nary ops_writes 128 ![main_v67, main_v65, main_v63] main_v68 _ _ _ rfl V (by decide) (by decide)).trans rfl
theorem at_v69 : after (ops (F := Ideal)) V (Proc.devRef .tc main_v69) = Host.dotGeneral (F := Ideal) (φ₁ := .f32) (φ₂ := .f32) dot_S8192x177_S177x125_S8192x125_1_0_0_1_n_n none (after (ops (F := Ideal)) V (Proc.devRef .tc main_v68) : FVec Ideal S8192x177 .f32) (after (ops (F := Ideal)) V (Proc.devRef .tc main_arg2) : FVec Ideal S177x125 .f32) :=
  (read_binary ops_writes 129 main_v68 main_arg2 main_v69 _ _ _ _ rfl V (by decide) (by decide) (by decide)).trans rfl
theorem at_v70 : after (ops (F := Ideal)) V (Proc.devRef .tc main_v70) = broadcastInDim (s := S125) (α := Ideal .f32) S1x125 ![1] bcast_S125_S1x125_1 (after (ops (F := Ideal)) V (Proc.devRef .tc main_arg3) : FVec Ideal S125 .f32) :=
  (read_unary ops_writes 130 main_arg3 main_v70 _ _ _ rfl V (by decide) (by decide)).trans rfl
theorem at_v71 : after (ops (F := Ideal)) V (Proc.devRef .tc main_v71) = broadcastInDim (s := S1x125) (α := Ideal .f32) S8192x125 ![0, 1] bcast_S1x125_S8192x125_0_1 (after (ops (F := Ideal)) V (Proc.devRef .tc main_v70) : FVec Ideal S1x125 .f32) :=
  (read_unary ops_writes 131 main_v70 main_v71 _ _ _ rfl V (by decide) (by decide)).trans rfl
theorem at_v72 : after (ops (F := Ideal)) V (Proc.devRef .tc main_v72) = addf (F := Ideal) (s := S8192x125) (φ := .f32) (after (ops (F := Ideal)) V (Proc.devRef .tc main_v69) : FVec Ideal S8192x125 .f32) (after (ops (F := Ideal)) V (Proc.devRef .tc main_v71) : FVec Ideal S8192x125 .f32) :=
  (read_binary ops_writes 132 main_v69 main_v71 main_v72 _ _ _ _ rfl V (by decide) (by decide) (by decide)).trans rfl
theorem at_cst_11 : after (ops (F := Ideal)) V (Proc.devRef .tc main_cst_11) = constant (F := Ideal) S_ .f32 0x3C23D70A#32 :=
  (read_nullary ops_writes 133 main_cst_11 _ _ rfl V (by decide)).trans rfl
theorem at_call8_cst : after (ops (F := Ideal)) V (Proc.devRef .tc main_call8_cst) = constant (F := Ideal) S_ .f32 0x00000000#32 :=
  (read_nullary ops_writes 134 main_call8_cst _ _ rfl V (by decide)).trans rfl
theorem at_call8_v0 : after (ops (F := Ideal)) V (Proc.devRef .tc main_call8_v0) = broadcastInDim (s := S_) (α := Ideal .f32) S8192x125 ![] bcast_S_S8192x125 (after (ops (F := Ideal)) V (Proc.devRef .tc main_call8_cst) : FVec Ideal S_ .f32) :=
  (read_unary ops_writes 135 main_call8_cst main_call8_v0 _ _ _ rfl V (by decide) (by decide)).trans rfl
theorem at_call8_v1 : after (ops (F := Ideal)) V (Proc.devRef .tc main_call8_v1) = cmpf (F := Ideal) (s := S8192x125) (φ := .f32) .oge (after (ops (F := Ideal)) V (Proc.devRef .tc main_v72) : FVec Ideal S8192x125 .f32) (after (ops (F := Ideal)) V (Proc.devRef .tc main_call8_v0) : FVec Ideal S8192x125 .f32) :=
  (read_binary ops_writes 136 main_v72 main_call8_v0 main_call8_v1 _ _ _ _ rfl V (by decide) (by decide) (by decide)).trans rfl
theorem at_call8_v2 : after (ops (F := Ideal)) V (Proc.devRef .tc main_call8_v2) = id (α := FVec Ideal S_ .f32) (after (ops (F := Ideal)) V (Proc.devRef .tc main_cst_11) : FVec Ideal S_ .f32) :=
  (read_unary ops_writes 137 main_cst_11 main_call8_v2 _ _ _ rfl V (by decide) (by decide)).trans rfl
theorem at_call8_v3 : after (ops (F := Ideal)) V (Proc.devRef .tc main_call8_v3) = broadcastInDim (s := S_) (α := Ideal .f32) S8192x125 ![] bcast_S_S8192x125 (after (ops (F := Ideal)) V (Proc.devRef .tc main_call8_v2) : FVec Ideal S_ .f32) :=
  (read_unary ops_writes 138 main_call8_v2 main_call8_v3 _ _ _ rfl V (by decide) (by decide)).trans rfl
theorem at_call8_v4 : after (ops (F := Ideal)) V (Proc.devRef .tc main_call8_v4) = mulf (F := Ideal) (s := S8192x125) (φ := .f32) (after (ops (F := Ideal)) V (Proc.devRef .tc main_call8_v3) : FVec Ideal S8192x125 .f32) (after (ops (F := Ideal)) V (Proc.devRef .tc main_v72) : FVec Ideal S8192x125 .f32) :=
  (read_binary ops_writes 139 main_call8_v3 main_v72 main_call8_v4 _ _ _ _ rfl V (by decide) (by decide) (by decide)).trans rfl
theorem at_v73 : after (ops (F := Ideal)) V (Proc.devRef .tc main_v73) = select (s := S8192x125) (α := Ideal .f32) (after (ops (F := Ideal)) V (Proc.devRef .tc main_call8_v1) : IVec S8192x125 1) (after (ops (F := Ideal)) V (Proc.devRef .tc main_v72) : FVec Ideal S8192x125 .f32) (after (ops (F := Ideal)) V (Proc.devRef .tc main_call8_v4) : FVec Ideal S8192x125 .f32) :=
  (read_ternary ops_writes 140 main_call8_v1 main_v72 main_call8_v4 main_v73 _ _ _ _ _ rfl V (by decide) (by decide) (by decide) (by decide)).trans rfl
theorem at_v74 : after (ops (F := Ideal)) V (Proc.devRef .tc main_v74) = Host.dotGeneral (F := Ideal) (φ₁ := .f32) (φ₂ := .f32) dot_S8192x125_S125x40_S8192x40_1_0_0_1_n_n none (after (ops (F := Ideal)) V (Proc.devRef .tc main_v73) : FVec Ideal S8192x125 .f32) (after (ops (F := Ideal)) V (Proc.devRef .tc main_arg4) : FVec Ideal S125x40 .f32) :=
  (read_binary ops_writes 141 main_v73 main_arg4 main_v74 _ _ _ _ rfl V (by decide) (by decide) (by decide)).trans rfl
theorem at_v75 : after (ops (F := Ideal)) V (Proc.devRef .tc main_v75) = broadcastInDim (s := S40) (α := Ideal .f32) S1x40 ![1] bcast_S40_S1x40_1 (after (ops (F := Ideal)) V (Proc.devRef .tc main_arg5) : FVec Ideal S40 .f32) :=
  (read_unary ops_writes 142 main_arg5 main_v75 _ _ _ rfl V (by decide) (by decide)).trans rfl
theorem at_v76 : after (ops (F := Ideal)) V (Proc.devRef .tc main_v76) = broadcastInDim (s := S1x40) (α := Ideal .f32) S8192x40 ![0, 1] bcast_S1x40_S8192x40_0_1 (after (ops (F := Ideal)) V (Proc.devRef .tc main_v75) : FVec Ideal S1x40 .f32) :=
  (read_unary ops_writes 143 main_v75 main_v76 _ _ _ rfl V (by decide) (by decide)).trans rfl
theorem at_v77 : after (ops (F := Ideal)) V (Proc.devRef .tc main_v77) = addf (F := Ideal) (s := S8192x40) (φ := .f32) (after (ops (F := Ideal)) V (Proc.devRef .tc main_v74) : FVec Ideal S8192x40 .f32) (after (ops (F := Ideal)) V (Proc.devRef .tc main_v76) : FVec Ideal S8192x40 .f32) :=
  (read_binary ops_writes 144 main_v74 main_v76 main_v77 _ _ _ _ rfl V (by decide) (by decide) (by decide)).trans rfl
theorem at_cst_12 : after (ops (F := Ideal)) V (Proc.devRef .tc main_cst_12) = constant (F := Ideal) S_ .f32 0x3C23D70A#32 :=
  (read_nullary ops_writes 145 main_cst_12 _ _ rfl V (by decide)).trans rfl
theorem at_call9_cst : after (ops (F := Ideal)) V (Proc.devRef .tc main_call9_cst) = constant (F := Ideal) S_ .f32 0x00000000#32 :=
  (read_nullary ops_writes 146 main_call9_cst _ _ rfl V (by decide)).trans rfl
theorem at_call9_v0 : after (ops (F := Ideal)) V (Proc.devRef .tc main_call9_v0) = broadcastInDim (s := S_) (α := Ideal .f32) S8192x40 ![] bcast_S_S8192x40 (after (ops (F := Ideal)) V (Proc.devRef .tc main_call9_cst) : FVec Ideal S_ .f32) :=
  (read_unary ops_writes 147 main_call9_cst main_call9_v0 _ _ _ rfl V (by decide) (by decide)).trans rfl
theorem at_call9_v1 : after (ops (F := Ideal)) V (Proc.devRef .tc main_call9_v1) = cmpf (F := Ideal) (s := S8192x40) (φ := .f32) .oge (after (ops (F := Ideal)) V (Proc.devRef .tc main_v77) : FVec Ideal S8192x40 .f32) (after (ops (F := Ideal)) V (Proc.devRef .tc main_call9_v0) : FVec Ideal S8192x40 .f32) :=
  (read_binary ops_writes 148 main_v77 main_call9_v0 main_call9_v1 _ _ _ _ rfl V (by decide) (by decide) (by decide)).trans rfl
theorem at_call9_v2 : after (ops (F := Ideal)) V (Proc.devRef .tc main_call9_v2) = id (α := FVec Ideal S_ .f32) (after (ops (F := Ideal)) V (Proc.devRef .tc main_cst_12) : FVec Ideal S_ .f32) :=
  (read_unary ops_writes 149 main_cst_12 main_call9_v2 _ _ _ rfl V (by decide) (by decide)).trans rfl
theorem at_call9_v3 : after (ops (F := Ideal)) V (Proc.devRef .tc main_call9_v3) = broadcastInDim (s := S_) (α := Ideal .f32) S8192x40 ![] bcast_S_S8192x40 (after (ops (F := Ideal)) V (Proc.devRef .tc main_call9_v2) : FVec Ideal S_ .f32) :=
  (read_unary ops_writes 150 main_call9_v2 main_call9_v3 _ _ _ rfl V (by decide) (by decide)).trans rfl
theorem at_call9_v4 : after (ops (F := Ideal)) V (Proc.devRef .tc main_call9_v4) = mulf (F := Ideal) (s := S8192x40) (φ := .f32) (after (ops (F := Ideal)) V (Proc.devRef .tc main_call9_v3) : FVec Ideal S8192x40 .f32) (after (ops (F := Ideal)) V (Proc.devRef .tc main_v77) : FVec Ideal S8192x40 .f32) :=
  (read_binary ops_writes 151 main_call9_v3 main_v77 main_call9_v4 _ _ _ _ rfl V (by decide) (by decide) (by decide)).trans rfl
theorem at_v78 : after (ops (F := Ideal)) V (Proc.devRef .tc main_v78) = select (s := S8192x40) (α := Ideal .f32) (after (ops (F := Ideal)) V (Proc.devRef .tc main_call9_v1) : IVec S8192x40 1) (after (ops (F := Ideal)) V (Proc.devRef .tc main_v77) : FVec Ideal S8192x40 .f32) (after (ops (F := Ideal)) V (Proc.devRef .tc main_call9_v4) : FVec Ideal S8192x40 .f32) :=
  (read_ternary ops_writes 152 main_call9_v1 main_v77 main_call9_v4 main_v78 _ _ _ _ _ rfl V (by decide) (by decide) (by decide) (by decide)).trans rfl
theorem at_v79 : after (ops (F := Ideal)) V (Proc.devRef .tc main_v79) = shapeCast (s := S8192x40) (α := Ideal .f32) S2048x4x40 (after (ops (F := Ideal)) V (Proc.devRef .tc main_v78) : FVec Ideal S8192x40 .f32) shapeCasts_S8192x40_S2048x4x40 :=
  (read_reshape ops_writes 153 main_v78 main_v79 _ _ _ _ rfl V (by decide) (by decide)).trans rfl
theorem at_cst_13 : after (ops (F := Ideal)) V (Proc.devRef .tc main_cst_13) = constant (F := Ideal) S_ .f32 0x00000000#32 :=
  (read_nullary ops_writes 154 main_cst_13 _ _ rfl V (by decide)).trans rfl
theorem at_v80 : after (ops (F := Ideal)) V (Proc.devRef .tc main_v80) = Host.reduceAdd (F := Ideal) (s := S2048x4x40) (φ := .f32) (u := S_) (after (ops (F := Ideal)) V (Proc.devRef .tc main_v79) : FVec Ideal S2048x4x40 .f32) (after (ops (F := Ideal)) V (Proc.devRef .tc main_cst_13) : FVec Ideal S_ .f32) reducesTo_S2048x4x40_S2048x40_d1 h_S_ :=
  (read_binary ops_writes 155 main_v79 main_cst_13 main_v80 _ _ _ _ rfl V (by decide) (by decide) (by decide)).trans rfl

/-! ## Each activation as a whole -/

theorem act_v7 : after (ops (F := Ideal)) V (Proc.devRef .tc main_v7) = refAct_524288x125 (after (ops (F := Ideal)) V (Proc.devRef .tc main_v6) : FVec Ideal S524288x125 .f32) := by
  rw [at_v7 V, at_call0_v1 V, at_call0_v0 V, at_call0_cst V, at_call0_v4 V, at_call0_v3 V, at_call0_v2 V, at_cst_0 V]
  rfl
theorem act_v12 : after (ops (F := Ideal)) V (Proc.devRef .tc main_v12) = refAct_524288x40 (after (ops (F := Ideal)) V (Proc.devRef .tc main_v11) : FVec Ideal S524288x40 .f32) := by
  rw [at_v12 V, at_call1_v1 V, at_call1_v0 V, at_call1_cst V, at_call1_v4 V, at_call1_v3 V, at_call1_v2 V, at_cst_1 V]
  rfl
theorem act_v22 : after (ops (F := Ideal)) V (Proc.devRef .tc main_v22) = refAct_524288x125 (after (ops (F := Ideal)) V (Proc.devRef .tc main_v21) : FVec Ideal S524288x125 .f32) := by
  rw [at_v22 V, at_call2_v1 V, at_call2_v0 V, at_call2_cst V, at_call2_v4 V, at_call2_v3 V, at_call2_v2 V, at_cst_2 V]
  rfl
theorem act_v27 : after (ops (F := Ideal)) V (Proc.devRef .tc main_v27) = refAct_524288x40 (after (ops (F := Ideal)) V (Proc.devRef .tc main_v26) : FVec Ideal S524288x40 .f32) := by
  rw [at_v27 V, at_call3_v1 V, at_call3_v0 V, at_call3_cst V, at_call3_v4 V, at_call3_v3 V, at_call3_v2 V, at_cst_3 V]
  rfl
theorem act_v39 : after (ops (F := Ideal)) V (Proc.devRef .tc main_v39) = refAct_131072x125 (after (ops (F := Ideal)) V (Proc.devRef .tc main_v38) : FVec Ideal S131072x125 .f32) := by
  rw [at_v39 V, at_call4_v1 V, at_call4_v0 V, at_call4_cst V, at_call4_v4 V, at_call4_v3 V, at_call4_v2 V, at_cst_5 V]
  rfl
theorem act_v44 : after (ops (F := Ideal)) V (Proc.devRef .tc main_v44) = refAct_131072x40 (after (ops (F := Ideal)) V (Proc.devRef .tc main_v43) : FVec Ideal S131072x40 .f32) := by
  rw [at_v44 V, at_call5_v1 V, at_call5_v0 V, at_call5_cst V, at_call5_v4 V, at_call5_v3 V, at_call5_v2 V, at_cst_6 V]
  rfl
theorem act_v56 : after (ops (F := Ideal)) V (Proc.devRef .tc main_v56) = refAct_32768x125 (after (ops (F := Ideal)) V (Proc.devRef .tc main_v55) : FVec Ideal S32768x125 .f32) := by
  rw [at_v56 V, at_call6_v1 V, at_call6_v0 V, at_call6_cst V, at_call6_v4 V, at_call6_v3 V, at_call6_v2 V, at_cst_8 V]
  rfl
theorem act_v61 : after (ops (F := Ideal)) V (Proc.devRef .tc main_v61) = refAct_32768x40 (after (ops (F := Ideal)) V (Proc.devRef .tc main_v60) : FVec Ideal S32768x40 .f32) := by
  rw [at_v61 V, at_call7_v1 V, at_call7_v0 V, at_call7_cst V, at_call7_v4 V, at_call7_v3 V, at_call7_v2 V, at_cst_9 V]
  rfl
theorem act_v73 : after (ops (F := Ideal)) V (Proc.devRef .tc main_v73) = refAct_8192x125 (after (ops (F := Ideal)) V (Proc.devRef .tc main_v72) : FVec Ideal S8192x125 .f32) := by
  rw [at_v73 V, at_call8_v1 V, at_call8_v0 V, at_call8_cst V, at_call8_v4 V, at_call8_v3 V, at_call8_v2 V, at_cst_11 V]
  rfl
theorem act_v78 : after (ops (F := Ideal)) V (Proc.devRef .tc main_v78) = refAct_8192x40 (after (ops (F := Ideal)) V (Proc.devRef .tc main_v77) : FVec Ideal S8192x40 .f32) := by
  rw [at_v78 V, at_call9_v1 V, at_call9_v0 V, at_call9_cst V, at_call9_v4 V, at_call9_v3 V, at_call9_v2 V, at_cst_12 V]
  rfl

/-! ## Each level as a whole -/

theorem leaf_v12 : after (ops (F := Ideal)) V (Proc.devRef .tc main_v12) = refLeaf (after (ops (F := Ideal)) V (Proc.devRef .tc main_v0) : FVec Ideal S524288x125 .f32) (after (ops (F := Ideal)) V (Proc.devRef .tc main_arg2) : FVec Ideal S177x125 .f32) (after (ops (F := Ideal)) V (Proc.devRef .tc main_arg3) : FVec Ideal S125 .f32) (after (ops (F := Ideal)) V (Proc.devRef .tc main_arg4) : FVec Ideal S125x40 .f32) (after (ops (F := Ideal)) V (Proc.devRef .tc main_arg5) : FVec Ideal S40 .f32) := by
  rw [act_v12 V, at_v11 V, at_v10 V, at_v9 V, at_v8 V, act_v7 V, at_v6 V, at_v5 V, at_v4 V, at_v3 V, at_v2 V, at_v1 V, at_cst V]
  rfl

theorem level_v29 : after (ops (F := Ideal)) V (Proc.devRef .tc main_v29) = refLevel_131072 (after (ops (F := Ideal)) V (Proc.devRef .tc main_v13) : FVec Ideal S131072x125 .f32) (after (ops (F := Ideal)) V (Proc.devRef .tc main_v14) : FVec Ideal S524288x12 .f32) (after (ops (F := Ideal)) V (Proc.devRef .tc main_v12) : FVec Ideal S524288x40 .f32) (after (ops (F := Ideal)) V (Proc.devRef .tc main_arg2) : FVec Ideal S177x125 .f32) (after (ops (F := Ideal)) V (Proc.devRef .tc main_arg3) : FVec Ideal S125 .f32) (after (ops (F := Ideal)) V (Proc.devRef .tc main_arg4) : FVec Ideal S125x40 .f32) (after (ops (F := Ideal)) V (Proc.devRef .tc main_arg5) : FVec Ideal S40 .f32) := by
  rw [at_v29 V, at_cst_4 V, at_v28 V, act_v27 V, at_v26 V, at_v25 V, at_v24 V, at_v23 V, act_v22 V, at_v21 V, at_v20 V, at_v19 V, at_v18 V, at_v17 V, at_v16 V, at_v15 V]
  rfl

theorem level_v46 : after (ops (F := Ideal)) V (Proc.devRef .tc main_v46) = refLevel_32768 (after (ops (F := Ideal)) V (Proc.devRef .tc main_v30) : FVec Ideal S32768x125 .f32) (after (ops (F := Ideal)) V (Proc.devRef .tc main_v31) : FVec Ideal S131072x12 .f32) (after (ops (F := Ideal)) V (Proc.devRef .tc main_v29) : FVec Ideal S131072x40 .f32) (after (ops (F := Ideal)) V (Proc.devRef .tc main_arg2) : FVec Ideal S177x125 .f32) (after (ops (F := Ideal)) V (Proc.devRef .tc main_arg3) : FVec Ideal S125 .f32) (after (ops (F := Ideal)) V (Proc.devRef .tc main_arg4) : FVec Ideal S125x40 .f32) (after (ops (F := Ideal)) V (Proc.devRef .tc main_arg5) : FVec Ideal S40 .f32) := by
  rw [at_v46 V, at_cst_7 V, at_v45 V, act_v44 V, at_v43 V, at_v42 V, at_v41 V, at_v40 V, act_v39 V, at_v38 V, at_v37 V, at_v36 V, at_v35 V, at_v34 V, at_v33 V, at_v32 V]
  rfl

theorem level_v63 : after (ops (F := Ideal)) V (Proc.devRef .tc main_v63) = refLevel_8192 (after (ops (F := Ideal)) V (Proc.devRef .tc main_v47) : FVec Ideal S8192x125 .f32) (after (ops (F := Ideal)) V (Proc.devRef .tc main_v48) : FVec Ideal S32768x12 .f32) (after (ops (F := Ideal)) V (Proc.devRef .tc main_v46) : FVec Ideal S32768x40 .f32) (after (ops (F := Ideal)) V (Proc.devRef .tc main_arg2) : FVec Ideal S177x125 .f32) (after (ops (F := Ideal)) V (Proc.devRef .tc main_arg3) : FVec Ideal S125 .f32) (after (ops (F := Ideal)) V (Proc.devRef .tc main_arg4) : FVec Ideal S125x40 .f32) (after (ops (F := Ideal)) V (Proc.devRef .tc main_arg5) : FVec Ideal S40 .f32) := by
  rw [at_v63 V, at_cst_10 V, at_v62 V, act_v61 V, at_v60 V, at_v59 V, at_v58 V, at_v57 V, act_v56 V, at_v55 V, at_v54 V, at_v53 V, at_v52 V, at_v51 V, at_v50 V, at_v49 V]
  rfl

theorem level_v80 : after (ops (F := Ideal)) V (Proc.devRef .tc main_v80) = refLevel_2048 (after (ops (F := Ideal)) V (Proc.devRef .tc main_v64) : FVec Ideal S2048x125 .f32) (after (ops (F := Ideal)) V (Proc.devRef .tc main_v65) : FVec Ideal S8192x12 .f32) (after (ops (F := Ideal)) V (Proc.devRef .tc main_v63) : FVec Ideal S8192x40 .f32) (after (ops (F := Ideal)) V (Proc.devRef .tc main_arg2) : FVec Ideal S177x125 .f32) (after (ops (F := Ideal)) V (Proc.devRef .tc main_arg3) : FVec Ideal S125 .f32) (after (ops (F := Ideal)) V (Proc.devRef .tc main_arg4) : FVec Ideal S125x40 .f32) (after (ops (F := Ideal)) V (Proc.devRef .tc main_arg5) : FVec Ideal S40 .f32) := by
  rw [at_v80 V, at_cst_13 V, at_v79 V, act_v78 V, at_v77 V, at_v76 V, at_v75 V, at_v74 V, act_v73 V, at_v72 V, at_v71 V, at_v70 V, at_v69 V, at_v68 V, at_v67 V, at_v66 V]
  rfl

/-! ## The forest -/

/-- The result buffer after the line: the reference's five levels composed, of the six arguments' contents. -/
theorem result_read : after (ops (F := Ideal)) V (Proc.devRef .tc main_v80) = Cert.ReferenceIdeal.Net.refForest (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [level_v80 V, at_v65 V, at_v64 V, level_v63 V, at_v48 V, at_v47 V, level_v46 V, at_v31 V, at_v30 V, level_v29 V, at_v14 V, at_v13 V, leaf_v12 V, at_v0 V, arg0_kept V, arg1_kept V, arg2_kept V, arg3_kept V, arg4_kept V, arg5_kept V]
  rfl

end Cert.ReferenceIdeal.Hand

end
-- ==== Proof.RefOps.lean ====
/-
  The operations the reference composes, read one index at a time over the extended reals, for arrays of any number
  of rows: the leaky activation spelt with a comparison, a scalar and a row broadcast, the three-piece and the padded
  concatenation along the columns, the parents' rows repeated four times, the sum over the four children, and the
  splitting of a sum over 177 columns into its three blocks. No program is mentioned here.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«141253_j53970559042267_2_alg».proof.Proof.TreeNet

noncomputable section

namespace Cert.ReferenceIdeal.Net

open Idealize.ShloMosaic Idealize.ShloMosaic.ValueIdx Cert.TreeNet

/-! ## Broadcasts -/

/-- A scalar broadcast to any shape reads the scalar everywhere. -/
theorem bcast0_apply {α : Type} {s : Shape}
    (h : (⟨0, ![]⟩ : Shape).BroadcastsInDim s (![] : Fin 0 → Fin s.rank))
    (z : (⟨0, ![]⟩ : Shape).Idx → α) (i : s.Idx) : broadcastInDim s ![] h z i = z ix0 :=
  broadcastInDim_apply _ h z i ix0 (fun a => a.elim0)

/-- A vector of length `w` made a one-row matrix and then repeated down `c` rows reads, in every row, the vector
    at the column: the bias row `rowOf` of the specification. -/
theorem biasRows_apply {c w : ℕ}
    (h1 : (⟨1, ![w]⟩ : Shape).BroadcastsInDim ⟨2, ![1, w]⟩ (![1] : Fin 1 → Fin 2))
    (h2 : (⟨2, ![1, w]⟩ : Shape).BroadcastsInDim ⟨2, ![c, w]⟩ (![0, 1] : Fin 2 → Fin 2))
    (b : (⟨1, ![w]⟩ : Shape).Idx → EReal) (s : Fin c) (k : Fin w) :
    broadcastInDim ⟨2, ![c, w]⟩ ![0, 1] h2 (broadcastInDim ⟨2, ![1, w]⟩ ![1] h1 b) (ix2 s k) = rowOf b (ix2 0 k) := by
  have hk := k.isLt
  refine (broadcastInDim_apply _ h2 _ (ix2 s k) (ix2 (0 : Fin 1) k) fun a => ?_).trans
    (broadcastInDim_apply _ h1 b (ix2 (0 : Fin 1) k) (ix1 k) fun a => ?_)
  · match a with
    | ⟨0, _⟩ => rfl
    | ⟨1, _⟩ =>
      show k.val = if w = 1 then 0 else k.val
      split
      · omega
      · rfl
  · match a with
    | ⟨0, _⟩ =>
      show k.val = if w = 1 then 0 else k.val
      split
      · omega
      · rfl

/-! ## The activation -/

/-- The activation as the reference spells it — compare with the zero array, multiply by the slope array, select —
    is the specification's `act` at every index: the comparison is `0 ≤ x`, and at `x = 0` both branches are `0`. -/
theorem actOps_apply {s : Shape} (h : (⟨0, ![]⟩ : Shape).BroadcastsInDim s (![] : Fin 0 → Fin s.rank))
    (x : FVec Ideal s .f32) (i : s.Idx) :
    select (cmpf .oge x (broadcastInDim s ![] h (constant (F := Ideal) ⟨0, ![]⟩ .f32 0x00000000#32))) x
      (mulf (broadcastInDim s ![] h (id (constant (F := Ideal) ⟨0, ![]⟩ .f32 0x3C23D70A#32))) x) i = act (x i) := by
  rw [select_apply, cmpf_apply, mulf_apply, bcast0_apply, bcast0_apply]
  show Scalar.select (Ideal.cmp .oge (x i) (Ideal.ofBits .f32 0x00000000#32)) (x i) (slope * x i) = act (x i)
  rw [Ideal.ofBits_zero_f32, ← act_of_le]
  by_cases h0 : (0 : EReal) ≤ x i
  · have e : Ideal.cmp .oge (x i) 0 = 1#1 := by simp [Ideal.cmp, h0]
    rw [e, select_one, if_pos h0]
  · have e : Ideal.cmp .oge (x i) 0 = 0#1 := by simp [Ideal.cmp, h0]
    rw [e, select_zero, if_neg h0]

/-! ## Concatenation along the columns -/

section Cat3
variable {c : ℕ}
  (h : Shape.Concatenates [(⟨2, ![c, 125]⟩ : Shape), ⟨2, ![c, 12]⟩, ⟨2, ![c, 40]⟩] ⟨2, ![c, 177]⟩ 1)
  (A : (⟨2, ![c, 125]⟩ : Shape).Idx → EReal) (B : (⟨2, ![c, 12]⟩ : Shape).Idx → EReal)
  (C : (⟨2, ![c, 40]⟩ : Shape).Idx → EReal) (s : Fin c)

/-- The join of a 125-, a 12- and a 40-column array reads the first at columns 0 … 124, … -/
theorem cat3_apply_a (k : Fin 125) :
    concatenate ⟨2, ![c, 177]⟩ 1 [⟨⟨2, ![c, 125]⟩, A⟩, ⟨⟨2, ![c, 12]⟩, B⟩, ⟨⟨2, ![c, 40]⟩, C⟩] h
      (ix2 s (⟨k.val, by omega⟩ : Fin 177)) = A (ix2 s k) := by
  refine concatenate_apply_piece (t := ⟨2, ![c, 177]⟩) (1 : Fin 2) [⟨⟨2, ![c, 125]⟩, A⟩, ⟨⟨2, ![c, 12]⟩, B⟩, ⟨⟨2, ![c, 40]⟩, C⟩] h _ 0 (by simp) ⟨2, ![c, 125]⟩ A rfl rfl 0 rfl (ix2 s k) (fun b hb => ?_) ?_
  · match b with
    | ⟨0, _⟩ => rfl
    | ⟨1, _⟩ => exact absurd rfl hb
  · show 0 + k.val = k.val
    omega

/-- … the second at columns 125 … 136, … -/
theorem cat3_apply_b (k : Fin 12) :
    concatenate ⟨2, ![c, 177]⟩ 1 [⟨⟨2, ![c, 125]⟩, A⟩, ⟨⟨2, ![c, 12]⟩, B⟩, ⟨⟨2, ![c, 40]⟩, C⟩] h
      (ix2 s (⟨125 + k.val, by omega⟩ : Fin 177)) = B (ix2 s k) := by
  refine concatenate_apply_piece (t := ⟨2, ![c, 177]⟩) (1 : Fin 2) [⟨⟨2, ![c, 125]⟩, A⟩, ⟨⟨2, ![c, 12]⟩, B⟩, ⟨⟨2, ![c, 40]⟩, C⟩] h _ 1 (by simp) ⟨2, ![c, 12]⟩ B rfl rfl 125 rfl (ix2 s k) (fun b hb => ?_) ?_
  · match b with
    | ⟨0, _⟩ => rfl
    | ⟨1, _⟩ => exact absurd rfl hb
  · rfl

/-- … and the third at columns 137 … 176. -/
theorem cat3_apply_c (k : Fin 40) :
    concatenate ⟨2, ![c, 177]⟩ 1 [⟨⟨2, ![c, 125]⟩, A⟩, ⟨⟨2, ![c, 12]⟩, B⟩, ⟨⟨2, ![c, 40]⟩, C⟩] h
      (ix2 s (⟨137 + k.val, by omega⟩ : Fin 177)) = C (ix2 s k) := by
  refine concatenate_apply_piece (t := ⟨2, ![c, 177]⟩) (1 : Fin 2) [⟨⟨2, ![c, 125]⟩, A⟩, ⟨⟨2, ![c, 12]⟩, B⟩, ⟨⟨2, ![c, 40]⟩, C⟩] h _ 2 (by simp) ⟨2, ![c, 40]⟩ C rfl rfl 137 rfl (ix2 s k) (fun b hb => ?_) ?_
  · match b with
    | ⟨0, _⟩ => rfl
    | ⟨1, _⟩ => exact absurd rfl hb
  · rfl

end Cat3

section Cat2
variable {c : ℕ}
  (h : Shape.Concatenates [(⟨2, ![c, 125]⟩ : Shape), ⟨2, ![c, 52]⟩] ⟨2, ![c, 177]⟩ 1)
  (A : (⟨2, ![c, 125]⟩ : Shape).Idx → EReal) (Z : (⟨2, ![c, 52]⟩ : Shape).Idx → EReal) (s : Fin c)

/-- The join of a 125-column array with 52 further columns reads the first at columns 0 … 124 … -/
theorem cat2_apply_a (k : Fin 125) :
    concatenate ⟨2, ![c, 177]⟩ 1 [⟨⟨2, ![c, 125]⟩, A⟩, ⟨⟨2, ![c, 52]⟩, Z⟩] h
      (ix2 s (⟨k.val, by omega⟩ : Fin 177)) = A (ix2 s k) := by
  refine concatenate_apply_piece (t := ⟨2, ![c, 177]⟩) (1 : Fin 2) [⟨⟨2, ![c, 125]⟩, A⟩, ⟨⟨2, ![c, 52]⟩, Z⟩] h _ 0 (by simp) ⟨2, ![c, 125]⟩ A rfl rfl 0 rfl (ix2 s k) (fun b hb => ?_) ?_
  · match b with
    | ⟨0, _⟩ => rfl
    | ⟨1, _⟩ => exact absurd rfl hb
  · show 0 + k.val = k.val
    omega

/-- … and the second at columns 125 … 176. -/
theorem cat2_apply_z (k : Fin 52) :
    concatenate ⟨2, ![c, 177]⟩ 1 [⟨⟨2, ![c, 125]⟩, A⟩, ⟨⟨2, ![c, 52]⟩, Z⟩] h
      (ix2 s (⟨125 + k.val, by omega⟩ : Fin 177)) = Z (ix2 s k) := by
  refine concatenate_apply_piece (t := ⟨2, ![c, 177]⟩) (1 : Fin 2) [⟨⟨2, ![c, 125]⟩, A⟩, ⟨⟨2, ![c, 52]⟩, Z⟩] h _ 1 (by simp) ⟨2, ![c, 52]⟩ Z rfl rfl 125 rfl (ix2 s k) (fun b hb => ?_) ?_
  · match b with
    | ⟨0, _⟩ => rfl
    | ⟨1, _⟩ => exact absurd rfl hb
  · rfl

end Cat2

/-! ## A sum over the 177 joined columns, block by block -/

/-- A sum over 177 terms is the sum of its first 125, its next 12 and its last 40, in that grouping. -/
theorem sum177_split {M : Type*} [AddCommMonoid M] (f : Fin 177 → M) :
    ∑ k, f k = ((∑ k : Fin 125, f ⟨k.val, by omega⟩) + ∑ k : Fin 12, f ⟨125 + k.val, by omega⟩)
      + ∑ k : Fin 40, f ⟨137 + k.val, by omega⟩ := by
  show ∑ k : Fin (125 + 12 + 40), f k = _
  rw [Fin.sum_univ_add, Fin.sum_univ_add]
  rfl

/-- A sum over 177 terms is the sum of its first 125 and its last 52. -/
theorem sum177_split2 {M : Type*} [AddCommMonoid M] (f : Fin 177 → M) :
    ∑ k, f k = (∑ k : Fin 125, f ⟨k.val, by omega⟩) + ∑ k : Fin 52, f ⟨125 + k.val, by omega⟩ := by
  show ∑ k : Fin (125 + 52), f k = _
  rw [Fin.sum_univ_add]
  rfl

/-! ## The parents' rows, each repeated four times -/

/-- An `n`×125 array broadcast to [n, 4, 125] along a new middle axis and reshaped to [4n, 125] has parent `p`'s row
    at row `s = 4 p + j`. -/
theorem repeat4_apply {n c : ℕ} (hb : (⟨2, ![n, 125]⟩ : Shape).BroadcastsInDim ⟨3, ![n, 4, 125]⟩ (![0, 2] : Fin 2 → Fin 3))
    (hs : (⟨3, ![n, 4, 125]⟩ : Shape).ShapeCasts ⟨2, ![c, 125]⟩) (msg : (⟨2, ![n, 125]⟩ : Shape).Idx → EReal)
    (p : Fin n) (j : Fin 4) (k : Fin 125) (s : Fin c) (hsv : s.val = 4 * p.val + j.val) :
    shapeCast ⟨2, ![c, 125]⟩ (broadcastInDim ⟨3, ![n, 4, 125]⟩ ![0, 2] hb msg) hs (ix2 s k) = msg (ix2 p k) := by
  have hp := p.isLt
  refine (shapeCast_apply _ hs (ix2 s k) (ix3 p j k) ?_).trans
    (broadcastInDim_apply _ hb msg (ix3 p j k) (ix2 p k) fun a => ?_)
  · rw [Shape.rowMajor_val_three, Shape.rowMajor_val_two]
    show (p.val * 4 + j.val) * 125 + k.val = s.val * 125 + k.val
    omega
  · match a with
    | ⟨0, _⟩ =>
      show p.val = if n = 1 then 0 else p.val
      split
      · omega
      · rfl
    | ⟨1, _⟩ => rfl

/-! ## The sum over the four children -/

/-- A [4n, 40] array reshaped to [n, 4, 40] has row `s = 4 p + j` at `(p, j)`. -/
theorem group4_apply {n c : ℕ} (hs : (⟨2, ![c, 40]⟩ : Shape).ShapeCasts ⟨3, ![n, 4, 40]⟩)
    (v : (⟨2, ![c, 40]⟩ : Shape).Idx → EReal) (p : Fin n) (j : Fin 4) (o : Fin 40) (s : Fin c)
    (hsv : s.val = 4 * p.val + j.val) : shapeCast ⟨3, ![n, 4, 40]⟩ v hs (ix3 p j o) = v (ix2 s o) := by
  refine shapeCast_apply v hs (ix3 p j o) (ix2 s o) ?_
  rw [Shape.rowMajor_val_three, Shape.rowMajor_val_two]
  show s.val * 40 + o.val = (p.val * 4 + j.val) * 40 + o.val
  omega

/-- The host's sum of an [n, 4, 40] array along its middle axis, started from the zero scalar, is at `(p, o)` the sum
    of the four entries `(p, j, o)`. -/
theorem reduce4_apply {n : ℕ} (h' : (⟨3, ![n, 4, 40]⟩ : Shape).ReducesTo [(1 : Fin 3)] ⟨2, ![n, 40]⟩)
    (hR : (⟨3, ![n, 4, 40]⟩ : Shape).Reduces [(1 : Fin 3)] ⟨2, ![n, 40]⟩)
    (h0 : 0 < (⟨0, ![]⟩ : Shape).numel) (x : FVec Ideal ⟨3, ![n, 4, 40]⟩ .f32) (p : Fin n) (o : Fin 40) :
    Host.reduceAdd (F := Ideal) x (constant (F := Ideal) ⟨0, ![]⟩ .f32 0x00000000#32) h' h0 (ix2 p o)
      = ∑ j : Fin 4, x (ix3 p j o) := by
  show Ideal.hostReduceAdd h' x (Ideal.ofBits .f32 0x00000000#32) (ix2 p o) = _
  rw [Ideal.hostReduceAdd_single h' hR, Ideal.ofBits_zero_f32, zero_add]
  refine Finset.sum_congr rfl fun j _ => congrArg x ?_
  funext a
  apply Fin.ext
  rw [hR.lift_val]
  match a with
  | ⟨0, _⟩ => rfl
  | ⟨1, _⟩ => rfl
  | ⟨2, _⟩ => rfl

/-! ## The two-layer network on joined rows -/

/-- The activation's three operations as one function of an array. -/
def actOps {s : Shape} (h : (⟨0, ![]⟩ : Shape).BroadcastsInDim s (![] : Fin 0 → Fin s.rank)) (x : FVec Ideal s .f32) :
    FVec Ideal s .f32 :=
  select (cmpf .oge x (broadcastInDim s ![] h (constant (F := Ideal) ⟨0, ![]⟩ .f32 0x00000000#32))) x
    (mulf (broadcastInDim s ![] h (id (constant (F := Ideal) ⟨0, ![]⟩ .f32 0x3C23D70A#32))) x)

/-- The network as the reference composes it on `c` joined rows of 177 columns: a product with the first weight
    matrix, the first bias row, the activation, a product with the second weight matrix, the second bias row, the
    activation. -/
def netOps {c : ℕ}
    (hz1 : (⟨0, ![]⟩ : Shape).BroadcastsInDim ⟨2, ![c, 125]⟩ (![] : Fin 0 → Fin 2))
    (hz2 : (⟨0, ![]⟩ : Shape).BroadcastsInDim ⟨2, ![c, 40]⟩ (![] : Fin 0 → Fin 2))
    (h1a : (⟨1, ![125]⟩ : Shape).BroadcastsInDim ⟨2, ![1, 125]⟩ (![1] : Fin 1 → Fin 2))
    (h1b : (⟨2, ![1, 125]⟩ : Shape).BroadcastsInDim ⟨2, ![c, 125]⟩ (![0, 1] : Fin 2 → Fin 2))
    (h2a : (⟨1, ![40]⟩ : Shape).BroadcastsInDim ⟨2, ![1, 40]⟩ (![1] : Fin 1 → Fin 2))
    (h2b : (⟨2, ![1, 40]⟩ : Shape).BroadcastsInDim ⟨2, ![c, 40]⟩ (![0, 1] : Fin 2 → Fin 2))
    (D1 : DotDims ⟨2, ![c, 177]⟩ ⟨2, ![177, 125]⟩ ⟨2, ![c, 125]⟩) (D2 : DotDims ⟨2, ![c, 125]⟩ ⟨2, ![125, 40]⟩ ⟨2, ![c, 40]⟩)
    (X : FVec Ideal ⟨2, ![c, 177]⟩ .f32) (W1 : FVec Ideal ⟨2, ![177, 125]⟩ .f32) (b1 : FVec Ideal ⟨1, ![125]⟩ .f32)
    (W2 : FVec Ideal ⟨2, ![125, 40]⟩ .f32) (b2 : FVec Ideal ⟨1, ![40]⟩ .f32) : FVec Ideal ⟨2, ![c, 40]⟩ .f32 :=
  actOps hz2 (addf (Host.dotGeneral (F := Ideal) D2 none
    (actOps hz1 (addf (Host.dotGeneral (F := Ideal) D1 none X W1)
      (broadcastInDim ⟨2, ![c, 125]⟩ ![0, 1] h1b (broadcastInDim ⟨2, ![1, 125]⟩ ![1] h1a b1)))) W2)
    (broadcastInDim ⟨2, ![c, 40]⟩ ![0, 1] h2b (broadcastInDim ⟨2, ![1, 40]⟩ ![1] h2a b2)))

/-- The network at row `s`, output `o`, is the specification's second layer on the first layer's values: for hidden
    unit `h` the sum over the 177 joined columns against column `h` of the weights, plus the bias. -/
theorem netOps_apply {c : ℕ}
    (hz1 : (⟨0, ![]⟩ : Shape).BroadcastsInDim ⟨2, ![c, 125]⟩ (![] : Fin 0 → Fin 2))
    (hz2 : (⟨0, ![]⟩ : Shape).BroadcastsInDim ⟨2, ![c, 40]⟩ (![] : Fin 0 → Fin 2))
    (h1a : (⟨1, ![125]⟩ : Shape).BroadcastsInDim ⟨2, ![1, 125]⟩ (![1] : Fin 1 → Fin 2))
    (h1b : (⟨2, ![1, 125]⟩ : Shape).BroadcastsInDim ⟨2, ![c, 125]⟩ (![0, 1] : Fin 2 → Fin 2))
    (h2a : (⟨1, ![40]⟩ : Shape).BroadcastsInDim ⟨2, ![1, 40]⟩ (![1] : Fin 1 → Fin 2))
    (h2b : (⟨2, ![1, 40]⟩ : Shape).BroadcastsInDim ⟨2, ![c, 40]⟩ (![0, 1] : Fin 2 → Fin 2))
    (D1 : DotDims ⟨2, ![c, 177]⟩ ⟨2, ![177, 125]⟩ ⟨2, ![c, 125]⟩) (D2 : DotDims ⟨2, ![c, 125]⟩ ⟨2, ![125, 40]⟩ ⟨2, ![c, 40]⟩)
    (hD1 : D1 = DotDims.plain c 177 125) (hD2 : D2 = DotDims.plain c 125 40)
    (X : FVec Ideal ⟨2, ![c, 177]⟩ .f32) (W1 : FVec Ideal ⟨2, ![177, 125]⟩ .f32) (b1 : FVec Ideal ⟨1, ![125]⟩ .f32)
    (W2 : FVec Ideal ⟨2, ![125, 40]⟩ .f32) (b2 : FVec Ideal ⟨1, ![40]⟩ .f32) (s : Fin c) (o : Fin 40) :
    netOps hz1 hz2 h1a h1b h2a h2b D1 D2 X W1 b1 W2 b2 (ix2 s o)
      = outRow (fun h => (∑ k : Fin 177, X (ix2 s k) * W1 (ix2 k h)) + rowOf b1 (ix2 0 h)) W2 (rowOf b2) o := by
  subst hD1 hD2
  unfold netOps actOps outRow
  rw [actOps_apply, addf_apply, StackMember.dotGeneral_plain_apply, biasRows_apply]
  refine congrArg act (congrArg (· + rowOf b2 (ix2 0 o)) (Finset.sum_congr rfl fun h _ => congrArg (· * W2 (ix2 h o)) ?_))
  rw [actOps_apply, addf_apply, StackMember.dotGeneral_plain_apply, biasRows_apply]

/-! ## Rows of a matrix -/

/-- The rows from row 0 on: row `r` is row `r`. -/
theorem rows_zero_apply {N b n : ℕ} (h : 0 + n ≤ N) (A : Mat N b) (r : Fin n) (k : Fin b) :
    rows 0 n h A (ix2 r k) = A (ix2 (⟨r.val, by omega⟩ : Fin N) k) :=
  congrArg (fun q : Fin N => A (ix2 q k)) (Fin.ext (Nat.zero_add r.val))

/-- A slice of whole rows from row `off` on is `rows`. -/
theorem slice_eq_rows {N b n : ℕ} (off : ℕ) (h : (⟨2, ![N, b]⟩ : Shape).Slices ![off, 0] ⟨2, ![n, b]⟩) (hN : off + n ≤ N)
    (A : Mat N b) : extractStridedSlice ⟨2, ![n, b]⟩ ![off, 0] A h = rows off n hN A := by
  funext i
  rw [eq_ix2 i]
  exact slice2_axis0_eq off A h (i 0) (i 1)

/-! ## One level, and the leaves -/

/-- **One upward step.** The parents' rows repeated four times, joined with the children's edge rows and values, the
    network on each joined row, and the sum over each parent's four consecutive rows, is the specification's `levelArr`
    with the weight matrix cut into its three row blocks: the sum over the 177 joined columns splits as 125 + 12 + 40,
    and row `4 p + j` of the repeated parents is parent `p`. -/
theorem levelOps_eq {n c : ℕ} (hc : c = 4 * n)
    (hz1 : (⟨0, ![]⟩ : Shape).BroadcastsInDim ⟨2, ![c, 125]⟩ (![] : Fin 0 → Fin 2))
    (hz2 : (⟨0, ![]⟩ : Shape).BroadcastsInDim ⟨2, ![c, 40]⟩ (![] : Fin 0 → Fin 2))
    (h1a : (⟨1, ![125]⟩ : Shape).BroadcastsInDim ⟨2, ![1, 125]⟩ (![1] : Fin 1 → Fin 2))
    (h1b : (⟨2, ![1, 125]⟩ : Shape).BroadcastsInDim ⟨2, ![c, 125]⟩ (![0, 1] : Fin 2 → Fin 2))
    (h2a : (⟨1, ![40]⟩ : Shape).BroadcastsInDim ⟨2, ![1, 40]⟩ (![1] : Fin 1 → Fin 2))
    (h2b : (⟨2, ![1, 40]⟩ : Shape).BroadcastsInDim ⟨2, ![c, 40]⟩ (![0, 1] : Fin 2 → Fin 2))
    (D1 : DotDims ⟨2, ![c, 177]⟩ ⟨2, ![177, 125]⟩ ⟨2, ![c, 125]⟩) (D2 : DotDims ⟨2, ![c, 125]⟩ ⟨2, ![125, 40]⟩ ⟨2, ![c, 40]⟩)
    (hD1 : D1 = DotDims.plain c 177 125) (hD2 : D2 = DotDims.plain c 125 40)
    (hb : (⟨2, ![n, 125]⟩ : Shape).BroadcastsInDim ⟨3, ![n, 4, 125]⟩ (![0, 2] : Fin 2 → Fin 3))
    (hs : (⟨3, ![n, 4, 125]⟩ : Shape).ShapeCasts ⟨2, ![c, 125]⟩)
    (hcat : Shape.Concatenates [(⟨2, ![c, 125]⟩ : Shape), ⟨2, ![c, 12]⟩, ⟨2, ![c, 40]⟩] ⟨2, ![c, 177]⟩ 1)
    (hs2 : (⟨2, ![c, 40]⟩ : Shape).ShapeCasts ⟨3, ![n, 4, 40]⟩)
    (h' : (⟨3, ![n, 4, 40]⟩ : Shape).ReducesTo [(1 : Fin 3)] ⟨2, ![n, 40]⟩)
    (hR : (⟨3, ![n, 4, 40]⟩ : Shape).Reduces [(1 : Fin 3)] ⟨2, ![n, 40]⟩)
    (h0 : 0 < (⟨0, ![]⟩ : Shape).numel)
    (msg : FVec Ideal ⟨2, ![n, 125]⟩ .f32) (bond : FVec Ideal ⟨2, ![c, 12]⟩ .f32) (prev : FVec Ideal ⟨2, ![c, 40]⟩ .f32)
    (W1 : FVec Ideal ⟨2, ![177, 125]⟩ .f32) (b1 : FVec Ideal ⟨1, ![125]⟩ .f32)
    (W2 : FVec Ideal ⟨2, ![125, 40]⟩ .f32) (b2 : FVec Ideal ⟨1, ![40]⟩ .f32) :
    Host.reduceAdd (F := Ideal)
        (shapeCast ⟨3, ![n, 4, 40]⟩
          (netOps hz1 hz2 h1a h1b h2a h2b D1 D2
            (concatenate ⟨2, ![c, 177]⟩ 1 [⟨⟨2, ![c, 125]⟩, shapeCast ⟨2, ![c, 125]⟩ (broadcastInDim ⟨3, ![n, 4, 125]⟩ ![0, 2] hb msg) hs⟩,
              ⟨⟨2, ![c, 12]⟩, bond⟩, ⟨⟨2, ![c, 40]⟩, prev⟩] hcat) W1 b1 W2 b2) hs2)
        (constant (F := Ideal) ⟨0, ![]⟩ .f32 0x00000000#32) h' h0
      = levelArr n c hc msg bond prev (rows 0 125 (by norm_num) W1) (rows 125 12 (by norm_num) W1)
          (rows 137 40 (by norm_num) W1) (rowOf b1) W2 (rowOf b2) := by
  funext i
  obtain ⟨p, o, rfl⟩ : ∃ (p : Fin n) (o : Fin 40), i = ix2 p o := ⟨i 0, i 1, eq_ix2 i⟩
  rw [reduce4_apply h' hR h0, levelArr_apply]
  unfold levelAt
  refine Finset.sum_congr rfl fun j _ => ?_
  rw [group4_apply hs2 _ p j o (child hc p j) rfl, netOps_apply hz1 hz2 h1a h1b h2a h2b D1 D2 hD1 hD2]
  refine congrArg (fun pre => outRow pre W2 (rowOf b2) o) (funext fun h => ?_)
  unfold nodePre
  refine congrArg (· + rowOf b1 (ix2 0 h)) ?_
  rw [sum177_split]
  refine congrArg₂ (· + ·) (congrArg₂ (· + ·) (Finset.sum_congr rfl fun k _ => ?_) (Finset.sum_congr rfl fun k _ => ?_))
    (Finset.sum_congr rfl fun k _ => ?_)
  · rw [cat3_apply_a, repeat4_apply hb hs msg p j k (child hc p j) rfl, rows_zero_apply]
  · rw [cat3_apply_b, rows_apply]
  · rw [cat3_apply_c, rows_apply]

/-- **The leaves.** A leaf's row padded with 52 zero columns meets only the first 125 rows of the weights: the other
    52 terms of every sum are `0 * w = 0`. -/
theorem leafOps_eq {c : ℕ}
    (hz1 : (⟨0, ![]⟩ : Shape).BroadcastsInDim ⟨2, ![c, 125]⟩ (![] : Fin 0 → Fin 2))
    (hz2 : (⟨0, ![]⟩ : Shape).BroadcastsInDim ⟨2, ![c, 40]⟩ (![] : Fin 0 → Fin 2))
    (h1a : (⟨1, ![125]⟩ : Shape).BroadcastsInDim ⟨2, ![1, 125]⟩ (![1] : Fin 1 → Fin 2))
    (h1b : (⟨2, ![1, 125]⟩ : Shape).BroadcastsInDim ⟨2, ![c, 125]⟩ (![0, 1] : Fin 2 → Fin 2))
    (h2a : (⟨1, ![40]⟩ : Shape).BroadcastsInDim ⟨2, ![1, 40]⟩ (![1] : Fin 1 → Fin 2))
    (h2b : (⟨2, ![1, 40]⟩ : Shape).BroadcastsInDim ⟨2, ![c, 40]⟩ (![0, 1] : Fin 2 → Fin 2))
    (D1 : DotDims ⟨2, ![c, 177]⟩ ⟨2, ![177, 125]⟩ ⟨2, ![c, 125]⟩) (D2 : DotDims ⟨2, ![c, 125]⟩ ⟨2, ![125, 40]⟩ ⟨2, ![c, 40]⟩)
    (hD1 : D1 = DotDims.plain c 177 125) (hD2 : D2 = DotDims.plain c 125 40)
    (hz : (⟨0, ![]⟩ : Shape).BroadcastsInDim ⟨2, ![c, 52]⟩ (![] : Fin 0 → Fin 2))
    (hcat : Shape.Concatenates [(⟨2, ![c, 125]⟩ : Shape), ⟨2, ![c, 52]⟩] ⟨2, ![c, 177]⟩ 1)
    (x : FVec Ideal ⟨2, ![c, 125]⟩ .f32)
    (W1 : FVec Ideal ⟨2, ![177, 125]⟩ .f32) (b1 : FVec Ideal ⟨1, ![125]⟩ .f32)
    (W2 : FVec Ideal ⟨2, ![125, 40]⟩ .f32) (b2 : FVec Ideal ⟨1, ![40]⟩ .f32) :
    netOps hz1 hz2 h1a h1b h2a h2b D1 D2
        (concatenate ⟨2, ![c, 177]⟩ 1 [⟨⟨2, ![c, 125]⟩, x⟩,
          ⟨⟨2, ![c, 52]⟩, broadcastInDim ⟨2, ![c, 52]⟩ ![] hz (constant (F := Ideal) ⟨0, ![]⟩ .f32 0x00000000#32)⟩] hcat)
        W1 b1 W2 b2
      = leafArr c x (rows 0 125 (by norm_num) W1) (rowOf b1) W2 (rowOf b2) := by
  funext i
  obtain ⟨s, o, rfl⟩ : ∃ (s : Fin c) (o : Fin 40), i = ix2 s o := ⟨i 0, i 1, eq_ix2 i⟩
  rw [netOps_apply hz1 hz2 h1a h1b h2a h2b D1 D2 hD1 hD2, leafArr_apply]
  unfold leafAt
  refine congrArg (fun pre => outRow pre W2 (rowOf b2) o) (funext fun h => ?_)
  unfold leafPre
  refine congrArg (· + rowOf b1 (ix2 0 h)) ?_
  rw [sum177_split2]
  have hzero : ∑ k : Fin 52, concatenate ⟨2, ![c, 177]⟩ 1 [⟨⟨2, ![c, 125]⟩, x⟩,
      ⟨⟨2, ![c, 52]⟩, broadcastInDim ⟨2, ![c, 52]⟩ ![] hz (constant (F := Ideal) ⟨0, ![]⟩ .f32 0x00000000#32)⟩] hcat
        (ix2 s (⟨125 + k.val, by omega⟩ : Fin 177)) * W1 (ix2 (⟨125 + k.val, by omega⟩ : Fin 177) h) = 0 := by
    refine Finset.sum_eq_zero fun k _ => ?_
    rw [cat2_apply_z, bcast0_apply, constant_apply, Ideal.ofBits_zero_f32, zero_mul]
  rw [hzero, add_zero]
  refine Finset.sum_congr rfl fun k _ => ?_
  rw [cat2_apply_a, rows_zero_apply]

end Cert.ReferenceIdeal.Net

end
-- ==== Proof.RefNetEq.lean ====
/-
  The reference's levels are the specification's. Each of the five level functions of `RefNet` is an instance of the
  one step (or of the leaves' network) proved for any number of rows; the row slices of the two inputs are the
  specification's `rows`; the forest is then the five instances composed.
-/
import proofs.«141253_j53970559042267_2_alg».proof.Proof.RefNet
import proofs.«141253_j53970559042267_2_alg».proof.Proof.RefOps

noncomputable section

namespace Cert.ReferenceIdeal.Net

open Idealize.ShloMosaic Idealize.ShloMosaic.ValueIdx Cert.ReferenceIdeal Cert.ReferenceIdeal.Facts₀ Cert.TreeNet

/-! ## The two products are plain matrix products -/

theorem dot1_524288_eq : dot_S524288x177_S177x125_S524288x125_1_0_0_1_n_n = DotDims.plain 524288 177 125 := rfl
theorem dot2_524288_eq : dot_S524288x125_S125x40_S524288x40_1_0_0_1_n_n = DotDims.plain 524288 125 40 := rfl
theorem dot1_131072_eq : dot_S131072x177_S177x125_S131072x125_1_0_0_1_n_n = DotDims.plain 131072 177 125 := rfl
theorem dot2_131072_eq : dot_S131072x125_S125x40_S131072x40_1_0_0_1_n_n = DotDims.plain 131072 125 40 := rfl
theorem dot1_32768_eq : dot_S32768x177_S177x125_S32768x125_1_0_0_1_n_n = DotDims.plain 32768 177 125 := rfl
theorem dot2_32768_eq : dot_S32768x125_S125x40_S32768x40_1_0_0_1_n_n = DotDims.plain 32768 125 40 := rfl
theorem dot1_8192_eq : dot_S8192x177_S177x125_S8192x125_1_0_0_1_n_n = DotDims.plain 8192 177 125 := rfl
theorem dot2_8192_eq : dot_S8192x125_S125x40_S8192x40_1_0_0_1_n_n = DotDims.plain 8192 125 40 := rfl

/-! ## The leaves and the four steps -/

/-- The reference on the leaves is the specification's leaf network on the first 125 rows of the weights. -/
theorem refLeaf_eq (x : FVec Ideal S524288x125 .f32) (W1 : FVec Ideal S177x125 .f32) (b1 : FVec Ideal S125 .f32)
    (W2 : FVec Ideal S125x40 .f32) (b2 : FVec Ideal S40 .f32) :
    refLeaf x W1 b1 W2 b2 = leafArr 524288 x (rows 0 125 (by norm_num) W1) (rowOf b1) W2 (rowOf b2) :=
  leafOps_eq bcast_S_S524288x125 bcast_S_S524288x40 bcast_S125_S1x125_1 bcast_S1x125_S524288x125_0_1
    bcast_S40_S1x40_1 bcast_S1x40_S524288x40_0_1
    dot_S524288x177_S177x125_S524288x125_1_0_0_1_n_n dot_S524288x125_S125x40_S524288x40_1_0_0_1_n_n dot1_524288_eq dot2_524288_eq
    bcast_S_S524288x52 concatenates_S524288x125_S524288x52_S524288x177_d1 x W1 b1 W2 b2

/-- The reference's step from 8192 children to 2048 parents is the specification's. -/
theorem refLevel_2048_eq (msg : FVec Ideal S2048x125 .f32) (bond : FVec Ideal S8192x12 .f32) (prev : FVec Ideal S8192x40 .f32)
    (W1 : FVec Ideal S177x125 .f32) (b1 : FVec Ideal S125 .f32) (W2 : FVec Ideal S125x40 .f32) (b2 : FVec Ideal S40 .f32) :
    refLevel_2048 msg bond prev W1 b1 W2 b2
      = levelArr 2048 8192 (by norm_num) msg bond prev (rows 0 125 (by norm_num) W1) (rows 125 12 (by norm_num) W1)
          (rows 137 40 (by norm_num) W1) (rowOf b1) W2 (rowOf b2) :=
  levelOps_eq (by norm_num) bcast_S_S8192x125 bcast_S_S8192x40 bcast_S125_S1x125_1 bcast_S1x125_S8192x125_0_1
    bcast_S40_S1x40_1 bcast_S1x40_S8192x40_0_1
    dot_S8192x177_S177x125_S8192x125_1_0_0_1_n_n dot_S8192x125_S125x40_S8192x40_1_0_0_1_n_n dot1_8192_eq dot2_8192_eq
    bcast_S2048x125_S2048x4x125_0_2 shapeCasts_S2048x4x125_S8192x125
    concatenates_S8192x125_S8192x12_S8192x40_S8192x177_d1 shapeCasts_S8192x40_S2048x4x40
    reducesTo_S2048x4x40_S2048x40_d1 (by decide) h_S_ msg bond prev W1 b1 W2 b2

/-- The reference's step from 32768 children to 8192 parents is the specification's. -/
theorem refLevel_8192_eq (msg : FVec Ideal S8192x125 .f32) (bond : FVec Ideal S32768x12 .f32) (prev : FVec Ideal S32768x40 .f32)
    (W1 : FVec Ideal S177x125 .f32) (b1 : FVec Ideal S125 .f32) (W2 : FVec Ideal S125x40 .f32) (b2 : FVec Ideal S40 .f32) :
    refLevel_8192 msg bond prev W1 b1 W2 b2
      = levelArr 8192 32768 (by norm_num) msg bond prev (rows 0 125 (by norm_num) W1) (rows 125 12 (by norm_num) W1)
          (rows 137 40 (by norm_num) W1) (rowOf b1) W2 (rowOf b2) :=
  levelOps_eq (by norm_num) bcast_S_S32768x125 bcast_S_S32768x40 bcast_S125_S1x125_1 bcast_S1x125_S32768x125_0_1
    bcast_S40_S1x40_1 bcast_S1x40_S32768x40_0_1
    dot_S32768x177_S177x125_S32768x125_1_0_0_1_n_n dot_S32768x125_S125x40_S32768x40_1_0_0_1_n_n dot1_32768_eq dot2_32768_eq
    bcast_S8192x125_S8192x4x125_0_2 shapeCasts_S8192x4x125_S32768x125
    concatenates_S32768x125_S32768x12_S32768x40_S32768x177_d1 shapeCasts_S32768x40_S8192x4x40
    reducesTo_S8192x4x40_S8192x40_d1 (by decide) h_S_ msg bond prev W1 b1 W2 b2

/-- The reference's step from 131072 children to 32768 parents is the specification's. -/
theorem refLevel_32768_eq (msg : FVec Ideal S32768x125 .f32) (bond : FVec Ideal S131072x12 .f32) (prev : FVec Ideal S131072x40 .f32)
    (W1 : FVec Ideal S177x125 .f32) (b1 : FVec Ideal S125 .f32) (W2 : FVec Ideal S125x40 .f32) (b2 : FVec Ideal S40 .f32) :
    refLevel_32768 msg bond prev W1 b1 W2 b2
      = levelArr 32768 131072 (by norm_num) msg bond prev (rows 0 125 (by norm_num) W1) (rows 125 12 (by norm_num) W1)
          (rows 137 40 (by norm_num) W1) (rowOf b1) W2 (rowOf b2) :=
  levelOps_eq (by norm_num) bcast_S_S131072x125 bcast_S_S131072x40 bcast_S125_S1x125_1 bcast_S1x125_S131072x125_0_1
    bcast_S40_S1x40_1 bcast_S1x40_S131072x40_0_1
    dot_S131072x177_S177x125_S131072x125_1_0_0_1_n_n dot_S131072x125_S125x40_S131072x40_1_0_0_1_n_n dot1_131072_eq dot2_131072_eq
    bcast_S32768x125_S32768x4x125_0_2 shapeCasts_S32768x4x125_S131072x125
    concatenates_S131072x125_S131072x12_S131072x40_S131072x177_d1 shapeCasts_S131072x40_S32768x4x40
    reducesTo_S32768x4x40_S32768x40_d1 (by decide) h_S_ msg bond prev W1 b1 W2 b2

/-- The reference's step from 524288 children to 131072 parents is the specification's. -/
theorem refLevel_131072_eq (msg : FVec Ideal S131072x125 .f32) (bond : FVec Ideal S524288x12 .f32) (prev : FVec Ideal S524288x40 .f32)
    (W1 : FVec Ideal S177x125 .f32) (b1 : FVec Ideal S125 .f32) (W2 : FVec Ideal S125x40 .f32) (b2 : FVec Ideal S40 .f32) :
    refLevel_131072 msg bond prev W1 b1 W2 b2
      = levelArr 131072 524288 (by norm_num) msg bond prev (rows 0 125 (by norm_num) W1) (rows 125 12 (by norm_num) W1)
          (rows 137 40 (by norm_num) W1) (rowOf b1) W2 (rowOf b2) :=
  levelOps_eq (by norm_num) bcast_S_S524288x125 bcast_S_S524288x40 bcast_S125_S1x125_1 bcast_S1x125_S524288x125_0_1
    bcast_S40_S1x40_1 bcast_S1x40_S524288x40_0_1
    dot_S524288x177_S177x125_S524288x125_1_0_0_1_n_n dot_S524288x125_S125x40_S524288x40_1_0_0_1_n_n dot1_524288_eq dot2_524288_eq
    bcast_S131072x125_S131072x4x125_0_2 shapeCasts_S131072x4x125_S524288x125
    concatenates_S524288x125_S524288x12_S524288x40_S524288x177_d1 shapeCasts_S524288x40_S131072x4x40
    reducesTo_S131072x4x40_S131072x40_d1 (by decide) h_S_ msg bond prev W1 b1 W2 b2

/-! ## The forest -/

/-- **The reference computes the forest.** Its nine row slices are the specification's `rows`, its leaves and its four
    steps the specification's, composed in the same order. -/
theorem refForest_eq (a0 : FVec Ideal S698368x125 .f32) (a1 : FVec Ideal S696320x12 .f32) (a2 : FVec Ideal S177x125 .f32)
    (a3 : FVec Ideal S125 .f32) (a4 : FVec Ideal S125x40 .f32) (a5 : FVec Ideal S40 .f32) :
    refForest a0 a1 a2 a3 a4 a5 = forest a0 a1 a2 a3 a4 a5 := by
  have n0 : extractStridedSlice S2048x125 ![0, 0] a0 slices_S698368x125_S2048x125_0_0 = rows 0 2048 (by norm_num) a0 :=
    slice_eq_rows 0 _ _ a0
  have n1 : extractStridedSlice S8192x125 ![2048, 0] a0 slices_S698368x125_S8192x125_2048_0 = rows 2048 8192 (by norm_num) a0 :=
    slice_eq_rows 2048 _ _ a0
  have n2 : extractStridedSlice S32768x125 ![10240, 0] a0 slices_S698368x125_S32768x125_10240_0 = rows 10240 32768 (by norm_num) a0 :=
    slice_eq_rows 10240 _ _ a0
  have n3 : extractStridedSlice S131072x125 ![43008, 0] a0 slices_S698368x125_S131072x125_43008_0 = rows 43008 131072 (by norm_num) a0 :=
    slice_eq_rows 43008 _ _ a0
  have n4 : extractStridedSlice S524288x125 ![174080, 0] a0 slices_S698368x125_S524288x125_174080_0 = rows 174080 524288 (by norm_num) a0 :=
    slice_eq_rows 174080 _ _ a0
  have e0 : extractStridedSlice S8192x12 ![0, 0] a1 slices_S696320x12_S8192x12_0_0 = rows 0 8192 (by norm_num) a1 :=
    slice_eq_rows 0 _ _ a1
  have e1 : extractStridedSlice S32768x12 ![8192, 0] a1 slices_S696320x12_S32768x12_8192_0 = rows 8192 32768 (by norm_num) a1 :=
    slice_eq_rows 8192 _ _ a1
  have e2 : extractStridedSlice S131072x12 ![40960, 0] a1 slices_S696320x12_S131072x12_40960_0 = rows 40960 131072 (by norm_num) a1 :=
    slice_eq_rows 40960 _ _ a1
  have e3 : extractStridedSlice S524288x12 ![172032, 0] a1 slices_S696320x12_S524288x12_172032_0 = rows 172032 524288 (by norm_num) a1 :=
    slice_eq_rows 172032 _ _ a1
  unfold refForest
  rw [n0, n1, n2, n3, n4, e0, e1, e2, e3, refLevel_2048_eq, refLevel_8192_eq, refLevel_32768_eq, refLevel_131072_eq, refLeaf_eq]
  rfl

end Cert.ReferenceIdeal.Net

end
-- ==== Proof.lean ====
/-
  Message passing up a forest of 2048 perfect 4-ary trees of depth 5: the kernel (four grid kernels: the leaves'
  network fused with the first upward step, then three more steps, each over blocks of 1024 parents and their 4096
  children, the weight matrix cut into its three row blocks and every matrix product taken through bf16) against the
  plain reference (per level: repeat the parents' features, concatenate them with the edges and the children's values
  into 177 columns, one product with the whole weight matrix, the leaky activation, the second layer, the activation
  again, and the sum over each group of four children).

  On the extended reals the change of float format is the identity, so both programs compute the SAME nested sums:
  `TreeNet.forest` of the six arguments. The kernel's side: each body is one upward step on its blocks
  (KernelBody), the blocks tile the arrays (KernelArrays), and the buffers between the kernels carry the arguments'
  rows and the previous level's values (KernelFold) to the result the run ends with (KernelRun). The reference's
  side: its run is the fold of its 156 host operations (RefRun), read one operation at a time into the composition of
  its levels (RefRead), each of which is one upward step (RefNetEq) — the only laws used are that a sum over 177
  columns is the sum of the sums over its 125 + 12 + 40 columns, that a zero column contributes nothing, that sums
  may be regrouped, and that the two programs' activations (split at `0 < x`, split at `0 ≤ x`) agree because the
  slope times zero is zero. No finiteness of the inputs is needed. The ideal pass rewrote nothing, so the kernel's
  idealization is the kernel's own text and `preserves` asks nothing.
-/
import proofs.«141253_j53970559042267_2_alg».proof.Defs
import proofs.«141253_j53970559042267_2_alg».proof.Proof.Gen.Kernel
import proofs.«141253_j53970559042267_2_alg».proof.Proof.Gen.Kernel.Skeleton
import proofs.«141253_j53970559042267_2_alg».proof.Proof.Gen.Kernel.Launch
import proofs.«141253_j53970559042267_2_alg».proof.Proof.Gen.Kernel.Points
import proofs.«141253_j53970559042267_2_alg».proof.Proof.Gen.Kernel.Frame
import proofs.«141253_j53970559042267_2_alg».proof.Proof.Gen.KernelIdeal
import proofs.«141253_j53970559042267_2_alg».proof.Proof.Gen.KernelIdeal.Skeleton
import proofs.«141253_j53970559042267_2_alg».proof.Proof.Gen.KernelIdeal.Launch
import proofs.«141253_j53970559042267_2_alg».proof.Proof.Gen.KernelIdeal.Points
import proofs.«141253_j53970559042267_2_alg».proof.Proof.Gen.KernelIdeal.Frame
import proofs.«141253_j53970559042267_2_alg».proof.Proof.Gen.ReferenceIdeal
import proofs.«141253_j53970559042267_2_alg».proof.Proof.Gen.Pre_finite_inputs
import proofs.«141253_j53970559042267_2_alg».proof.Proof.TreeNet
import proofs.«141253_j53970559042267_2_alg».proof.Proof.KernelRun
import proofs.«141253_j53970559042267_2_alg».proof.Proof.KernelFold
import proofs.«141253_j53970559042267_2_alg».proof.Proof.RefRun
import proofs.«141253_j53970559042267_2_alg».proof.Proof.RefRead
import proofs.«141253_j53970559042267_2_alg».proof.Proof.RefNetEq
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c =>
    ⟨(h c _).trans (Cert.ReferenceIdeal.Hand.arg0_kept _),
     (h c _).trans (Cert.ReferenceIdeal.Hand.arg1_kept _),
     (h c _).trans (Cert.ReferenceIdeal.Hand.arg2_kept _),
     (h c _).trans (Cert.ReferenceIdeal.Hand.arg3_kept _),
     (h c _).trans (Cert.ReferenceIdeal.Hand.arg4_kept _),
     (h c _).trans (Cert.ReferenceIdeal.Hand.arg5_kept _)⟩)
    (Cert.ReferenceIdeal.Hand.run (F := Ideal) m ρ)

/-- From memories that agree on the arguments both programs end with the forest's value at the roots. -/
theorem algebraic : Cert.algebraic_KernelIdeal_ReferenceIdeal := by
  intro m ρ m' ρ' _ hagree
  refine ⟨fun c => Cert.TreeNet.forest (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c).1.trans (Cert.KernelIdeal.Fold.result_eq m ρ c), (h c).2⟩)
      (Cert.KernelIdeal.Result.run (F := Ideal) m ρ)
  · refine (θ_run Cert.ReferenceIdeal.defs _ _).mono (fun r h c => ?_) (Cert.ReferenceIdeal.Hand.run (F := Ideal) m' ρ')
    refine ⟨?_, (h c _).trans (Cert.ReferenceIdeal.Hand.arg0_kept _),
     (h c _).trans (Cert.ReferenceIdeal.Hand.arg1_kept _),
     (h c _).trans (Cert.ReferenceIdeal.Hand.arg2_kept _),
     (h c _).trans (Cert.ReferenceIdeal.Hand.arg3_kept _),
     (h c _).trans (Cert.ReferenceIdeal.Hand.arg4_kept _),
     (h c _).trans (Cert.ReferenceIdeal.Hand.arg5_kept _)⟩
    refine (h c _).trans ?_
    rw [Cert.ReferenceIdeal.Hand.result_read, Cert.ReferenceIdeal.Net.refForest_eq]
    obtain ⟨h0, h1, h2, h3, h4, h5⟩ := hagree c
    show Cert.TreeNet.forest (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
